-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v186)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v186) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v233) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S25000x64 : Shape := ⟨2, ![25000, 64]⟩
abbrev S2x250000 : Shape := ⟨2, ![2, 250000]⟩
abbrev S100000x128 : Shape := ⟨2, ![100000, 128]⟩
abbrev S50000x128 : Shape := ⟨2, ![50000, 128]⟩
abbrev S2x1000000 : Shape := ⟨2, ![2, 1000000]⟩
abbrev S2x500000 : Shape := ⟨2, ![2, 500000]⟩
abbrev S1000000 : Shape := ⟨1, ![1000000]⟩
abbrev S500000 : Shape := ⟨1, ![500000]⟩
abbrev S50000 : Shape := ⟨1, ![50000]⟩
abbrev S25000 : Shape := ⟨1, ![25000]⟩
abbrev S64x64 : Shape := ⟨2, ![64, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S_ : Shape := ⟨0, ![]⟩

class Facts : Prop where
  bcast_S_S25000x64 : S_.BroadcastsInDim S25000x64 (![] : Fin 0 → Fin S25000x64.rank)
  reducesTo_S25000x64_S_d0_1 : S25000x64.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S50000x128 : S_.BroadcastsInDim S50000x128 (![] : Fin 0 → Fin S50000x128.rank)
  reducesTo_S50000x128_S_d0_1 : S50000x128.ReducesTo [0, 1] S_
  bcast_S_S1000000 : S_.BroadcastsInDim S1000000 (![] : Fin 0 → Fin S1000000.rank)
  reducesTo_S1000000_S_d0 : S1000000.ReducesTo [0] S_
  bcast_S_S500000 : S_.BroadcastsInDim S500000 (![] : Fin 0 → Fin S500000.rank)
  reducesTo_S500000_S_d0 : S500000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_

variable [Facts]

def fn_part6 {F : FTy → Type} [FloatOps F] (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  main_v103

def fn_part5 {F : FTy → Type} [FloatOps F] (main_arg23 : FVec F S128 .f32) (main_arg24 : FVec F S128x64 .f32) (main_arg25 : FVec F S64 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg23
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x64 .f32 := Host.absf main_arg24
  let main_cst_36 : FVec F S_ .f32 := constant S_ .f32 0x7F800000#32
  let main_v95 : FVec F S128x64 .f32 := broadcastInDim S128x64 ![] bcast_S_S128x64 main_cst_36
  let main_v96 : IVec S128x64 1 := cmpf .olt main_v94 main_v95
  let main_c_37 : IVec S_ 1 := constantI S_ 1 1#1
  let main_v97 : IVec S_ 1 := (fun x v => Host.reduce IntOp.andi x v reducesTo_S128x64_S_d0_1 h_S_) main_v96 main_c_37
  let main_v98 : IVec S_ 1 := andi main_v93 main_v97
  let main_v99 : FVec F S64 .f32 := Host.absf main_arg25
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_v98 main_v101 main_c_39

def fn_part4 {F : FTy → Type} [FloatOps F] (main_arg19 : FVec F S128 .f32) (main_arg20 : FVec F S128 .f32) (main_arg21 : FVec F S128 .f32) (main_arg22 : FVec F S128x128 .f32) (main_arg23 : FVec F S128 .f32) (main_arg24 : FVec F S128x64 .f32) (main_arg25 : FVec F S64 .f32) (main_v63 : IVec S_ 1) (main_v67 : IVec S_ 1) : IVec S_ 1 :=
  let main_v68 : IVec S_ 1 := andi main_v63 main_v67
  let main_v69 : FVec F S128 .f32 := Host.absf main_arg19
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg20
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg21
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg22
  let main_cst_32 : FVec F S_ .f32 := constant S_ .f32 0x7F800000#32
  fn_part5 (F := F) main_arg23 main_arg24 main_arg25 main_v83 main_v84 main_cst_32

def fn_part3 {F : FTy → Type} [FloatOps F] (main_arg16 : FVec F S64x128 .f32) (main_arg17 : FVec F S128 .f32) (main_arg18 : FVec F S128x128 .f32) (main_arg19 : FVec F S128 .f32) (main_arg20 : FVec F S128 .f32) (main_arg21 : FVec F S128 .f32) (main_arg22 : FVec F S128x128 .f32) (main_arg23 : FVec F S128 .f32) (main_arg24 : FVec F S128x64 .f32) (main_arg25 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x128 .f32 := Host.absf main_arg16
  let main_cst_20 : FVec F S_ .f32 := constant S_ .f32 0x7F800000#32
  let main_v55 : FVec F S64x128 .f32 := broadcastInDim S64x128 ![] bcast_S_S64x128 main_cst_20
  let main_v56 : IVec S64x128 1 := cmpf .olt main_v54 main_v55
  let main_c_21 : IVec S_ 1 := constantI S_ 1 1#1
  let main_v57 : IVec S_ 1 := (fun x v => Host.reduce IntOp.andi x v reducesTo_S64x128_S_d0_1 h_S_) main_v56 main_c_21
  let main_v58 : IVec S_ 1 := andi main_v53 main_v57
  let main_v59 : FVec F S128 .f32 := Host.absf main_arg17
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg18
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg19 main_arg20 main_arg21 main_arg22 main_arg23 main_arg24 main_arg25 main_v63 main_v67

def fn_part2 {F : FTy → Type} [FloatOps F] (main_arg12 : FVec F S64x64 .f32) (main_arg13 : FVec F S64 .f32) (main_arg14 : FVec F S64 .f32) (main_arg15 : FVec F S64 .f32) (main_arg16 : FVec F S64x128 .f32) (main_arg17 : FVec F S128 .f32) (main_arg18 : FVec F S128x128 .f32) (main_arg19 : FVec F S128 .f32) (main_arg20 : FVec F S128 .f32) (main_arg21 : FVec F S128 .f32) (main_arg22 : FVec F S128x128 .f32) (main_arg23 : FVec F S128 .f32) (main_arg24 : FVec F S128x64 .f32) (main_arg25 : FVec F S64 .f32) (main_v33 : IVec S_ 1) : IVec S_ 1 :=
  let main_v34 : FVec F S64x64 .f32 := Host.absf main_arg12
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg13
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg14
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg15
  let main_cst_18 : FVec F S_ .f32 := constant S_ .f32 0x7F800000#32
  let main_v50 : FVec F S64 .f32 := broadcastInDim S64 ![] bcast_S_S64 main_cst_18
  fn_part3 (F := F) main_arg16 main_arg17 main_arg18 main_arg19 main_arg20 main_arg21 main_arg22 main_arg23 main_arg24 main_arg25 main_v48 main_v49 main_v50

def fn_part1 {F : FTy → Type} [FloatOps F] (main_arg7 : FVec F S500000 .f32) (main_arg10 : FVec F S64x64 .f32) (main_arg11 : FVec F S64 .f32) (main_arg12 : FVec F S64x64 .f32) (main_arg13 : FVec F S64 .f32) (main_arg14 : FVec F S64 .f32) (main_arg15 : FVec F S64 .f32) (main_arg16 : FVec F S64x128 .f32) (main_arg17 : FVec F S128 .f32) (main_arg18 : FVec F S128x128 .f32) (main_arg19 : FVec F S128 .f32) (main_arg20 : FVec F S128 .f32) (main_arg21 : FVec F S128 .f32) (main_arg22 : FVec F S128x128 .f32) (main_arg23 : FVec F S128 .f32) (main_arg24 : FVec F S128x64 .f32) (main_arg25 : FVec F S64 .f32) (main_v13 : IVec S_ 1) (main_v16 : IVec S1000000 1) : IVec S_ 1 :=
  let main_c_5 : IVec S_ 1 := constantI S_ 1 1#1
  let main_v17 : IVec S_ 1 := (fun x v => Host.reduce IntOp.andi x v reducesTo_S1000000_S_d0 h_S_) main_v16 main_c_5
  let main_v18 : IVec S_ 1 := andi main_v13 main_v17
  let main_v19 : FVec F S500000 .f32 := Host.absf main_arg7
  let main_cst_6 : FVec F S_ .f32 := constant S_ .f32 0x7F800000#32
  let main_v20 : FVec F S500000 .f32 := broadcastInDim S500000 ![] bcast_S_S500000 main_cst_6
  let main_v21 : IVec S500000 1 := cmpf .olt main_v19 main_v20
  let main_c_7 : IVec S_ 1 := constantI S_ 1 1#1
  let main_v22 : IVec S_ 1 := (fun x v => Host.reduce IntOp.andi x v reducesTo_S500000_S_d0 h_S_) main_v21 main_c_7
  let main_v23 : IVec S_ 1 := andi main_v18 main_v22
  let main_v24 : FVec F S64x64 .f32 := Host.absf main_arg10
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg11
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg12 main_arg13 main_arg14 main_arg15 main_arg16 main_arg17 main_arg18 main_arg19 main_arg20 main_arg21 main_arg22 main_arg23 main_arg24 main_arg25 main_v33

def fn {F : FTy → Type} [FloatOps F] (main_arg0 : FVec F S25000x64 .f32) (main_arg1 : IVec S2x250000 32) (main_arg2 : FVec F S100000x128 .f32) (main_arg3 : FVec F S50000x128 .f32) (main_arg4 : IVec S2x1000000 32) (main_arg5 : IVec S2x500000 32) (main_arg6 : FVec F S1000000 .f32) (main_arg7 : FVec F S500000 .f32) (main_arg8 : IVec S50000 32) (main_arg9 : IVec S25000 32) (main_arg10 : FVec F S64x64 .f32) (main_arg11 : FVec F S64 .f32) (main_arg12 : FVec F S64x64 .f32) (main_arg13 : FVec F S64 .f32) (main_arg14 : FVec F S64 .f32) (main_arg15 : FVec F S64 .f32) (main_arg16 : FVec F S64x128 .f32) (main_arg17 : FVec F S128 .f32) (main_arg18 : FVec F S128x128 .f32) (main_arg19 : FVec F S128 .f32) (main_arg20 : FVec F S128 .f32) (main_arg21 : FVec F S128 .f32) (main_arg22 : FVec F S128x128 .f32) (main_arg23 : FVec F S128 .f32) (main_arg24 : FVec F S128x64 .f32) (main_arg25 : FVec F S64 .f32) : IVec S_ 1 :=
  let main_v0 : FVec F S25000x64 .f32 := Host.absf main_arg0
  let main_cst : FVec F S_ .f32 := constant S_ .f32 0x7F800000#32
  let main_v1 : FVec F S25000x64 .f32 := broadcastInDim S25000x64 ![] bcast_S_S25000x64 main_cst
  let main_v2 : IVec S25000x64 1 := cmpf .olt main_v0 main_v1
  let main_c : IVec S_ 1 := constantI S_ 1 1#1
  let main_v3 : IVec S_ 1 := (fun x v => Host.reduce IntOp.andi x v reducesTo_S25000x64_S_d0_1 h_S_) main_v2 main_c
  let main_v4 : FVec F S100000x128 .f32 := Host.absf main_arg2
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S50000x128 .f32 := Host.absf main_arg3
  let main_cst_2 : FVec F S_ .f32 := constant S_ .f32 0x7F800000#32
  let main_v10 : FVec F S50000x128 .f32 := broadcastInDim S50000x128 ![] bcast_S_S50000x128 main_cst_2
  let main_v11 : IVec S50000x128 1 := cmpf .olt main_v9 main_v10
  let main_c_3 : IVec S_ 1 := constantI S_ 1 1#1
  let main_v12 : IVec S_ 1 := (fun x v => Host.reduce IntOp.andi x v reducesTo_S50000x128_S_d0_1 h_S_) main_v11 main_c_3
  let main_v13 : IVec S_ 1 := andi main_v8 main_v12
  let main_v14 : FVec F S1000000 .f32 := Host.absf main_arg6
  let main_cst_4 : FVec F S_ .f32 := constant S_ .f32 0x7F800000#32
  let main_v15 : FVec F S1000000 .f32 := broadcastInDim S1000000 ![] bcast_S_S1000000 main_cst_4
  let main_v16 : IVec S1000000 1 := cmpf .olt main_v14 main_v15
  fn_part1 (F := F) main_arg7 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S25000x64 : Shape := ⟨2, ![25000, 64]⟩
abbrev S2x250000 : Shape := ⟨2, ![2, 250000]⟩
abbrev S100000x128 : Shape := ⟨2, ![100000, 128]⟩
abbrev S50000x128 : Shape := ⟨2, ![50000, 128]⟩
abbrev S2x1000000 : Shape := ⟨2, ![2, 1000000]⟩
abbrev S2x500000 : Shape := ⟨2, ![2, 500000]⟩
abbrev S1000000 : Shape := ⟨1, ![1000000]⟩
abbrev S500000 : Shape := ⟨1, ![500000]⟩
abbrev S50000 : Shape := ⟨1, ![50000]⟩
abbrev S25000 : Shape := ⟨1, ![25000]⟩
abbrev S64x64 : Shape := ⟨2, ![64, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S1x250000 : Shape := ⟨2, ![1, 250000]⟩
abbrev S250000 : Shape := ⟨1, ![250000]⟩
abbrev S_ : Shape := ⟨0, ![]⟩
abbrev S250000x1 : Shape := ⟨2, ![250000, 1]⟩
abbrev S250000x64 : Shape := ⟨2, ![250000, 64]⟩
abbrev S1x64 : Shape := ⟨2, ![1, 64]⟩
abbrev S5000x64 : Shape := ⟨2, ![5000, 64]⟩
abbrev S1x128 : Shape := ⟨2, ![1, 128]⟩
abbrev S25000x128 : Shape := ⟨2, ![25000, 128]⟩
abbrev S5000x128 : Shape := ⟨2, ![5000, 128]⟩
abbrev S128x1 : Shape := ⟨2, ![128, 1]⟩
abbrev S25000x1 : Shape := ⟨2, ![25000, 1]⟩
abbrev S1x500000 : Shape := ⟨2, ![1, 500000]⟩
abbrev S500000x1 : Shape := ⟨2, ![500000, 1]⟩
abbrev S500000x128 : Shape := ⟨2, ![500000, 128]⟩
abbrev S50000x1 : Shape := ⟨2, ![50000, 1]⟩
abbrev S5000x1 : Shape := ⟨2, ![5000, 1]⟩
abbrev S50000x64 : Shape := ⟨2, ![50000, 64]⟩
abbrev S100000x64 : Shape := ⟨2, ![100000, 64]⟩
abbrev S1x1000000 : Shape := ⟨2, ![1, 1000000]⟩
abbrev S100000 : Shape := ⟨1, ![100000]⟩
abbrev S1000000x1 : Shape := ⟨2, ![1000000, 1]⟩
abbrev S1000000x64 : Shape := ⟨2, ![1000000, 64]⟩
abbrev S100000x1 : Shape := ⟨2, ![100000, 1]⟩

abbrev nBuf : Space → Nat
  | .hbm => 256
  | .vmem => 61
  | .smem => 0
  | _ => 0

abbrev hbmTy0_0 (i : Nat) : BufTy := match i % 128 with
  | 0 => ⟨S25000x64, .f32⟩
  | 1 => ⟨S2x250000, .i32⟩
  | 2 => ⟨S100000x128, .f32⟩
  | 3 => ⟨S50000x128, .f32⟩
  | 4 => ⟨S2x1000000, .i32⟩
  | 5 => ⟨S2x500000, .i32⟩
  | 6 => ⟨S1000000, .f32⟩
  | 7 => ⟨S500000, .f32⟩
  | 8 => ⟨S50000, .i32⟩
  | 9 => ⟨S25000, .i32⟩
  | 10 => ⟨S64x64, .f32⟩
  | 11 => ⟨S64, .f32⟩
  | 12 => ⟨S64x64, .f32⟩
  | 13 => ⟨S64, .f32⟩
  | 14 => ⟨S64, .f32⟩
  | 15 => ⟨S64, .f32⟩
  | 16 => ⟨S64x128, .f32⟩
  | 17 => ⟨S128, .f32⟩
  | 18 => ⟨S128x128, .f32⟩
  | 19 => ⟨S128, .f32⟩
  | 20 => ⟨S128, .f32⟩
  | 21 => ⟨S128, .f32⟩
  | 22 => ⟨S128x128, .f32⟩
  | 23 => ⟨S128, .f32⟩
  | 24 => ⟨S128x64, .f32⟩
  | 25 => ⟨S64, .f32⟩
  | 26 => ⟨S1x250000, .i32⟩
  | 27 => ⟨S250000, .i32⟩
  | 28 => ⟨S_, .i32⟩
  | 29 => ⟨S250000, .i32⟩
  | 30 => ⟨S250000, .i1⟩
  | 31 => ⟨S_, .i32⟩
  | 32 => ⟨S250000, .i32⟩
  | 33 => ⟨S250000, .i32⟩
  | 34 => ⟨S250000, .i32⟩
  | 35 => ⟨S250000x1, .i32⟩
  | 36 => ⟨S250000x64, .f32⟩
  | 37 => ⟨S1x250000, .i32⟩
  | 38 => ⟨S250000, .i32⟩
  | 39 => ⟨S_, .f32⟩
  | 40 => ⟨S25000x64, .f32⟩
  | 41 => ⟨S250000x1, .i32⟩
  | 42 => ⟨S25000x64, .f32⟩
  | 43 => ⟨S1x64, .f32⟩
  | 44 => ⟨S1x64, .f32⟩
  | 45 => ⟨S25000x64, .f32⟩
  | 46 => ⟨S1x64, .f32⟩
  | 47 => ⟨S1x64, .f32⟩
  | 48 => ⟨S_, .f32⟩
  | 49 => ⟨S1x64, .f32⟩
  | 50 => ⟨S1x64, .f32⟩
  | 51 => ⟨S_, .f32⟩
  | 52 => ⟨S1x64, .f32⟩
  | 53 => ⟨S1x64, .f32⟩
  | 54 => ⟨S1x64, .f32⟩
  | 55 => ⟨S1x64, .f32⟩
  | 56 => ⟨S_, .f32⟩
  | 57 => ⟨S1x64, .f32⟩
  | 58 => ⟨S1x64, .f32⟩
  | 59 => ⟨S1x64, .f32⟩
  | 60 => ⟨S1x64, .f32⟩
  | 61 => ⟨S25000x64, .f32⟩
  | 62 => ⟨S1x250000, .i32⟩
  | 63 => ⟨S250000, .i32⟩
  | 64 => ⟨S_, .i32⟩
  | 65 => ⟨S250000, .i32⟩
  | 66 => ⟨S250000, .i1⟩
  | 67 => ⟨S_, .i32⟩
  | 68 => ⟨S250000, .i32⟩
  | 69 => ⟨S250000, .i32⟩
  | 70 => ⟨S250000, .i32⟩
  | 71 => ⟨S250000x1, .i32⟩
  | 72 => ⟨S250000x64, .f32⟩
  | 73 => ⟨S1x250000, .i32⟩
  | 74 => ⟨S250000, .i32⟩
  | 75 => ⟨S_, .f32⟩
  | 76 => ⟨S25000x64, .f32⟩
  | 77 => ⟨S250000x1, .i32⟩
  | 78 => ⟨S25000x64, .f32⟩
  | 79 => ⟨S1x128, .f32⟩
  | 80 => ⟨S1x128, .f32⟩
  | 81 => ⟨S25000x128, .f32⟩
  | 82 => ⟨S1x128, .f32⟩
  | 83 => ⟨S1x128, .f32⟩
  | 84 => ⟨S_, .f32⟩
  | 85 => ⟨S1x128, .f32⟩
  | 86 => ⟨S1x128, .f32⟩
  | 87 => ⟨S_, .f32⟩
  | 88 => ⟨S1x128, .f32⟩
  | 89 => ⟨S1x128, .f32⟩
  | 90 => ⟨S1x128, .f32⟩
  | 91 => ⟨S1x128, .f32⟩
  | 92 => ⟨S_, .f32⟩
  | 93 => ⟨S1x128, .f32⟩
  | 94 => ⟨S1x128, .f32⟩
  | 95 => ⟨S_, .f32⟩
  | 96 => ⟨S1x128, .f32⟩
  | 97 => ⟨S1x128, .f32⟩
  | 98 => ⟨S1x128, .f32⟩
  | 99 => ⟨S1x128, .f32⟩
  | 100 => ⟨S1x128, .f32⟩
  | 101 => ⟨S1x128, .f32⟩
  | 102 => ⟨S1x128, .f32⟩
  | 103 => ⟨S1x128, .f32⟩
  | 104 => ⟨S128x1, .f32⟩
  | 105 => ⟨S128x128, .f32⟩
  | 106 => ⟨S128x128, .f32⟩
  | 107 => ⟨S1x128, .f32⟩
  | 108 => ⟨S128, .f32⟩
  | 109 => ⟨S1x128, .f32⟩
  | 110 => ⟨S25000x128, .f32⟩
  | 111 => ⟨S_, .f32⟩
  | 112 => ⟨S50000x128, .f32⟩
  | 113 => ⟨S_, .i32⟩
  | 114 => ⟨S25000, .i32⟩
  | 115 => ⟨S25000, .i1⟩
  | 116 => ⟨S_, .i32⟩
  | 117 => ⟨S25000, .i32⟩
  | 118 => ⟨S25000, .i32⟩
  | 119 => ⟨S25000, .i32⟩
  | 120 => ⟨S25000x1, .i32⟩
  | 121 => ⟨S50000x128, .f32⟩
  | 122 => ⟨S1x500000, .i32⟩
  | 123 => ⟨S500000, .i32⟩
  | 124 => ⟨S_, .f32⟩
  | 125 => ⟨S50000, .f32⟩
  | 126 => ⟨S500000x1, .i32⟩
  | 127 => ⟨S50000, .f32⟩
  | _ => ⟨S25000x64, .f32⟩

abbrev hbmTy0_1 (i : Nat) : BufTy := match i % 128 with
  | 0 => ⟨S_, .f32⟩
  | 1 => ⟨S50000, .f32⟩
  | 2 => ⟨S50000, .f32⟩
  | 3 => ⟨S50000, .f32⟩
  | 4 => ⟨S1x500000, .i32⟩
  | 5 => ⟨S500000, .i32⟩
  | 6 => ⟨S_, .i32⟩
  | 7 => ⟨S500000, .i32⟩
  | 8 => ⟨S500000, .i1⟩
  | 9 => ⟨S_, .i32⟩
  | 10 => ⟨S500000, .i32⟩
  | 11 => ⟨S500000, .i32⟩
  | 12 => ⟨S500000, .i32⟩
  | 13 => ⟨S500000x1, .i32⟩
  | 14 => ⟨S500000, .f32⟩
  | 15 => ⟨S500000, .f32⟩
  | 16 => ⟨S1x500000, .i32⟩
  | 17 => ⟨S500000, .i32⟩
  | 18 => ⟨S_, .i32⟩
  | 19 => ⟨S500000, .i32⟩
  | 20 => ⟨S500000, .i1⟩
  | 21 => ⟨S_, .i32⟩
  | 22 => ⟨S500000, .i32⟩
  | 23 => ⟨S500000, .i32⟩
  | 24 => ⟨S500000, .i32⟩
  | 25 => ⟨S500000x1, .i32⟩
  | 26 => ⟨S500000, .f32⟩
  | 27 => ⟨S500000, .f32⟩
  | 28 => ⟨S500000x1, .f32⟩
  | 29 => ⟨S1x500000, .i32⟩
  | 30 => ⟨S500000, .i32⟩
  | 31 => ⟨S_, .i32⟩
  | 32 => ⟨S500000, .i32⟩
  | 33 => ⟨S500000, .i1⟩
  | 34 => ⟨S_, .i32⟩
  | 35 => ⟨S500000, .i32⟩
  | 36 => ⟨S500000, .i32⟩
  | 37 => ⟨S500000, .i32⟩
  | 38 => ⟨S500000x1, .i32⟩
  | 39 => ⟨S500000x128, .f32⟩
  | 40 => ⟨S500000x128, .f32⟩
  | 41 => ⟨S500000x128, .f32⟩
  | 42 => ⟨S1x500000, .i32⟩
  | 43 => ⟨S500000, .i32⟩
  | 44 => ⟨S_, .f32⟩
  | 45 => ⟨S50000x128, .f32⟩
  | 46 => ⟨S500000x1, .i32⟩
  | 47 => ⟨S50000x128, .f32⟩
  | 48 => ⟨S_, .f32⟩
  | 49 => ⟨S50000, .f32⟩
  | 50 => ⟨S50000, .f32⟩
  | 51 => ⟨S50000, .f32⟩
  | 52 => ⟨S50000x1, .f32⟩
  | 53 => ⟨S1x128, .f32⟩
  | 54 => ⟨S50000x128, .f32⟩
  | 55 => ⟨S50000x64, .f32⟩
  | 56 => ⟨S_, .f32⟩
  | 57 => ⟨S100000x64, .f32⟩
  | 58 => ⟨S_, .i32⟩
  | 59 => ⟨S50000, .i32⟩
  | 60 => ⟨S50000, .i1⟩
  | 61 => ⟨S_, .i32⟩
  | 62 => ⟨S50000, .i32⟩
  | 63 => ⟨S50000, .i32⟩
  | 64 => ⟨S50000, .i32⟩
  | 65 => ⟨S50000x1, .i32⟩
  | 66 => ⟨S100000x64, .f32⟩
  | 67 => ⟨S1x1000000, .i32⟩
  | 68 => ⟨S1000000, .i32⟩
  | 69 => ⟨S_, .f32⟩
  | 70 => ⟨S100000, .f32⟩
  | 71 => ⟨S1000000x1, .i32⟩
  | 72 => ⟨S100000, .f32⟩
  | 73 => ⟨S_, .f32⟩
  | 74 => ⟨S100000, .f32⟩
  | 75 => ⟨S100000, .f32⟩
  | 76 => ⟨S100000, .f32⟩
  | 77 => ⟨S1x1000000, .i32⟩
  | 78 => ⟨S1000000, .i32⟩
  | 79 => ⟨S_, .i32⟩
  | 80 => ⟨S1000000, .i32⟩
  | 81 => ⟨S1000000, .i1⟩
  | 82 => ⟨S_, .i32⟩
  | 83 => ⟨S1000000, .i32⟩
  | 84 => ⟨S1000000, .i32⟩
  | 85 => ⟨S1000000, .i32⟩
  | 86 => ⟨S1000000x1, .i32⟩
  | 87 => ⟨S1000000, .f32⟩
  | 88 => ⟨S1000000, .f32⟩
  | 89 => ⟨S1x1000000, .i32⟩
  | 90 => ⟨S1000000, .i32⟩
  | 91 => ⟨S_, .i32⟩
  | 92 => ⟨S1000000, .i32⟩
  | 93 => ⟨S1000000, .i1⟩
  | 94 => ⟨S_, .i32⟩
  | 95 => ⟨S1000000, .i32⟩
  | 96 => ⟨S1000000, .i32⟩
  | 97 => ⟨S1000000, .i32⟩
  | 98 => ⟨S1000000x1, .i32⟩
  | 99 => ⟨S1000000, .f32⟩
  | 100 => ⟨S1000000, .f32⟩
  | 101 => ⟨S1000000x1, .f32⟩
  | 102 => ⟨S1x1000000, .i32⟩
  | 103 => ⟨S1000000, .i32⟩
  | 104 => ⟨S_, .i32⟩
  | 105 => ⟨S1000000, .i32⟩
  | 106 => ⟨S1000000, .i1⟩
  | 107 => ⟨S_, .i32⟩
  | 108 => ⟨S1000000, .i32⟩
  | 109 => ⟨S1000000, .i32⟩
  | 110 => ⟨S1000000, .i32⟩
  | 111 => ⟨S1000000x1, .i32⟩
  | 112 => ⟨S1000000x64, .f32⟩
  | 113 => ⟨S1000000x64, .f32⟩
  | 114 => ⟨S1000000x64, .f32⟩
  | 115 => ⟨S1x1000000, .i32⟩
  | 116 => ⟨S1000000, .i32⟩
  | 117 => ⟨S_, .f32⟩
  | 118 => ⟨S100000x64, .f32⟩
  | 119 => ⟨S1000000x1, .i32⟩
  | 120 => ⟨S100000x64, .f32⟩
  | 121 => ⟨S_, .f32⟩
  | 122 => ⟨S100000, .f32⟩
  | 123 => ⟨S100000, .f32⟩
  | 124 => ⟨S100000, .f32⟩
  | 125 => ⟨S100000x1, .f32⟩
  | 126 => ⟨S1x64, .f32⟩
  | 127 => ⟨S100000x64, .f32⟩
  | _ => ⟨S25000x64, .f32⟩

abbrev hbmTy (i : Nat) : BufTy := match i / 128 with
  | 0 => hbmTy0_0 i
  | 1 => hbmTy0_1 i
  | _ => ⟨S25000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S1x64, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S1x64, .f32⟩
  | .local _ .vmem, ⟨15, _⟩ => ⟨S1x64, .f32⟩
  | .local _ .vmem, ⟨16, _⟩ => ⟨S1x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S64x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S1x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S128x128, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x1, .f32⟩
  | .local _ .vmem, ⟨43, _⟩ => ⟨S5000x1, .f32⟩
  | .local _ .vmem, ⟨44, _⟩ => ⟨S1x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S128x64, .f32⟩
  | .local _ .vmem, ⟨50, _⟩ => ⟨S5000x64, .f32⟩
  | .local _ .vmem, ⟨51, _⟩ => ⟨S5000x64, .f32⟩
  | .local _ .vmem, ⟨52, _⟩ => ⟨S5000x64, .f32⟩
  | .local _ .vmem, ⟨53, _⟩ => ⟨S5000x64, .f32⟩
  | .local _ .vmem, ⟨54, _⟩ => ⟨S5000x64, .f32⟩
  | .local _ .vmem, ⟨55, _⟩ => ⟨S5000x64, .f32⟩
  | .local _ .vmem, ⟨56, _⟩ => ⟨S5000x1, .f32⟩
  | .local _ .vmem, ⟨57, _⟩ => ⟨S5000x1, .f32⟩
  | .local _ .vmem, ⟨58, _⟩ => ⟨S1x64, .f32⟩
  | .local _ .vmem, ⟨59, _⟩ => ⟨S5000x64, .f32⟩
  | .local _ .vmem, ⟨60, _⟩ => ⟨S5000x64, .f32⟩
  | _, _ => ⟨S25000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | _, _ => false

abbrev semScoped : Fin 0 → Bool
  | ⟨_, h⟩ => absurd h (Nat.not_lt_zero _)

abbrev dmaSemScoped : Fin 61 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | _ => false

abbrev sig : RefSig :=
  ofTc nBuf bufTy 0 61 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_c : Ref sig .tc := ⟨.hbm, 28, rfl⟩
abbrev main_v2 : Ref sig .tc := ⟨.hbm, 29, rfl⟩
abbrev main_v3 : Ref sig .tc := ⟨.hbm, 30, rfl⟩
abbrev main_c_0 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16_0 : Ref sig .tc := ⟨.hbm, 45, rfl⟩
abbrev main_v16_1 : Ref sig .tc := ⟨.hbm, 46, rfl⟩
abbrev main_v16_2 : Ref sig .tc := ⟨.hbm, 47, rfl⟩
abbrev main_cst_1 : Ref sig .tc := ⟨.hbm, 48, rfl⟩
abbrev main_v17 : Ref sig .tc := ⟨.hbm, 49, rfl⟩
abbrev main_v18 : Ref sig .tc := ⟨.hbm, 50, rfl⟩
abbrev main_cst_2 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_cst_3 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_c_4 : Ref sig .tc := ⟨.hbm, 64, rfl⟩
abbrev main_v30 : Ref sig .tc := ⟨.hbm, 65, rfl⟩
abbrev main_v31 : Ref sig .tc := ⟨.hbm, 66, rfl⟩
abbrev main_c_5 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_cst_6 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44_0 : Ref sig .tc := ⟨.hbm, 81, rfl⟩
abbrev main_v44_1 : Ref sig .tc := ⟨.hbm, 82, rfl⟩
abbrev main_v44_2 : Ref sig .tc := ⟨.hbm, 83, rfl⟩
abbrev main_cst_7 : Ref sig .tc := ⟨.hbm, 84, rfl⟩
abbrev main_v45 : Ref sig .tc := ⟨.hbm, 85, rfl⟩
abbrev main_v46 : Ref sig .tc := ⟨.hbm, 86, rfl⟩
abbrev main_cst_8 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_cst_9 : Ref sig .tc := ⟨.hbm, 92, rfl⟩
abbrev main_v51 : Ref sig .tc := ⟨.hbm, 93, rfl⟩
abbrev main_v52 : Ref sig .tc := ⟨.hbm, 94, rfl⟩
abbrev main_cst_10 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_cst_11 : Ref sig .tc := ⟨.hbm, 111, rfl⟩
abbrev main_v68 : Ref sig .tc := ⟨.hbm, 112, rfl⟩
abbrev main_c_12 : Ref sig .tc := ⟨.hbm, 113, rfl⟩
abbrev main_v69 : Ref sig .tc := ⟨.hbm, 114, rfl⟩
abbrev main_v70 : Ref sig .tc := ⟨.hbm, 115, rfl⟩
abbrev main_c_13 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_cst_14 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_cst_15 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_c_16 : Ref sig .tc := ⟨.hbm, 134, rfl⟩
abbrev main_v86 : Ref sig .tc := ⟨.hbm, 135, rfl⟩
abbrev main_v87 : Ref sig .tc := ⟨.hbm, 136, rfl⟩
abbrev main_c_17 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_c_18 : Ref sig .tc := ⟨.hbm, 146, rfl⟩
abbrev main_v96 : Ref sig .tc := ⟨.hbm, 147, rfl⟩
abbrev main_v97 : Ref sig .tc := ⟨.hbm, 148, rfl⟩
abbrev main_c_19 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_c_20 : Ref sig .tc := ⟨.hbm, 159, rfl⟩
abbrev main_v107 : Ref sig .tc := ⟨.hbm, 160, rfl⟩
abbrev main_v108 : Ref sig .tc := ⟨.hbm, 161, rfl⟩
abbrev main_c_21 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_cst_22 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_cst_23 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_cst_24 : Ref sig .tc := ⟨.hbm, 184, rfl⟩
abbrev main_v128 : Ref sig .tc := ⟨.hbm, 185, rfl⟩
abbrev main_c_25 : Ref sig .tc := ⟨.hbm, 186, rfl⟩
abbrev main_v129 : Ref sig .tc := ⟨.hbm, 187, rfl⟩
abbrev main_v130 : Ref sig .tc := ⟨.hbm, 188, rfl⟩
abbrev main_c_26 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_cst_27 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_cst_28 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_c_29 : Ref sig .tc := ⟨.hbm, 207, rfl⟩
abbrev main_v146 : Ref sig .tc := ⟨.hbm, 208, rfl⟩
abbrev main_v147 : Ref sig .tc := ⟨.hbm, 209, rfl⟩
abbrev main_c_30 : Ref sig .tc := ⟨.hbm, 210, rfl⟩
abbrev main_v148 : Ref sig .tc := ⟨.hbm, 211, rfl⟩
abbrev main_v149 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_c_31 : Ref sig .tc := ⟨.hbm, 219, rfl⟩
abbrev main_v156 : Ref sig .tc := ⟨.hbm, 220, rfl⟩
abbrev main_v157 : Ref sig .tc := ⟨.hbm, 221, rfl⟩
abbrev main_c_32 : Ref sig .tc := ⟨.hbm, 222, rfl⟩
abbrev main_v158 : Ref sig .tc := ⟨.hbm, 223, rfl⟩
abbrev main_v159 : Ref sig .tc := ⟨.hbm, 224, rfl⟩
abbrev main_v160 : Ref sig .tc := ⟨.hbm, 225, rfl⟩
abbrev main_v161 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩
abbrev main_c_33 : Ref sig .tc := ⟨.hbm, 232, rfl⟩
abbrev main_v167 : Ref sig .tc := ⟨.hbm, 233, rfl⟩
abbrev main_v168 : Ref sig .tc := ⟨.hbm, 234, rfl⟩
abbrev main_c_34 : Ref sig .tc := ⟨.hbm, 235, rfl⟩
abbrev main_v169 : Ref sig .tc := ⟨.hbm, 236, rfl⟩
abbrev main_v170 : Ref sig .tc := ⟨.hbm, 237, rfl⟩
abbrev main_v171 : Ref sig .tc := ⟨.hbm, 238, rfl⟩
abbrev main_v172 : Ref sig .tc := ⟨.hbm, 239, rfl⟩
abbrev main_v173 : Ref sig .tc := ⟨.hbm, 240, rfl⟩
abbrev main_v174 : Ref sig .tc := ⟨.hbm, 241, rfl⟩
abbrev main_v175 : Ref sig .tc := ⟨.hbm, 242, rfl⟩
abbrev main_v176 : Ref sig .tc := ⟨.hbm, 243, rfl⟩
abbrev main_v177 : Ref sig .tc := ⟨.hbm, 244, rfl⟩
abbrev main_cst_35 : Ref sig .tc := ⟨.hbm, 245, rfl⟩
abbrev main_v178 : Ref sig .tc := ⟨.hbm, 246, rfl⟩
abbrev main_v179 : Ref sig .tc := ⟨.hbm, 247, rfl⟩
abbrev main_v180 : Ref sig .tc := ⟨.hbm, 248, rfl⟩
abbrev main_cst_36 : Ref sig .tc := ⟨.hbm, 249, rfl⟩
abbrev main_v181 : Ref sig .tc := ⟨.hbm, 250, rfl⟩
abbrev main_v182 : Ref sig .tc := ⟨.hbm, 251, rfl⟩
abbrev main_v183 : Ref sig .tc := ⟨.hbm, 252, rfl⟩
abbrev main_v184 : Ref sig .tc := ⟨.hbm, 253, rfl⟩
abbrev main_v185 : Ref sig .tc := ⟨.hbm, 254, rfl⟩
abbrev main_v186 : Ref sig .tc := ⟨.hbm, 255, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc2_stg7_0 : Ref sig .tc := ⟨.vmem, 30, rfl⟩
abbrev cc2_stg8_0 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg3_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg2_1 : Ref sig .tc := ⟨.vmem, 43, rfl⟩
abbrev cc4_stg3_0 : Ref sig .tc := ⟨.vmem, 44, rfl⟩
abbrev cc4_stg4_0 : Ref sig .tc := ⟨.vmem, 45, rfl⟩
abbrev cc4_stg4_1 : Ref sig .tc := ⟨.vmem, 46, rfl⟩
abbrev cc5_stg0_0 : Ref sig .tc := ⟨.vmem, 47, rfl⟩
abbrev cc5_stg0_1 : Ref sig .tc := ⟨.vmem, 48, rfl⟩
abbrev cc5_stg1_0 : Ref sig .tc := ⟨.vmem, 49, rfl⟩
abbrev cc5_stg2_0 : Ref sig .tc := ⟨.vmem, 50, rfl⟩
abbrev cc5_stg2_1 : Ref sig .tc := ⟨.vmem, 51, rfl⟩
abbrev cc6_stg0_0 : Ref sig .tc := ⟨.vmem, 52, rfl⟩
abbrev cc6_stg0_1 : Ref sig .tc := ⟨.vmem, 53, rfl⟩
abbrev cc6_stg1_0 : Ref sig .tc := ⟨.vmem, 54, rfl⟩
abbrev cc6_stg1_1 : Ref sig .tc := ⟨.vmem, 55, rfl⟩
abbrev cc6_stg2_0 : Ref sig .tc := ⟨.vmem, 56, rfl⟩
abbrev cc6_stg2_1 : Ref sig .tc := ⟨.vmem, 57, rfl⟩
abbrev cc6_stg3_0 : Ref sig .tc := ⟨.vmem, 58, rfl⟩
abbrev cc6_stg4_0 : Ref sig .tc := ⟨.vmem, 59, rfl⟩
abbrev cc6_stg4_1 : Ref sig .tc := ⟨.vmem, 60, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc2_sem7_0 : DmaSem sig := 30
abbrev cc2_sem8_0 : DmaSem sig := 31
abbrev cc3_sem0_0 : DmaSem sig := 32
abbrev cc3_sem0_1 : DmaSem sig := 33
abbrev cc3_sem1_0 : DmaSem sig := 34
abbrev cc3_sem2_0 : DmaSem sig := 35
abbrev cc3_sem3_0 : DmaSem sig := 36
abbrev cc3_sem3_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem2_1 : DmaSem sig := 43
abbrev cc4_sem3_0 : DmaSem sig := 44
abbrev cc4_sem4_0 : DmaSem sig := 45
abbrev cc4_sem4_1 : DmaSem sig := 46
abbrev cc5_sem0_0 : DmaSem sig := 47
abbrev cc5_sem0_1 : DmaSem sig := 48
abbrev cc5_sem1_0 : DmaSem sig := 49
abbrev cc5_sem2_0 : DmaSem sig := 50
abbrev cc5_sem2_1 : DmaSem sig := 51
abbrev cc6_sem0_0 : DmaSem sig := 52
abbrev cc6_sem0_1 : DmaSem sig := 53
abbrev cc6_sem1_0 : DmaSem sig := 54
abbrev cc6_sem1_1 : DmaSem sig := 55
abbrev cc6_sem2_0 : DmaSem sig := 56
abbrev cc6_sem2_1 : DmaSem sig := 57
abbrev cc6_sem3_0 : DmaSem sig := 58
abbrev cc6_sem4_0 : DmaSem sig := 59
abbrev cc6_sem4_1 : DmaSem sig := 60

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S5000x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

class Facts₀ : Prop where
  slices_S2x250000_S1x250000_0_0 : S2x250000.Slices ![0, 0] S1x250000
  shapeCasts_S1x250000_S250000 : S1x250000.ShapeCasts S250000
  bcast_S_S250000 : S_.BroadcastsInDim S250000 (![] : Fin 0 → Fin S250000.rank)
  bcast_S250000_S250000x1_0 : S250000.BroadcastsInDim S250000x1 (![0] : Fin 1 → Fin S250000x1.rank)
  slices_S2x250000_S1x250000_1_0 : S2x250000.Slices ![1, 0] S1x250000
  bcast_S_S25000x64 : S_.BroadcastsInDim S25000x64 (![] : Fin 0 → Fin S25000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S1x64_S1x64 : S1x64.ShapeCasts S1x64
  broadcasts_S1x64_S5000x64 : S1x64.Broadcasts S5000x64
  reduces_S5000x64_S64 : S5000x64.Reduces [0] S64
  bcast_S_S1x64 : S_.BroadcastsInDim S1x64 (![] : Fin 0 → Fin S1x64.rank)
  shapeCasts_S128_S1x128 : S128.ShapeCasts S1x128
  inb_S1x128_S1x128_0_0 : ∀ a, (![0, 0] : Fin 2 → Nat) a + S1x128.size a ≤ S1x128.size a
  h_S1x128 : 0 < S1x128.numel
  inb_S64x128_S64x128_0_0 : ∀ a, (![0, 0] : Fin 2 → Nat) a + S64x128.size a ≤ S64x128.size a
  h_S64x128 : 0 < S64x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  inb_S5000x128_S5000x128_0_0 : ∀ a, (![0, 0] : Fin 2 → Nat) a + S5000x128.size a ≤ S5000x128.size a
  h_S5000x128 : 0 < S5000x128.numel
  reduces_S5000x128_S128 : S5000x128.Reduces [0] S128
  bcast_S_S1x128 : S_.BroadcastsInDim S1x128 (![] : Fin 0 → Fin S1x128.rank)
  shapeCasts_S1x128_S128x1 : S1x128.ShapeCasts S128x1
  bcast_S128x1_S128x128_0_1 : S128x1.BroadcastsInDim S128x128 (![0, 1] : Fin 2 → Fin S128x128.rank)
  shapeCasts_S1x128_S128 : S1x128.ShapeCasts S128
  shapeCasts_S5000x128_S5000x128 : S5000x128.ShapeCasts S5000x128
  shapeCasts_S128x128_S128x128 : S128x128.ShapeCasts S128x128
  bcast_S_S50000x128 : S_.BroadcastsInDim S50000x128 (![] : Fin 0 → Fin S50000x128.rank)
  bcast_S_S25000 : S_.BroadcastsInDim S25000 (![] : Fin 0 → Fin S25000.rank)
  bcast_S25000_S25000x1_0 : S25000.BroadcastsInDim S25000x1 (![0] : Fin 1 → Fin S25000x1.rank)
  slices_S2x500000_S1x500000_1_0 : S2x500000.Slices ![1, 0] S1x500000
  shapeCasts_S1x500000_S500000 : S1x500000.ShapeCasts S500000
  bcast_S_S50000 : S_.BroadcastsInDim S50000 (![] : Fin 0 → Fin S50000.rank)
  bcast_S500000_S500000x1_0 : S500000.BroadcastsInDim S500000x1 (![0] : Fin 1 → Fin S500000x1.rank)
  slices_S2x500000_S1x500000_0_0 : S2x500000.Slices ![0, 0] S1x500000
  bcast_S_S500000 : S_.BroadcastsInDim S500000 (![] : Fin 0 → Fin S500000.rank)
  bcast_S500000x1_S500000x128_0_1 : S500000x1.BroadcastsInDim S500000x128 (![0, 1] : Fin 2 → Fin S500000x128.rank)
  shapeCasts_S50000_S50000x1 : S50000.ShapeCasts S50000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x64_S128x64_0_0 : ∀ a, (![0, 0] : Fin 2 → Nat) a + S128x64.size a ≤ S128x64.size a
  h_S128x64 : 0 < S128x64.numel
  bcast_S_S100000x64 : S_.BroadcastsInDim S100000x64 (![] : Fin 0 → Fin S100000x64.rank)
  bcast_S50000_S50000x1_0 : S50000.BroadcastsInDim S50000x1 (![0] : Fin 1 → Fin S50000x1.rank)
  slices_S2x1000000_S1x1000000_1_0 : S2x1000000.Slices ![1, 0] S1x1000000
  shapeCasts_S1x1000000_S1000000 : S1x1000000.ShapeCasts S1000000
  bcast_S_S100000 : S_.BroadcastsInDim S100000 (![] : Fin 0 → Fin S100000.rank)
  bcast_S1000000_S1000000x1_0 : S1000000.BroadcastsInDim S1000000x1 (![0] : Fin 1 → Fin S1000000x1.rank)
  slices_S2x1000000_S1x1000000_0_0 : S2x1000000.Slices ![0, 0] S1x1000000
  bcast_S_S1000000 : S_.BroadcastsInDim S1000000 (![] : Fin 0 → Fin S1000000.rank)
  bcast_S1000000x1_S1000000x64_0_1 : S1000000x1.BroadcastsInDim S1000000x64 (![0, 1] : Fin 2 → Fin S1000000x64.rank)
  shapeCasts_S100000_S100000x1 : S100000.ShapeCasts S100000x1
  broadcasts_S5000x1_S5000x64 : S5000x1.Broadcasts S5000x64
  gather_S25000x64_S250000x1_S250000x64_1_0_n_n_0_1_164_wf : GatherDims.WF S25000x64 S250000x1 S250000x64 [1] [0] [] [0] [] 1 ![1, 64]
  scatter_S25000x64_S250000x1_S250000x64_1_0_0_1_wf : ScatterDims.WF S25000x64 S250000x1 S250000x64 [1] [0] [0] 1
  dot_S5000x64_S64x64_S5000x64_1_0_0_1_n_n_wf : DotDims.WF S5000x64 S64x64 S5000x64 [1] [0] [0] [1] [] []
  dot_S5000x64_S64x128_S5000x128_1_0_0_1_n_n_wf : DotDims.WF S5000x64 S64x128 S5000x128 [1] [0] [0] [1] [] []
  dot_S5000x128_S128x128_S5000x128_1_0_0_1_n_n_wf : DotDims.WF S5000x128 S128x128 S5000x128 [1] [0] [0] [1] [] []
  dot_S1x128_S128x128_S1x128_1_0_0_1_n_n_wf : DotDims.WF S1x128 S128x128 S1x128 [1] [0] [0] [1] [] []
  scatter_S50000x128_S25000x1_S25000x128_1_0_0_1_wf : ScatterDims.WF S50000x128 S25000x1 S25000x128 [1] [0] [0] 1
  scatter_S50000_S500000x1_S500000_n_0_0_1_wf : ScatterDims.WF S50000 S500000x1 S500000 [] [0] [0] 1
  gather_S50000_S500000x1_S500000_n_0_n_n_0_1_1_wf : GatherDims.WF S50000 S500000x1 S500000 [] [0] [] [0] [] 1 ![1]
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  dot_S5000x128_S128x64_S5000x64_1_0_0_1_n_n_wf : DotDims.WF S5000x128 S128x64 S5000x64 [1] [0] [0] [1] [] []
  scatter_S100000x64_S50000x1_S50000x64_1_0_0_1_wf : ScatterDims.WF S100000x64 S50000x1 S50000x64 [1] [0] [0] 1
  scatter_S100000_S1000000x1_S1000000_n_0_0_1_wf : ScatterDims.WF S100000 S1000000x1 S1000000 [] [0] [0] 1
  gather_S100000_S1000000x1_S1000000_n_0_n_n_0_1_1_wf : GatherDims.WF S100000 S1000000x1 S1000000 [] [0] [] [0] [] 1 ![1]
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S25000x64.size a
  hwx0_0 : ∀ i : grid0.Coords, EltTy.bits .f32 = 32 ∨ (Rect.block (s := S25000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S25000x64.size a
  hwx0_1 : ∀ i : grid0.Coords, EltTy.bits .f32 = 32 ∨ (Rect.block (s := S25000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S25000x64.size a
  hwx0_6 : ∀ i : grid0.Coords, EltTy.bits .f32 = 32 ∨ (Rect.block (s := S25000x64) S5000x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S25000x64.size a
  hwx1_0 : ∀ i : grid1.Coords, EltTy.bits .f32 = 32 ∨ (Rect.block (s := S25000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S25000x64.size a
  hwx1_5 : ∀ i : grid1.Coords, EltTy.bits .f32 = 32 ∨ (Rect.block (s := S25000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S25000x64.size a
  hwx2_0 : ∀ i : grid2.Coords, EltTy.bits .f32 = 32 ∨ (Rect.block (s := S25000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S25000x64.size a
  hwx2_1 : ∀ i : grid2.Coords, EltTy.bits .f32 = 32 ∨ (Rect.block (s := S25000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x128.size a ≤ S64x128.size a
  hwx2_2 : ∀ i : grid2.Coords, EltTy.bits .f32 = 32 ∨ (Rect.block (s := S64x128) S64x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S25000x128.size a
  hwx2_6 : ∀ i : grid2.Coords, EltTy.bits .f32 = 32 ∨ (Rect.block (s := S25000x128) S5000x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S25000x128.size a
  hwx3_0 : ∀ i : grid3.Coords, EltTy.bits .f32 = 32 ∨ (Rect.block (s := S25000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S25000x128.size a
  hwx3_3 : ∀ i : grid3.Coords, EltTy.bits .f32 = 32 ∨ (Rect.block (s := S25000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S50000x1.size a
  hwx4_2 : ∀ i : grid4.Coords, EltTy.bits .f32 = 32 ∨ (Rect.block (s := S50000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S50000x128.size a
  hwx4_4 : ∀ i : grid4.Coords, EltTy.bits .f32 = 32 ∨ (Rect.block (s := S50000x128) S5000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x64.size a ≤ S128x64.size a
  hwx5_1 : ∀ i : grid5.Coords, EltTy.bits .f32 = 32 ∨ (Rect.block (s := S128x64) S128x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S50000x64.size a
  hwx5_2 : ∀ i : grid5.Coords, EltTy.bits .f32 = 32 ∨ (Rect.block (s := S50000x64) S5000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x64.size a ≤ S100000x64.size a
  hwx6_1 : ∀ i : grid6.Coords, EltTy.bits .f32 = 32 ∨ (Rect.block (s := S100000x64) S5000x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x1.size a ≤ S100000x1.size a
  hwx6_2 : ∀ i : grid6.Coords, EltTy.bits .f32 = 32 ∨ (Rect.block (s := S100000x1) S5000x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x64.size a ≤ S100000x64.size a
  hwx6_4 : ∀ i : grid6.Coords, EltTy.bits .f32 = 32 ∨ (Rect.block (s := S100000x64) S5000x64.size (cc6_transform_4 i) (hinb6_4 i)).WholeWords (EltTy.packing .f32)

variable [Facts₀]

def gather_S25000x64_S250000x1_S250000x64_1_0_n_n_0_1_164 : GatherDims S25000x64 S250000x1 S250000x64 where
  offsetDims := [1]
  collapsedSliceDims := [0]
  operandBatchingDims := []
  startIndicesBatchingDims := []
  startIndexMap := [0]
  indexVectorDim := 1
  sliceSizes := ![1, 64]
  wf := gather_S25000x64_S250000x1_S250000x64_1_0_n_n_0_1_164_wf
def scatter_S25000x64_S250000x1_S250000x64_1_0_0_1 : ScatterDims S25000x64 S250000x1 S250000x64 where
  updateWindowDims := [1]
  insertedWindowDims := [0]
  scatterDimsToOperandDims := [0]
  indexVectorDim := 1
  wf := scatter_S25000x64_S250000x1_S250000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def scatter_S50000x128_S25000x1_S25000x128_1_0_0_1 : ScatterDims S50000x128 S25000x1 S25000x128 where
  updateWindowDims := [1]
  insertedWindowDims := [0]
  scatterDimsToOperandDims := [0]
  indexVectorDim := 1
  wf := scatter_S50000x128_S25000x1_S25000x128_1_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S50000_S500000x1_S500000_n_0_n_n_0_1_1 : GatherDims S50000 S500000x1 S500000 where
  offsetDims := []
  collapsedSliceDims := [0]
  operandBatchingDims := []
  startIndicesBatchingDims := []
  startIndexMap := [0]
  indexVectorDim := 1
  sliceSizes := ![1]
  wf := gather_S50000_S500000x1_S500000_n_0_n_n_0_1_1_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def scatter_S100000x64_S50000x1_S50000x64_1_0_0_1 : ScatterDims S100000x64 S50000x1 S50000x64 where
  updateWindowDims := [1]
  insertedWindowDims := [0]
  scatterDimsToOperandDims := [0]
  indexVectorDim := 1
  wf := scatter_S100000x64_S50000x1_S50000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg10) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg12) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16_0) S5000x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v16_1) S1x64.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16_2) S1x64.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v16_0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v27) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg16) S64x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v42) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg18) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v43) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v44_0) S5000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v44_1) S1x128.size cc2_transform_7 reads2_7 true true 1 stage2_7 sem2_7
    hrank2 hreads2_7 hinb2_7 nbuf2_7 (Memref.isWhole_whole _) hwx2_7 hstage2_7

abbrev win2_8 : Pipeline.Window sig grid2 :=
  Pipeline.Window.ofSpec (Memref.whole main_v44_2) S1x128.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v44_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v66) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v67) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v120) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v75) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v124) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v125) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v126) S5000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v126) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg24) S128x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v127) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v180) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v135) S5000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v184) S5000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v185) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v186) S5000x64.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

class Facts : Prop extends Facts₀ where

variable [Facts]
-- ==== ReferenceIdeal.lean ====
abbrev S25000x64 : Shape := ⟨2, ![25000, 64]⟩
abbrev S2x250000 : Shape := ⟨2, ![2, 250000]⟩
abbrev S100000x128 : Shape := ⟨2, ![100000, 128]⟩
abbrev S50000x128 : Shape := ⟨2, ![50000, 128]⟩
abbrev S2x1000000 : Shape := ⟨2, ![2, 1000000]⟩
abbrev S2x500000 : Shape := ⟨2, ![2, 500000]⟩
abbrev S1000000 : Shape := ⟨1, ![1000000]⟩
abbrev S500000 : Shape := ⟨1, ![500000]⟩
abbrev S50000 : Shape := ⟨1, ![50000]⟩
abbrev S25000 : Shape := ⟨1, ![25000]⟩
abbrev S64x64 : Shape := ⟨2, ![64, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S1x250000 : Shape := ⟨2, ![1, 250000]⟩
abbrev S250000 : Shape := ⟨1, ![250000]⟩
abbrev S_ : Shape := ⟨0, ![]⟩
abbrev S250000x1 : Shape := ⟨2, ![250000, 1]⟩
abbrev S250000x64 : Shape := ⟨2, ![250000, 64]⟩
abbrev S1x64 : Shape := ⟨2, ![1, 64]⟩
abbrev S25000x128 : Shape := ⟨2, ![25000, 128]⟩
abbrev S1x128 : Shape := ⟨2, ![1, 128]⟩
abbrev S25000x1 : Shape := ⟨2, ![25000, 1]⟩
abbrev S1x500000 : Shape := ⟨2, ![1, 500000]⟩
abbrev S500000x1 : Shape := ⟨2, ![500000, 1]⟩
abbrev S500000x128 : Shape := ⟨2, ![500000, 128]⟩
abbrev S50000x1 : Shape := ⟨2, ![50000, 1]⟩
abbrev S100000x64 : Shape := ⟨2, ![100000, 64]⟩
abbrev S1x1000000 : Shape := ⟨2, ![1, 1000000]⟩
abbrev S100000 : Shape := ⟨1, ![100000]⟩
abbrev S1000000x1 : Shape := ⟨2, ![1000000, 1]⟩
abbrev S1000000x64 : Shape := ⟨2, ![1000000, 64]⟩
abbrev S100000x1 : Shape := ⟨2, ![100000, 1]⟩

abbrev nBuf : Space → Nat
  | .hbm => 307
  | .vmem => 0
  | .smem => 0
  | _ => 0

abbrev hbmTy0_0 (i : Nat) : BufTy := match i % 128 with
  | 0 => ⟨S25000x64, .f32⟩
  | 1 => ⟨S2x250000, .i32⟩
  | 2 => ⟨S100000x128, .f32⟩
  | 3 => ⟨S50000x128, .f32⟩
  | 4 => ⟨S2x1000000, .i32⟩
  | 5 => ⟨S2x500000, .i32⟩
  | 6 => ⟨S1000000, .f32⟩
  | 7 => ⟨S500000, .f32⟩
  | 8 => ⟨S50000, .i32⟩
  | 9 => ⟨S25000, .i32⟩
  | 10 => ⟨S64x64, .f32⟩
  | 11 => ⟨S64, .f32⟩
  | 12 => ⟨S64x64, .f32⟩
  | 13 => ⟨S64, .f32⟩
  | 14 => ⟨S64, .f32⟩
  | 15 => ⟨S64, .f32⟩
  | 16 => ⟨S64x128, .f32⟩
  | 17 => ⟨S128, .f32⟩
  | 18 => ⟨S128x128, .f32⟩
  | 19 => ⟨S128, .f32⟩
  | 20 => ⟨S128, .f32⟩
  | 21 => ⟨S128, .f32⟩
  | 22 => ⟨S128x128, .f32⟩
  | 23 => ⟨S128, .f32⟩
  | 24 => ⟨S128x64, .f32⟩
  | 25 => ⟨S64, .f32⟩
  | 26 => ⟨S1x250000, .i32⟩
  | 27 => ⟨S250000, .i32⟩
  | 28 => ⟨S_, .i32⟩
  | 29 => ⟨S250000, .i32⟩
  | 30 => ⟨S250000, .i1⟩
  | 31 => ⟨S_, .i32⟩
  | 32 => ⟨S250000, .i32⟩
  | 33 => ⟨S250000, .i32⟩
  | 34 => ⟨S250000, .i32⟩
  | 35 => ⟨S250000x1, .i32⟩
  | 36 => ⟨S250000x64, .f32⟩
  | 37 => ⟨S1x250000, .i32⟩
  | 38 => ⟨S250000, .i32⟩
  | 39 => ⟨S_, .f32⟩
  | 40 => ⟨S25000x64, .f32⟩
  | 41 => ⟨S250000x1, .i32⟩
  | 42 => ⟨S25000x64, .f32⟩
  | 43 => ⟨S25000x64, .f32⟩
  | 44 => ⟨S25000x64, .f32⟩
  | 45 => ⟨S1x64, .f32⟩
  | 46 => ⟨S25000x64, .f32⟩
  | 47 => ⟨S25000x64, .f32⟩
  | 48 => ⟨S_, .f32⟩
  | 49 => ⟨S25000x64, .f32⟩
  | 50 => ⟨S25000x64, .f32⟩
  | 51 => ⟨S25000x64, .f32⟩
  | 52 => ⟨S1x64, .f32⟩
  | 53 => ⟨S25000x64, .f32⟩
  | 54 => ⟨S25000x64, .f32⟩
  | 55 => ⟨S_, .f32⟩
  | 56 => ⟨S25000x64, .f32⟩
  | 57 => ⟨S25000x64, .f32⟩
  | 58 => ⟨S_, .f32⟩
  | 59 => ⟨S64, .f32⟩
  | 60 => ⟨S_, .f32⟩
  | 61 => ⟨S64, .f32⟩
  | 62 => ⟨S64, .f32⟩
  | 63 => ⟨S1x64, .f32⟩
  | 64 => ⟨S25000x64, .f32⟩
  | 65 => ⟨S25000x64, .f32⟩
  | 66 => ⟨S25000x64, .f32⟩
  | 67 => ⟨S_, .f32⟩
  | 68 => ⟨S64, .f32⟩
  | 69 => ⟨S_, .f32⟩
  | 70 => ⟨S64, .f32⟩
  | 71 => ⟨S64, .f32⟩
  | 72 => ⟨S1x64, .f32⟩
  | 73 => ⟨S25000x64, .f32⟩
  | 74 => ⟨S25000x64, .f32⟩
  | 75 => ⟨S1x64, .f32⟩
  | 76 => ⟨S25000x64, .f32⟩
  | 77 => ⟨S25000x64, .f32⟩
  | 78 => ⟨S_, .f32⟩
  | 79 => ⟨S64, .f32⟩
  | 80 => ⟨S64, .f32⟩
  | 81 => ⟨S64, .f32⟩
  | 82 => ⟨S1x64, .f32⟩
  | 83 => ⟨S25000x64, .f32⟩
  | 84 => ⟨S25000x64, .f32⟩
  | 85 => ⟨S1x64, .f32⟩
  | 86 => ⟨S25000x64, .f32⟩
  | 87 => ⟨S25000x64, .f32⟩
  | 88 => ⟨S1x250000, .i32⟩
  | 89 => ⟨S250000, .i32⟩
  | 90 => ⟨S_, .i32⟩
  | 91 => ⟨S250000, .i32⟩
  | 92 => ⟨S250000, .i1⟩
  | 93 => ⟨S_, .i32⟩
  | 94 => ⟨S250000, .i32⟩
  | 95 => ⟨S250000, .i32⟩
  | 96 => ⟨S250000, .i32⟩
  | 97 => ⟨S250000x1, .i32⟩
  | 98 => ⟨S250000x64, .f32⟩
  | 99 => ⟨S1x250000, .i32⟩
  | 100 => ⟨S250000, .i32⟩
  | 101 => ⟨S_, .f32⟩
  | 102 => ⟨S25000x64, .f32⟩
  | 103 => ⟨S250000x1, .i32⟩
  | 104 => ⟨S25000x64, .f32⟩
  | 105 => ⟨S25000x64, .f32⟩
  | 106 => ⟨S25000x128, .f32⟩
  | 107 => ⟨S1x128, .f32⟩
  | 108 => ⟨S25000x128, .f32⟩
  | 109 => ⟨S25000x128, .f32⟩
  | 110 => ⟨S_, .f32⟩
  | 111 => ⟨S25000x128, .f32⟩
  | 112 => ⟨S25000x128, .f32⟩
  | 113 => ⟨S25000x128, .f32⟩
  | 114 => ⟨S1x128, .f32⟩
  | 115 => ⟨S25000x128, .f32⟩
  | 116 => ⟨S25000x128, .f32⟩
  | 117 => ⟨S_, .f32⟩
  | 118 => ⟨S25000x128, .f32⟩
  | 119 => ⟨S25000x128, .f32⟩
  | 120 => ⟨S_, .f32⟩
  | 121 => ⟨S128, .f32⟩
  | 122 => ⟨S_, .f32⟩
  | 123 => ⟨S128, .f32⟩
  | 124 => ⟨S128, .f32⟩
  | 125 => ⟨S1x128, .f32⟩
  | 126 => ⟨S25000x128, .f32⟩
  | 127 => ⟨S25000x128, .f32⟩
  | _ => ⟨S25000x64, .f32⟩

abbrev hbmTy0_1 (i : Nat) : BufTy := match i % 128 with
  | 0 => ⟨S25000x128, .f32⟩
  | 1 => ⟨S_, .f32⟩
  | 2 => ⟨S128, .f32⟩
  | 3 => ⟨S_, .f32⟩
  | 4 => ⟨S128, .f32⟩
  | 5 => ⟨S128, .f32⟩
  | 6 => ⟨S1x128, .f32⟩
  | 7 => ⟨S25000x128, .f32⟩
  | 8 => ⟨S25000x128, .f32⟩
  | 9 => ⟨S1x128, .f32⟩
  | 10 => ⟨S25000x128, .f32⟩
  | 11 => ⟨S25000x128, .f32⟩
  | 12 => ⟨S_, .f32⟩
  | 13 => ⟨S128, .f32⟩
  | 14 => ⟨S128, .f32⟩
  | 15 => ⟨S128, .f32⟩
  | 16 => ⟨S1x128, .f32⟩
  | 17 => ⟨S25000x128, .f32⟩
  | 18 => ⟨S25000x128, .f32⟩
  | 19 => ⟨S1x128, .f32⟩
  | 20 => ⟨S25000x128, .f32⟩
  | 21 => ⟨S25000x128, .f32⟩
  | 22 => ⟨S_, .f32⟩
  | 23 => ⟨S50000x128, .f32⟩
  | 24 => ⟨S_, .i32⟩
  | 25 => ⟨S25000, .i32⟩
  | 26 => ⟨S25000, .i1⟩
  | 27 => ⟨S_, .i32⟩
  | 28 => ⟨S25000, .i32⟩
  | 29 => ⟨S25000, .i32⟩
  | 30 => ⟨S25000, .i32⟩
  | 31 => ⟨S25000x1, .i32⟩
  | 32 => ⟨S50000x128, .f32⟩
  | 33 => ⟨S50000x128, .f32⟩
  | 34 => ⟨S1x500000, .i32⟩
  | 35 => ⟨S500000, .i32⟩
  | 36 => ⟨S_, .f32⟩
  | 37 => ⟨S50000, .f32⟩
  | 38 => ⟨S500000x1, .i32⟩
  | 39 => ⟨S50000, .f32⟩
  | 40 => ⟨S_, .f32⟩
  | 41 => ⟨S50000, .f32⟩
  | 42 => ⟨S50000, .f32⟩
  | 43 => ⟨S50000, .f32⟩
  | 44 => ⟨S1x500000, .i32⟩
  | 45 => ⟨S500000, .i32⟩
  | 46 => ⟨S_, .i32⟩
  | 47 => ⟨S500000, .i32⟩
  | 48 => ⟨S500000, .i1⟩
  | 49 => ⟨S_, .i32⟩
  | 50 => ⟨S500000, .i32⟩
  | 51 => ⟨S500000, .i32⟩
  | 52 => ⟨S500000, .i32⟩
  | 53 => ⟨S500000x1, .i32⟩
  | 54 => ⟨S500000, .f32⟩
  | 55 => ⟨S500000, .f32⟩
  | 56 => ⟨S1x500000, .i32⟩
  | 57 => ⟨S500000, .i32⟩
  | 58 => ⟨S_, .i32⟩
  | 59 => ⟨S500000, .i32⟩
  | 60 => ⟨S500000, .i1⟩
  | 61 => ⟨S_, .i32⟩
  | 62 => ⟨S500000, .i32⟩
  | 63 => ⟨S500000, .i32⟩
  | 64 => ⟨S500000, .i32⟩
  | 65 => ⟨S500000x1, .i32⟩
  | 66 => ⟨S500000, .f32⟩
  | 67 => ⟨S500000, .f32⟩
  | 68 => ⟨S500000x1, .f32⟩
  | 69 => ⟨S1x500000, .i32⟩
  | 70 => ⟨S500000, .i32⟩
  | 71 => ⟨S_, .i32⟩
  | 72 => ⟨S500000, .i32⟩
  | 73 => ⟨S500000, .i1⟩
  | 74 => ⟨S_, .i32⟩
  | 75 => ⟨S500000, .i32⟩
  | 76 => ⟨S500000, .i32⟩
  | 77 => ⟨S500000, .i32⟩
  | 78 => ⟨S500000x1, .i32⟩
  | 79 => ⟨S500000x128, .f32⟩
  | 80 => ⟨S500000x128, .f32⟩
  | 81 => ⟨S500000x128, .f32⟩
  | 82 => ⟨S1x500000, .i32⟩
  | 83 => ⟨S500000, .i32⟩
  | 84 => ⟨S_, .f32⟩
  | 85 => ⟨S50000x128, .f32⟩
  | 86 => ⟨S500000x1, .i32⟩
  | 87 => ⟨S50000x128, .f32⟩
  | 88 => ⟨S_, .f32⟩
  | 89 => ⟨S50000, .f32⟩
  | 90 => ⟨S50000, .f32⟩
  | 91 => ⟨S50000, .f32⟩
  | 92 => ⟨S50000x1, .f32⟩
  | 93 => ⟨S50000x128, .f32⟩
  | 94 => ⟨S50000x128, .f32⟩
  | 95 => ⟨S50000x128, .f32⟩
  | 96 => ⟨S1x128, .f32⟩
  | 97 => ⟨S50000x128, .f32⟩
  | 98 => ⟨S50000x128, .f32⟩
  | 99 => ⟨S_, .f32⟩
  | 100 => ⟨S50000x128, .f32⟩
  | 101 => ⟨S50000x128, .f32⟩
  | 102 => ⟨S_, .f32⟩
  | 103 => ⟨S100000x128, .f32⟩
  | 104 => ⟨S_, .i32⟩
  | 105 => ⟨S50000, .i32⟩
  | 106 => ⟨S50000, .i1⟩
  | 107 => ⟨S_, .i32⟩
  | 108 => ⟨S50000, .i32⟩
  | 109 => ⟨S50000, .i32⟩
  | 110 => ⟨S50000, .i32⟩
  | 111 => ⟨S50000x1, .i32⟩
  | 112 => ⟨S100000x128, .f32⟩
  | 113 => ⟨S100000x64, .f32⟩
  | 114 => ⟨S1x1000000, .i32⟩
  | 115 => ⟨S1000000, .i32⟩
  | 116 => ⟨S_, .f32⟩
  | 117 => ⟨S100000, .f32⟩
  | 118 => ⟨S1000000x1, .i32⟩
  | 119 => ⟨S100000, .f32⟩
  | 120 => ⟨S_, .f32⟩
  | 121 => ⟨S100000, .f32⟩
  | 122 => ⟨S100000, .f32⟩
  | 123 => ⟨S100000, .f32⟩
  | 124 => ⟨S1x1000000, .i32⟩
  | 125 => ⟨S1000000, .i32⟩
  | 126 => ⟨S_, .i32⟩
  | 127 => ⟨S1000000, .i32⟩
  | _ => ⟨S25000x64, .f32⟩

abbrev hbmTy0_2 (i : Nat) : BufTy := match i % 128 with
  | 0 => ⟨S1000000, .i1⟩
  | 1 => ⟨S_, .i32⟩
  | 2 => ⟨S1000000, .i32⟩
  | 3 => ⟨S1000000, .i32⟩
  | 4 => ⟨S1000000, .i32⟩
  | 5 => ⟨S1000000x1, .i32⟩
  | 6 => ⟨S1000000, .f32⟩
  | 7 => ⟨S1000000, .f32⟩
  | 8 => ⟨S1x1000000, .i32⟩
  | 9 => ⟨S1000000, .i32⟩
  | 10 => ⟨S_, .i32⟩
  | 11 => ⟨S1000000, .i32⟩
  | 12 => ⟨S1000000, .i1⟩
  | 13 => ⟨S_, .i32⟩
  | 14 => ⟨S1000000, .i32⟩
  | 15 => ⟨S1000000, .i32⟩
  | 16 => ⟨S1000000, .i32⟩
  | 17 => ⟨S1000000x1, .i32⟩
  | 18 => ⟨S1000000, .f32⟩
  | 19 => ⟨S1000000, .f32⟩
  | 20 => ⟨S1000000x1, .f32⟩
  | 21 => ⟨S1x1000000, .i32⟩
  | 22 => ⟨S1000000, .i32⟩
  | 23 => ⟨S_, .i32⟩
  | 24 => ⟨S1000000, .i32⟩
  | 25 => ⟨S1000000, .i1⟩
  | 26 => ⟨S_, .i32⟩
  | 27 => ⟨S1000000, .i32⟩
  | 28 => ⟨S1000000, .i32⟩
  | 29 => ⟨S1000000, .i32⟩
  | 30 => ⟨S1000000x1, .i32⟩
  | 31 => ⟨S1000000x64, .f32⟩
  | 32 => ⟨S1000000x64, .f32⟩
  | 33 => ⟨S1000000x64, .f32⟩
  | 34 => ⟨S1x1000000, .i32⟩
  | 35 => ⟨S1000000, .i32⟩
  | 36 => ⟨S_, .f32⟩
  | 37 => ⟨S100000x64, .f32⟩
  | 38 => ⟨S1000000x1, .i32⟩
  | 39 => ⟨S100000x64, .f32⟩
  | 40 => ⟨S_, .f32⟩
  | 41 => ⟨S100000, .f32⟩
  | 42 => ⟨S100000, .f32⟩
  | 43 => ⟨S100000, .f32⟩
  | 44 => ⟨S100000x1, .f32⟩
  | 45 => ⟨S100000x64, .f32⟩
  | 46 => ⟨S100000x64, .f32⟩
  | 47 => ⟨S100000x64, .f32⟩
  | 48 => ⟨S1x64, .f32⟩
  | 49 => ⟨S100000x64, .f32⟩
  | 50 => ⟨S100000x64, .f32⟩
  | _ => ⟨S25000x64, .f32⟩

abbrev hbmTy (i : Nat) : BufTy := match i / 128 with
  | 0 => hbmTy0_0 i
  | 1 => hbmTy0_1 i
  | 2 => hbmTy0_2 i
  | _ => ⟨S25000x64, .f32⟩

abbrev bufTy : (tb : Table) → Fin (tcTables nBuf tb) → BufTy
  | .hbm, ⟨i, _⟩ => hbmTy i
  | _, _ => ⟨S25000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_c : Ref sig .tc := ⟨.hbm, 28, rfl⟩
abbrev main_v2 : Ref sig .tc := ⟨.hbm, 29, rfl⟩
abbrev main_v3 : Ref sig .tc := ⟨.hbm, 30, rfl⟩
abbrev main_c_0 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_cst_1 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_cst_2 : Ref sig .tc := ⟨.hbm, 55, rfl⟩
abbrev main_v25 : Ref sig .tc := ⟨.hbm, 56, rfl⟩
abbrev main_v26 : Ref sig .tc := ⟨.hbm, 57, rfl⟩
abbrev main_cst_3 : Ref sig .tc := ⟨.hbm, 58, rfl⟩
abbrev main_v27 : Ref sig .tc := ⟨.hbm, 59, rfl⟩
abbrev main_cst_4 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_cst_5 : Ref sig .tc := ⟨.hbm, 67, rfl⟩
abbrev main_v34 : Ref sig .tc := ⟨.hbm, 68, rfl⟩
abbrev main_cst_6 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_cst_7 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_c_8 : Ref sig .tc := ⟨.hbm, 90, rfl⟩
abbrev main_v54 : Ref sig .tc := ⟨.hbm, 91, rfl⟩
abbrev main_v55 : Ref sig .tc := ⟨.hbm, 92, rfl⟩
abbrev main_c_9 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_cst_10 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_cst_11 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_cst_12 : Ref sig .tc := ⟨.hbm, 117, rfl⟩
abbrev main_v77 : Ref sig .tc := ⟨.hbm, 118, rfl⟩
abbrev main_v78 : Ref sig .tc := ⟨.hbm, 119, rfl⟩
abbrev main_cst_13 : Ref sig .tc := ⟨.hbm, 120, rfl⟩
abbrev main_v79 : Ref sig .tc := ⟨.hbm, 121, rfl⟩
abbrev main_cst_14 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_cst_15 : Ref sig .tc := ⟨.hbm, 129, rfl⟩
abbrev main_v86 : Ref sig .tc := ⟨.hbm, 130, rfl⟩
abbrev main_cst_16 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_cst_17 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_cst_18 : Ref sig .tc := ⟨.hbm, 150, rfl⟩
abbrev main_v104 : Ref sig .tc := ⟨.hbm, 151, rfl⟩
abbrev main_c_19 : Ref sig .tc := ⟨.hbm, 152, rfl⟩
abbrev main_v105 : Ref sig .tc := ⟨.hbm, 153, rfl⟩
abbrev main_v106 : Ref sig .tc := ⟨.hbm, 154, rfl⟩
abbrev main_c_20 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_cst_21 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_cst_22 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_c_23 : Ref sig .tc := ⟨.hbm, 174, rfl⟩
abbrev main_v123 : Ref sig .tc := ⟨.hbm, 175, rfl⟩
abbrev main_v124 : Ref sig .tc := ⟨.hbm, 176, rfl⟩
abbrev main_c_24 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_c_25 : Ref sig .tc := ⟨.hbm, 186, rfl⟩
abbrev main_v133 : Ref sig .tc := ⟨.hbm, 187, rfl⟩
abbrev main_v134 : Ref sig .tc := ⟨.hbm, 188, rfl⟩
abbrev main_c_26 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_c_27 : Ref sig .tc := ⟨.hbm, 199, rfl⟩
abbrev main_v144 : Ref sig .tc := ⟨.hbm, 200, rfl⟩
abbrev main_v145 : Ref sig .tc := ⟨.hbm, 201, rfl⟩
abbrev main_c_28 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_cst_29 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_cst_30 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_cst_31 : Ref sig .tc := ⟨.hbm, 227, rfl⟩
abbrev main_v168 : Ref sig .tc := ⟨.hbm, 228, rfl⟩
abbrev main_v169 : Ref sig .tc := ⟨.hbm, 229, rfl⟩
abbrev main_cst_32 : Ref sig .tc := ⟨.hbm, 230, rfl⟩
abbrev main_v170 : Ref sig .tc := ⟨.hbm, 231, rfl⟩
abbrev main_c_33 : Ref sig .tc := ⟨.hbm, 232, rfl⟩
abbrev main_v171 : Ref sig .tc := ⟨.hbm, 233, rfl⟩
abbrev main_v172 : Ref sig .tc := ⟨.hbm, 234, rfl⟩
abbrev main_c_34 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_v178 : Ref sig .tc := ⟨.hbm, 241, rfl⟩
abbrev main_v179 : Ref sig .tc := ⟨.hbm, 242, rfl⟩
abbrev main_v180 : Ref sig .tc := ⟨.hbm, 243, rfl⟩
abbrev main_cst_35 : Ref sig .tc := ⟨.hbm, 244, rfl⟩
abbrev main_v181 : Ref sig .tc := ⟨.hbm, 245, rfl⟩
abbrev main_v182 : Ref sig .tc := ⟨.hbm, 246, rfl⟩
abbrev main_v183 : Ref sig .tc := ⟨.hbm, 247, rfl⟩
abbrev main_cst_36 : Ref sig .tc := ⟨.hbm, 248, rfl⟩
abbrev main_v184 : Ref sig .tc := ⟨.hbm, 249, rfl⟩
abbrev main_v185 : Ref sig .tc := ⟨.hbm, 250, rfl⟩
abbrev main_v186 : Ref sig .tc := ⟨.hbm, 251, rfl⟩
abbrev main_v187 : Ref sig .tc := ⟨.hbm, 252, rfl⟩
abbrev main_v188 : Ref sig .tc := ⟨.hbm, 253, rfl⟩
abbrev main_c_37 : Ref sig .tc := ⟨.hbm, 254, rfl⟩
abbrev main_v189 : Ref sig .tc := ⟨.hbm, 255, rfl⟩
abbrev main_v190 : Ref sig .tc := ⟨.hbm, 256, rfl⟩
abbrev main_c_38 : Ref sig .tc := ⟨.hbm, 257, rfl⟩
abbrev main_v191 : Ref sig .tc := ⟨.hbm, 258, rfl⟩
abbrev main_v192 : Ref sig .tc := ⟨.hbm, 259, rfl⟩
abbrev main_v193 : Ref sig .tc := ⟨.hbm, 260, rfl⟩
abbrev main_v194 : Ref sig .tc := ⟨.hbm, 261, rfl⟩
abbrev main_v195 : Ref sig .tc := ⟨.hbm, 262, rfl⟩
abbrev main_v196 : Ref sig .tc := ⟨.hbm, 263, rfl⟩
abbrev main_v197 : Ref sig .tc := ⟨.hbm, 264, rfl⟩
abbrev main_v198 : Ref sig .tc := ⟨.hbm, 265, rfl⟩
abbrev main_c_39 : Ref sig .tc := ⟨.hbm, 266, rfl⟩
abbrev main_v199 : Ref sig .tc := ⟨.hbm, 267, rfl⟩
abbrev main_v200 : Ref sig .tc := ⟨.hbm, 268, rfl⟩
abbrev main_c_40 : Ref sig .tc := ⟨.hbm, 269, rfl⟩
abbrev main_v201 : Ref sig .tc := ⟨.hbm, 270, rfl⟩
abbrev main_v202 : Ref sig .tc := ⟨.hbm, 271, rfl⟩
abbrev main_v203 : Ref sig .tc := ⟨.hbm, 272, rfl⟩
abbrev main_v204 : Ref sig .tc := ⟨.hbm, 273, rfl⟩
abbrev main_v205 : Ref sig .tc := ⟨.hbm, 274, rfl⟩
abbrev main_v206 : Ref sig .tc := ⟨.hbm, 275, rfl⟩
abbrev main_v207 : Ref sig .tc := ⟨.hbm, 276, rfl⟩
abbrev main_v208 : Ref sig .tc := ⟨.hbm, 277, rfl⟩
abbrev main_v209 : Ref sig .tc := ⟨.hbm, 278, rfl⟩
abbrev main_c_41 : Ref sig .tc := ⟨.hbm, 279, rfl⟩
abbrev main_v210 : Ref sig .tc := ⟨.hbm, 280, rfl⟩
abbrev main_v211 : Ref sig .tc := ⟨.hbm, 281, rfl⟩
abbrev main_c_42 : Ref sig .tc := ⟨.hbm, 282, rfl⟩
abbrev main_v212 : Ref sig .tc := ⟨.hbm, 283, rfl⟩
abbrev main_v213 : Ref sig .tc := ⟨.hbm, 284, rfl⟩
abbrev main_v214 : Ref sig .tc := ⟨.hbm, 285, rfl⟩
abbrev main_v215 : Ref sig .tc := ⟨.hbm, 286, rfl⟩
abbrev main_v216 : Ref sig .tc := ⟨.hbm, 287, rfl⟩
abbrev main_v217 : Ref sig .tc := ⟨.hbm, 288, rfl⟩
abbrev main_v218 : Ref sig .tc := ⟨.hbm, 289, rfl⟩
abbrev main_v219 : Ref sig .tc := ⟨.hbm, 290, rfl⟩
abbrev main_v220 : Ref sig .tc := ⟨.hbm, 291, rfl⟩
abbrev main_cst_43 : Ref sig .tc := ⟨.hbm, 292, rfl⟩
abbrev main_v221 : Ref sig .tc := ⟨.hbm, 293, rfl⟩
abbrev main_v222 : Ref sig .tc := ⟨.hbm, 294, rfl⟩
abbrev main_v223 : Ref sig .tc := ⟨.hbm, 295, rfl⟩
abbrev main_cst_44 : Ref sig .tc := ⟨.hbm, 296, rfl⟩
abbrev main_v224 : Ref sig .tc := ⟨.hbm, 297, rfl⟩
abbrev main_v225 : Ref sig .tc := ⟨.hbm, 298, rfl⟩
abbrev main_v226 : Ref sig .tc := ⟨.hbm, 299, rfl⟩
abbrev main_v227 : Ref sig .tc := ⟨.hbm, 300, rfl⟩
abbrev main_v228 : Ref sig .tc := ⟨.hbm, 301, rfl⟩
abbrev main_v229 : Ref sig .tc := ⟨.hbm, 302, rfl⟩
abbrev main_v230 : Ref sig .tc := ⟨.hbm, 303, rfl⟩
abbrev main_v231 : Ref sig .tc := ⟨.hbm, 304, rfl⟩
abbrev main_v232 : Ref sig .tc := ⟨.hbm, 305, rfl⟩
abbrev main_v233 : Ref sig .tc := ⟨.hbm, 306, rfl⟩

abbrev nD : Nat := 1
abbrev τ : Topo := Topo.v7x

variable {F : FTy → Type} [FloatOps F]

class Facts₀ : Prop where
  slices_S2x250000_S1x250000_0_0 : S2x250000.Slices ![0, 0] S1x250000
  shapeCasts_S1x250000_S250000 : S1x250000.ShapeCasts S250000
  bcast_S_S250000 : S_.BroadcastsInDim S250000 (![] : Fin 0 → Fin S250000.rank)
  bcast_S250000_S250000x1_0 : S250000.BroadcastsInDim S250000x1 (![0] : Fin 1 → Fin S250000x1.rank)
  slices_S2x250000_S1x250000_1_0 : S2x250000.Slices ![1, 0] S1x250000
  bcast_S_S25000x64 : S_.BroadcastsInDim S25000x64 (![] : Fin 0 → Fin S25000x64.rank)
  bcast_S64_S1x64_1 : S64.BroadcastsInDim S1x64 (![1] : Fin 1 → Fin S1x64.rank)
  bcast_S1x64_S25000x64_0_1 : S1x64.BroadcastsInDim S25000x64 (![0, 1] : Fin 2 → Fin S25000x64.rank)
  reducesTo_S25000x64_S64_d0 : S25000x64.ReducesTo [0] S64
  h_S_ : 0 < S_.numel
  bcast_S_S64 : S_.BroadcastsInDim S64 (![] : Fin 0 → Fin S64.rank)
  bcast_S128_S1x128_1 : S128.BroadcastsInDim S1x128 (![1] : Fin 1 → Fin S1x128.rank)
  bcast_S1x128_S25000x128_0_1 : S1x128.BroadcastsInDim S25000x128 (![0, 1] : Fin 2 → Fin S25000x128.rank)
  bcast_S_S25000x128 : S_.BroadcastsInDim S25000x128 (![] : Fin 0 → Fin S25000x128.rank)
  reducesTo_S25000x128_S128_d0 : S25000x128.ReducesTo [0] S128
  bcast_S_S128 : S_.BroadcastsInDim S128 (![] : Fin 0 → Fin S128.rank)
  bcast_S_S50000x128 : S_.BroadcastsInDim S50000x128 (![] : Fin 0 → Fin S50000x128.rank)
  bcast_S_S25000 : S_.BroadcastsInDim S25000 (![] : Fin 0 → Fin S25000.rank)
  bcast_S25000_S25000x1_0 : S25000.BroadcastsInDim S25000x1 (![0] : Fin 1 → Fin S25000x1.rank)
  slices_S2x500000_S1x500000_1_0 : S2x500000.Slices ![1, 0] S1x500000
  shapeCasts_S1x500000_S500000 : S1x500000.ShapeCasts S500000
  bcast_S_S50000 : S_.BroadcastsInDim S50000 (![] : Fin 0 → Fin S50000.rank)
  bcast_S500000_S500000x1_0 : S500000.BroadcastsInDim S500000x1 (![0] : Fin 1 → Fin S500000x1.rank)
  slices_S2x500000_S1x500000_0_0 : S2x500000.Slices ![0, 0] S1x500000
  bcast_S_S500000 : S_.BroadcastsInDim S500000 (![] : Fin 0 → Fin S500000.rank)
  bcast_S500000x1_S500000x128_0_1 : S500000x1.BroadcastsInDim S500000x128 (![0, 1] : Fin 2 → Fin S500000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S1x128_S50000x128_0_1 : S1x128.BroadcastsInDim S50000x128 (![0, 1] : Fin 2 → Fin S50000x128.rank)
  bcast_S_S100000x128 : S_.BroadcastsInDim S100000x128 (![] : Fin 0 → Fin S100000x128.rank)
  slices_S2x1000000_S1x1000000_1_0 : S2x1000000.Slices ![1, 0] S1x1000000
  shapeCasts_S1x1000000_S1000000 : S1x1000000.ShapeCasts S1000000
  bcast_S_S100000 : S_.BroadcastsInDim S100000 (![] : Fin 0 → Fin S100000.rank)
  bcast_S1000000_S1000000x1_0 : S1000000.BroadcastsInDim S1000000x1 (![0] : Fin 1 → Fin S1000000x1.rank)
  slices_S2x1000000_S1x1000000_0_0 : S2x1000000.Slices ![0, 0] S1x1000000
  bcast_S_S1000000 : S_.BroadcastsInDim S1000000 (![] : Fin 0 → Fin S1000000.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S1x64_S100000x64_0_1 : S1x64.BroadcastsInDim S100000x64 (![0, 1] : Fin 2 → Fin S100000x64.rank)
  gather_S25000x64_S250000x1_S250000x64_1_0_n_n_0_1_164_wf : GatherDims.WF S25000x64 S250000x1 S250000x64 [1] [0] [] [0] [] 1 ![1, 64]
  scatter_S25000x64_S250000x1_S250000x64_1_0_0_1_wf : ScatterDims.WF S25000x64 S250000x1 S250000x64 [1] [0] [0] 1
  dot_S25000x64_S64x64_S25000x64_1_0_0_1_n_n_wf : DotDims.WF S25000x64 S64x64 S25000x64 [1] [0] [0] [1] [] []
  dot_S25000x64_S64x128_S25000x128_1_0_0_1_n_n_wf : DotDims.WF S25000x64 S64x128 S25000x128 [1] [0] [0] [1] [] []
  dot_S25000x128_S128x128_S25000x128_1_0_0_1_n_n_wf : DotDims.WF S25000x128 S128x128 S25000x128 [1] [0] [0] [1] [] []
  scatter_S50000x128_S25000x1_S25000x128_1_0_0_1_wf : ScatterDims.WF S50000x128 S25000x1 S25000x128 [1] [0] [0] 1
  dot_S50000x128_S128x128_S50000x128_1_0_0_1_n_n_wf : DotDims.WF S50000x128 S128x128 S50000x128 [1] [0] [0] [1] [] []
  scatter_S50000_S500000x1_S500000_n_0_0_1_wf : ScatterDims.WF S50000 S500000x1 S500000 [] [0] [0] 1
  gather_S50000_S500000x1_S500000_n_0_n_n_0_1_1_wf : GatherDims.WF S50000 S500000x1 S500000 [] [0] [] [0] [] 1 ![1]
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  scatter_S100000x128_S50000x1_S50000x128_1_0_0_1_wf : ScatterDims.WF S100000x128 S50000x1 S50000x128 [1] [0] [0] 1
  dot_S100000x128_S128x64_S100000x64_1_0_0_1_n_n_wf : DotDims.WF S100000x128 S128x64 S100000x64 [1] [0] [0] [1] [] []
  scatter_S100000_S1000000x1_S1000000_n_0_0_1_wf : ScatterDims.WF S100000 S1000000x1 S1000000 [] [0] [0] 1
  gather_S100000_S1000000x1_S1000000_n_0_n_n_0_1_1_wf : GatherDims.WF S100000 S1000000x1 S1000000 [] [0] [] [0] [] 1 ![1]
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1

variable [Facts₀]

def gather_S25000x64_S250000x1_S250000x64_1_0_n_n_0_1_164 : GatherDims S25000x64 S250000x1 S250000x64 where
  offsetDims := [1]
  collapsedSliceDims := [0]
  operandBatchingDims := []
  startIndicesBatchingDims := []
  startIndexMap := [0]
  indexVectorDim := 1
  sliceSizes := ![1, 64]
  wf := gather_S25000x64_S250000x1_S250000x64_1_0_n_n_0_1_164_wf
def scatter_S25000x64_S250000x1_S250000x64_1_0_0_1 : ScatterDims S25000x64 S250000x1 S250000x64 where
  updateWindowDims := [1]
  insertedWindowDims := [0]
  scatterDimsToOperandDims := [0]
  indexVectorDim := 1
  wf := scatter_S25000x64_S250000x1_S250000x64_1_0_0_1_wf
def dot_S25000x64_S64x64_S25000x64_1_0_0_1_n_n : DotDims S25000x64 S64x64 S25000x64 where
  lhsContracting := [1]
  rhsContracting := [0]
  lhsNonContracting := [0]
  rhsNonContracting := [1]
  lhsBatch := []
  rhsBatch := []
  wf := dot_S25000x64_S64x64_S25000x64_1_0_0_1_n_n_wf
def dot_S25000x64_S64x128_S25000x128_1_0_0_1_n_n : DotDims S25000x64 S64x128 S25000x128 where
  lhsContracting := [1]
  rhsContracting := [0]
  lhsNonContracting := [0]
  rhsNonContracting := [1]
  lhsBatch := []
  rhsBatch := []
  wf := dot_S25000x64_S64x128_S25000x128_1_0_0_1_n_n_wf
def dot_S25000x128_S128x128_S25000x128_1_0_0_1_n_n : DotDims S25000x128 S128x128 S25000x128 where
  lhsContracting := [1]
  rhsContracting := [0]
  lhsNonContracting := [0]
  rhsNonContracting := [1]
  lhsBatch := []
  rhsBatch := []
  wf := dot_S25000x128_S128x128_S25000x128_1_0_0_1_n_n_wf
def scatter_S50000x128_S25000x1_S25000x128_1_0_0_1 : ScatterDims S50000x128 S25000x1 S25000x128 where
  updateWindowDims := [1]
  insertedWindowDims := [0]
  scatterDimsToOperandDims := [0]
  indexVectorDim := 1
  wf := scatter_S50000x128_S25000x1_S25000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S50000_S500000x1_S500000_n_0_n_n_0_1_1 : GatherDims S50000 S500000x1 S500000 where
  offsetDims := []
  collapsedSliceDims := [0]
  operandBatchingDims := []
  startIndicesBatchingDims := []
  startIndexMap := [0]
  indexVectorDim := 1
  sliceSizes := ![1]
  wf := gather_S50000_S500000x1_S500000_n_0_n_n_0_1_1_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def scatter_S100000x128_S50000x1_S50000x128_1_0_0_1 : ScatterDims S100000x128 S50000x1 S50000x128 where
  updateWindowDims := [1]
  insertedWindowDims := [0]
  scatterDimsToOperandDims := [0]
  indexVectorDim := 1
  wf := scatter_S100000x128_S50000x1_S50000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

class Facts : Prop extends Facts₀ where

variable [Facts]
-- ==== Proof.KernelRun.lean ====
/-
  The idealized kernel's run with EVERY unscoped buffer of the final memory named: @main is thirteen segments (six
  stretches of host operations and seven kernel regions); the contents of the TensorCore's buffers at each segment
  boundary are a fold from the launch memory, and after the last region every unscoped buffer holds the fold's last
  stage. The frame certificate reads only the argument arrays off that stage; here the whole stage is kept, so that
  the result array can be read off it as well.
-/
import proofs.«160706_j53919019434042_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and in the final memory every unscoped
    buffer of every core holds the last stage of the fold through @main's thirteen segments. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h => h)

end Cert.KernelIdeal.RunValue

end
-- ==== Proof.LibMatmulEntry.lean ====
/-
  A `tpu.matmul` of two rank-2 operands into the zero accumulator, read at ONE ENTRY of its result at the ideal values,
  as a plain sum over `Fin K` of the two operands' entries — for the two layouts a dense layer meets:

  * `matmul_rows_cols`: `[M, K] × [K, N] → [M, N]`, contracting the left operand's axis 1 with the right operand's
    axis 0 (rows times columns): entry `(p, q)` is `Σ_k a[p, k] · b[k, q]`;
  * `matmul_cols_rows`: `[K, N] × [M, K] → [N, M]`, contracting the left operand's axis 0 with the right operand's
    axis 1 (both operands transposed): entry `(q, p)` is `Σ_k a[k, q] · b[p, k]`.

  Each is stated for ANY dimension-number record with those six lists, whatever its name and well-formedness proof, and
  for any extents and operand formats. The contraction's own index type is re-indexed to `Fin K` through its one
  coordinate; on an axis that is not contracted an operand's index is the result index's coordinate, which is what the
  two small lemmas on `DotDims.lhsIdx` / `rhsIdx` say.
-/
import Idealize.ShloMosaic.PureOps.Ideal.Laws
import Idealize.ShloMosaic.Lib.ValueIdx

noncomputable section

open scoped BigOperators

namespace Idealize.ShloMosaic.DotDims

variable {sl sr so : Shape} (d : DotDims sl sr so)

/-- On a left axis that is kept (not batch, not contracted) the left operand's index is the result index's coordinate at
    that axis's position among the result's axes. -/
theorem lhsIdx_val_of_kept {a : Fin sl.rank} (hb : a ∉ d.lhsBatch) (hn : a ∈ d.lhsNonContracting) (j : so.Idx)
    (k : d.contr.Idx) (p : Nat) (hp : p < so.rank) (hpe : d.lhsBatch.length + d.lhsNonContracting.idxOf a = p) :
    (d.lhsIdx j k a).val = (j ⟨p, hp⟩).val := by
  subst hpe
  unfold lhsIdx
  rw [dif_neg hb, dif_pos hn]
  rfl

/-- The same for the right operand, whose kept axes come after the left operand's among the result's. -/
theorem rhsIdx_val_of_kept {a : Fin sr.rank} (hb : a ∉ d.rhsBatch) (hn : a ∈ d.rhsNonContracting) (j : so.Idx)
    (k : d.contr.Idx) (p : Nat) (hp : p < so.rank)
    (hpe : d.lhsBatch.length + d.lhsNonContracting.length + d.rhsNonContracting.idxOf a = p) :
    (d.rhsIdx j k a).val = (j ⟨p, hp⟩).val := by
  subst hpe
  unfold rhsIdx
  rw [dif_neg hb, dif_pos hn]
  rfl

end Idealize.ShloMosaic.DotDims

namespace Idealize.ShloMosaic.Ideal

open Idealize.ShloMosaic.ValueIdx

/-- Rows times columns: `[M, K] × [K, N] → [M, N]` into the zero accumulator, at entry `(p, q)`. -/
theorem matmul_rows_cols {M K N : Nat} {φ₁ φ₂ : FTy} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (prec : Option ContractPrecision) (a : FVec Ideal ⟨2, ![M, K]⟩ φ₁) (b : FVec Ideal ⟨2, ![K, N]⟩ φ₂)
    (p : Fin M) (q : Fin N) :
    FloatOps.matmul D prec a b (constant ⟨2, ![M, N]⟩ .f32 0x00000000#32) (ix2 p q)
      = ∑ k : Fin K, a (ix2 p k) * b (ix2 k q) := by
  have hr : D.contr.rank = 1 := by rw [D.rank_contr, hlc]; rfl
  have hs : D.contr.size ⟨0, by omega⟩ = K := by
    have h := D.size_contr 0 (by rw [hlc]; exact Nat.one_pos)
    simp only [hlc, List.getElem_cons_zero] at h
    exact h
  rw [matmul_constant_zero_apply, ← Equiv.sum_comp (contrEquiv1 D K hr hs).symm]
  refine Finset.sum_congr rfl fun k _ => ?_
  have ea : D.lhsIdx (ix2 p q) ((contrEquiv1 D K hr hs).symm k) = ix2 p k := by
    funext ax
    refine Fin.ext ?_
    match ax with
    | ⟨0, _⟩ =>
      exact D.lhsIdx_val_of_kept (a := (0 : Fin 2)) (by rw [hlb]; exact List.not_mem_nil) (by rw [hln]; exact List.mem_singleton.mpr rfl)
        _ _ 0 Nat.zero_lt_two (by rw [hlb, hln]; rfl)
    | ⟨1, _⟩ =>
      exact (D.lhsIdx_val_of_single (cl := (1 : Fin 2)) hlc _ _).trans (contrEquiv1_symm_val D K hr hs k)
  have eb : D.rhsIdx (ix2 p q) ((contrEquiv1 D K hr hs).symm k) = ix2 k q := by
    funext ax
    refine Fin.ext ?_
    match ax with
    | ⟨0, _⟩ =>
      exact (D.rhsIdx_val_of_single (cr := (0 : Fin 2)) hrc _ _).trans (contrEquiv1_symm_val D K hr hs k)
    | ⟨1, _⟩ =>
      exact D.rhsIdx_val_of_kept (a := (1 : Fin 2)) (by rw [hrb]; exact List.not_mem_nil) (by rw [hrn]; exact List.mem_singleton.mpr rfl)
        _ _ 1 Nat.one_lt_two (by rw [hlb, hln, hrn]; rfl)
  rw [ea, eb]

/-- Both operands transposed: `[K, N] × [M, K] → [N, M]` into the zero accumulator, at entry `(q, p)`. -/
theorem matmul_cols_rows {M K N : Nat} {φ₁ φ₂ : FTy} (D : DotDims ⟨2, ![K, N]⟩ ⟨2, ![M, K]⟩ ⟨2, ![N, M]⟩)
    (hlb : D.lhsBatch = []) (hln : D.lhsNonContracting = [1]) (hlc : D.lhsContracting = [0])
    (hrb : D.rhsBatch = []) (hrn : D.rhsNonContracting = [0]) (hrc : D.rhsContracting = [1])
    (prec : Option ContractPrecision) (a : FVec Ideal ⟨2, ![K, N]⟩ φ₁) (b : FVec Ideal ⟨2, ![M, K]⟩ φ₂)
    (q : Fin N) (p : Fin M) :
    FloatOps.matmul D prec a b (constant ⟨2, ![N, M]⟩ .f32 0x00000000#32) (ix2 q p)
      = ∑ k : Fin K, a (ix2 k q) * b (ix2 p k) := by
  have hr : D.contr.rank = 1 := by rw [D.rank_contr, hlc]; rfl
  have hs : D.contr.size ⟨0, by omega⟩ = K := by
    have h := D.size_contr 0 (by rw [hlc]; exact Nat.one_pos)
    simp only [hlc, List.getElem_cons_zero] at h
    exact h
  rw [matmul_constant_zero_apply, ← Equiv.sum_comp (contrEquiv1 D K hr hs).symm]
  refine Finset.sum_congr rfl fun k _ => ?_
  have ea : D.lhsIdx (ix2 q p) ((contrEquiv1 D K hr hs).symm k) = ix2 k q := by
    funext ax
    refine Fin.ext ?_
    match ax with
    | ⟨0, _⟩ =>
      exact (D.lhsIdx_val_of_single (cl := (0 : Fin 2)) hlc _ _).trans (contrEquiv1_symm_val D K hr hs k)
    | ⟨1, _⟩ =>
      exact D.lhsIdx_val_of_kept (a := (1 : Fin 2)) (by rw [hlb]; exact List.not_mem_nil) (by rw [hln]; exact List.mem_singleton.mpr rfl)
        _ _ 0 Nat.zero_lt_two (by rw [hlb, hln]; rfl)
  have eb : D.rhsIdx (ix2 q p) ((contrEquiv1 D K hr hs).symm k) = ix2 p k := by
    funext ax
    refine Fin.ext ?_
    match ax with
    | ⟨0, _⟩ =>
      exact D.rhsIdx_val_of_kept (a := (0 : Fin 2)) (by rw [hrb]; exact List.not_mem_nil) (by rw [hrn]; exact List.mem_singleton.mpr rfl)
        _ _ 1 Nat.one_lt_two (by rw [hlb, hln, hrn]; rfl)
    | ⟨1, _⟩ =>
      exact (D.rhsIdx_val_of_single (cr := (1 : Fin 2)) hrc _ _).trans (contrEquiv1_symm_val D K hr hs k)
  rw [ea, eb]

end Idealize.ShloMosaic.Ideal

end
-- ==== Proof.StatsLaws.lean ====
/-
  The arithmetic of one statistics kernel, free of any program: two dense layers with a ReLU after each, read at one
  entry of their result; the column sums of a block added to a running row; and the regrouping of the per-block column
  sums of a tall array into one sum over all of its rows.

  The dense layers: for a block of rows s : [M, D] (the sum of the two inputs), weights Wa : [D, H], Wb : [H, H] and
  bias rows ba, bb : [1, H], entry (p, q) of relu (relu (s · Wa + ba) · Wb + bb) is
  max ((Σ_k max ((Σ_j s[p,j] · Wa[j,k]) + ba[0,k]) 0 · Wb[k,q]) + bb[0,q]) 0. At the ideal values a change of float
  format is the identity and a matrix product into the zero accumulator is the plain sum, so the only work is reading
  each operation at the index.

  The regrouping: extended reals under addition are a commutative monoid, so a sum over the rows 0 … (n+1)·B - 1 of a
  tall array splits as the sum over the first n·B rows plus the sum over the next B rows, whatever the values
  (infinite ones included); nothing about finiteness is used.
-/
import Idealize.ShloMosaic.PureOps.Ideal.Laws
import Idealize.ShloMosaic.Lib.ValueIdx
import Idealize.ShloMosaic.Lib.ValueLayout
import Idealize.ShloMosaic.Lib.Pipeline.Value
import proofs.«160706_j53919019434042_2_alg».proof.Proof.LibMatmulEntry

noncomputable section

open scoped BigOperators

namespace Cert.KernelIdeal.RegionValue

open Idealize.ShloMosaic Idealize.ShloMosaic.ValueIdx

/-- Entry i of the two dense layers with a ReLU after each, over arrays of R rows: the first layer is applied to the
    sum of the two inputs. -/
def gin {R D H : ℕ} (x agg : (⟨2, ![R, D]⟩ : Shape).Idx → EReal) (Wa : (⟨2, ![D, H]⟩ : Shape).Idx → EReal)
    (ba : (⟨2, ![1, H]⟩ : Shape).Idx → EReal) (Wb : (⟨2, ![H, H]⟩ : Shape).Idx → EReal)
    (bb : (⟨2, ![1, H]⟩ : Shape).Idx → EReal) (i : (⟨2, ![R, H]⟩ : Shape).Idx) : EReal :=
  max ((∑ k : Fin H, max ((∑ j : Fin D, (x (ix2 (i 0) j) + agg (ix2 (i 0) j)) * Wa (ix2 j k)) + ba (ix2 0 k)) 0
    * Wb (ix2 k (i 1))) + bb (ix2 0 (i 1))) 0

/-- The two dense layers as the kernel body computes them on a block of M rows, read at entry (p, q). -/
theorem two_layers_apply {M D H : ℕ}
    (D1 : DotDims ⟨2, ![M, D]⟩ ⟨2, ![D, H]⟩ ⟨2, ![M, H]⟩)
    (h1lb : D1.lhsBatch = []) (h1ln : D1.lhsNonContracting = [0]) (h1lc : D1.lhsContracting = [1])
    (h1rb : D1.rhsBatch = []) (h1rn : D1.rhsNonContracting = [1]) (h1rc : D1.rhsContracting = [0])
    (D2 : DotDims ⟨2, ![M, H]⟩ ⟨2, ![H, H]⟩ ⟨2, ![M, H]⟩)
    (h2lb : D2.lhsBatch = []) (h2ln : D2.lhsNonContracting = [0]) (h2lc : D2.lhsContracting = [1])
    (h2rb : D2.rhsBatch = []) (h2rn : D2.rhsNonContracting = [1]) (h2rc : D2.rhsContracting = [0])
    (hb : FTy.bits .bf16 < FTy.bits .f32)
    (hbias : (⟨2, ![1, H]⟩ : Shape).ShapeCasts ⟨2, ![1, H]⟩)
    (hbc : (⟨2, ![1, H]⟩ : Shape).Broadcasts ⟨2, ![M, H]⟩)
    (s : FVec Ideal ⟨2, ![M, D]⟩ .f32) (Wa : FVec Ideal ⟨2, ![D, H]⟩ .f32) (ba : FVec Ideal ⟨2, ![1, H]⟩ .f32)
    (Wb : FVec Ideal ⟨2, ![H, H]⟩ .f32) (bb : FVec Ideal ⟨2, ![1, H]⟩ .f32) (p : Fin M) (q : Fin H) :
    maximumf (addf (matmul D2 none
        (truncf .bf16 (maximumf (addf (matmul D1 none (truncf .bf16 s hb)
            (truncf .bf16 Wa hb) (constant ⟨2, ![M, H]⟩ .f32 0x00000000#32))
          (broadcastTo ⟨2, ![M, H]⟩ (shapeCast ⟨2, ![1, H]⟩ ba hbias) hbc))
          (broadcast ⟨2, ![M, H]⟩ (Scalar.ofBits .f32 0x00000000#32))) hb)
        (truncf .bf16 Wb hb) (constant ⟨2, ![M, H]⟩ .f32 0x00000000#32))
      (broadcastTo ⟨2, ![M, H]⟩ (shapeCast ⟨2, ![1, H]⟩ bb hbias) hbc))
      (broadcast ⟨2, ![M, H]⟩ (Scalar.ofBits .f32 0x00000000#32)) (ix2 p q)
    = max ((∑ k : Fin H, max ((∑ j : Fin D, s (ix2 p j) * Wa (ix2 j k)) + ba (ix2 0 k)) 0
        * Wb (ix2 k q)) + bb (ix2 0 q)) 0 := by
  have hzero : (Scalar.ofBits .f32 0x00000000#32 : Ideal .f32) = 0 := Ideal.ofBits_zero_f32
  rw [maximumf_apply, addf_apply, broadcast_apply, hzero, broadcastTo_1b_ab_apply, shapeCast_self, shapeCast_self]
  refine congrArg (fun z => max (z + bb (ix2 0 q)) 0) ?_
  refine (Ideal.matmul_rows_cols D2 h2lb h2ln h2lc h2rb h2rn h2rc none _ _ p q).trans ?_
  refine Finset.sum_congr rfl fun k _ => ?_
  rw [truncf_apply, truncf_apply, maximumf_apply, addf_apply, broadcast_apply, broadcastTo_1b_ab_apply]
  refine congrArg (fun z => max (z + ba (ix2 0 k)) 0 * Wb (ix2 k q)) ?_
  refine (Ideal.matmul_rows_cols D1 h1lb h1ln h1lc h1rb h1rn h1rc none _ _ p k).trans ?_
  refine Finset.sum_congr rfl fun j _ => ?_
  rw [truncf_apply, truncf_apply]

/-- A running row plus the column sums of a block of M rows, as the body accumulates a statistic: at lane q the
    running value plus the sum over the block's rows. -/
theorem row_plus_colsum_apply {M H : ℕ} (hred : (⟨2, ![M, H]⟩ : Shape).Reduces [0] ⟨1, ![H]⟩)
    (hφ : FKind.Formats .f32) (hacc : (0x00000000#32 : BitVec 32) = FKind.add.neutral .f32 hφ)
    (hrow : (⟨2, ![1, H]⟩ : Shape).ShapeCasts ⟨2, ![1, H]⟩) (hup : (⟨1, ![H]⟩ : Shape).ShapeCasts ⟨2, ![1, H]⟩)
    (src : FVec Ideal ⟨2, ![M, H]⟩ .f32) (run : FVec Ideal ⟨2, ![1, H]⟩ .f32) (u : Fin 1) (q : Fin H) :
    addf (shapeCast ⟨2, ![1, H]⟩ run hrow)
      (shapeCast ⟨2, ![1, H]⟩ (multiReduction .add [0] ⟨1, ![H]⟩ src 0x00000000#32 hred hφ hacc) hup) (ix2 u q)
    = run (ix2 u q) + ∑ r : Fin M, src (ix2 r q) := by
  rw [addf_apply, shapeCast_self, shapeCast_a_1a_apply]
  refine congrArg (fun z => run (ix2 u q) + z) ?_
  refine (Ideal.multiReduction_add_single src 0x00000000#32 hred hφ hacc (ix1 q)).trans ?_
  refine Finset.sum_congr rfl fun r _ => congrArg src ?_
  funext a
  refine Fin.ext ?_
  match a with
  | ⟨0, _⟩ => rfl
  | ⟨1, _⟩ => rfl

/-- A function on the first N naturals read as a function on all of them, zero past the end. -/
def ext0 {N : ℕ} (f : Fin N → EReal) (r : ℕ) : EReal := if h : r < N then f ⟨r, h⟩ else 0

/-- The sum over the first N naturals of the extension is the sum over Fin N. -/
theorem sum_rows_all {N : ℕ} (f : Fin N → EReal) : ∑ r ∈ Finset.range N, ext0 f r = ∑ r : Fin N, f r := by
  rw [Finset.sum_range]
  refine Finset.sum_congr rfl fun r _ => ?_
  unfold ext0
  rw [dif_pos r.isLt]

/-- One step of a statistic's accumulation over blocks of B rows: the running value after n blocks is the sum over the
    first B · n rows; adding block n's sum gives the sum over the first B · (n + 1) rows. At n = 0 the running value
    is the empty sum, zero. -/
theorem stat_step {N : ℕ} (f : Fin N → EReal) (B n : ℕ) (hN : B * (n + 1) ≤ N) (prev : EReal) (blk : Fin B → EReal)
    (hprev : prev = ∑ r ∈ Finset.range (B * n), ext0 f r)
    (hblk : ∀ r : Fin B, blk r = f ⟨B * n + r.val, by have := r.isLt; rw [Nat.mul_succ] at hN; omega⟩) :
    prev + ∑ r : Fin B, blk r = ∑ r ∈ Finset.range (B * (n + 1)), ext0 f r := by
  rw [Nat.mul_succ, Finset.sum_range_add, Finset.sum_range (fun r => ext0 f (B * n + r)), hprev]
  refine congrArg (fun z => (∑ r ∈ Finset.range (B * n), ext0 f r) + z) ?_
  refine Finset.sum_congr rfl fun r _ => ?_
  rw [hblk r]
  unfold ext0
  rw [dif_pos]

end Cert.KernelIdeal.RegionValue

end
-- ==== Proof.RegionStats0.lean ====
/-
  What region 0 of @main — the first statistics kernel — leaves in its three output arrays, as functions of the six
  input arrays as the region finds them.

  The kernel runs over five grid points. At point t it loads rows 5000 t … 5000 t + 4999 of the two tall inputs x and
  agg, and the whole weight matrices Wa, Wb and bias rows ba, bb; it stores relu (relu ((x + agg) · Wa + ba) · Wb + bb)
  of those rows into the same rows of the first output, and adds the column sums of that block, and of its square, to
  two rows that stay in place from point to point and are zeroed at the first point. So after the region the first
  output is the dense layers' result at every entry, and the two rows are its column sums, and the column sums of its
  squares, over all 25000 rows: the five per-block sums, each over 5000 rows and the first started from zero, are
  regrouped into one sum. Addition of extended reals is associative and commutative with no side condition, so the
  regrouping needs no finiteness.

  The order below: what each case of the body leaves in each output, as a payload of the loaded blocks; the blocks
  read off the arrays; the payloads at an index; the outputs after each point (the two rows by induction on the
  point); what each point writes back, the cover of each output array by the blocks, and the arrays after the region.
-/
import proofs.«160706_j53919019434042_2_alg».proof.Proof.Gen.KernelIdeal.Frame
import proofs.«160706_j53919019434042_2_alg».proof.Proof.StatsLaws
import Idealize.ShloMosaic.Lib.Pipeline.Value
import Idealize.ShloMosaic.Lib.Tactic

noncomputable section

open scoped BigOperators
open Idealize.ShloMosaic Idealize.ShloMosaic.TcCoe Idealize.SL.Sem
open Idealize.ShloMosaic.Pipeline (Dat)
open Idealize.ShloMosaic.ValueIdx

namespace Cert.KernelIdeal.RegionValue

open Cert.KernelIdeal Cert.KernelIdeal.Gen

/-! ## What each case of the body leaves in the three outputs, as payloads of the loaded blocks -/

section Pieces
variable {F : FTy → Type} [FloatOps F]

theorem hz0 : (![0, 0] : Fin 2 → Nat) = fun _ => 0 := funext fun a => by fin_cases a <;> rfl

/-- First point: the block of the dense layers' result. -/
theorem piece0_A_6 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc0 : cond0_0 i) (x0 : Vec F S5000x64 .f32) (x1 : Vec F S5000x64 .f32) (x2 : Vec F S64x64 .f32) (x3 : Vec F S1x64 .f32) (x4 : Vec F S64x64 .f32) (x5 : Vec F S1x64 .f32) :
    out0_A_6 c i arg1 harg1 arg2 harg2 arg3 harg3 arg4 harg4 arg5 harg5 arg6 harg6 arg7 harg7 arg8 harg8 arg9 harg9 hc0 x0 x1 x2 x3 x4 x5 = k0_pay4 x0 x1 x2 x3 x4 x5 := by
  unfold out0_A_6
  rw [View.read_writes_eq_canon _ _ _ (cover0_A_6 c i arg1 harg1 arg2 harg2 arg3 harg3 arg4 harg4 arg5 harg5 arg6 harg6 arg7 harg7 arg8 harg8 arg9 harg9 hc0 x0 x1 x2 x3 x4 x5)]
  unfold kernelRun0_A
  dsimp only
  rw [View.canon_unit_zero hz0]
  simp only [View.readAt_eq_ld, harg1.read_unread, harg2.read_unread, harg3.read_unread, harg4.read_unread, harg5.read_unread, harg6.read_unread, View.ld_unit_zero (S := S5000x64) hz0, View.ld_unit_zero (S := S64x64) hz0, View.ld_unit_zero (S := S1x64) hz0]

/-- First point: the sum row is zeroed, then the block's column sums are added to it. -/
theorem piece0_A_7 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc0 : cond0_0 i) (x0 : Vec F S5000x64 .f32) (x1 : Vec F S5000x64 .f32) (x2 : Vec F S64x64 .f32) (x3 : Vec F S1x64 .f32) (x4 : Vec F S64x64 .f32) (x5 : Vec F S1x64 .f32) :
    out0_A_7 c i arg1 harg1 arg2 harg2 arg3 harg3 arg4 harg4 arg5 harg5 arg6 harg6 arg7 harg7 arg8 harg8 arg9 harg9 hc0 x0 x1 x2 x3 x4 x5 = k0_pay5 x0 x1 x2 x3 x4 x5 k0_pay2 := by
  unfold out0_A_7
  rw [View.read_writes_eq_canon _ _ _ (cover0_A_7 c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_cons_unit_zero (S := S1x64) hz0, View.readCov_unit_zero (S := S1x64) _ hz0]
  simp only [View.readAt_eq_ld, harg1.read_unread, harg2.read_unread, harg3.read_unread, harg4.read_unread, harg5.read_unread, harg6.read_unread, View.ld_unit_zero (S := S5000x64) hz0, View.ld_unit_zero (S := S64x64) hz0, View.ld_unit_zero (S := S1x64) hz0]

/-- First point: the sum-of-squares row is zeroed, then the block's column sums of squares are added to it. -/
theorem piece0_A_8 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc0 : cond0_0 i) (x0 : Vec F S5000x64 .f32) (x1 : Vec F S5000x64 .f32) (x2 : Vec F S64x64 .f32) (x3 : Vec F S1x64 .f32) (x4 : Vec F S64x64 .f32) (x5 : Vec F S1x64 .f32) :
    out0_A_8 c i arg1 harg1 arg2 harg2 arg3 harg3 arg4 harg4 arg5 harg5 arg6 harg6 arg7 harg7 arg8 harg8 arg9 harg9 hc0 x0 x1 x2 x3 x4 x5 = k0_pay1 (k0_pay4 x0 x1 x2 x3 x4 x5) k0_pay3 := by
  unfold out0_A_8
  rw [View.read_writes_eq_canon _ _ _ (cover0_A_8 c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_cons_unit_zero (S := S1x64) hz0, View.readCov_unit_zero (S := S1x64) _ hz0]
  simp only [View.readAt_eq_ld, harg1.read_unread, harg2.read_unread, harg3.read_unread, harg4.read_unread, harg5.read_unread, harg6.read_unread, View.ld_unit_zero (S := S5000x64) hz0, View.ld_unit_zero (S := S64x64) hz0, View.ld_unit_zero (S := S1x64) hz0]

/-- Later points: the block of the dense layers' result. -/
theorem piece0_B_6 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc0 : ¬cond0_0 i) (x0 : Vec F S5000x64 .f32) (x1 : Vec F S5000x64 .f32) (x2 : Vec F S64x64 .f32) (x3 : Vec F S1x64 .f32) (x4 : Vec F S64x64 .f32) (x5 : Vec F S1x64 .f32) (xo7 : Vec F S1x64 .f32) (xo8 : Vec F S1x64 .f32) :
    out0_B_6 c i arg1 harg1 arg2 harg2 arg3 harg3 arg4 harg4 arg5 harg5 arg6 harg6 arg7 harg7 arg8 harg8 arg9 harg9 hc0 x0 x1 x2 x3 x4 x5 xo7 xo8 = k0_pay4 x0 x1 x2 x3 x4 x5 := by
  unfold out0_B_6
  rw [View.read_writes_eq_canon _ _ _ (cover0_B_6 c i arg1 harg1 arg2 harg2 arg3 harg3 arg4 harg4 arg5 harg5 arg6 harg6 arg7 harg7 arg8 harg8 arg9 harg9 hc0 x0 x1 x2 x3 x4 x5 xo7 xo8)]
  unfold kernelRun0_B
  dsimp only
  rw [View.canon_unit_zero hz0]
  simp only [View.readAt_eq_ld, harg1.read_unread, harg2.read_unread, harg3.read_unread, harg4.read_unread, harg5.read_unread, harg6.read_unread, harg8.read_unread, harg9.read_unread, View.ld_unit_zero (S := S5000x64) hz0, View.ld_unit_zero (S := S64x64) hz0, View.ld_unit_zero (S := S1x64) hz0]

/-- Later points: the block's column sums are added to the running sum row. -/
theorem piece0_B_7 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc0 : ¬cond0_0 i) (x0 : Vec F S5000x64 .f32) (x1 : Vec F S5000x64 .f32) (x2 : Vec F S64x64 .f32) (x3 : Vec F S1x64 .f32) (x4 : Vec F S64x64 .f32) (x5 : Vec F S1x64 .f32) (xo7 : Vec F S1x64 .f32) (xo8 : Vec F S1x64 .f32) :
    out0_B_7 c i arg1 harg1 arg2 harg2 arg3 harg3 arg4 harg4 arg5 harg5 arg6 harg6 arg7 harg7 arg8 harg8 arg9 harg9 hc0 x0 x1 x2 x3 x4 x5 xo7 xo8 = k0_pay5 x0 x1 x2 x3 x4 x5 xo7 := by
  unfold out0_B_7
  rw [View.read_writes_eq_canon _ _ _ (cover0_B_7 c i arg1 harg1 arg2 harg2 arg3 harg3 arg4 harg4 arg5 harg5 arg6 harg6 arg7 harg7 arg8 harg8 arg9 harg9 hc0 x0 x1 x2 x3 x4 x5 xo7 xo8)]
  unfold kernelRun0_B
  dsimp only
  try sl_unfold_words
  rw [View.canon_unit_zero hz0]
  simp only [View.readAt_eq_ld, harg1.read_unread, harg2.read_unread, harg3.read_unread, harg4.read_unread, harg5.read_unread, harg6.read_unread, harg8.read_unread, harg9.read_unread, View.ld_unit_zero (S := S5000x64) hz0, View.ld_unit_zero (S := S64x64) hz0, View.ld_unit_zero (S := S1x64) hz0]

/-- Later points: the block's column sums of squares are added to the running sum-of-squares row. -/
theorem piece0_B_8 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc0 : ¬cond0_0 i) (x0 : Vec F S5000x64 .f32) (x1 : Vec F S5000x64 .f32) (x2 : Vec F S64x64 .f32) (x3 : Vec F S1x64 .f32) (x4 : Vec F S64x64 .f32) (x5 : Vec F S1x64 .f32) (xo7 : Vec F S1x64 .f32) (xo8 : Vec F S1x64 .f32) :
    out0_B_8 c i arg1 harg1 arg2 harg2 arg3 harg3 arg4 harg4 arg5 harg5 arg6 harg6 arg7 harg7 arg8 harg8 arg9 harg9 hc0 x0 x1 x2 x3 x4 x5 xo7 xo8 = k0_pay1 (k0_pay4 x0 x1 x2 x3 x4 x5) xo8 := by
  unfold out0_B_8
  rw [View.read_writes_eq_canon _ _ _ (cover0_B_8 c i arg1 harg1 arg2 harg2 arg3 harg3 arg4 harg4 arg5 harg5 arg6 harg6 arg7 harg7 arg8 harg8 arg9 harg9 hc0 x0 x1 x2 x3 x4 x5 xo7 xo8)]
  unfold kernelRun0_B
  dsimp only
  try sl_unfold_words
  rw [View.canon_unit_zero hz0]
  simp only [View.readAt_eq_ld, harg1.read_unread, harg2.read_unread, harg3.read_unread, harg4.read_unread, harg5.read_unread, harg6.read_unread, harg8.read_unread, harg9.read_unread, View.ld_unit_zero (S := S5000x64) hz0, View.ld_unit_zero (S := S64x64) hz0, View.ld_unit_zero (S := S1x64) hz0]

end Pieces

/-! ## The windows' blocks, read off the arrays as the region finds them -/

section Blocks
variable (V : (c : Dev nD) → (b : Ref sig .tc) → Buf (Elt Ideal) ((c : Thread nD τ).loc b))

theorem t5_0 (t : Fin cfg0.N) : t.val < 5 := lt_of_lt_of_eq t.isLt (show cfg0.N = 5 from N_0)

/-- Row p of block n of an array of five blocks of 5000 rows. -/
def brow0 (n : ℕ) (hn : n < 5) (p : Fin 5000) : Fin 25000 := ⟨5000 * n + p.val, by have := p.isLt; omega⟩

/-- The printed index maps, decided once over the grid: the two inputs and the first output move down one block of
    rows per point; the weights, the biases and the two statistics rows stay at block (0, 0). -/
theorem idx0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

/-- The six input arrays as the region finds them, on their literal index types. -/
abbrev X0 (c : Dev nD) : S25000x64.Idx → EReal := V c (Pipeline.arrRef spec0 0)
abbrev AGG0 (c : Dev nD) : S25000x64.Idx → EReal := V c (Pipeline.arrRef spec0 1)
abbrev WA0 (c : Dev nD) : S64x64.Idx → EReal := V c (Pipeline.arrRef spec0 2)
abbrev BA0 (c : Dev nD) : S1x64.Idx → EReal := V c (Pipeline.arrRef spec0 3)
abbrev WB0 (c : Dev nD) : S64x64.Idx → EReal := V c (Pipeline.arrRef spec0 4)
abbrev BB0 (c : Dev nD) : S1x64.Idx → EReal := V c (Pipeline.arrRef spec0 5)

/-- Block t of the first input: rows 5000 t … 5000 t + 4999. -/
theorem iblk0_0 (c : Dev nD) (t : Fin cfg0.N) (p : Fin 5000) (j : Fin 64) :
    (iblk0 V c 0 t : Vec Ideal S5000x64 .f32) (ix2 p j) = X0 V c (ix2 (brow0 t.val (t5_0 t) p) j) := by
  obtain ⟨⟨e0, e1⟩, -⟩ := idx0 t
  unfold iblk0
  rw [View.read_apply]
  show V c (Pipeline.arrRef spec0 0) (((cfg0.win 0).blk t).view.emb (ix2 p j)) = V c (Pipeline.arrRef spec0 0) (ix2 (brow0 t.val (t5_0 t) p) j)
  refine congrArg _ (funext fun a => Fin.ext ?_)
  match a with
  | ⟨0, _⟩ => show win0_0.index t (0 : Fin 2) * 5000 + 1 * p.val = 5000 * t.val + p.val; rw [e0]; omega
  | ⟨1, _⟩ => show win0_0.index t (1 : Fin 2) * 64 + 1 * j.val = j.val; rw [e1]; omega

/-- Block t of the second input: the same rows. -/
theorem iblk0_1 (c : Dev nD) (t : Fin cfg0.N) (p : Fin 5000) (j : Fin 64) :
    (iblk0 V c 1 t : Vec Ideal S5000x64 .f32) (ix2 p j) = AGG0 V c (ix2 (brow0 t.val (t5_0 t) p) j) := by
  obtain ⟨-, ⟨e0, e1⟩, -⟩ := idx0 t
  unfold iblk0
  rw [View.read_apply]
  show V c (Pipeline.arrRef spec0 1) (((cfg0.win 1).blk t).view.emb (ix2 p j)) = V c (Pipeline.arrRef spec0 1) (ix2 (brow0 t.val (t5_0 t) p) j)
  refine congrArg _ (funext fun a => Fin.ext ?_)
  match a with
  | ⟨0, _⟩ => show win0_1.index t (0 : Fin 2) * 5000 + 1 * p.val = 5000 * t.val + p.val; rw [e0]; omega
  | ⟨1, _⟩ => show win0_1.index t (1 : Fin 2) * 64 + 1 * j.val = j.val; rw [e1]; omega

/-- The first layer's weights: the whole array at every point. -/
theorem iblk0_2 (c : Dev nD) (t : Fin cfg0.N) : (iblk0 V c 2 t : Vec Ideal S64x64 .f32) = WA0 V c := by
  obtain ⟨-, -, ⟨e0, e1⟩, -⟩ := idx0 t
  funext y
  unfold iblk0
  rw [View.read_apply]
  show V c (Pipeline.arrRef spec0 2) (((cfg0.win 2).blk t).view.emb y) = V c (Pipeline.arrRef spec0 2) y
  refine congrArg _ (funext fun a => Fin.ext ?_)
  match a with
  | ⟨0, _⟩ => show win0_2.index t (0 : Fin 2) * 64 + 1 * (y 0).val = (y 0).val; rw [e0]; omega
  | ⟨1, _⟩ => show win0_2.index t (1 : Fin 2) * 64 + 1 * (y 1).val = (y 1).val; rw [e1]; omega

/-- The first layer's bias row: the whole array at every point. -/
theorem iblk0_3 (c : Dev nD) (t : Fin cfg0.N) : (iblk0 V c 3 t : Vec Ideal S1x64 .f32) = BA0 V c := by
  obtain ⟨-, -, -, ⟨e0, e1⟩, -⟩ := idx0 t
  funext y
  unfold iblk0
  rw [View.read_apply]
  show V c (Pipeline.arrRef spec0 3) (((cfg0.win 3).blk t).view.emb y) = V c (Pipeline.arrRef spec0 3) y
  refine congrArg _ (funext fun a => Fin.ext ?_)
  match a with
  | ⟨0, _⟩ => show win0_3.index t (0 : Fin 2) * 1 + 1 * (y 0).val = (y 0).val; rw [e0]; omega
  | ⟨1, _⟩ => show win0_3.index t (1 : Fin 2) * 64 + 1 * (y 1).val = (y 1).val; rw [e1]; omega

/-- The second layer's weights: the whole array at every point. -/
theorem iblk0_4 (c : Dev nD) (t : Fin cfg0.N) : (iblk0 V c 4 t : Vec Ideal S64x64 .f32) = WB0 V c := by
  obtain ⟨-, -, -, -, ⟨e0, e1⟩, -⟩ := idx0 t
  funext y
  unfold iblk0
  rw [View.read_apply]
  show V c (Pipeline.arrRef spec0 4) (((cfg0.win 4).blk t).view.emb y) = V c (Pipeline.arrRef spec0 4) y
  refine congrArg _ (funext fun a => Fin.ext ?_)
  match a with
  | ⟨0, _⟩ => show win0_4.index t (0 : Fin 2) * 64 + 1 * (y 0).val = (y 0).val; rw [e0]; omega
  | ⟨1, _⟩ => show win0_4.index t (1 : Fin 2) * 64 + 1 * (y 1).val = (y 1).val; rw [e1]; omega

/-- The second layer's bias row: the whole array at every point. -/
theorem iblk0_5 (c : Dev nD) (t : Fin cfg0.N) : (iblk0 V c 5 t : Vec Ideal S1x64 .f32) = BB0 V c := by
  obtain ⟨-, -, -, -, -, ⟨e0, e1⟩, -⟩ := idx0 t
  funext y
  unfold iblk0
  rw [View.read_apply]
  show V c (Pipeline.arrRef spec0 5) (((cfg0.win 5).blk t).view.emb y) = V c (Pipeline.arrRef spec0 5) y
  refine congrArg _ (funext fun a => Fin.ext ?_)
  match a with
  | ⟨0, _⟩ => show win0_5.index t (0 : Fin 2) * 1 + 1 * (y 0).val = (y 0).val; rw [e0]; omega
  | ⟨1, _⟩ => show win0_5.index t (1 : Fin 2) * 64 + 1 * (y 1).val = (y 1).val; rw [e1]; omega

end Blocks

/-! ## The payloads on the blocks -/

section Values
variable (V : (c : Dev nD) → (b : Ref sig .tc) → Buf (Elt Ideal) ((c : Thread nD τ).loc b))

/-- The dense layers' result over the whole arrays as the region finds them. -/
def raw0 (c : Dev nD) : S25000x64.Idx → EReal := gin (X0 V c) (AGG0 V c) (WA0 V c) (BA0 V c) (WB0 V c) (BB0 V c)

/-- Column q of it, and of its square, as functions of the row. -/
def col0 (c : Dev nD) (q : Fin 64) : Fin 25000 → EReal := fun r => raw0 V c (ix2 r q)
def colsq0 (c : Dev nD) (q : Fin 64) : Fin 25000 → EReal := fun r => raw0 V c (ix2 r q) * raw0 V c (ix2 r q)

/-- The body's first payload on blocks that are rows 5000 n … of two tall arrays and four whole arrays: entry (p, q)
    is the dense layers' result at row 5000 n + p. -/
theorem pay4_block0 (X AGG : S25000x64.Idx → EReal) (WA : S64x64.Idx → EReal) (BA : S1x64.Idx → EReal)
    (WB : S64x64.Idx → EReal) (BB : S1x64.Idx → EReal)
    (x0 x1 : Vec Ideal S5000x64 .f32) (x2 : Vec Ideal S64x64 .f32) (x3 : Vec Ideal S1x64 .f32)
    (x4 : Vec Ideal S64x64 .f32) (x5 : Vec Ideal S1x64 .f32) (n : ℕ) (hn : n < 5)
    (h0 : ∀ (p : Fin 5000) (j : Fin 64), x0 (ix2 p j) = X (ix2 (brow0 n hn p) j))
    (h1 : ∀ (p : Fin 5000) (j : Fin 64), x1 (ix2 p j) = AGG (ix2 (brow0 n hn p) j))
    (h2 : x2 = WA) (h3 : x3 = BA) (h4 : x4 = WB) (h5 : x5 = BB) (p : Fin 5000) (q : Fin 64) :
    k0_pay4 x0 x1 x2 x3 x4 x5 (ix2 p q) = gin X AGG WA BA WB BB (ix2 (brow0 n hn p) q) := by
  subst h2 h3 h4 h5
  unfold k0_pay4
  refine (two_layers_apply dot_S5000x64_S64x64_S5000x64_1_0_0_1_n_n rfl rfl rfl rfl rfl rfl
    dot_S5000x64_S64x64_S5000x64_1_0_0_1_n_n rfl rfl rfl rfl rfl rfl bitsLt_bf16_f32 shapeCasts_S1x64_S1x64
    broadcasts_S1x64_S5000x64 _ x2 x3 x4 x5 p q).trans ?_
  unfold gin
  simp only [addf_apply, shapeCast_self, h0, h1]

/-- The sum row's payload: the running row plus the column sums of the block's dense-layer result. -/
theorem pay5_apply0 (x0 x1 : Vec Ideal S5000x64 .f32) (x2 : Vec Ideal S64x64 .f32) (x3 : Vec Ideal S1x64 .f32)
    (x4 : Vec Ideal S64x64 .f32) (x5 : Vec Ideal S1x64 .f32) (run : Vec Ideal S1x64 .f32) (u : Fin 1) (q : Fin 64) :
    k0_pay5 x0 x1 x2 x3 x4 x5 run (ix2 u q) = run (ix2 u q) + ∑ r : Fin 5000, k0_pay4 x0 x1 x2 x3 x4 x5 (ix2 r q) := by
  unfold k0_pay5
  exact row_plus_colsum_apply reduces_S5000x64_S64 (.inl rfl) rfl shapeCasts_S1x64_S1x64 shapeCasts_S64_S1x64
    (k0_pay4 x0 x1 x2 x3 x4 x5) run u q

/-- The sum-of-squares row's payload: the running row plus the column sums of the squares. -/
theorem pay1_apply0 (v : FVec Ideal S5000x64 .f32) (run : Vec Ideal S1x64 .f32) (u : Fin 1) (q : Fin 64) :
    k0_pay1 v run (ix2 u q) = run (ix2 u q) + ∑ r : Fin 5000, v (ix2 r q) * v (ix2 r q) := by
  unfold k0_pay1
  exact row_plus_colsum_apply reduces_S5000x64_S64 (.inl rfl) rfl shapeCasts_S1x64_S1x64 shapeCasts_S64_S1x64
    (mulf v v) run u q

/-- The two rows the first point stores before accumulating are zero. -/
theorem pay2_apply0 (y : S1x64.Idx) : (k0_pay2 (F := Ideal)) y = 0 := Ideal.ofBits_zero_f32
theorem pay3_apply0 (y : S1x64.Idx) : (k0_pay3 (F := Ideal)) y = 0 := Ideal.ofBits_zero_f32

/-- At point t the first payload on the windows' blocks is the dense layers' result on rows 5000 t …. -/
theorem pay4_at0 (c : Dev nD) (t : Fin cfg0.N) (p : Fin 5000) (q : Fin 64) :
    k0_pay4 (iblk0 V c 0 t) (iblk0 V c 1 t) (iblk0 V c 2 t) (iblk0 V c 3 t) (iblk0 V c 4 t) (iblk0 V c 5 t) (ix2 p q) = raw0 V c (ix2 (brow0 t.val (t5_0 t) p) q) :=
  pay4_block0 (X0 V c) (AGG0 V c) (WA0 V c) (BA0 V c) (WB0 V c) (BB0 V c) (iblk0 V c 0 t) (iblk0 V c 1 t) (iblk0 V c 2 t) (iblk0 V c 3 t) (iblk0 V c 4 t) (iblk0 V c 5 t)
    t.val (t5_0 t) (iblk0_0 V c t) (iblk0_1 V c t) (iblk0_2 V c t) (iblk0_3 V c t) (iblk0_4 V c t) (iblk0_5 V c t) p q

/-- One point's step of the sum row: from the sum over the rows before block t to the sum through block t. -/
theorem sum_step0 (c : Dev nD) (t : Fin cfg0.N) (run : Vec Ideal S1x64 .f32)
    (hrun : ∀ y : S1x64.Idx, run y = ∑ r ∈ Finset.range (5000 * t.val), ext0 (col0 V c (y 1)) r) :
    k0_pay5 (iblk0 V c 0 t) (iblk0 V c 1 t) (iblk0 V c 2 t) (iblk0 V c 3 t) (iblk0 V c 4 t) (iblk0 V c 5 t) run
      = fun y : S1x64.Idx => ∑ r ∈ Finset.range (5000 * (t.val + 1)), ext0 (col0 V c (y 1)) r := by
  funext y
  obtain ⟨u, q, rfl⟩ : ∃ (u : Fin 1) (q : Fin 64), y = ix2 u q := ⟨y 0, y 1, eq_ix2 y⟩
  refine (pay5_apply0 (iblk0 V c 0 t) (iblk0 V c 1 t) (iblk0 V c 2 t) (iblk0 V c 3 t) (iblk0 V c 4 t) (iblk0 V c 5 t) run u q).trans ?_
  exact stat_step (col0 V c q) 5000 t.val (by have := t5_0 t; omega) (run (ix2 u q))
    (fun r => k0_pay4 (iblk0 V c 0 t) (iblk0 V c 1 t) (iblk0 V c 2 t) (iblk0 V c 3 t) (iblk0 V c 4 t) (iblk0 V c 5 t) (ix2 r q)) (hrun (ix2 u q)) (fun r => pay4_at0 V c t r q)

/-- One point's step of the sum-of-squares row. -/
theorem sumsq_step0 (c : Dev nD) (t : Fin cfg0.N) (run : Vec Ideal S1x64 .f32)
    (hrun : ∀ y : S1x64.Idx, run y = ∑ r ∈ Finset.range (5000 * t.val), ext0 (colsq0 V c (y 1)) r) :
    k0_pay1 (k0_pay4 (iblk0 V c 0 t) (iblk0 V c 1 t) (iblk0 V c 2 t) (iblk0 V c 3 t) (iblk0 V c 4 t) (iblk0 V c 5 t)) run
      = fun y : S1x64.Idx => ∑ r ∈ Finset.range (5000 * (t.val + 1)), ext0 (colsq0 V c (y 1)) r := by
  funext y
  obtain ⟨u, q, rfl⟩ : ∃ (u : Fin 1) (q : Fin 64), y = ix2 u q := ⟨y 0, y 1, eq_ix2 y⟩
  refine (pay1_apply0 (k0_pay4 (iblk0 V c 0 t) (iblk0 V c 1 t) (iblk0 V c 2 t) (iblk0 V c 3 t) (iblk0 V c 4 t) (iblk0 V c 5 t)) run u q).trans ?_
  exact stat_step (colsq0 V c q) 5000 t.val (by have := t5_0 t; omega) (run (ix2 u q))
    (fun r => k0_pay4 (iblk0 V c 0 t) (iblk0 V c 1 t) (iblk0 V c 2 t) (iblk0 V c 3 t) (iblk0 V c 4 t) (iblk0 V c 5 t) (ix2 r q) * k0_pay4 (iblk0 V c 0 t) (iblk0 V c 1 t) (iblk0 V c 2 t) (iblk0 V c 3 t) (iblk0 V c 4 t) (iblk0 V c 5 t) (ix2 r q)) (hrun (ix2 u q))
    (fun r => congrArg₂ (· * ·) (pay4_at0 V c t r q) (pay4_at0 V c t r q))

end Values

/-! ## The outputs after each point -/

section Final
variable (V : (c : Dev nD) → (b : Ref sig .tc) → Buf (Elt Ideal) ((c : Thread nD τ).loc b))

/-- After point t the first output's staging buffer holds the dense layers' result on block t, whichever case the
    point is in. -/
theorem outs6_pay0 (c : Dev nD) : ∀ (n : ℕ) (hn : n < cfg0.N),
    (outsAt0 V c n hn).1 = k0_pay4 (iblk0 V c 0 ⟨n, hn⟩) (iblk0 V c 1 ⟨n, hn⟩) (iblk0 V c 2 ⟨n, hn⟩) (iblk0 V c 3 ⟨n, hn⟩) (iblk0 V c 4 ⟨n, hn⟩) (iblk0 V c 5 ⟨n, hn⟩)
  | 0, hn => by
    show (outsAt0 V c (⟨0, hn⟩ : Fin cfg0.N).val (⟨0, hn⟩ : Fin cfg0.N).isLt).1 = _
    rw [outsAt0_A V c ⟨0, hn⟩ rfl]
    dsimp only
    exact piece0_A_6 (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr rfl) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩)
  | n + 1, hn => by
    have h5 : n + 1 < 5 := lt_of_lt_of_eq hn (show cfg0.N = 5 from N_0)
    have hB : ¬(⟨n + 1, hn⟩ : Fin cfg0.N).val % 5 = 0 := by dsimp only; omega
    show (outsAt0 V c (⟨n + 1, hn⟩ : Fin cfg0.N).val (⟨n + 1, hn⟩ : Fin cfg0.N).isLt).1 = _
    rw [outsAt0_B V c ⟨n + 1, hn⟩ hB]
    dsimp only
    exact piece0_B_6 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => hB ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩)
      (outsAt0 V c n (Nat.lt_of_succ_lt hn)).2.1 (outsAt0 V c n (Nat.lt_of_succ_lt hn)).2.2

/-- The same, entry by entry over the whole arrays. -/
theorem outs6_0 (c : Dev nD) (t : Fin cfg0.N) :
    (outsAt0 V c t.val t.isLt).1 = fun y : S5000x64.Idx => raw0 V c (ix2 (brow0 t.val (t5_0 t) (y 0)) (y 1)) := by
  refine (outs6_pay0 V c t.val t.isLt).trans ?_
  funext y
  obtain ⟨p, q, rfl⟩ : ∃ (p : Fin 5000) (q : Fin 64), y = ix2 p q := ⟨y 0, y 1, eq_ix2 y⟩
  exact pay4_at0 V c t p q

/-- After point n the sum row holds the column sums over the first 5000 (n + 1) rows: by induction on the point. -/
theorem outs7_0 (c : Dev nD) : ∀ (n : ℕ) (hn : n < cfg0.N),
    (outsAt0 V c n hn).2.1 = fun y : S1x64.Idx => ∑ r ∈ Finset.range (5000 * (n + 1)), ext0 (col0 V c (y 1)) r
  | 0, hn => by
    refine (congrArg (fun z => z.2.1) (outsAt0_A V c ⟨0, hn⟩ rfl)).trans ?_
    refine (piece0_A_7 (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr rfl) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩)).trans ?_
    exact sum_step0 V c ⟨0, hn⟩ (k0_pay2 (F := Ideal)) (fun y => (pay2_apply0 y).trans (Finset.sum_range_zero _).symm)
  | n + 1, hn => by
    have h5 : n + 1 < 5 := lt_of_lt_of_eq hn (show cfg0.N = 5 from N_0)
    have hB : ¬(⟨n + 1, hn⟩ : Fin cfg0.N).val % 5 = 0 := by dsimp only; omega
    refine (congrArg (fun z => z.2.1) (outsAt0_B V c ⟨n + 1, hn⟩ hB)).trans ?_
    refine (piece0_B_7 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => hB ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩)
      (outsAt0 V c n (Nat.lt_of_succ_lt hn)).2.1 (outsAt0 V c n (Nat.lt_of_succ_lt hn)).2.2).trans ?_
    exact sum_step0 V c ⟨n + 1, hn⟩ (outsAt0 V c n (Nat.lt_of_succ_lt hn)).2.1 (fun y => congrFun (outs7_0 c n (Nat.lt_of_succ_lt hn)) y)

/-- After point n the sum-of-squares row holds the column sums of squares over the first 5000 (n + 1) rows. -/
theorem outs8_0 (c : Dev nD) : ∀ (n : ℕ) (hn : n < cfg0.N),
    (outsAt0 V c n hn).2.2 = fun y : S1x64.Idx => ∑ r ∈ Finset.range (5000 * (n + 1)), ext0 (colsq0 V c (y 1)) r
  | 0, hn => by
    refine (congrArg (fun z => z.2.2) (outsAt0_A V c ⟨0, hn⟩ rfl)).trans ?_
    refine (piece0_A_8 (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr rfl) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩)).trans ?_
    exact sumsq_step0 V c ⟨0, hn⟩ (k0_pay3 (F := Ideal)) (fun y => (pay3_apply0 y).trans (Finset.sum_range_zero _).symm)
  | n + 1, hn => by
    have h5 : n + 1 < 5 := lt_of_lt_of_eq hn (show cfg0.N = 5 from N_0)
    have hB : ¬(⟨n + 1, hn⟩ : Fin cfg0.N).val % 5 = 0 := by dsimp only; omega
    refine (congrArg (fun z => z.2.2) (outsAt0_B V c ⟨n + 1, hn⟩ hB)).trans ?_
    refine (piece0_B_8 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => hB ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩)
      (outsAt0 V c n (Nat.lt_of_succ_lt hn)).2.1 (outsAt0 V c n (Nat.lt_of_succ_lt hn)).2.2).trans ?_
    exact sumsq_step0 V c ⟨n + 1, hn⟩ (outsAt0 V c n (Nat.lt_of_succ_lt hn)).2.2 (fun y => congrFun (outs8_0 c n (Nat.lt_of_succ_lt hn)) y)

end Final

/-! ## What each point writes back, the cover, and the arrays after the region -/

section Arrays
variable (V : (c : Dev nD) → (b : Ref sig .tc) → Buf (Elt Ideal) ((c : Thread nD τ).loc b))

/-- The column sums of the dense layers' result over all 25000 rows, and of its square. -/
def sum0 (c : Dev nD) : S1x64.Idx → EReal := fun i => ∑ r : Fin 25000, raw0 V c (ix2 r (i 1))
def sumsq0 (c : Dev nD) : S1x64.Idx → EReal :=
  fun i => ∑ r : Fin 25000, raw0 V c (ix2 r (i 1)) * raw0 V c (ix2 r (i 1))

/-- Point t writes back block t of the dense layers' result. -/
theorem flushed6_0 (c : Dev nD) (t : Fin cfg0.N) :
    (dat0 V c).flushed 6 t = ((cfg0.win 6).blk t).view.read (Elt Ideal) (raw0 V c) := by
  obtain ⟨-, -, -, -, -, -, ⟨e0, e1⟩, -⟩ := idx0 t
  show (cfg0.win 6).cut (grid0.coords t) ((dat0 V c).after 6 t) = _
  rw [after0_6, outs6_0]
  funext y
  show raw0 V c (ix2 (brow0 t.val (t5_0 t) (y 0)) (y 1)) = raw0 V c (((cfg0.win 6).blk t).view.emb y)
  refine congrArg (raw0 V c) (funext fun a => Fin.ext ?_)
  match a with
  | ⟨0, _⟩ => show 5000 * t.val + (y 0).val = win0_6.index t (0 : Fin 2) * 5000 + 1 * (y 0).val; rw [e0]; omega
  | ⟨1, _⟩ => show (y 1).val = win0_6.index t (1 : Fin 2) * 64 + 1 * (y 1).val; rw [e1]; omega

/-- An index of the first output array is in point t's block iff each coordinate is in the block's range. -/
theorem mem_blk6_0 (t : Fin cfg0.N) (i : S25000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v16_0).slice (win0_6.rect t)).set ↔ _
  rw [View.set_slice_whole, Rect.mem_set_unit]
  exact Iff.rfl

/-- The first output array after the region: the dense layers' result, row r covered by the point r / 5000. -/
theorem raw_final0 (c : Dev nD) : (dat0 V c).arrAt 6 cfg0.N = raw0 V c :=
  (dat0 V c).arrAt_eq_of_cover 6 (raw0 V c) (fun t _ => flushed6_0 V c t) fun i => by
    have hi0 : (i 0).val < 25000 := (i 0).isLt
    have hi1 : (i 1).val < 64 := (i 1).isLt
    have hN : cfg0.N = 5 := N_0
    obtain ⟨t, ht⟩ : ∃ t : Fin cfg0.N, t.val = (i 0).val / 5000 := ⟨⟨(i 0).val / 5000, by rw [hN]; omega⟩, rfl⟩
    obtain ⟨-, -, -, -, -, -, ⟨e0, e1⟩, -⟩ := idx0 t
    refine ⟨t, flush0_6 t, ?_⟩
    rw [mem_blk6_0]
    intro a
    match a with
    | ⟨0, _⟩ => show win0_6.index t (0 : Fin 2) * 5000 ≤ (i 0).val ∧ (i 0).val < win0_6.index t (0 : Fin 2) * 5000 + 5000; rw [e0]; omega
    | ⟨1, _⟩ => show win0_6.index t (1 : Fin 2) * 64 ≤ (i 1).val ∧ (i 1).val < win0_6.index t (1 : Fin 2) * 64 + 64; rw [e1]; omega

/-- After the last point the sum row holds the column sums over all rows. -/
theorem after_last7_0 (c : Dev nD) : (outsAt0 V c t0_4.val t0_4.isLt).2.1 = sum0 V c := by
  refine (outs7_0 V c t0_4.val t0_4.isLt).trans ?_
  funext y
  exact sum_rows_all (col0 V c (y 1))

/-- After the last point the sum-of-squares row holds the column sums of squares over all rows. -/
theorem after_last8_0 (c : Dev nD) : (outsAt0 V c t0_4.val t0_4.isLt).2.2 = sumsq0 V c := by
  refine (outs8_0 V c t0_4.val t0_4.isLt).trans ?_
  funext y
  exact sum_rows_all (colsq0 V c (y 1))

/-- The one write-back of the sum row, at the last point: its block is the whole row. -/
theorem flushed7_0 (c : Dev nD) (t : Fin cfg0.N) (hf : (cfg0.win 7).flush t = true) :
    (dat0 V c).flushed 7 t = ((cfg0.win 7).blk t).view.read (Elt Ideal) (sum0 V c) := by
  have h4 : t.val = 4 := by have := (flush0_7 t).mp hf; have := t5_0 t; omega
  obtain rfl : t = t0_4 := Fin.ext h4
  show (cfg0.win 7).cut (grid0.coords t0_4) ((dat0 V c).after 7 t0_4) = _
  rw [after0_7, after_last7_0]
  have hz' : (fun a => win0_7.index t0_4 a * main_v16_1.ty.shape.size a) = fun _ => 0 := funext fun a => by fin_cases a <;> decide
  exact (Memref.read_access_unit_zero (Elt Ideal) main_v16_1 hz' (fun a => by rw [congrFun hz' a]; simp) (sum0 V c)).symm

/-- The sum row after the region. -/
theorem sum_final0 (c : Dev nD) : (dat0 V c).arrAt 7 cfg0.N = sum0 V c :=
  (dat0 V c).arrAt_eq_of_cover 7 (sum0 V c) (flushed7_0 V c) fun i =>
    ⟨t0_4, (flush0_7 t0_4).mpr rfl, by
      show i ∈ ((View.whole main_v16_1).slice (win0_7.rect t0_4)).set
      rw [View.set_slice_whole, Rect.mem_set_unit]
      intro a
      have h0 : (i 0 : Nat) < 1 := (i 0).isLt
      have h1 : (i 1 : Nat) < 64 := (i 1).isLt
      match a with
      | ⟨0, _⟩ => show win0_7.index t0_4 0 * win0_7.size 0 ≤ (i 0 : Nat) ∧ (i 0 : Nat) < win0_7.index t0_4 0 * win0_7.size 0 + win0_7.xsize (grid0.coords t0_4) 0
                  rw [show win0_7.index t0_4 0 * win0_7.size 0 = 0 from by decide +kernel, show win0_7.xsize (grid0.coords t0_4) 0 = 1 from by decide +kernel]; omega
      | ⟨1, _⟩ => show win0_7.index t0_4 1 * win0_7.size 1 ≤ (i 1 : Nat) ∧ (i 1 : Nat) < win0_7.index t0_4 1 * win0_7.size 1 + win0_7.xsize (grid0.coords t0_4) 1
                  rw [show win0_7.index t0_4 1 * win0_7.size 1 = 0 from by decide +kernel, show win0_7.xsize (grid0.coords t0_4) 1 = 64 from by decide +kernel]; omega⟩

/-- The one write-back of the sum-of-squares row, at the last point. -/
theorem flushed8_0 (c : Dev nD) (t : Fin cfg0.N) (hf : (cfg0.win 8).flush t = true) :
    (dat0 V c).flushed 8 t = ((cfg0.win 8).blk t).view.read (Elt Ideal) (sumsq0 V c) := by
  have h4 : t.val = 4 := by have := (flush0_8 t).mp hf; have := t5_0 t; omega
  obtain rfl : t = t0_4 := Fin.ext h4
  show (cfg0.win 8).cut (grid0.coords t0_4) ((dat0 V c).after 8 t0_4) = _
  rw [after0_8, after_last8_0]
  have hz' : (fun a => win0_8.index t0_4 a * main_v16_2.ty.shape.size a) = fun _ => 0 := funext fun a => by fin_cases a <;> decide
  exact (Memref.read_access_unit_zero (Elt Ideal) main_v16_2 hz' (fun a => by rw [congrFun hz' a]; simp) (sumsq0 V c)).symm

/-- The sum-of-squares row after the region. -/
theorem sumsq_final0 (c : Dev nD) : (dat0 V c).arrAt 8 cfg0.N = sumsq0 V c :=
  (dat0 V c).arrAt_eq_of_cover 8 (sumsq0 V c) (flushed8_0 V c) fun i =>
    ⟨t0_4, (flush0_8 t0_4).mpr rfl, by
      show i ∈ ((View.whole main_v16_2).slice (win0_8.rect t0_4)).set
      rw [View.set_slice_whole, Rect.mem_set_unit]
      intro a
      have h0 : (i 0 : Nat) < 1 := (i 0).isLt
      have h1 : (i 1 : Nat) < 64 := (i 1).isLt
      match a with
      | ⟨0, _⟩ => show win0_8.index t0_4 0 * win0_8.size 0 ≤ (i 0 : Nat) ∧ (i 0 : Nat) < win0_8.index t0_4 0 * win0_8.size 0 + win0_8.xsize (grid0.coords t0_4) 0
                  rw [show win0_8.index t0_4 0 * win0_8.size 0 = 0 from by decide +kernel, show win0_8.xsize (grid0.coords t0_4) 0 = 1 from by decide +kernel]; omega
      | ⟨1, _⟩ => show win0_8.index t0_4 1 * win0_8.size 1 ≤ (i 1 : Nat) ∧ (i 1 : Nat) < win0_8.index t0_4 1 * win0_8.size 1 + win0_8.xsize (grid0.coords t0_4) 1
                  rw [show win0_8.index t0_4 1 * win0_8.size 1 = 0 from by decide +kernel, show win0_8.xsize (grid0.coords t0_4) 1 = 64 from by decide +kernel]; omega⟩

end Arrays

/-! ## The region's three results, over the six arrays as the region finds them

  With x, agg, Wa, ba, Wb, bb the contents of the region's six input arrays when it is entered, gin x agg Wa ba Wb bb i
  is max ((Σ_k max ((Σ_j (x[i₀,j] + agg[i₀,j]) · Wa[j,k]) + ba[0,k]) 0 · Wb[k,i₁]) + bb[0,i₁]) 0 (its definition,
  which unfolds by rfl). After the region the first output array holds it at every entry, the second its column sums
  over all 25000 rows, the third the column sums of its squares. -/

section Statement
variable (V : (c : Dev nD) → (b : Ref sig .tc) → Buf (Elt Ideal) ((c : Thread nD τ).loc b))

theorem region0_raw (c : Dev nD) :
    (dat0 (F := Ideal) V c).arrAt 6 cfg0.N
      = gin (V c (Pipeline.arrRef spec0 0) : S25000x64.Idx → EReal) (V c (Pipeline.arrRef spec0 1) : S25000x64.Idx → EReal)
          (V c (Pipeline.arrRef spec0 2) : S64x64.Idx → EReal) (V c (Pipeline.arrRef spec0 3) : S1x64.Idx → EReal)
          (V c (Pipeline.arrRef spec0 4) : S64x64.Idx → EReal) (V c (Pipeline.arrRef spec0 5) : S1x64.Idx → EReal) :=
  raw_final0 V c

theorem region0_sum (c : Dev nD) :
    (dat0 (F := Ideal) V c).arrAt 7 cfg0.N
      = ((fun i => ∑ r : Fin 25000,
          gin (V c (Pipeline.arrRef spec0 0) : S25000x64.Idx → EReal) (V c (Pipeline.arrRef spec0 1) : S25000x64.Idx → EReal)
          (V c (Pipeline.arrRef spec0 2) : S64x64.Idx → EReal) (V c (Pipeline.arrRef spec0 3) : S1x64.Idx → EReal)
          (V c (Pipeline.arrRef spec0 4) : S64x64.Idx → EReal) (V c (Pipeline.arrRef spec0 5) : S1x64.Idx → EReal) (ix2 r (i 1))) : S1x64.Idx → EReal) :=
  sum_final0 V c

theorem region0_sumsq (c : Dev nD) :
    (dat0 (F := Ideal) V c).arrAt 8 cfg0.N
      = ((fun i => ∑ r : Fin 25000,
          gin (V c (Pipeline.arrRef spec0 0) : S25000x64.Idx → EReal) (V c (Pipeline.arrRef spec0 1) : S25000x64.Idx → EReal)
          (V c (Pipeline.arrRef spec0 2) : S64x64.Idx → EReal) (V c (Pipeline.arrRef spec0 3) : S1x64.Idx → EReal)
          (V c (Pipeline.arrRef spec0 4) : S64x64.Idx → EReal) (V c (Pipeline.arrRef spec0 5) : S1x64.Idx → EReal) (ix2 r (i 1))
          * gin (V c (Pipeline.arrRef spec0 0) : S25000x64.Idx → EReal) (V c (Pipeline.arrRef spec0 1) : S25000x64.Idx → EReal)
          (V c (Pipeline.arrRef spec0 2) : S64x64.Idx → EReal) (V c (Pipeline.arrRef spec0 3) : S1x64.Idx → EReal)
          (V c (Pipeline.arrRef spec0 4) : S64x64.Idx → EReal) (V c (Pipeline.arrRef spec0 5) : S1x64.Idx → EReal) (ix2 r (i 1))) : S1x64.Idx → EReal) :=
  sumsq_final0 V c

end Statement

end Cert.KernelIdeal.RegionValue

end
-- ==== Proof.ArgsKept.lean ====
/-
  An argument array is written by no host operation and by no kernel region (a region only reads it, through an
  input window): at every boundary between segments of @main its buffer still holds the launch contents.
-/
import proofs.«160706_j53919019434042_2_alg».proof.Proof.Gen.KernelIdeal.Frame
import Idealize.ShloMosaic.Lib.StableHlo.Run
set_option maxRecDepth 16384

noncomputable section

namespace Cert.KernelIdeal.ArgsKept
open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window cellOf)
open Idealize.ShloMosaic.StableHlo

variable {F : FTy → Type} [FloatOps F]
variable (m : (ℓ : Loc nD τ sig) → Buf (Elt F) ℓ) (ρ : Dev nD → PrngReg) (c : Dev nD)

/-- No operation of a line of host operations writes the buffer: each operation's written set is a singleton other than it. -/
macro "not_written" ops:ident : tactic => `(tactic| (
  refine StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))))

theorem W1_arg0 : W1 m ρ c (Proc.devRef .tc main_arg0) = m ((c : Thread nD τ).loc main_arg0) :=
  (by not_written hostOps0 : W1 m ρ c (Proc.devRef .tc main_arg0) = W0 m ρ c (Proc.devRef .tc main_arg0)).trans (rfl)

theorem W1_arg1 : W1 m ρ c (Proc.devRef .tc main_arg1) = m ((c : Thread nD τ).loc main_arg1) :=
  (by not_written hostOps0 : W1 m ρ c (Proc.devRef .tc main_arg1) = W0 m ρ c (Proc.devRef .tc main_arg1)).trans (rfl)
theorem W2_arg1 : W2 m ρ c (Proc.devRef .tc main_arg1) = m ((c : Thread nD τ).loc main_arg1) :=
  (W2_of_ne m ρ c main_arg1 (by decide)).trans (W1_arg1 m ρ c)
theorem W3_arg1 : W3 m ρ c (Proc.devRef .tc main_arg1) = m ((c : Thread nD τ).loc main_arg1) :=
  (by not_written hostOps1 : W3 m ρ c (Proc.devRef .tc main_arg1) = W2 m ρ c (Proc.devRef .tc main_arg1)).trans (W2_arg1 m ρ c)
theorem W4_arg1 : W4 m ρ c (Proc.devRef .tc main_arg1) = m ((c : Thread nD τ).loc main_arg1) :=
  (W4_of_ne m ρ c main_arg1 (by decide)).trans (W3_arg1 m ρ c)

theorem W1_arg4 : W1 m ρ c (Proc.devRef .tc main_arg4) = m ((c : Thread nD τ).loc main_arg4) :=
  (by not_written hostOps0 : W1 m ρ c (Proc.devRef .tc main_arg4) = W0 m ρ c (Proc.devRef .tc main_arg4)).trans (rfl)
theorem W2_arg4 : W2 m ρ c (Proc.devRef .tc main_arg4) = m ((c : Thread nD τ).loc main_arg4) :=
  (W2_of_ne m ρ c main_arg4 (by decide)).trans (W1_arg4 m ρ c)
theorem W3_arg4 : W3 m ρ c (Proc.devRef .tc main_arg4) = m ((c : Thread nD τ).loc main_arg4) :=
  (by not_written hostOps1 : W3 m ρ c (Proc.devRef .tc main_arg4) = W2 m ρ c (Proc.devRef .tc main_arg4)).trans (W2_arg4 m ρ c)
theorem W4_arg4 : W4 m ρ c (Proc.devRef .tc main_arg4) = m ((c : Thread nD τ).loc main_arg4) :=
  (W4_of_ne m ρ c main_arg4 (by decide)).trans (W3_arg4 m ρ c)
theorem W5_arg4 : W5 m ρ c (Proc.devRef .tc main_arg4) = m ((c : Thread nD τ).loc main_arg4) :=
  (by not_written hostOps2 : W5 m ρ c (Proc.devRef .tc main_arg4) = W4 m ρ c (Proc.devRef .tc main_arg4)).trans (W4_arg4 m ρ c)
theorem W6_arg4 : W6 m ρ c (Proc.devRef .tc main_arg4) = m ((c : Thread nD τ).loc main_arg4) :=
  (W6_of_ne m ρ c main_arg4 (by decide)).trans (W5_arg4 m ρ c)
theorem W7_arg4 : W7 m ρ c (Proc.devRef .tc main_arg4) = m ((c : Thread nD τ).loc main_arg4) :=
  (by not_written hostOps3 : W7 m ρ c (Proc.devRef .tc main_arg4) = W6 m ρ c (Proc.devRef .tc main_arg4)).trans (W6_arg4 m ρ c)
theorem W8_arg4 : W8 m ρ c (Proc.devRef .tc main_arg4) = m ((c : Thread nD τ).loc main_arg4) :=
  (W8_of_ne m ρ c main_arg4 (by decide)).trans (W7_arg4 m ρ c)
theorem W9_arg4 : W9 m ρ c (Proc.devRef .tc main_arg4) = m ((c : Thread nD τ).loc main_arg4) :=
  (by not_written hostOps4 : W9 m ρ c (Proc.devRef .tc main_arg4) = W8 m ρ c (Proc.devRef .tc main_arg4)).trans (W8_arg4 m ρ c)
theorem W10_arg4 : W10 m ρ c (Proc.devRef .tc main_arg4) = m ((c : Thread nD τ).loc main_arg4) :=
  (W10_of_ne m ρ c main_arg4 (by decide)).trans (W9_arg4 m ρ c)
theorem W11_arg4 : W11 m ρ c (Proc.devRef .tc main_arg4) = m ((c : Thread nD τ).loc main_arg4) :=
  (W11_of_ne m ρ c main_arg4 (by decide)).trans (W10_arg4 m ρ c)

theorem W1_arg5 : W1 m ρ c (Proc.devRef .tc main_arg5) = m ((c : Thread nD τ).loc main_arg5) :=
  (by not_written hostOps0 : W1 m ρ c (Proc.devRef .tc main_arg5) = W0 m ρ c (Proc.devRef .tc main_arg5)).trans (rfl)
theorem W2_arg5 : W2 m ρ c (Proc.devRef .tc main_arg5) = m ((c : Thread nD τ).loc main_arg5) :=
  (W2_of_ne m ρ c main_arg5 (by decide)).trans (W1_arg5 m ρ c)
theorem W3_arg5 : W3 m ρ c (Proc.devRef .tc main_arg5) = m ((c : Thread nD τ).loc main_arg5) :=
  (by not_written hostOps1 : W3 m ρ c (Proc.devRef .tc main_arg5) = W2 m ρ c (Proc.devRef .tc main_arg5)).trans (W2_arg5 m ρ c)
theorem W4_arg5 : W4 m ρ c (Proc.devRef .tc main_arg5) = m ((c : Thread nD τ).loc main_arg5) :=
  (W4_of_ne m ρ c main_arg5 (by decide)).trans (W3_arg5 m ρ c)
theorem W5_arg5 : W5 m ρ c (Proc.devRef .tc main_arg5) = m ((c : Thread nD τ).loc main_arg5) :=
  (by not_written hostOps2 : W5 m ρ c (Proc.devRef .tc main_arg5) = W4 m ρ c (Proc.devRef .tc main_arg5)).trans (W4_arg5 m ρ c)
theorem W6_arg5 : W6 m ρ c (Proc.devRef .tc main_arg5) = m ((c : Thread nD τ).loc main_arg5) :=
  (W6_of_ne m ρ c main_arg5 (by decide)).trans (W5_arg5 m ρ c)
theorem W7_arg5 : W7 m ρ c (Proc.devRef .tc main_arg5) = m ((c : Thread nD τ).loc main_arg5) :=
  (by not_written hostOps3 : W7 m ρ c (Proc.devRef .tc main_arg5) = W6 m ρ c (Proc.devRef .tc main_arg5)).trans (W6_arg5 m ρ c)
theorem W8_arg5 : W8 m ρ c (Proc.devRef .tc main_arg5) = m ((c : Thread nD τ).loc main_arg5) :=
  (W8_of_ne m ρ c main_arg5 (by decide)).trans (W7_arg5 m ρ c)

theorem W1_arg6 : W1 m ρ c (Proc.devRef .tc main_arg6) = m ((c : Thread nD τ).loc main_arg6) :=
  (by not_written hostOps0 : W1 m ρ c (Proc.devRef .tc main_arg6) = W0 m ρ c (Proc.devRef .tc main_arg6)).trans (rfl)
theorem W2_arg6 : W2 m ρ c (Proc.devRef .tc main_arg6) = m ((c : Thread nD τ).loc main_arg6) :=
  (W2_of_ne m ρ c main_arg6 (by decide)).trans (W1_arg6 m ρ c)
theorem W3_arg6 : W3 m ρ c (Proc.devRef .tc main_arg6) = m ((c : Thread nD τ).loc main_arg6) :=
  (by not_written hostOps1 : W3 m ρ c (Proc.devRef .tc main_arg6) = W2 m ρ c (Proc.devRef .tc main_arg6)).trans (W2_arg6 m ρ c)
theorem W4_arg6 : W4 m ρ c (Proc.devRef .tc main_arg6) = m ((c : Thread nD τ).loc main_arg6) :=
  (W4_of_ne m ρ c main_arg6 (by decide)).trans (W3_arg6 m ρ c)
theorem W5_arg6 : W5 m ρ c (Proc.devRef .tc main_arg6) = m ((c : Thread nD τ).loc main_arg6) :=
  (by not_written hostOps2 : W5 m ρ c (Proc.devRef .tc main_arg6) = W4 m ρ c (Proc.devRef .tc main_arg6)).trans (W4_arg6 m ρ c)
theorem W6_arg6 : W6 m ρ c (Proc.devRef .tc main_arg6) = m ((c : Thread nD τ).loc main_arg6) :=
  (W6_of_ne m ρ c main_arg6 (by decide)).trans (W5_arg6 m ρ c)
theorem W7_arg6 : W7 m ρ c (Proc.devRef .tc main_arg6) = m ((c : Thread nD τ).loc main_arg6) :=
  (by not_written hostOps3 : W7 m ρ c (Proc.devRef .tc main_arg6) = W6 m ρ c (Proc.devRef .tc main_arg6)).trans (W6_arg6 m ρ c)
theorem W8_arg6 : W8 m ρ c (Proc.devRef .tc main_arg6) = m ((c : Thread nD τ).loc main_arg6) :=
  (W8_of_ne m ρ c main_arg6 (by decide)).trans (W7_arg6 m ρ c)
theorem W9_arg6 : W9 m ρ c (Proc.devRef .tc main_arg6) = m ((c : Thread nD τ).loc main_arg6) :=
  (by not_written hostOps4 : W9 m ρ c (Proc.devRef .tc main_arg6) = W8 m ρ c (Proc.devRef .tc main_arg6)).trans (W8_arg6 m ρ c)
theorem W10_arg6 : W10 m ρ c (Proc.devRef .tc main_arg6) = m ((c : Thread nD τ).loc main_arg6) :=
  (W10_of_ne m ρ c main_arg6 (by decide)).trans (W9_arg6 m ρ c)
theorem W11_arg6 : W11 m ρ c (Proc.devRef .tc main_arg6) = m ((c : Thread nD τ).loc main_arg6) :=
  (W11_of_ne m ρ c main_arg6 (by decide)).trans (W10_arg6 m ρ c)

theorem W1_arg7 : W1 m ρ c (Proc.devRef .tc main_arg7) = m ((c : Thread nD τ).loc main_arg7) :=
  (by not_written hostOps0 : W1 m ρ c (Proc.devRef .tc main_arg7) = W0 m ρ c (Proc.devRef .tc main_arg7)).trans (rfl)
theorem W2_arg7 : W2 m ρ c (Proc.devRef .tc main_arg7) = m ((c : Thread nD τ).loc main_arg7) :=
  (W2_of_ne m ρ c main_arg7 (by decide)).trans (W1_arg7 m ρ c)
theorem W3_arg7 : W3 m ρ c (Proc.devRef .tc main_arg7) = m ((c : Thread nD τ).loc main_arg7) :=
  (by not_written hostOps1 : W3 m ρ c (Proc.devRef .tc main_arg7) = W2 m ρ c (Proc.devRef .tc main_arg7)).trans (W2_arg7 m ρ c)
theorem W4_arg7 : W4 m ρ c (Proc.devRef .tc main_arg7) = m ((c : Thread nD τ).loc main_arg7) :=
  (W4_of_ne m ρ c main_arg7 (by decide)).trans (W3_arg7 m ρ c)
theorem W5_arg7 : W5 m ρ c (Proc.devRef .tc main_arg7) = m ((c : Thread nD τ).loc main_arg7) :=
  (by not_written hostOps2 : W5 m ρ c (Proc.devRef .tc main_arg7) = W4 m ρ c (Proc.devRef .tc main_arg7)).trans (W4_arg7 m ρ c)
theorem W6_arg7 : W6 m ρ c (Proc.devRef .tc main_arg7) = m ((c : Thread nD τ).loc main_arg7) :=
  (W6_of_ne m ρ c main_arg7 (by decide)).trans (W5_arg7 m ρ c)
theorem W7_arg7 : W7 m ρ c (Proc.devRef .tc main_arg7) = m ((c : Thread nD τ).loc main_arg7) :=
  (by not_written hostOps3 : W7 m ρ c (Proc.devRef .tc main_arg7) = W6 m ρ c (Proc.devRef .tc main_arg7)).trans (W6_arg7 m ρ c)
theorem W8_arg7 : W8 m ρ c (Proc.devRef .tc main_arg7) = m ((c : Thread nD τ).loc main_arg7) :=
  (W8_of_ne m ρ c main_arg7 (by decide)).trans (W7_arg7 m ρ c)

theorem W1_arg8 : W1 m ρ c (Proc.devRef .tc main_arg8) = m ((c : Thread nD τ).loc main_arg8) :=
  (by not_written hostOps0 : W1 m ρ c (Proc.devRef .tc main_arg8) = W0 m ρ c (Proc.devRef .tc main_arg8)).trans (rfl)
theorem W2_arg8 : W2 m ρ c (Proc.devRef .tc main_arg8) = m ((c : Thread nD τ).loc main_arg8) :=
  (W2_of_ne m ρ c main_arg8 (by decide)).trans (W1_arg8 m ρ c)
theorem W3_arg8 : W3 m ρ c (Proc.devRef .tc main_arg8) = m ((c : Thread nD τ).loc main_arg8) :=
  (by not_written hostOps1 : W3 m ρ c (Proc.devRef .tc main_arg8) = W2 m ρ c (Proc.devRef .tc main_arg8)).trans (W2_arg8 m ρ c)
theorem W4_arg8 : W4 m ρ c (Proc.devRef .tc main_arg8) = m ((c : Thread nD τ).loc main_arg8) :=
  (W4_of_ne m ρ c main_arg8 (by decide)).trans (W3_arg8 m ρ c)
theorem W5_arg8 : W5 m ρ c (Proc.devRef .tc main_arg8) = m ((c : Thread nD τ).loc main_arg8) :=
  (by not_written hostOps2 : W5 m ρ c (Proc.devRef .tc main_arg8) = W4 m ρ c (Proc.devRef .tc main_arg8)).trans (W4_arg8 m ρ c)
theorem W6_arg8 : W6 m ρ c (Proc.devRef .tc main_arg8) = m ((c : Thread nD τ).loc main_arg8) :=
  (W6_of_ne m ρ c main_arg8 (by decide)).trans (W5_arg8 m ρ c)
theorem W7_arg8 : W7 m ρ c (Proc.devRef .tc main_arg8) = m ((c : Thread nD τ).loc main_arg8) :=
  (by not_written hostOps3 : W7 m ρ c (Proc.devRef .tc main_arg8) = W6 m ρ c (Proc.devRef .tc main_arg8)).trans (W6_arg8 m ρ c)
theorem W8_arg8 : W8 m ρ c (Proc.devRef .tc main_arg8) = m ((c : Thread nD τ).loc main_arg8) :=
  (W8_of_ne m ρ c main_arg8 (by decide)).trans (W7_arg8 m ρ c)
theorem W9_arg8 : W9 m ρ c (Proc.devRef .tc main_arg8) = m ((c : Thread nD τ).loc main_arg8) :=
  (by not_written hostOps4 : W9 m ρ c (Proc.devRef .tc main_arg8) = W8 m ρ c (Proc.devRef .tc main_arg8)).trans (W8_arg8 m ρ c)
theorem W10_arg8 : W10 m ρ c (Proc.devRef .tc main_arg8) = m ((c : Thread nD τ).loc main_arg8) :=
  (W10_of_ne m ρ c main_arg8 (by decide)).trans (W9_arg8 m ρ c)
theorem W11_arg8 : W11 m ρ c (Proc.devRef .tc main_arg8) = m ((c : Thread nD τ).loc main_arg8) :=
  (W11_of_ne m ρ c main_arg8 (by decide)).trans (W10_arg8 m ρ c)

theorem W1_arg9 : W1 m ρ c (Proc.devRef .tc main_arg9) = m ((c : Thread nD τ).loc main_arg9) :=
  (by not_written hostOps0 : W1 m ρ c (Proc.devRef .tc main_arg9) = W0 m ρ c (Proc.devRef .tc main_arg9)).trans (rfl)
theorem W2_arg9 : W2 m ρ c (Proc.devRef .tc main_arg9) = m ((c : Thread nD τ).loc main_arg9) :=
  (W2_of_ne m ρ c main_arg9 (by decide)).trans (W1_arg9 m ρ c)
theorem W3_arg9 : W3 m ρ c (Proc.devRef .tc main_arg9) = m ((c : Thread nD τ).loc main_arg9) :=
  (by not_written hostOps1 : W3 m ρ c (Proc.devRef .tc main_arg9) = W2 m ρ c (Proc.devRef .tc main_arg9)).trans (W2_arg9 m ρ c)
theorem W4_arg9 : W4 m ρ c (Proc.devRef .tc main_arg9) = m ((c : Thread nD τ).loc main_arg9) :=
  (W4_of_ne m ρ c main_arg9 (by decide)).trans (W3_arg9 m ρ c)
theorem W5_arg9 : W5 m ρ c (Proc.devRef .tc main_arg9) = m ((c : Thread nD τ).loc main_arg9) :=
  (by not_written hostOps2 : W5 m ρ c (Proc.devRef .tc main_arg9) = W4 m ρ c (Proc.devRef .tc main_arg9)).trans (W4_arg9 m ρ c)
theorem W6_arg9 : W6 m ρ c (Proc.devRef .tc main_arg9) = m ((c : Thread nD τ).loc main_arg9) :=
  (W6_of_ne m ρ c main_arg9 (by decide)).trans (W5_arg9 m ρ c)
theorem W7_arg9 : W7 m ρ c (Proc.devRef .tc main_arg9) = m ((c : Thread nD τ).loc main_arg9) :=
  (by not_written hostOps3 : W7 m ρ c (Proc.devRef .tc main_arg9) = W6 m ρ c (Proc.devRef .tc main_arg9)).trans (W6_arg9 m ρ c)
theorem W8_arg9 : W8 m ρ c (Proc.devRef .tc main_arg9) = m ((c : Thread nD τ).loc main_arg9) :=
  (W8_of_ne m ρ c main_arg9 (by decide)).trans (W7_arg9 m ρ c)

theorem W1_arg10 : W1 m ρ c (Proc.devRef .tc main_arg10) = m ((c : Thread nD τ).loc main_arg10) :=
  (by not_written hostOps0 : W1 m ρ c (Proc.devRef .tc main_arg10) = W0 m ρ c (Proc.devRef .tc main_arg10)).trans (rfl)

theorem W1_arg12 : W1 m ρ c (Proc.devRef .tc main_arg12) = m ((c : Thread nD τ).loc main_arg12) :=
  (by not_written hostOps0 : W1 m ρ c (Proc.devRef .tc main_arg12) = W0 m ρ c (Proc.devRef .tc main_arg12)).trans (rfl)

theorem W1_arg14 : W1 m ρ c (Proc.devRef .tc main_arg14) = m ((c : Thread nD τ).loc main_arg14) :=
  (by not_written hostOps0 : W1 m ρ c (Proc.devRef .tc main_arg14) = W0 m ρ c (Proc.devRef .tc main_arg14)).trans (rfl)
theorem W2_arg14 : W2 m ρ c (Proc.devRef .tc main_arg14) = m ((c : Thread nD τ).loc main_arg14) :=
  (W2_of_ne m ρ c main_arg14 (by decide)).trans (W1_arg14 m ρ c)

theorem W1_arg15 : W1 m ρ c (Proc.devRef .tc main_arg15) = m ((c : Thread nD τ).loc main_arg15) :=
  (by not_written hostOps0 : W1 m ρ c (Proc.devRef .tc main_arg15) = W0 m ρ c (Proc.devRef .tc main_arg15)).trans (rfl)
theorem W2_arg15 : W2 m ρ c (Proc.devRef .tc main_arg15) = m ((c : Thread nD τ).loc main_arg15) :=
  (W2_of_ne m ρ c main_arg15 (by decide)).trans (W1_arg15 m ρ c)

theorem W1_arg16 : W1 m ρ c (Proc.devRef .tc main_arg16) = m ((c : Thread nD τ).loc main_arg16) :=
  (by not_written hostOps0 : W1 m ρ c (Proc.devRef .tc main_arg16) = W0 m ρ c (Proc.devRef .tc main_arg16)).trans (rfl)
theorem W2_arg16 : W2 m ρ c (Proc.devRef .tc main_arg16) = m ((c : Thread nD τ).loc main_arg16) :=
  (W2_of_ne m ρ c main_arg16 (by decide)).trans (W1_arg16 m ρ c)
theorem W3_arg16 : W3 m ρ c (Proc.devRef .tc main_arg16) = m ((c : Thread nD τ).loc main_arg16) :=
  (by not_written hostOps1 : W3 m ρ c (Proc.devRef .tc main_arg16) = W2 m ρ c (Proc.devRef .tc main_arg16)).trans (W2_arg16 m ρ c)
theorem W4_arg16 : W4 m ρ c (Proc.devRef .tc main_arg16) = m ((c : Thread nD τ).loc main_arg16) :=
  (W4_of_ne m ρ c main_arg16 (by decide)).trans (W3_arg16 m ρ c)
theorem W5_arg16 : W5 m ρ c (Proc.devRef .tc main_arg16) = m ((c : Thread nD τ).loc main_arg16) :=
  (by not_written hostOps2 : W5 m ρ c (Proc.devRef .tc main_arg16) = W4 m ρ c (Proc.devRef .tc main_arg16)).trans (W4_arg16 m ρ c)

theorem W1_arg17 : W1 m ρ c (Proc.devRef .tc main_arg17) = m ((c : Thread nD τ).loc main_arg17) :=
  (by not_written hostOps0 : W1 m ρ c (Proc.devRef .tc main_arg17) = W0 m ρ c (Proc.devRef .tc main_arg17)).trans (rfl)
theorem W2_arg17 : W2 m ρ c (Proc.devRef .tc main_arg17) = m ((c : Thread nD τ).loc main_arg17) :=
  (W2_of_ne m ρ c main_arg17 (by decide)).trans (W1_arg17 m ρ c)
theorem W3_arg17 : W3 m ρ c (Proc.devRef .tc main_arg17) = m ((c : Thread nD τ).loc main_arg17) :=
  (by not_written hostOps1 : W3 m ρ c (Proc.devRef .tc main_arg17) = W2 m ρ c (Proc.devRef .tc main_arg17)).trans (W2_arg17 m ρ c)
theorem W4_arg17 : W4 m ρ c (Proc.devRef .tc main_arg17) = m ((c : Thread nD τ).loc main_arg17) :=
  (W4_of_ne m ρ c main_arg17 (by decide)).trans (W3_arg17 m ρ c)

theorem W1_arg18 : W1 m ρ c (Proc.devRef .tc main_arg18) = m ((c : Thread nD τ).loc main_arg18) :=
  (by not_written hostOps0 : W1 m ρ c (Proc.devRef .tc main_arg18) = W0 m ρ c (Proc.devRef .tc main_arg18)).trans (rfl)
theorem W2_arg18 : W2 m ρ c (Proc.devRef .tc main_arg18) = m ((c : Thread nD τ).loc main_arg18) :=
  (W2_of_ne m ρ c main_arg18 (by decide)).trans (W1_arg18 m ρ c)
theorem W3_arg18 : W3 m ρ c (Proc.devRef .tc main_arg18) = m ((c : Thread nD τ).loc main_arg18) :=
  (by not_written hostOps1 : W3 m ρ c (Proc.devRef .tc main_arg18) = W2 m ρ c (Proc.devRef .tc main_arg18)).trans (W2_arg18 m ρ c)
theorem W4_arg18 : W4 m ρ c (Proc.devRef .tc main_arg18) = m ((c : Thread nD τ).loc main_arg18) :=
  (W4_of_ne m ρ c main_arg18 (by decide)).trans (W3_arg18 m ρ c)
theorem W5_arg18 : W5 m ρ c (Proc.devRef .tc main_arg18) = m ((c : Thread nD τ).loc main_arg18) :=
  (by not_written hostOps2 : W5 m ρ c (Proc.devRef .tc main_arg18) = W4 m ρ c (Proc.devRef .tc main_arg18)).trans (W4_arg18 m ρ c)

theorem W1_arg19 : W1 m ρ c (Proc.devRef .tc main_arg19) = m ((c : Thread nD τ).loc main_arg19) :=
  (by not_written hostOps0 : W1 m ρ c (Proc.devRef .tc main_arg19) = W0 m ρ c (Proc.devRef .tc main_arg19)).trans (rfl)
theorem W2_arg19 : W2 m ρ c (Proc.devRef .tc main_arg19) = m ((c : Thread nD τ).loc main_arg19) :=
  (W2_of_ne m ρ c main_arg19 (by decide)).trans (W1_arg19 m ρ c)
theorem W3_arg19 : W3 m ρ c (Proc.devRef .tc main_arg19) = m ((c : Thread nD τ).loc main_arg19) :=
  (by not_written hostOps1 : W3 m ρ c (Proc.devRef .tc main_arg19) = W2 m ρ c (Proc.devRef .tc main_arg19)).trans (W2_arg19 m ρ c)
theorem W4_arg19 : W4 m ρ c (Proc.devRef .tc main_arg19) = m ((c : Thread nD τ).loc main_arg19) :=
  (W4_of_ne m ρ c main_arg19 (by decide)).trans (W3_arg19 m ρ c)

theorem W1_arg20 : W1 m ρ c (Proc.devRef .tc main_arg20) = m ((c : Thread nD τ).loc main_arg20) :=
  (by not_written hostOps0 : W1 m ρ c (Proc.devRef .tc main_arg20) = W0 m ρ c (Proc.devRef .tc main_arg20)).trans (rfl)
theorem W2_arg20 : W2 m ρ c (Proc.devRef .tc main_arg20) = m ((c : Thread nD τ).loc main_arg20) :=
  (W2_of_ne m ρ c main_arg20 (by decide)).trans (W1_arg20 m ρ c)
theorem W3_arg20 : W3 m ρ c (Proc.devRef .tc main_arg20) = m ((c : Thread nD τ).loc main_arg20) :=
  (by not_written hostOps1 : W3 m ρ c (Proc.devRef .tc main_arg20) = W2 m ρ c (Proc.devRef .tc main_arg20)).trans (W2_arg20 m ρ c)
theorem W4_arg20 : W4 m ρ c (Proc.devRef .tc main_arg20) = m ((c : Thread nD τ).loc main_arg20) :=
  (W4_of_ne m ρ c main_arg20 (by decide)).trans (W3_arg20 m ρ c)
theorem W5_arg20 : W5 m ρ c (Proc.devRef .tc main_arg20) = m ((c : Thread nD τ).loc main_arg20) :=
  (by not_written hostOps2 : W5 m ρ c (Proc.devRef .tc main_arg20) = W4 m ρ c (Proc.devRef .tc main_arg20)).trans (W4_arg20 m ρ c)
theorem W6_arg20 : W6 m ρ c (Proc.devRef .tc main_arg20) = m ((c : Thread nD τ).loc main_arg20) :=
  (W6_of_ne m ρ c main_arg20 (by decide)).trans (W5_arg20 m ρ c)

theorem W1_arg21 : W1 m ρ c (Proc.devRef .tc main_arg21) = m ((c : Thread nD τ).loc main_arg21) :=
  (by not_written hostOps0 : W1 m ρ c (Proc.devRef .tc main_arg21) = W0 m ρ c (Proc.devRef .tc main_arg21)).trans (rfl)
theorem W2_arg21 : W2 m ρ c (Proc.devRef .tc main_arg21) = m ((c : Thread nD τ).loc main_arg21) :=
  (W2_of_ne m ρ c main_arg21 (by decide)).trans (W1_arg21 m ρ c)
theorem W3_arg21 : W3 m ρ c (Proc.devRef .tc main_arg21) = m ((c : Thread nD τ).loc main_arg21) :=
  (by not_written hostOps1 : W3 m ρ c (Proc.devRef .tc main_arg21) = W2 m ρ c (Proc.devRef .tc main_arg21)).trans (W2_arg21 m ρ c)
theorem W4_arg21 : W4 m ρ c (Proc.devRef .tc main_arg21) = m ((c : Thread nD τ).loc main_arg21) :=
  (W4_of_ne m ρ c main_arg21 (by decide)).trans (W3_arg21 m ρ c)
theorem W5_arg21 : W5 m ρ c (Proc.devRef .tc main_arg21) = m ((c : Thread nD τ).loc main_arg21) :=
  (by not_written hostOps2 : W5 m ρ c (Proc.devRef .tc main_arg21) = W4 m ρ c (Proc.devRef .tc main_arg21)).trans (W4_arg21 m ρ c)
theorem W6_arg21 : W6 m ρ c (Proc.devRef .tc main_arg21) = m ((c : Thread nD τ).loc main_arg21) :=
  (W6_of_ne m ρ c main_arg21 (by decide)).trans (W5_arg21 m ρ c)

theorem W1_arg22 : W1 m ρ c (Proc.devRef .tc main_arg22) = m ((c : Thread nD τ).loc main_arg22) :=
  (by not_written hostOps0 : W1 m ρ c (Proc.devRef .tc main_arg22) = W0 m ρ c (Proc.devRef .tc main_arg22)).trans (rfl)
theorem W2_arg22 : W2 m ρ c (Proc.devRef .tc main_arg22) = m ((c : Thread nD τ).loc main_arg22) :=
  (W2_of_ne m ρ c main_arg22 (by decide)).trans (W1_arg22 m ρ c)
theorem W3_arg22 : W3 m ρ c (Proc.devRef .tc main_arg22) = m ((c : Thread nD τ).loc main_arg22) :=
  (by not_written hostOps1 : W3 m ρ c (Proc.devRef .tc main_arg22) = W2 m ρ c (Proc.devRef .tc main_arg22)).trans (W2_arg22 m ρ c)
theorem W4_arg22 : W4 m ρ c (Proc.devRef .tc main_arg22) = m ((c : Thread nD τ).loc main_arg22) :=
  (W4_of_ne m ρ c main_arg22 (by decide)).trans (W3_arg22 m ρ c)
theorem W5_arg22 : W5 m ρ c (Proc.devRef .tc main_arg22) = m ((c : Thread nD τ).loc main_arg22) :=
  (by not_written hostOps2 : W5 m ρ c (Proc.devRef .tc main_arg22) = W4 m ρ c (Proc.devRef .tc main_arg22)).trans (W4_arg22 m ρ c)
theorem W6_arg22 : W6 m ρ c (Proc.devRef .tc main_arg22) = m ((c : Thread nD τ).loc main_arg22) :=
  (W6_of_ne m ρ c main_arg22 (by decide)).trans (W5_arg22 m ρ c)

theorem W1_arg23 : W1 m ρ c (Proc.devRef .tc main_arg23) = m ((c : Thread nD τ).loc main_arg23) :=
  (by not_written hostOps0 : W1 m ρ c (Proc.devRef .tc main_arg23) = W0 m ρ c (Proc.devRef .tc main_arg23)).trans (rfl)
theorem W2_arg23 : W2 m ρ c (Proc.devRef .tc main_arg23) = m ((c : Thread nD τ).loc main_arg23) :=
  (W2_of_ne m ρ c main_arg23 (by decide)).trans (W1_arg23 m ρ c)
theorem W3_arg23 : W3 m ρ c (Proc.devRef .tc main_arg23) = m ((c : Thread nD τ).loc main_arg23) :=
  (by not_written hostOps1 : W3 m ρ c (Proc.devRef .tc main_arg23) = W2 m ρ c (Proc.devRef .tc main_arg23)).trans (W2_arg23 m ρ c)
theorem W4_arg23 : W4 m ρ c (Proc.devRef .tc main_arg23) = m ((c : Thread nD τ).loc main_arg23) :=
  (W4_of_ne m ρ c main_arg23 (by decide)).trans (W3_arg23 m ρ c)
theorem W5_arg23 : W5 m ρ c (Proc.devRef .tc main_arg23) = m ((c : Thread nD τ).loc main_arg23) :=
  (by not_written hostOps2 : W5 m ρ c (Proc.devRef .tc main_arg23) = W4 m ρ c (Proc.devRef .tc main_arg23)).trans (W4_arg23 m ρ c)
theorem W6_arg23 : W6 m ρ c (Proc.devRef .tc main_arg23) = m ((c : Thread nD τ).loc main_arg23) :=
  (W6_of_ne m ρ c main_arg23 (by decide)).trans (W5_arg23 m ρ c)
theorem W7_arg23 : W7 m ρ c (Proc.devRef .tc main_arg23) = m ((c : Thread nD τ).loc main_arg23) :=
  (by not_written hostOps3 : W7 m ρ c (Proc.devRef .tc main_arg23) = W6 m ρ c (Proc.devRef .tc main_arg23)).trans (W6_arg23 m ρ c)
theorem W8_arg23 : W8 m ρ c (Proc.devRef .tc main_arg23) = m ((c : Thread nD τ).loc main_arg23) :=
  (W8_of_ne m ρ c main_arg23 (by decide)).trans (W7_arg23 m ρ c)

theorem W1_arg24 : W1 m ρ c (Proc.devRef .tc main_arg24) = m ((c : Thread nD τ).loc main_arg24) :=
  (by not_written hostOps0 : W1 m ρ c (Proc.devRef .tc main_arg24) = W0 m ρ c (Proc.devRef .tc main_arg24)).trans (rfl)
theorem W2_arg24 : W2 m ρ c (Proc.devRef .tc main_arg24) = m ((c : Thread nD τ).loc main_arg24) :=
  (W2_of_ne m ρ c main_arg24 (by decide)).trans (W1_arg24 m ρ c)
theorem W3_arg24 : W3 m ρ c (Proc.devRef .tc main_arg24) = m ((c : Thread nD τ).loc main_arg24) :=
  (by not_written hostOps1 : W3 m ρ c (Proc.devRef .tc main_arg24) = W2 m ρ c (Proc.devRef .tc main_arg24)).trans (W2_arg24 m ρ c)
theorem W4_arg24 : W4 m ρ c (Proc.devRef .tc main_arg24) = m ((c : Thread nD τ).loc main_arg24) :=
  (W4_of_ne m ρ c main_arg24 (by decide)).trans (W3_arg24 m ρ c)
theorem W5_arg24 : W5 m ρ c (Proc.devRef .tc main_arg24) = m ((c : Thread nD τ).loc main_arg24) :=
  (by not_written hostOps2 : W5 m ρ c (Proc.devRef .tc main_arg24) = W4 m ρ c (Proc.devRef .tc main_arg24)).trans (W4_arg24 m ρ c)
theorem W6_arg24 : W6 m ρ c (Proc.devRef .tc main_arg24) = m ((c : Thread nD τ).loc main_arg24) :=
  (W6_of_ne m ρ c main_arg24 (by decide)).trans (W5_arg24 m ρ c)
theorem W7_arg24 : W7 m ρ c (Proc.devRef .tc main_arg24) = m ((c : Thread nD τ).loc main_arg24) :=
  (by not_written hostOps3 : W7 m ρ c (Proc.devRef .tc main_arg24) = W6 m ρ c (Proc.devRef .tc main_arg24)).trans (W6_arg24 m ρ c)
theorem W8_arg24 : W8 m ρ c (Proc.devRef .tc main_arg24) = m ((c : Thread nD τ).loc main_arg24) :=
  (W8_of_ne m ρ c main_arg24 (by decide)).trans (W7_arg24 m ρ c)
theorem W9_arg24 : W9 m ρ c (Proc.devRef .tc main_arg24) = m ((c : Thread nD τ).loc main_arg24) :=
  (by not_written hostOps4 : W9 m ρ c (Proc.devRef .tc main_arg24) = W8 m ρ c (Proc.devRef .tc main_arg24)).trans (W8_arg24 m ρ c)
theorem W10_arg24 : W10 m ρ c (Proc.devRef .tc main_arg24) = m ((c : Thread nD τ).loc main_arg24) :=
  (W10_of_ne m ρ c main_arg24 (by decide)).trans (W9_arg24 m ρ c)

theorem W1_arg25 : W1 m ρ c (Proc.devRef .tc main_arg25) = m ((c : Thread nD τ).loc main_arg25) :=
  (by not_written hostOps0 : W1 m ρ c (Proc.devRef .tc main_arg25) = W0 m ρ c (Proc.devRef .tc main_arg25)).trans (rfl)
theorem W2_arg25 : W2 m ρ c (Proc.devRef .tc main_arg25) = m ((c : Thread nD τ).loc main_arg25) :=
  (W2_of_ne m ρ c main_arg25 (by decide)).trans (W1_arg25 m ρ c)
theorem W3_arg25 : W3 m ρ c (Proc.devRef .tc main_arg25) = m ((c : Thread nD τ).loc main_arg25) :=
  (by not_written hostOps1 : W3 m ρ c (Proc.devRef .tc main_arg25) = W2 m ρ c (Proc.devRef .tc main_arg25)).trans (W2_arg25 m ρ c)
theorem W4_arg25 : W4 m ρ c (Proc.devRef .tc main_arg25) = m ((c : Thread nD τ).loc main_arg25) :=
  (W4_of_ne m ρ c main_arg25 (by decide)).trans (W3_arg25 m ρ c)
theorem W5_arg25 : W5 m ρ c (Proc.devRef .tc main_arg25) = m ((c : Thread nD τ).loc main_arg25) :=
  (by not_written hostOps2 : W5 m ρ c (Proc.devRef .tc main_arg25) = W4 m ρ c (Proc.devRef .tc main_arg25)).trans (W4_arg25 m ρ c)
theorem W6_arg25 : W6 m ρ c (Proc.devRef .tc main_arg25) = m ((c : Thread nD τ).loc main_arg25) :=
  (W6_of_ne m ρ c main_arg25 (by decide)).trans (W5_arg25 m ρ c)
theorem W7_arg25 : W7 m ρ c (Proc.devRef .tc main_arg25) = m ((c : Thread nD τ).loc main_arg25) :=
  (by not_written hostOps3 : W7 m ρ c (Proc.devRef .tc main_arg25) = W6 m ρ c (Proc.devRef .tc main_arg25)).trans (W6_arg25 m ρ c)
theorem W8_arg25 : W8 m ρ c (Proc.devRef .tc main_arg25) = m ((c : Thread nD τ).loc main_arg25) :=
  (W8_of_ne m ρ c main_arg25 (by decide)).trans (W7_arg25 m ρ c)
theorem W9_arg25 : W9 m ρ c (Proc.devRef .tc main_arg25) = m ((c : Thread nD τ).loc main_arg25) :=
  (by not_written hostOps4 : W9 m ρ c (Proc.devRef .tc main_arg25) = W8 m ρ c (Proc.devRef .tc main_arg25)).trans (W8_arg25 m ρ c)
theorem W10_arg25 : W10 m ρ c (Proc.devRef .tc main_arg25) = m ((c : Thread nD τ).loc main_arg25) :=
  (W10_of_ne m ρ c main_arg25 (by decide)).trans (W9_arg25 m ρ c)
theorem W11_arg25 : W11 m ρ c (Proc.devRef .tc main_arg25) = m ((c : Thread nD τ).loc main_arg25) :=
  (W11_of_ne m ρ c main_arg25 (by decide)).trans (W10_arg25 m ρ c)

end Cert.KernelIdeal.ArgsKept

end
-- ==== Proof.LibBroadcastEntry.lean ====
/-
  Broadcasts of small shapes read at one entry, for the shapes a dense layer with a per-row factor and a per-column
  bias meets:

  * a column `[a, 1]` broadcast over the columns of `[a, b]` — by `vector.broadcast` and by the host's
    `broadcast_in_dim` along `[0, 1]` — reads, at `(p, c)`, the column's entry `(p, 0)`;
  * a row `[1, b]` broadcast over the rows of `[a, b]` by `broadcast_in_dim` along `[0, 1]` reads, at `(p, c)`, the
    row's entry `(0, c)`;
  * a vector `[b]` placed as the row of `[1, b]` by `broadcast_in_dim` along `[1]` reads, at `(u, c)`, the vector's
    entry `c`;
  * a scalar broadcast to any shape reads the scalar everywhere.
-/
import Idealize.ShloMosaic.Lib.ValueLayout
import Idealize.ShloMosaic.Lib.Pipeline.Value

namespace Idealize.ShloMosaic.ValueIdx

variable {α : Type}

/-- A `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a `[a, 1]` column along `[0, 1]` to `[a, b]` reads, at `(p, c)`, the column at `(p, 0)`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a `[1, b]` row along `[0, 1]` to `[a, b]` reads, at `(p, c)`, the row at `(0, c)`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's placing of a `[b]` vector as the row of `[1, b]` (along `[1]`) reads, at `(u, c)`, the vector at `c`. -/
theorem broadcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply _ h v (ix2 u c) (ix1 c) fun ax => ?_
  match ax with
  | ⟨0, _⟩ =>
    show c.val = if b = 1 then 0 else c.val
    split
    · have := c.isLt; omega
    · rfl

/-- The host's broadcast of a scalar to any shape reads the scalar at every index. -/
theorem broadcastInDim_scalar_apply {t : Shape} (v : (⟨0, ![]⟩ : Shape).Idx → α)
    (h : (⟨0, ![]⟩ : Shape).BroadcastsInDim t ![]) (j : t.Idx) :
    broadcastInDim t ![] h v j = v ix0 :=
  broadcastInDim_apply _ h v j ix0 fun ax => ax.elim0

end Idealize.ShloMosaic.ValueIdx
-- ==== Proof.LibDotGeneralEntry.lean ====
/-
  The host's `dot_general` of two rank-2 operands, `[M, K] × [K, N] → [M, N]` contracting the left operand's axis 1 with
  the right operand's axis 0, read at ONE ENTRY of its result at the ideal values: entry `(p, q)` is
  `Σ_k a[p, k] · b[k, q]`, a plain sum over `Fin K`, whatever the schedule key — stated for ANY dimension-number record
  with those six lists, any extents and operand formats.

  At the ideal values the host product and a `tpu.matmul` into the zero accumulator are the same sum over the
  contraction's index type, so the entry form of the matrix product (LibMatmulEntry) carries over.
-/
import proofs.«160706_j53919019434042_2_alg».proof.Proof.LibMatmulEntry

noncomputable section

open scoped BigOperators

namespace Idealize.ShloMosaic.Ideal

open Idealize.ShloMosaic.ValueIdx

/-- Rows times columns on the host: `[M, K] × [K, N] → [M, N]`, at entry `(p, q)`. -/
theorem dotGeneral_rows_cols {M K N : Nat} {φ₁ φ₂ : FTy} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (prec : Option ContractPrecision) (sched : HostSchedule) (a : FVec Ideal ⟨2, ![M, K]⟩ φ₁) (b : FVec Ideal ⟨2, ![K, N]⟩ φ₂)
    (p : Fin M) (q : Fin N) :
    FloatOps.dotGeneral D prec sched a b (ix2 p q) = ∑ k : Fin K, a (ix2 p k) * b (ix2 k q) :=
  ((dotGeneral_apply D prec sched a b (ix2 p q)).trans (matmul_constant_zero_apply D prec a b (ix2 p q)).symm).trans
    (matmul_rows_cols D hlb hln hlc hrb hrn hrc prec a b p q)

end Idealize.ShloMosaic.Ideal

end
-- ==== Proof.KHost0.lean ====
import proofs.«160706_j53919019434042_2_alg».proof.Proof.Gen.KernelIdeal.Frame
import proofs.«160706_j53919019434042_2_alg».proof.Proof.ArgsKept
import proofs.«160706_j53919019434042_2_alg».proof.Proof.LibBroadcastEntry
import proofs.«160706_j53919019434042_2_alg».proof.Proof.LibDotGeneralEntry
import Idealize.ShloMosaic.Lib.StableHlo.Run
import Idealize.ShloMosaic.Lib.ValueLayout

set_option maxRecDepth 16384

noncomputable section

open scoped BigOperators

namespace Cert.KernelIdeal.HostRead
open Cert.KernelIdeal Cert.KernelIdeal.Gen
open Idealize.ShloMosaic Idealize.ShloMosaic.TcCoe Idealize.ShloMosaic.Tactic
open Idealize.SL Idealize.SL.Sem
open Idealize.ShloMosaic.StableHlo Idealize.ShloMosaic.ValueIdx

variable (m : (ℓ : Loc nD τ sig) → Buf (Elt Ideal) ℓ) (ρ : Dev nD → PrngReg) (c : Dev nD)

local notation "c25" => Ideal.ofBits FTy.f32 0x46C35000#32
local notation "eps" => Ideal.ofBits FTy.f32 0x3727C5AC#32

/-!
# The host lines before the first statistics pass, read at an entry

Besides gathering and summing neighbour rows, these lines lay the two bias vectors of the first dense layer out as rows.
-/

/-- The first bias of the first dense layer, laid out as a row. -/
theorem k0_ba (k : Fin 64) :
    (W1 m ρ c (Proc.devRef .tc main_v14) : S1x64.Idx → EReal) (ix2 0 k)
      = (m ((c : Thread nD τ).loc main_arg11) : S64.Idx → EReal) (ix1 k) := by
  have e : (W1 m ρ c (Proc.devRef .tc main_v14) : S1x64.Idx → EReal)
      = shapeCast S1x64 (W0 m ρ c (Proc.devRef .tc main_arg11) : S64.Idx → EReal) shapeCasts_S64_S1x64 := by
    dsimp only [W1]; simp only [hostOps0]; after_results_simp; rfl
  rw [e, shapeCast_a_1a_apply]

/-- The second bias of the first dense layer, laid out as a row. -/
theorem k0_bb (k : Fin 64) :
    (W1 m ρ c (Proc.devRef .tc main_v15) : S1x64.Idx → EReal) (ix2 0 k)
      = (m ((c : Thread nD τ).loc main_arg13) : S64.Idx → EReal) (ix1 k) := by
  have e : (W1 m ρ c (Proc.devRef .tc main_v15) : S1x64.Idx → EReal)
      = shapeCast S1x64 (W0 m ρ c (Proc.devRef .tc main_arg13) : S64.Idx → EReal) shapeCasts_S64_S1x64 := by
    dsimp only [W1]; simp only [hostOps0]; after_results_simp; rfl
  rw [e, shapeCast_a_1a_apply]

end Cert.KernelIdeal.HostRead
-- ==== Proof.KHost2.lean ====
import proofs.«160706_j53919019434042_2_alg».proof.Proof.Gen.KernelIdeal.Frame
import proofs.«160706_j53919019434042_2_alg».proof.Proof.ArgsKept
import proofs.«160706_j53919019434042_2_alg».proof.Proof.LibBroadcastEntry
import proofs.«160706_j53919019434042_2_alg».proof.Proof.LibDotGeneralEntry
import Idealize.ShloMosaic.Lib.StableHlo.Run
import Idealize.ShloMosaic.Lib.ValueLayout

set_option maxRecDepth 16384

noncomputable section

open scoped BigOperators

namespace Cert.KernelIdeal.HostRead
open Cert.KernelIdeal Cert.KernelIdeal.Gen
open Idealize.ShloMosaic Idealize.ShloMosaic.TcCoe Idealize.ShloMosaic.Tactic
open Idealize.SL Idealize.SL.Sem
open Idealize.ShloMosaic.StableHlo Idealize.ShloMosaic.ValueIdx

variable (m : (ℓ : Loc nD τ sig) → Buf (Elt Ideal) ℓ) (ρ : Dev nD → PrngReg) (c : Dev nD)

local notation "c25" => Ideal.ofBits FTy.f32 0x46C35000#32
local notation "eps" => Ideal.ofBits FTy.f32 0x3727C5AC#32

/-!
# The host lines before the second statistics pass, read at an entry

Besides gathering and summing neighbour rows of the first layer's output, these lines lay the two bias vectors of the
second dense layer out as rows; the first layer's output itself is not touched.
-/

/-- The first bias of the second dense layer, laid out as a row. -/
theorem k2_ba (k : Fin 128) :
    (W5 m ρ c (Proc.devRef .tc main_v42) : S1x128.Idx → EReal) (ix2 0 k)
      = (m ((c : Thread nD τ).loc main_arg17) : S128.Idx → EReal) (ix1 k) := by
  have e : (W5 m ρ c (Proc.devRef .tc main_v42) : S1x128.Idx → EReal)
      = shapeCast S1x128 (W4 m ρ c (Proc.devRef .tc main_arg17) : S128.Idx → EReal) shapeCasts_S128_S1x128 := by
    dsimp only [W5]; simp only [hostOps2]; after_results_simp; rfl
  rw [e, shapeCast_a_1a_apply, ArgsKept.W4_arg17]

/-- The second bias of the second dense layer, laid out as a row. -/
theorem k2_bb (k : Fin 128) :
    (W5 m ρ c (Proc.devRef .tc main_v43) : S1x128.Idx → EReal) (ix2 0 k)
      = (m ((c : Thread nD τ).loc main_arg19) : S128.Idx → EReal) (ix1 k) := by
  have e : (W5 m ρ c (Proc.devRef .tc main_v43) : S1x128.Idx → EReal)
      = shapeCast S1x128 (W4 m ρ c (Proc.devRef .tc main_arg19) : S128.Idx → EReal) shapeCasts_S128_S1x128 := by
    dsimp only [W5]; simp only [hostOps2]; after_results_simp; rfl
  rw [e, shapeCast_a_1a_apply, ArgsKept.W4_arg19]

/-- The first layer's output is not touched by these host lines. -/
theorem k2_h1 : W5 m ρ c (Proc.devRef .tc main_v27) = W4 m ρ c (Proc.devRef .tc main_v27) := by
  not_written hostOps2

end Cert.KernelIdeal.HostRead
-- ==== Proof.RefLayerEntry.lean ====
/-
  The layers of a dense network as a host program spells them, read at ONE ENTRY at the ideal values, for any extents:

  * a linear map with a per-column bias followed by a rectifier, `max (x · W + b) 0`: entry `(p, q)` is
    `max (Σ_k x[p, k] · W[k, q] + b[q]) 0`;
  * the mean of every column of a matrix, `(init + Σ_r R[r, q]) / c`;
  * the normalization of every column by a given centre `m` and the column's own mean square deviation from it, scaled
    by `g` and shifted by `bt`: entry `(p, q)` is
    `g[q] · (R[p, q] − m[q]) · rsqrt ((init + Σ_r (R[r, q] − m[q])²) / c + ε) + bt[q]`.

  The per-column vectors reach the matrix through two broadcasts, `[N] → [1, N] → [M, N]`; the constants are scalars
  broadcast to the shape that meets them.
-/
import proofs.«160706_j53919019434042_2_alg».proof.Proof.LibDotGeneralEntry
import proofs.«160706_j53919019434042_2_alg».proof.Proof.LibBroadcastEntry

noncomputable section

open scoped BigOperators

namespace Cert.HostLayer

open Idealize.ShloMosaic Idealize.ShloMosaic.ValueIdx

/-- The index a column sum reads: the result's column `q` with the row `r` inserted on axis 0. -/
theorem lift_rows {M N : Nat} (hr : Shape.Reduces ⟨2, ![M, N]⟩ [0] ⟨1, ![N]⟩) (q : Fin N) (r : Fin M) :
    hr.lift (ix1 q) r = ix2 r q := by
  funext c
  match c with
  | ⟨0, _⟩ => exact Fin.ext rfl
  | ⟨1, _⟩ => exact Fin.ext rfl

/-- A per-column vector broadcast over the rows of `[M, N]` reads its entry at the column. -/
theorem bcast_cols_entry {M N : Nat} (h1 : (⟨2, ![1, N]⟩ : Shape).BroadcastsInDim ⟨2, ![M, N]⟩ ![0, 1])
    (h2 : (⟨1, ![N]⟩ : Shape).BroadcastsInDim ⟨2, ![1, N]⟩ ![1]) (v : (⟨1, ![N]⟩ : Shape).Idx → EReal) (p : Fin M) (q : Fin N) :
    broadcastInDim ⟨2, ![M, N]⟩ ![0, 1] h1 (broadcastInDim ⟨2, ![1, N]⟩ ![1] h2 v) (ix2 p q) = v (ix1 q) := by
  rw [broadcastInDim_1b_ab_apply, broadcastInDim_b_1b_apply]

/-- `max (x · W + b) 0` at entry `(p, q)`. -/
theorem dense_bias_relu_entry {M K N : Nat} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (h1 : (⟨2, ![1, N]⟩ : Shape).BroadcastsInDim ⟨2, ![M, N]⟩ ![0, 1])
    (h2 : (⟨1, ![N]⟩ : Shape).BroadcastsInDim ⟨2, ![1, N]⟩ ![1])
    (h3 : (⟨0, ![]⟩ : Shape).BroadcastsInDim ⟨2, ![M, N]⟩ ![])
    (x : FVec Ideal ⟨2, ![M, K]⟩ .f32) (W : FVec Ideal ⟨2, ![K, N]⟩ .f32) (b : FVec Ideal ⟨1, ![N]⟩ .f32)
    (p : Fin M) (q : Fin N) :
    maximumf (addf (Host.dotGeneral D none x W)
        (broadcastInDim ⟨2, ![M, N]⟩ ![0, 1] h1 (broadcastInDim ⟨2, ![1, N]⟩ ![1] h2 b)))
      (broadcastInDim ⟨2, ![M, N]⟩ ![] h3 (constant (F := Ideal) ⟨0, ![]⟩ .f32 0x00000000#32)) (ix2 p q)
      = max ((∑ k : Fin K, x (ix2 p k) * W (ix2 k q)) + b (ix1 q)) 0 := by
  rw [maximumf_apply, addf_apply, bcast_cols_entry, ValueIdx.broadcastInDim_scalar_apply, constant_apply,
    Ideal.ofBits_zero_f32]
  exact congrArg (fun s => max (s + b (ix1 q)) 0) (Ideal.dotGeneral_rows_cols D hlb hln hlc hrb hrn hrc none .single x W p q)

/-- The mean of column `q`: the initial value plus the column's sum, divided by the constant. -/
theorem col_mean_entry {M N : Nat} (hr' : Shape.ReducesTo ⟨2, ![M, N]⟩ [0] ⟨1, ![N]⟩) (hr : Shape.Reduces ⟨2, ![M, N]⟩ [0] ⟨1, ![N]⟩)
    (hu : 0 < (⟨0, ![]⟩ : Shape).numel) (hb : (⟨0, ![]⟩ : Shape).BroadcastsInDim ⟨1, ![N]⟩ ![])
    (R : FVec Ideal ⟨2, ![M, N]⟩ .f32) (z c : BitVec 32) (q : Fin N) :
    Host.divf (Host.reduceAdd R (constant (F := Ideal) ⟨0, ![]⟩ .f32 z) hr' hu)
        (broadcastInDim ⟨1, ![N]⟩ ![] hb (constant (F := Ideal) ⟨0, ![]⟩ .f32 c)) (ix1 q)
      = Ideal.div (Ideal.ofBits .f32 z + ∑ r : Fin M, R (ix2 r q)) (Ideal.ofBits .f32 c) := by
  show Ideal.div (Ideal.hostReduceAdd hr' R (constant (F := Ideal) ⟨0, ![]⟩ .f32 z (Shape.Idx.first hu)) (ix1 q))
      (broadcastInDim ⟨1, ![N]⟩ ![] hb (constant (F := Ideal) ⟨0, ![]⟩ .f32 c) (ix1 q)) = _
  rw [Ideal.hostReduceAdd_single hr' hr, ValueIdx.broadcastInDim_scalar_apply, constant_apply, constant_apply]
  exact congrArg (fun s => Ideal.div (Ideal.ofBits .f32 z + s) (Ideal.ofBits .f32 c))
    (Finset.sum_congr rfl fun r _ => congrArg R (lift_rows hr q r))

/-- The host's reciprocal square root at an index. -/
theorem hostRsqrt_apply {s : Shape} {φ : FTy} (x : FVec Ideal s φ) (i : s.Idx) : Host.rsqrt x i = Ideal.rsqrt (x i) := rfl

/-- Every column centred at `m` and divided by the root of its mean square deviation from `m` plus `ε`, scaled by `g`
    and shifted by `bt`, at entry `(p, q)`. -/
theorem col_norm_entry {M N : Nat} (h1 : (⟨2, ![1, N]⟩ : Shape).BroadcastsInDim ⟨2, ![M, N]⟩ ![0, 1])
    (h2 : (⟨1, ![N]⟩ : Shape).BroadcastsInDim ⟨2, ![1, N]⟩ ![1])
    (hr' : Shape.ReducesTo ⟨2, ![M, N]⟩ [0] ⟨1, ![N]⟩) (hr : Shape.Reduces ⟨2, ![M, N]⟩ [0] ⟨1, ![N]⟩)
    (hu : 0 < (⟨0, ![]⟩ : Shape).numel) (hb : (⟨0, ![]⟩ : Shape).BroadcastsInDim ⟨1, ![N]⟩ ![])
    (R : FVec Ideal ⟨2, ![M, N]⟩ .f32) (m g bt : FVec Ideal ⟨1, ![N]⟩ .f32) (z c e : BitVec 32) (p : Fin M) (q : Fin N) :
    addf (mulf (mulf (broadcastInDim ⟨2, ![M, N]⟩ ![0, 1] h1 (broadcastInDim ⟨2, ![1, N]⟩ ![1] h2 g))
          (subf R (broadcastInDim ⟨2, ![M, N]⟩ ![0, 1] h1 (broadcastInDim ⟨2, ![1, N]⟩ ![1] h2 m))))
        (broadcastInDim ⟨2, ![M, N]⟩ ![0, 1] h1 (broadcastInDim ⟨2, ![1, N]⟩ ![1] h2
          (Host.rsqrt (addf (Host.divf (Host.reduceAdd
              (mulf (subf R (broadcastInDim ⟨2, ![M, N]⟩ ![0, 1] h1 (broadcastInDim ⟨2, ![1, N]⟩ ![1] h2 m)))
                (subf R (broadcastInDim ⟨2, ![M, N]⟩ ![0, 1] h1 (broadcastInDim ⟨2, ![1, N]⟩ ![1] h2 m))))
              (constant (F := Ideal) ⟨0, ![]⟩ .f32 z) hr' hu)
            (broadcastInDim ⟨1, ![N]⟩ ![] hb (constant (F := Ideal) ⟨0, ![]⟩ .f32 c)))
            (broadcastInDim ⟨1, ![N]⟩ ![] hb (constant (F := Ideal) ⟨0, ![]⟩ .f32 e)))))))
      (broadcastInDim ⟨2, ![M, N]⟩ ![0, 1] h1 (broadcastInDim ⟨2, ![1, N]⟩ ![1] h2 bt)) (ix2 p q)
      = g (ix1 q) * (R (ix2 p q) - m (ix1 q))
          * Ideal.rsqrt (Ideal.div (Ideal.ofBits .f32 z + ∑ r : Fin M, (R (ix2 r q) - m (ix1 q)) * (R (ix2 r q) - m (ix1 q)))
              (Ideal.ofBits .f32 c) + Ideal.ofBits .f32 e)
        + bt (ix1 q) := by
  have hD : ∀ r : Fin M,
      mulf (subf R (broadcastInDim ⟨2, ![M, N]⟩ ![0, 1] h1 (broadcastInDim ⟨2, ![1, N]⟩ ![1] h2 m)))
          (subf R (broadcastInDim ⟨2, ![M, N]⟩ ![0, 1] h1 (broadcastInDim ⟨2, ![1, N]⟩ ![1] h2 m))) (ix2 r q)
        = (R (ix2 r q) - m (ix1 q)) * (R (ix2 r q) - m (ix1 q)) := fun r => by
    rw [mulf_apply, subf_apply, bcast_cols_entry]
  rw [addf_apply, mulf_apply, mulf_apply, subf_apply, bcast_cols_entry, bcast_cols_entry, bcast_cols_entry,
    bcast_cols_entry, hostRsqrt_apply, addf_apply, col_mean_entry hr' hr, ValueIdx.broadcastInDim_scalar_apply,
    constant_apply]
  simp only [hD]

/-- The mean of column `q` of `R` as the host computes it: zero plus the column's sum, divided by `c`. -/
def colMean {M N : Nat} (R : (⟨2, ![M, N]⟩ : Shape).Idx → EReal) (c : EReal) (q : Fin N) : EReal :=
  Ideal.div (0 + ∑ r : Fin M, R (ix2 r q)) c

/-- The mean square deviation of column `q` of `R` from the column's mean, computed the same way. -/
def colVar {M N : Nat} (R : (⟨2, ![M, N]⟩ : Shape).Idx → EReal) (c : EReal) (q : Fin N) : EReal :=
  Ideal.div (0 + ∑ r : Fin M, (R (ix2 r q) - colMean R c q) * (R (ix2 r q) - colMean R c q)) c

/-- The column mean from the zero initial value is `colMean`. -/
theorem col_mean_zero_entry {M N : Nat} (hr' : Shape.ReducesTo ⟨2, ![M, N]⟩ [0] ⟨1, ![N]⟩)
    (hr : Shape.Reduces ⟨2, ![M, N]⟩ [0] ⟨1, ![N]⟩) (hu : 0 < (⟨0, ![]⟩ : Shape).numel)
    (hb : (⟨0, ![]⟩ : Shape).BroadcastsInDim ⟨1, ![N]⟩ ![]) (R : FVec Ideal ⟨2, ![M, N]⟩ .f32) (c : BitVec 32) (q : Fin N) :
    Host.divf (Host.reduceAdd R (constant (F := Ideal) ⟨0, ![]⟩ .f32 0x00000000#32) hr' hu)
        (broadcastInDim ⟨1, ![N]⟩ ![] hb (constant (F := Ideal) ⟨0, ![]⟩ .f32 c)) (ix1 q)
      = colMean R (Ideal.ofBits .f32 c) q := by
  rw [col_mean_entry hr' hr, Ideal.ofBits_zero_f32]; rfl

/-- Batch normalization with the batch's own statistics: when the centre `m` is the column mean, entry `(p, q)` is
    `g[q] · (R[p, q] − mean q) · rsqrt (var q + ε) + bt[q]`. -/
theorem batchnorm_entry {M N : Nat} (h1 : (⟨2, ![1, N]⟩ : Shape).BroadcastsInDim ⟨2, ![M, N]⟩ ![0, 1])
    (h2 : (⟨1, ![N]⟩ : Shape).BroadcastsInDim ⟨2, ![1, N]⟩ ![1])
    (hr' : Shape.ReducesTo ⟨2, ![M, N]⟩ [0] ⟨1, ![N]⟩) (hr : Shape.Reduces ⟨2, ![M, N]⟩ [0] ⟨1, ![N]⟩)
    (hu : 0 < (⟨0, ![]⟩ : Shape).numel) (hb : (⟨0, ![]⟩ : Shape).BroadcastsInDim ⟨1, ![N]⟩ ![])
    (R : FVec Ideal ⟨2, ![M, N]⟩ .f32) (m g bt : FVec Ideal ⟨1, ![N]⟩ .f32) (c e : BitVec 32)
    (hm : ∀ q : Fin N, m (ix1 q) = colMean R (Ideal.ofBits .f32 c) q) (p : Fin M) (q : Fin N) :
    addf (mulf (mulf (broadcastInDim ⟨2, ![M, N]⟩ ![0, 1] h1 (broadcastInDim ⟨2, ![1, N]⟩ ![1] h2 g))
          (subf R (broadcastInDim ⟨2, ![M, N]⟩ ![0, 1] h1 (broadcastInDim ⟨2, ![1, N]⟩ ![1] h2 m))))
        (broadcastInDim ⟨2, ![M, N]⟩ ![0, 1] h1 (broadcastInDim ⟨2, ![1, N]⟩ ![1] h2
          (Host.rsqrt (addf (Host.divf (Host.reduceAdd
              (mulf (subf R (broadcastInDim ⟨2, ![M, N]⟩ ![0, 1] h1 (broadcastInDim ⟨2, ![1, N]⟩ ![1] h2 m)))
                (subf R (broadcastInDim ⟨2, ![M, N]⟩ ![0, 1] h1 (broadcastInDim ⟨2, ![1, N]⟩ ![1] h2 m))))
              (constant (F := Ideal) ⟨0, ![]⟩ .f32 0x00000000#32) hr' hu)
            (broadcastInDim ⟨1, ![N]⟩ ![] hb (constant (F := Ideal) ⟨0, ![]⟩ .f32 c)))
            (broadcastInDim ⟨1, ![N]⟩ ![] hb (constant (F := Ideal) ⟨0, ![]⟩ .f32 e)))))))
      (broadcastInDim ⟨2, ![M, N]⟩ ![0, 1] h1 (broadcastInDim ⟨2, ![1, N]⟩ ![1] h2 bt)) (ix2 p q)
      = g (ix1 q) * (R (ix2 p q) - colMean R (Ideal.ofBits .f32 c) q)
          * Ideal.rsqrt (colVar R (Ideal.ofBits .f32 c) q + Ideal.ofBits .f32 e)
        + bt (ix1 q) := by
  rw [col_norm_entry h1 h2 hr' hr hu hb, Ideal.ofBits_zero_f32, hm]
  rfl

/-- A per-row vector `[a]` placed as the column of `[a, 1]` (along `[0]`) and broadcast over the columns of `[a, b]`
    reads its entry at the row. -/
theorem bcast_rows_entry {α : Type} {a b : Nat} (h1 : (⟨2, ![a, 1]⟩ : Shape).BroadcastsInDim ⟨2, ![a, b]⟩ ![0, 1])
    (h2 : (⟨1, ![a]⟩ : Shape).BroadcastsInDim ⟨2, ![a, 1]⟩ ![0]) (v : (⟨1, ![a]⟩ : Shape).Idx → α) (p : Fin a) (q : Fin b) :
    broadcastInDim ⟨2, ![a, b]⟩ ![0, 1] h1 (broadcastInDim ⟨2, ![a, 1]⟩ ![0] h2 v) (ix2 p q) = v (ix1 p) := by
  rw [broadcastInDim_a1_ab_apply]
  refine broadcastInDim_apply _ h2 v (ix2 p (0 : Fin 1)) (ix1 p) fun ax => ?_
  match ax with
  | ⟨0, _⟩ =>
    show p.val = if a = 1 then 0 else p.val
    split
    · have := p.isLt; omega
    · rfl

/-- A sum, plus a per-row factor times a matrix, plus a per-column bias: entry `(p, q)` is
    `(S[p, q] + s[p] · H[p, q]) + c[q]`. -/
theorem add_scaled_add_bias_entry {a b : Nat} (h1 : (⟨2, ![a, 1]⟩ : Shape).BroadcastsInDim ⟨2, ![a, b]⟩ ![0, 1])
    (h2 : (⟨1, ![a]⟩ : Shape).BroadcastsInDim ⟨2, ![a, 1]⟩ ![0])
    (h3 : (⟨2, ![1, b]⟩ : Shape).BroadcastsInDim ⟨2, ![a, b]⟩ ![0, 1])
    (h4 : (⟨1, ![b]⟩ : Shape).BroadcastsInDim ⟨2, ![1, b]⟩ ![1])
    (S H : FVec Ideal ⟨2, ![a, b]⟩ .f32) (s : FVec Ideal ⟨1, ![a]⟩ .f32) (c : FVec Ideal ⟨1, ![b]⟩ .f32) (p : Fin a) (q : Fin b) :
    addf (addf S (mulf (broadcastInDim ⟨2, ![a, b]⟩ ![0, 1] h1 (broadcastInDim ⟨2, ![a, 1]⟩ ![0] h2 s)) H))
        (broadcastInDim ⟨2, ![a, b]⟩ ![0, 1] h3 (broadcastInDim ⟨2, ![1, b]⟩ ![1] h4 c)) (ix2 p q)
      = (S (ix2 p q) + s (ix1 p) * H (ix2 p q)) + c (ix1 q) := by
  rw [addf_apply, addf_apply, mulf_apply, bcast_rows_entry, bcast_cols_entry]

/-- The same followed by a rectifier: entry `(p, q)` is `max ((S[p, q] + s[p] · H[p, q]) + c[q]) 0`. -/
theorem add_scaled_add_bias_relu_entry {a b : Nat} (h1 : (⟨2, ![a, 1]⟩ : Shape).BroadcastsInDim ⟨2, ![a, b]⟩ ![0, 1])
    (h2 : (⟨1, ![a]⟩ : Shape).BroadcastsInDim ⟨2, ![a, 1]⟩ ![0])
    (h3 : (⟨2, ![1, b]⟩ : Shape).BroadcastsInDim ⟨2, ![a, b]⟩ ![0, 1])
    (h4 : (⟨1, ![b]⟩ : Shape).BroadcastsInDim ⟨2, ![1, b]⟩ ![1])
    (h5 : (⟨0, ![]⟩ : Shape).BroadcastsInDim ⟨2, ![a, b]⟩ ![])
    (S H : FVec Ideal ⟨2, ![a, b]⟩ .f32) (s : FVec Ideal ⟨1, ![a]⟩ .f32) (c : FVec Ideal ⟨1, ![b]⟩ .f32) (p : Fin a) (q : Fin b) :
    maximumf (addf (addf S (mulf (broadcastInDim ⟨2, ![a, b]⟩ ![0, 1] h1 (broadcastInDim ⟨2, ![a, 1]⟩ ![0] h2 s)) H))
        (broadcastInDim ⟨2, ![a, b]⟩ ![0, 1] h3 (broadcastInDim ⟨2, ![1, b]⟩ ![1] h4 c)))
      (broadcastInDim ⟨2, ![a, b]⟩ ![] h5 (constant (F := Ideal) ⟨0, ![]⟩ .f32 0x00000000#32)) (ix2 p q)
      = max ((S (ix2 p q) + s (ix1 p) * H (ix2 p q)) + c (ix1 q)) 0 := by
  rw [maximumf_apply, add_scaled_add_bias_entry, ValueIdx.broadcastInDim_scalar_apply, constant_apply,
    Ideal.ofBits_zero_f32]

/-- Twice the square of a vector, as `(2 · d) · d` with the constant broadcast: entry `p` is `w · d[p] · d[p]`. -/
theorem const_mul_sq_entry {a : Nat} (h : (⟨0, ![]⟩ : Shape).BroadcastsInDim ⟨1, ![a]⟩ ![])
    (d : FVec Ideal ⟨1, ![a]⟩ .f32) (w : BitVec 32) (p : Fin a) :
    mulf (mulf (broadcastInDim ⟨1, ![a]⟩ ![] h (constant (F := Ideal) ⟨0, ![]⟩ .f32 w)) d) d (ix1 p)
      = Ideal.ofBits .f32 w * d (ix1 p) * d (ix1 p) := by
  rw [mulf_apply, mulf_apply, ValueIdx.broadcastInDim_scalar_apply, constant_apply]

end Cert.HostLayer

end
-- ==== Proof.RefStage26.lean ====
/-
  The reference's first hidden layer read at an index: with `h` the layer's input (the node features plus the sum of
  the neighbours' features), entry `(p, q)` of the layer's output before normalization is
  `max (Σ_k max (Σ_j h[p, j] · Wa[j, k] + ba[k]) 0 · Wb[k, q] + bb[q]) 0`.
-/
import proofs.«160706_j53919019434042_2_alg».proof.Proof.Gen.ReferenceIdeal.Run
import proofs.«160706_j53919019434042_2_alg».proof.Proof.RefLayerEntry

noncomputable section

open scoped BigOperators

namespace Cert.ReferenceIdeal.RefValue

open Cert.ReferenceIdeal Cert.ReferenceIdeal.Gen Cert.ReferenceIdeal.Value Idealize.ShloMosaic Idealize.ShloMosaic.ValueIdx
  Idealize.SL.Sem Cert.HostLayer

/-- The first layer's input: the node features plus, at every node, the sum of the features gathered along the
    edges that end there. -/
def ref_h1 (V0 : Valuation τ sig (Elt Ideal)) : FVec Ideal S25000x64 .f32 :=
  addf (V0 (Proc.devRef .tc main_arg0)) (Host.scatterAdd scatter_S25000x64_S250000x1_S250000x64_1_0_0_1 (broadcastInDim S25000x64 ![] bcast_S_S25000x64 (constant S_ .f32 0x00000000#32)) (broadcastInDim S250000x1 ![0] bcast_S250000_S250000x1_0 (shapeCast _ (extractStridedSlice S1x250000 ![1, 0] (V0 (Proc.devRef .tc main_arg1)) slices_S2x250000_S1x250000_1_0) shapeCasts_S1x250000_S250000)) (Host.gather gather_S25000x64_S250000x1_S250000x64_1_0_n_n_0_1_164 (V0 (Proc.devRef .tc main_arg0)) (broadcastInDim S250000x1 ![0] bcast_S250000_S250000x1_0 (select (cmpi .slt (res_main_v1 V0) (broadcastInDim S250000 ![] bcast_S_S250000 (constantI S_ 32 0#32))) (addi (res_main_v1 V0) (broadcastInDim S250000 ![] bcast_S_S250000 (constantI S_ 32 25000#32))) (res_main_v1 V0)))))

theorem ref_v26 (V0 : Valuation τ sig (Elt Ideal)) (i : S25000x64.Idx) :
    res_main_v26 (F := Ideal) V0 i
      = max ((∑ k : Fin 64, max ((∑ j : Fin 64, ref_h1 V0 (ix2 (i 0) j)
                * (V0 (Proc.devRef .tc main_arg10) : S64x64.Idx → EReal) (ix2 j k))
              + (V0 (Proc.devRef .tc main_arg11) : S64.Idx → EReal) (ix1 k)) 0
            * (V0 (Proc.devRef .tc main_arg12) : S64x64.Idx → EReal) (ix2 k (i 1)))
          + (V0 (Proc.devRef .tc main_arg13) : S64.Idx → EReal) (ix1 (i 1))) 0 := by
  obtain ⟨p, q, rfl⟩ : ∃ (p : Fin 25000) (q : Fin 64), i = ix2 p q := ⟨i 0, i 1, eq_ix2 i⟩
  unfold res_main_v26
  refine (dense_bias_relu_entry dot_S25000x64_S64x64_S25000x64_1_0_0_1_n_n rfl rfl rfl rfl rfl rfl
    bcast_S1x64_S25000x64_0_1 bcast_S64_S1x64_1 bcast_S_S25000x64 _ _ _ p q).trans ?_
  refine congrArg (fun s => max (s + _) 0) (Finset.sum_congr rfl fun k _ => ?_)
  exact congrArg (· * _) (dense_bias_relu_entry dot_S25000x64_S64x64_S25000x64_1_0_0_1_n_n rfl rfl rfl rfl rfl rfl
    bcast_S1x64_S25000x64_0_1 bcast_S64_S1x64_1 bcast_S_S25000x64 _ _ _ p k)

end Cert.ReferenceIdeal.RefValue

end
-- ==== Proof.RefStage78.lean ====
/-
  The reference's second hidden layer read at an index: with `h` the layer's input (the first normalized layer plus the
  sum of its rows over the neighbours), entry `(p, q)` of the layer's output before normalization is
  `max (Σ_k max (Σ_j h[p, j] · Wa[j, k] + ba[k]) 0 · Wb[k, q] + bb[q]) 0`, `j` over 64 and `k` over 128 columns.
-/
import proofs.«160706_j53919019434042_2_alg».proof.Proof.Gen.ReferenceIdeal.Run
import proofs.«160706_j53919019434042_2_alg».proof.Proof.RefLayerEntry

noncomputable section

open scoped BigOperators

namespace Cert.ReferenceIdeal.RefValue

open Cert.ReferenceIdeal Cert.ReferenceIdeal.Gen Cert.ReferenceIdeal.Value Idealize.ShloMosaic Idealize.ShloMosaic.ValueIdx
  Idealize.SL.Sem Cert.HostLayer

/-- The second layer's input: the first normalized layer plus, at every node, the sum of its rows gathered along the
    edges that end there. -/
def ref_h2 (V0 : Valuation τ sig (Elt Ideal)) : FVec Ideal S25000x64 .f32 :=
  addf (res_main_v51 V0) (Host.scatterAdd scatter_S25000x64_S250000x1_S250000x64_1_0_0_1 (broadcastInDim S25000x64 ![] bcast_S_S25000x64 (constant S_ .f32 0x00000000#32)) (broadcastInDim S250000x1 ![0] bcast_S250000_S250000x1_0 (shapeCast _ (extractStridedSlice S1x250000 ![1, 0] (V0 (Proc.devRef .tc main_arg1)) slices_S2x250000_S1x250000_1_0) shapeCasts_S1x250000_S250000)) (Host.gather gather_S25000x64_S250000x1_S250000x64_1_0_n_n_0_1_164 (res_main_v51 V0) (broadcastInDim S250000x1 ![0] bcast_S250000_S250000x1_0 (select (cmpi .slt (res_main_v53 V0) (broadcastInDim S250000 ![] bcast_S_S250000 (constantI S_ 32 0#32))) (addi (res_main_v53 V0) (broadcastInDim S250000 ![] bcast_S_S250000 (constantI S_ 32 25000#32))) (res_main_v53 V0)))))

theorem ref_v78 (V0 : Valuation τ sig (Elt Ideal)) (i : S25000x128.Idx) :
    res_main_v78 (F := Ideal) V0 i
      = max ((∑ k : Fin 128, max ((∑ j : Fin 64, ref_h2 V0 (ix2 (i 0) j)
                * (V0 (Proc.devRef .tc main_arg16) : S64x128.Idx → EReal) (ix2 j k))
              + (V0 (Proc.devRef .tc main_arg17) : S128.Idx → EReal) (ix1 k)) 0
            * (V0 (Proc.devRef .tc main_arg18) : S128x128.Idx → EReal) (ix2 k (i 1)))
          + (V0 (Proc.devRef .tc main_arg19) : S128.Idx → EReal) (ix1 (i 1))) 0 := by
  obtain ⟨p, q, rfl⟩ : ∃ (p : Fin 25000) (q : Fin 128), i = ix2 p q := ⟨i 0, i 1, eq_ix2 i⟩
  unfold res_main_v78
  refine (dense_bias_relu_entry dot_S25000x128_S128x128_S25000x128_1_0_0_1_n_n rfl rfl rfl rfl rfl rfl
    bcast_S1x128_S25000x128_0_1 bcast_S128_S1x128_1 bcast_S_S25000x128 _ _ _ p q).trans ?_
  refine congrArg (fun s => max (s + _) 0) (Finset.sum_congr rfl fun k _ => ?_)
  exact congrArg (· * _) (dense_bias_relu_entry dot_S25000x64_S64x128_S25000x128_1_0_0_1_n_n rfl rfl rfl rfl rfl rfl
    bcast_S1x128_S25000x128_0_1 bcast_S128_S1x128_1 bcast_S_S25000x128 _ _ _ p k)

end Cert.ReferenceIdeal.RefValue

end
-- ==== Proof.NeighbourSums.lean ====
/-
  The neighbour sums. Both programs add to each node's row the sum of its neighbours' rows (a scatter-add of
  gathered rows); the two do it by the same host operations on the same arrays, so the two sums are one array —
  nothing about gathering or scattering needs to be opened.
-/
import proofs.«160706_j53919019434042_2_alg».proof.Defs
import proofs.«160706_j53919019434042_2_alg».proof.Proof.Gen.ReferenceIdeal.Run
import proofs.«160706_j53919019434042_2_alg».proof.Proof.KernelRun
import proofs.«160706_j53919019434042_2_alg».proof.Proof.ArgsKept
import proofs.«160706_j53919019434042_2_alg».proof.Proof.KHost2
import proofs.«160706_j53919019434042_2_alg».proof.Proof.RefStage26
import proofs.«160706_j53919019434042_2_alg».proof.Proof.RefStage78
import Idealize.ShloMosaic.Lib.StableHlo.Run
import Idealize.ShloMosaic.Lib.ValueIdx

set_option maxRecDepth 16384

noncomputable section

namespace Cert.Proof.NeighbourSums

open Idealize.ShloMosaic Idealize.ShloMosaic.TcCoe Idealize.SL.Sem Idealize.ShloMosaic.StableHlo Idealize.ShloMosaic.ValueIdx
open Cert.KernelIdeal Cert.KernelIdeal.Gen Cert.KernelIdeal.HostRead

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

set_option maxHeartbeats 4000000 in
/-- First layer: the node rows plus their neighbour sums. -/
theorem sum1 (c : Dev nD) (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    addf (F := Ideal) (s := S25000x64) (φ := .f32) (W1 m ρ c (Proc.devRef .tc main_arg0)) (W1 m ρ c (Proc.devRef .tc main_v13))
      = Cert.ReferenceIdeal.RefValue.ref_h1 (launchContents m' c) := by
  have e0 : launchContents m' c (Proc.devRef .tc Cert.ReferenceIdeal.main_arg0) = m ((c : Thread nD τ).loc main_arg0) := h0
  have e1 : launchContents m' c (Proc.devRef .tc Cert.ReferenceIdeal.main_arg1) = m ((c : Thread nD τ).loc main_arg1) := h1
  unfold Cert.ReferenceIdeal.RefValue.ref_h1 Cert.ReferenceIdeal.Value.res_main_v1
  rw [e0, e1, ArgsKept.W1_arg0 m ρ c]
  dsimp only [W1]
  simp only [hostOps0]
  after_results_simp
  rfl

set_option maxHeartbeats 4000000 in
/-- Second layer: the first layer's rows plus their neighbour sums, the first layer's rows being the same array in
    both programs. -/
theorem sum2 (c : Dev nD) (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : W4 m ρ c (Proc.devRef .tc main_v27) = Cert.ReferenceIdeal.Value.res_main_v51 (F := Ideal) (launchContents m' c)) :
    addf (F := Ideal) (s := S25000x64) (φ := .f32) (W5 m ρ c (Proc.devRef .tc main_v27)) (W5 m ρ c (Proc.devRef .tc main_v41))
      = Cert.ReferenceIdeal.RefValue.ref_h2 (launchContents m' c) := by
  have e1 : launchContents m' c (Proc.devRef .tc Cert.ReferenceIdeal.main_arg1) = m ((c : Thread nD τ).loc main_arg1) := h1
  unfold Cert.ReferenceIdeal.RefValue.ref_h2 Cert.ReferenceIdeal.Value.res_main_v53
  rw [e1, k2_h1 m ρ c]
  dsimp only [W5]
  simp only [hostOps2]
  after_results_simp
  rw [ArgsKept.W4_arg1 m ρ c, h2]
  rfl

end Cert.Proof.NeighbourSums

end
-- ==== Proof.Stage1.lean ====
/-
  The first layer before its normalisation. The kernel's first region applies the two linear maps with their clamps at
  zero to the node rows plus their neighbour sums, and leaves beside the raw layer the column sums of its rows and of
  their squares. The reference computes the same raw layer from the same arrays: the neighbour sums are one array in
  both programs, the weights are arguments neither program writes, and the biases reach the region laid out as rows.
-/
import proofs.«160706_j53919019434042_2_alg».proof.Defs
import proofs.«160706_j53919019434042_2_alg».proof.Proof.Gen.ReferenceIdeal.Run
import proofs.«160706_j53919019434042_2_alg».proof.Proof.KernelRun
import proofs.«160706_j53919019434042_2_alg».proof.Proof.ArgsKept
import proofs.«160706_j53919019434042_2_alg».proof.Proof.KHost0
import proofs.«160706_j53919019434042_2_alg».proof.Proof.KHost2
import proofs.«160706_j53919019434042_2_alg».proof.Proof.NeighbourSums
import proofs.«160706_j53919019434042_2_alg».proof.Proof.RefStage26
import proofs.«160706_j53919019434042_2_alg».proof.Proof.RefStage78
import Idealize.ShloMosaic.Lib.StableHlo.Run
import Idealize.ShloMosaic.Lib.ValueIdx

set_option maxRecDepth 16384

noncomputable section

open scoped BigOperators

namespace Cert.Proof.Stage1

open Idealize.ShloMosaic Idealize.ShloMosaic.TcCoe Idealize.SL.Sem Idealize.ShloMosaic.StableHlo Idealize.ShloMosaic.ValueIdx
open Cert.KernelIdeal Cert.KernelIdeal.Gen Cert.KernelIdeal.HostRead

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

set_option maxHeartbeats 2000000 in
/-- The kernel's raw layer is the reference's. `x`, `agg` are the layer's input rows and their neighbour sums, `Wa`,
    `ba`, `Wb`, `bb` the two linear maps with their biases laid out as rows, as the region reads them. -/
theorem stage1 (c : Dev nD) (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (x agg : S25000x64.Idx → EReal) (Wa : S64x64.Idx → EReal) (Wb : S64x64.Idx → EReal) (ba bb : S1x64.Idx → EReal)
    (hx : W1 m ρ c (Proc.devRef .tc main_arg0) = x) (hagg : W1 m ρ c (Proc.devRef .tc main_v13) = agg)
    (hWa : W1 m ρ c (Proc.devRef .tc main_arg10) = Wa) (hba : W1 m ρ c (Proc.devRef .tc main_v14) = ba)
    (hWb : W1 m ρ c (Proc.devRef .tc main_arg12) = Wb) (hbb : W1 m ρ c (Proc.devRef .tc main_v15) = bb)
    (hraw : W2 m ρ c (Proc.devRef .tc main_v16_0) = fun i : S25000x64.Idx =>
      max ((∑ k : Fin 64, max ((∑ j : Fin 64, (x (ix2 (i 0) j) + agg (ix2 (i 0) j)) * Wa (ix2 j k)) + ba (ix2 0 k)) 0 * Wb (ix2 k (i 1))) + bb (ix2 0 (i 1))) 0) :
    W2 m ρ c (Proc.devRef .tc main_v16_0) = Cert.ReferenceIdeal.Value.res_main_v26 (F := Ideal) (launchContents m' c) := by
  rw [hraw]
  funext i
  rw [Cert.ReferenceIdeal.RefValue.ref_v26 (launchContents m' c) i]
  have eh : ∀ j : Fin 64, x (ix2 (i 0) j) + agg (ix2 (i 0) j)
      = Cert.ReferenceIdeal.RefValue.ref_h1 (launchContents m' c) (ix2 (i 0) j) := fun j => by
    rw [← hx, ← hagg]; exact congrFun (NeighbourSums.sum1 m ρ m' c h0 h1) (ix2 (i 0) j)
  have eWa : Wa = (launchContents m' c (Proc.devRef .tc Cert.ReferenceIdeal.main_arg10) : S64x64.Idx → EReal) := by
    rw [← hWa, ArgsKept.W1_arg10 m ρ c]; exact h10.symm
  have eWb : Wb = (launchContents m' c (Proc.devRef .tc Cert.ReferenceIdeal.main_arg12) : S64x64.Idx → EReal) := by
    rw [← hWb, ArgsKept.W1_arg12 m ρ c]; exact h12.symm
  have eba : ∀ k : Fin 64, ba (ix2 0 k)
      = (launchContents m' c (Proc.devRef .tc Cert.ReferenceIdeal.main_arg11) : S64.Idx → EReal) (ix1 k) := fun k => by
    rw [← hba, k0_ba m ρ c k]; exact congrFun h11.symm (ix1 k)
  have ebb : ∀ k : Fin 64, bb (ix2 0 k)
      = (launchContents m' c (Proc.devRef .tc Cert.ReferenceIdeal.main_arg13) : S64.Idx → EReal) (ix1 k) := fun k => by
    rw [← hbb, k0_bb m ρ c k]; exact congrFun h13.symm (ix1 k)
  simp only [eh, eba]
  rw [eWa, eWb, ebb (i 1)]

/-- The kernel's column sums of the raw layer are the column sums of the reference's raw layer `R`: the region sums
    the rows of the array it writes. -/
theorem stage1_sum (c : Dev nD) (rawF R : S25000x64.Idx → EReal) (S1 : S1x64.Idx → EReal)
    (hraw : W2 m ρ c (Proc.devRef .tc main_v16_0) = rawF) (h1 : W2 m ρ c (Proc.devRef .tc main_v16_0) = R)
    (hS1 : W2 m ρ c (Proc.devRef .tc main_v16_1) = S1)
    (hsum : W2 m ρ c (Proc.devRef .tc main_v16_1) = fun i : S1x64.Idx => ∑ r : Fin 25000, rawF (ix2 r (i 1))) :
    ∀ j : Fin 64, S1 (ix2 0 j) = ∑ r : Fin 25000, R (ix2 r j) := fun j => by
  have e : rawF = R := hraw.symm.trans h1
  rw [← hS1, hsum, e]

/-- The kernel's column sums of squares of the raw layer are those of the reference's raw layer `R`. -/
theorem stage1_sumsq (c : Dev nD) (rawF R : S25000x64.Idx → EReal) (S2 : S1x64.Idx → EReal)
    (hraw : W2 m ρ c (Proc.devRef .tc main_v16_0) = rawF) (h1 : W2 m ρ c (Proc.devRef .tc main_v16_0) = R)
    (hS2 : W2 m ρ c (Proc.devRef .tc main_v16_2) = S2)
    (hsq : W2 m ρ c (Proc.devRef .tc main_v16_2) = fun i : S1x64.Idx =>
      ∑ r : Fin 25000, rawF (ix2 r (i 1)) * rawF (ix2 r (i 1))) :
    ∀ j : Fin 64, S2 (ix2 0 j) = ∑ r : Fin 25000, R (ix2 r j) * R (ix2 r j) := fun j => by
  have e : rawF = R := hraw.symm.trans h1
  rw [← hS2, hsq, e]

end Cert.Proof.Stage1

end
-- ==== Proof.RegionNorm1.lean ====
/-
  The normalisation layer: out = (g · (raw − mean)) · rsqrt (var + ε) + bt on a [25000, 64] array, where mean, var, g
  and bt are [1, 64] rows (one statistic, scale and shift per column) and ε is the float constant 0x3727C5AC.

  The grid has 5 points; point t handles rows 5000·t … 5000·t + 4999 of raw and of the output, and sees the four
  rows whole. Entry (r, k) of the output therefore depends on raw (r, k) and on entry (0, k) of the four rows only,
  and the point that writes it is r / 5000.
-/
import proofs.«160706_j53919019434042_2_alg».proof.Proof.Gen.KernelIdeal.Frame
import proofs.«160706_j53919019434042_2_alg».proof.Proof.LibBroadcastEntry
import Idealize.ShloMosaic.Lib.ValueIdx
import Idealize.ShloMosaic.Lib.ValueLayout
import Idealize.ShloMosaic.Lib.Pipeline.Value
import Idealize.ShloMosaic.Lib.Tactic

noncomputable section

open Idealize.ShloMosaic Idealize.ShloMosaic.TcCoe Idealize.ShloMosaic.ValueIdx Idealize.SL.Sem
open Idealize.ShloMosaic.Pipeline (Dat)

namespace Cert.KernelIdeal.RegionValue

open Cert.KernelIdeal Cert.KernelIdeal.Gen

/-- The zero offsets of a whole-block access. -/
theorem offsets_zero1 : (![0, 0] : Fin 2 → Nat) = fun _ => 0 := funext fun a => by fin_cases a <;> rfl

/-- The layer on whole arrays, entry by entry: the centred entry times the column's scale, times the reciprocal
    square root of the column's variance plus ε, plus the column's shift. -/
def norm1 (raw : S25000x64.Idx → EReal) (mean var g bt : S1x64.Idx → EReal) : S25000x64.Idx → EReal :=
  fun i => (g (ix2 0 (i 1)) * (raw i - mean (ix2 0 (i 1))))
      * Ideal.rsqrt (var (ix2 0 (i 1)) + Ideal.ofBits .f32 0x3727C5AC#32)
    + bt (ix2 0 (i 1))

/-- The body's stored value at entry (p, q) of a block: the same formula on the loaded blocks (the body loads the
    variance row first, then the scale row, the raw block, the mean row and the shift row). -/
theorem norm1_payload (v0 v5 : Vec Ideal S1x64 .f32) (v7 : Vec Ideal S5000x64 .f32) (v9 v17 : Vec Ideal S1x64 .f32)
    (p : Fin 5000) (q : Fin 64) :
    k1_pay1 (F := Ideal) v0 v5 v7 v9 v17 (ix2 p q)
      = (v5 (ix2 (0 : Fin 1) q) * (v7 (ix2 p q) - v9 (ix2 (0 : Fin 1) q)))
          * Ideal.rsqrt (v0 (ix2 (0 : Fin 1) q) + Ideal.ofBits .f32 0x3727C5AC#32)
        + v17 (ix2 (0 : Fin 1) q) := by
  unfold k1_pay1
  simp only [shapeCast_self]
  rw [addf_apply, mulf_apply, mulf_apply, subf_apply, broadcastTo_1b_ab_apply, broadcastTo_1b_ab_apply,
    broadcastTo_1b_ab_apply, broadcastTo_1b_ab_apply]
  rfl

/-- What the body leaves in the output block at entry (p, q), when the raw block and the four rows hold, at the
    entries the formula reads, the whole arrays' values at the entries it reads for i. -/
theorem out1_entry (x0 : Vec Ideal S5000x64 .f32) (x1 x2 x3 x4 : Vec Ideal S1x64 .f32)
    (raw : S25000x64.Idx → EReal) (mean var g bt : S1x64.Idx → EReal)
    (p : Fin 5000) (q : Fin 64) (i : S25000x64.Idx)
    (h0 : x0 (ix2 p q) = raw i) (h1 : x1 (ix2 (0 : Fin 1) q) = mean (ix2 0 (i 1)))
    (h2 : x2 (ix2 (0 : Fin 1) q) = var (ix2 0 (i 1))) (h3 : x3 (ix2 (0 : Fin 1) q) = g (ix2 0 (i 1)))
    (h4 : x4 (ix2 (0 : Fin 1) q) = bt (ix2 0 (i 1))) :
    out1_5 (F := Ideal) x0 x1 x2 x3 x4 (ix2 p q) = norm1 raw mean var g bt i := by
  unfold out1_5
  rw [View.canon_unit_zero offsets_zero1]
  simp only [View.ld_unit_zero (S := S5000x64) offsets_zero1, View.ld_unit_zero (S := S1x64) offsets_zero1]
  rw [norm1_payload, h0, h1, h2, h3, h4]
  rfl

variable (V : (c : Dev nD) → (b : Ref sig .tc) → Buf (Elt Ideal) ((c : Thread nD τ).loc b))

/-- The block indices, decided over the 5 points: windows 0 and 5 take block (t, 0), the four rows block (0, 0). -/
theorem block_index1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Block t of raw is rows 5000·t … of raw. -/
theorem iblk1_0_entry (c : Dev nD) (t : Fin cfg1.N) (p : Fin 5000) (q : Fin 64) (k : S25000x64.Idx)
    (hk0 : (k 0).val = 5000 * t.val + p.val) (hk1 : (k 1).val = q.val) :
    (iblk1 V c 0 t : Vec Ideal S5000x64 .f32) (ix2 p q) = (V c (Pipeline.arrRef spec1 0) : S25000x64.Idx → EReal) k := by
  obtain ⟨e0, e1, -⟩ := block_index1 t
  unfold iblk1
  rw [View.read_apply]
  show V c (Pipeline.arrRef spec1 0) _ = V c (Pipeline.arrRef spec1 0) _
  congr 1
  funext a
  apply Fin.ext
  match a with
  | ⟨0, _⟩ => show win1_0.index t (0 : Fin 2) * 5000 + 1 * p.val = (k 0).val; rw [e0, hk0]; omega
  | ⟨1, _⟩ => show win1_0.index t (1 : Fin 2) * 64 + 1 * q.val = (k 1).val; rw [e1, hk1]; omega

/-- Every point sees the whole [1, 64] row of window 1. -/
theorem iblk1_1_entry (c : Dev nD) (t : Fin cfg1.N) (p : Fin 1) (q : Fin 64) (k : S1x64.Idx)
    (hk0 : (k 0).val = p.val) (hk1 : (k 1).val = q.val) :
    (iblk1 V c 1 t : Vec Ideal S1x64 .f32) (ix2 p q) = (V c (Pipeline.arrRef spec1 1) : S1x64.Idx → EReal) k := by
  obtain ⟨-, -, e0, e1, -⟩ := block_index1 t
  unfold iblk1
  rw [View.read_apply]
  show V c (Pipeline.arrRef spec1 1) _ = V c (Pipeline.arrRef spec1 1) _
  congr 1
  funext a
  apply Fin.ext
  match a with
  | ⟨0, _⟩ => show win1_1.index t (0 : Fin 2) * 1 + 1 * p.val = (k 0).val; rw [e0, hk0]; omega
  | ⟨1, _⟩ => show win1_1.index t (1 : Fin 2) * 64 + 1 * q.val = (k 1).val; rw [e1, hk1]; omega

/-- Every point sees the whole [1, 64] row of window 2. -/
theorem iblk1_2_entry (c : Dev nD) (t : Fin cfg1.N) (p : Fin 1) (q : Fin 64) (k : S1x64.Idx)
    (hk0 : (k 0).val = p.val) (hk1 : (k 1).val = q.val) :
    (iblk1 V c 2 t : Vec Ideal S1x64 .f32) (ix2 p q) = (V c (Pipeline.arrRef spec1 2) : S1x64.Idx → EReal) k := by
  obtain ⟨-, -, -, -, e0, e1, -⟩ := block_index1 t
  unfold iblk1
  rw [View.read_apply]
  show V c (Pipeline.arrRef spec1 2) _ = V c (Pipeline.arrRef spec1 2) _
  congr 1
  funext a
  apply Fin.ext
  match a with
  | ⟨0, _⟩ => show win1_2.index t (0 : Fin 2) * 1 + 1 * p.val = (k 0).val; rw [e0, hk0]; omega
  | ⟨1, _⟩ => show win1_2.index t (1 : Fin 2) * 64 + 1 * q.val = (k 1).val; rw [e1, hk1]; omega

/-- Every point sees the whole [1, 64] row of window 3. -/
theorem iblk1_3_entry (c : Dev nD) (t : Fin cfg1.N) (p : Fin 1) (q : Fin 64) (k : S1x64.Idx)
    (hk0 : (k 0).val = p.val) (hk1 : (k 1).val = q.val) :
    (iblk1 V c 3 t : Vec Ideal S1x64 .f32) (ix2 p q) = (V c (Pipeline.arrRef spec1 3) : S1x64.Idx → EReal) k := by
  obtain ⟨-, -, -, -, -, -, e0, e1, -⟩ := block_index1 t
  unfold iblk1
  rw [View.read_apply]
  show V c (Pipeline.arrRef spec1 3) _ = V c (Pipeline.arrRef spec1 3) _
  congr 1
  funext a
  apply Fin.ext
  match a with
  | ⟨0, _⟩ => show win1_3.index t (0 : Fin 2) * 1 + 1 * p.val = (k 0).val; rw [e0, hk0]; omega
  | ⟨1, _⟩ => show win1_3.index t (1 : Fin 2) * 64 + 1 * q.val = (k 1).val; rw [e1, hk1]; omega

/-- Every point sees the whole [1, 64] row of window 4. -/
theorem iblk1_4_entry (c : Dev nD) (t : Fin cfg1.N) (p : Fin 1) (q : Fin 64) (k : S1x64.Idx)
    (hk0 : (k 0).val = p.val) (hk1 : (k 1).val = q.val) :
    (iblk1 V c 4 t : Vec Ideal S1x64 .f32) (ix2 p q) = (V c (Pipeline.arrRef spec1 4) : S1x64.Idx → EReal) k := by
  obtain ⟨-, -, -, -, -, -, -, -, e0, e1, -⟩ := block_index1 t
  unfold iblk1
  rw [View.read_apply]
  show V c (Pipeline.arrRef spec1 4) _ = V c (Pipeline.arrRef spec1 4) _
  congr 1
  funext a
  apply Fin.ext
  match a with
  | ⟨0, _⟩ => show win1_4.index t (0 : Fin 2) * 1 + 1 * p.val = (k 0).val; rw [e0, hk0]; omega
  | ⟨1, _⟩ => show win1_4.index t (1 : Fin 2) * 64 + 1 * q.val = (k 1).val; rw [e1, hk1]; omega

/-- What point t writes back is block t of the layer's whole-array value. -/
theorem flushed1_eq (c : Dev nD) (t : Fin cfg1.N) :
    (dat1 (F := Ideal) V c).flushed 5 t
      = ((cfg1.win 5).blk t).view.read (Elt Ideal)
          (norm1 (V c (Pipeline.arrRef spec1 0)) (V c (Pipeline.arrRef spec1 1)) (V c (Pipeline.arrRef spec1 2))
            (V c (Pipeline.arrRef spec1 3)) (V c (Pipeline.arrRef spec1 4))) := by
  show (cfg1.win 5).cut (grid1.coords t) ((dat1 V c).after 5 t) = _
  rw [after1_5]
  obtain ⟨-, -, -, -, -, -, -, -, -, -, e0, e1⟩ := block_index1 t
  funext j
  have hj0 : (j 0).val < 5000 := (j 0).isLt
  have hj1 : (j 1).val < 64 := (j 1).isLt
  rw [View.read_apply]
  have hi0 : ((((cfg1.win 5).blk t).view.emb j) 0).val = 5000 * t.val + (j 0).val := by
    show win1_5.index t (0 : Fin 2) * 5000 + 1 * (j 0).val = _; rw [e0]; omega
  have hi1 : ((((cfg1.win 5).blk t).view.emb j) 1).val = (j 1).val := by
    show win1_5.index t (1 : Fin 2) * 64 + 1 * (j 1).val = _; rw [e1]; omega
  have hx : (cfg1.win 5).xinj (grid1.coords t) j = ix2 (⟨(j 0).val, hj0⟩ : Fin 5000) (⟨(j 1).val, hj1⟩ : Fin 64) :=
    funext fun a => by match a with | ⟨0, _⟩ => rfl | ⟨1, _⟩ => rfl
  refine (congrArg (out1_5 (iblk1 V c 0 t) (iblk1 V c 1 t) (iblk1 V c 2 t) (iblk1 V c 3 t) (iblk1 V c 4 t)) hx).trans ?_
  exact out1_entry (iblk1 V c 0 t) (iblk1 V c 1 t) (iblk1 V c 2 t) (iblk1 V c 3 t) (iblk1 V c 4 t)
    (V c (Pipeline.arrRef spec1 0)) (V c (Pipeline.arrRef spec1 1)) (V c (Pipeline.arrRef spec1 2))
    (V c (Pipeline.arrRef spec1 3)) (V c (Pipeline.arrRef spec1 4)) ⟨(j 0).val, hj0⟩ ⟨(j 1).val, hj1⟩
    (((cfg1.win 5).blk t).view.emb j)
    (iblk1_0_entry V c t _ _ _ hi0 hi1) (iblk1_1_entry V c t _ _ _ rfl hi1) (iblk1_2_entry V c t _ _ _ rfl hi1)
    (iblk1_3_entry V c t _ _ _ rfl hi1) (iblk1_4_entry V c t _ _ _ rfl hi1)

/-- An entry of the output is in point t's block iff its row lies in rows 5000·t … 5000·t + 4999. -/
theorem mem_blk1 (t : Fin cfg1.N) (i : S25000x64.Idx) :
    i ∈ ((cfg1.win 5).blk t).view.set
      ↔ ∀ a : Fin 2, win1_5.index t a * S5000x64.size a ≤ (i a).val
          ∧ (i a).val < win1_5.index t a * S5000x64.size a + S5000x64.size a := by
  show i ∈ ((View.whole main_v27).slice (win1_5.rect t)).set ↔ _
  rw [View.set_slice_whole, Rect.mem_set_unit]
  exact Iff.rfl

/-- Row r is written by point r / 5000: the 5 blocks cover the output. -/
theorem cover1 (i : S25000x64.Idx) :
    ∃ t : Fin cfg1.N, (cfg1.win 5).flush t = true ∧ i ∈ ((cfg1.win 5).blk t).view.set := by
  have hi0 : (i 0).val < 25000 := (i 0).isLt
  have hi1 : (i 1).val < 64 := (i 1).isLt
  have hN : grid1.N = 5 := N_1
  have ht : (i 0).val / 5000 < cfg1.N := by show _ < grid1.N; rw [hN]; omega
  obtain ⟨-, -, -, -, -, -, -, -, -, -, e0, e1⟩ := block_index1 ⟨(i 0).val / 5000, ht⟩
  refine ⟨⟨(i 0).val / 5000, ht⟩, flush1_5 _, ?_⟩
  rw [mem_blk1]
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_5.index ⟨(i 0).val / 5000, ht⟩ (1 : Fin 2) * 64 ≤ (i 1).val
      ∧ (i 1).val < win1_5.index ⟨(i 0).val / 5000, ht⟩ (1 : Fin 2) * 64 + 64
    rw [e1]; omega

/-- The layer's named whole-array function, read at an entry. -/
theorem norm1_apply (raw : S25000x64.Idx → EReal) (mean var g bt : S1x64.Idx → EReal) (i : S25000x64.Idx) :
    norm1 raw mean var g bt i
      = (g (ix2 0 (i 1)) * (raw i - mean (ix2 0 (i 1))))
          * Ideal.rsqrt (var (ix2 0 (i 1)) + Ideal.ofBits .f32 0x3727C5AC#32)
        + bt (ix2 0 (i 1)) := rfl

/-- The output array of the layer, whatever the buffers hold when it starts, as the named function of the contents
    of its five operand arrays. -/
theorem region1_value_norm (c : Dev nD) :
    (dat1 (F := Ideal) V c).arrAt 5 cfg1.N
      = norm1 (V c (Pipeline.arrRef spec1 0)) (V c (Pipeline.arrRef spec1 1)) (V c (Pipeline.arrRef spec1 2))
          (V c (Pipeline.arrRef spec1 3)) (V c (Pipeline.arrRef spec1 4)) :=
  (dat1 V c).arrAt_eq_of_cover 5
    (norm1 (V c (Pipeline.arrRef spec1 0)) (V c (Pipeline.arrRef spec1 1)) (V c (Pipeline.arrRef spec1 2))
      (V c (Pipeline.arrRef spec1 3)) (V c (Pipeline.arrRef spec1 4)))
    (fun t _ => flushed1_eq V c t) cover1

/-- THE OUTPUT ARRAY of the layer, whatever the buffers hold when it starts: (g · (raw − mean)) · rsqrt (var + ε) + bt
    entry by entry, with raw, mean, var, g, bt the contents of its five operand arrays. -/
theorem region1_value (c : Dev nD) (raw : S25000x64.Idx → EReal) (mean var g bt : S1x64.Idx → EReal)
    (hraw : V c (Pipeline.arrRef spec1 0) = raw) (hmean : V c (Pipeline.arrRef spec1 1) = mean)
    (hvar : V c (Pipeline.arrRef spec1 2) = var) (hg : V c (Pipeline.arrRef spec1 3) = g)
    (hbt : V c (Pipeline.arrRef spec1 4) = bt) :
    (dat1 (F := Ideal) V c).arrAt 5 cfg1.N
      = fun i => (g (ix2 0 (i 1)) * (raw i - mean (ix2 0 (i 1))))
            * Ideal.rsqrt (var (ix2 0 (i 1)) + Ideal.ofBits .f32 0x3727C5AC#32)
          + bt (ix2 0 (i 1)) := by
  subst hraw hmean hvar hg hbt
  exact region1_value_norm V c

end Cert.KernelIdeal.RegionValue
-- ==== Proof.KHost1.lean ====
import proofs.«160706_j53919019434042_2_alg».proof.Proof.Gen.KernelIdeal.Frame
import proofs.«160706_j53919019434042_2_alg».proof.Proof.ArgsKept
import proofs.«160706_j53919019434042_2_alg».proof.Proof.LibBroadcastEntry
import proofs.«160706_j53919019434042_2_alg».proof.Proof.LibDotGeneralEntry
import Idealize.ShloMosaic.Lib.StableHlo.Run
import Idealize.ShloMosaic.Lib.ValueLayout

set_option maxRecDepth 16384

noncomputable section

open scoped BigOperators

namespace Cert.KernelIdeal.HostRead
open Cert.KernelIdeal Cert.KernelIdeal.Gen
open Idealize.ShloMosaic Idealize.ShloMosaic.TcCoe Idealize.ShloMosaic.Tactic
open Idealize.SL Idealize.SL.Sem
open Idealize.ShloMosaic.StableHlo Idealize.ShloMosaic.ValueIdx

variable (m : (ℓ : Loc nD τ sig) → Buf (Elt Ideal) ℓ) (ρ : Dev nD → PrngReg) (c : Dev nD)

local notation "c25" => Ideal.ofBits FTy.f32 0x46C35000#32
local notation "eps" => Ideal.ofBits FTy.f32 0x3727C5AC#32

/-!
# The host lines between the first statistics pass and the first normalisation, read at an entry

From the per-channel sums `S1` (of the rows) and `S2` (of their squares) the host computes the mean `S1 / 25000`
and the clamped variance `max (S2 / 25000 - mean²) 0`, and lays the two per-channel parameter vectors out as rows.
-/

/-- The rows themselves are not touched by these host lines. -/
theorem k1_raw : W3 m ρ c (Proc.devRef .tc main_v16_0) = W2 m ρ c (Proc.devRef .tc main_v16_0) := by
  not_written hostOps1

/-- The mean of channel `j`: the channel's sum divided by 25000. -/
theorem k1_mean (j : Fin 64) :
    (W3 m ρ c (Proc.devRef .tc main_v18) : S1x64.Idx → EReal) (ix2 0 j)
      = Ideal.div ((W2 m ρ c (Proc.devRef .tc main_v16_1) : S1x64.Idx → EReal) (ix2 0 j)) c25 := by
  have e : (W3 m ρ c (Proc.devRef .tc main_v18) : S1x64.Idx → EReal)
      = Host.divf (F := Ideal) (W2 m ρ c (Proc.devRef .tc main_v16_1))
          (broadcastInDim S1x64 ![] bcast_S_S1x64 (constant (F := Ideal) S_ .f32 0x46C35000#32)) := by
    dsimp only [W3]; simp only [hostOps1]; after_results_simp
  rw [e]; rfl

/-- The variance of channel `j`: the mean of the squares minus the square of the mean, clamped below at zero. -/
theorem k1_var (j : Fin 64) :
    (W3 m ρ c (Proc.devRef .tc main_v24) : S1x64.Idx → EReal) (ix2 0 j)
      = max (Ideal.div ((W2 m ρ c (Proc.devRef .tc main_v16_2) : S1x64.Idx → EReal) (ix2 0 j)) c25
          - Ideal.div ((W2 m ρ c (Proc.devRef .tc main_v16_1) : S1x64.Idx → EReal) (ix2 0 j)) c25
            * Ideal.div ((W2 m ρ c (Proc.devRef .tc main_v16_1) : S1x64.Idx → EReal) (ix2 0 j)) c25) 0 := by
  have e : (W3 m ρ c (Proc.devRef .tc main_v24) : S1x64.Idx → EReal)
      = maximumf (F := Ideal)
          (subf (F := Ideal)
            (Host.divf (F := Ideal) (W2 m ρ c (Proc.devRef .tc main_v16_2))
              (broadcastInDim S1x64 ![] bcast_S_S1x64 (constant (F := Ideal) S_ .f32 0x46C35000#32)))
            (mulf (F := Ideal)
              (Host.divf (F := Ideal) (W2 m ρ c (Proc.devRef .tc main_v16_1))
                (broadcastInDim S1x64 ![] bcast_S_S1x64 (constant (F := Ideal) S_ .f32 0x46C35000#32)))
              (Host.divf (F := Ideal) (W2 m ρ c (Proc.devRef .tc main_v16_1))
                (broadcastInDim S1x64 ![] bcast_S_S1x64 (constant (F := Ideal) S_ .f32 0x46C35000#32)))))
          (broadcastInDim S1x64 ![] bcast_S_S1x64 (constant (F := Ideal) S_ .f32 0x00000000#32)) := by
    dsimp only [W3]; simp only [hostOps1]; after_results_simp
  rw [e]
  show max (Ideal.div _ c25 - Ideal.div _ c25 * Ideal.div _ c25) (Ideal.ofBits .f32 0x00000000#32) = _
  rw [Ideal.ofBits_zero_f32]

/-- The scale of channel `j`, laid out as a row. -/
theorem k1_g (j : Fin 64) :
    (W3 m ρ c (Proc.devRef .tc main_v25) : S1x64.Idx → EReal) (ix2 0 j)
      = (m ((c : Thread nD τ).loc main_arg14) : S64.Idx → EReal) (ix1 j) := by
  have e : (W3 m ρ c (Proc.devRef .tc main_v25) : S1x64.Idx → EReal)
      = shapeCast S1x64 (W2 m ρ c (Proc.devRef .tc main_arg14) : S64.Idx → EReal) shapeCasts_S64_S1x64 := by
    dsimp only [W3]; simp only [hostOps1]; after_results_simp; rfl
  rw [e, shapeCast_a_1a_apply, ArgsKept.W2_arg14]

/-- The shift of channel `j`, laid out as a row. -/
theorem k1_bt (j : Fin 64) :
    (W3 m ρ c (Proc.devRef .tc main_v26) : S1x64.Idx → EReal) (ix2 0 j)
      = (m ((c : Thread nD τ).loc main_arg15) : S64.Idx → EReal) (ix1 j) := by
  have e : (W3 m ρ c (Proc.devRef .tc main_v26) : S1x64.Idx → EReal)
      = shapeCast S1x64 (W2 m ρ c (Proc.devRef .tc main_arg15) : S64.Idx → EReal) shapeCasts_S64_S1x64 := by
    dsimp only [W3]; simp only [hostOps1]; after_results_simp; rfl
  rw [e, shapeCast_a_1a_apply, ArgsKept.W2_arg15]

end Cert.KernelIdeal.HostRead
-- ==== Proof.LibFiniteSums.lean ====
import Mathlib
import Idealize.ShloMosaic.PureOps.Ideal

/-!
# Real-valued extended reals: closure under the arithmetic of a normalisation layer, and the variance identity

An extended real is *real* when it is the image of a real number. Real extended reals are closed under
sums, differences, products, finite sums, the maximum with zero, division by a nonzero real, and the
reciprocal square root of a positive number. On real data the two textbook forms of the (biased) variance
agree: the mean of the squared deviations equals the mean of the squares minus the square of the mean, and
since the former is nonnegative, clamping the latter at zero changes nothing.
-/

noncomputable section

open scoped BigOperators

namespace Idealize.ShloMosaic.FiniteSums

open Idealize.ShloMosaic

/-- An extended real that is (the image of) a real number. -/
def IsReal (x : EReal) : Prop := ∃ r : ℝ, x = (r : EReal)

/-- The image of a real number is real. -/
theorem isReal_coe (r : ℝ) : IsReal (r : EReal) := ⟨r, rfl⟩

/-- Zero is real. -/
theorem isReal_zero : IsReal 0 := ⟨0, rfl⟩

/-- One is real. -/
theorem isReal_one : IsReal 1 := ⟨1, rfl⟩

/-- An extended real is real exactly when it is neither +∞ nor -∞. -/
theorem isReal_iff (x : EReal) : IsReal x ↔ x ≠ ⊤ ∧ x ≠ ⊥ := by
  induction x using EReal.rec with
  | bot => exact ⟨fun ⟨r, h⟩ => absurd h (EReal.coe_ne_bot r).symm, fun h => absurd rfl h.2⟩
  | top => exact ⟨fun ⟨r, h⟩ => absurd h (EReal.coe_ne_top r).symm, fun h => absurd rfl h.1⟩
  | coe r => exact ⟨fun _ => ⟨EReal.coe_ne_top r, EReal.coe_ne_bot r⟩, fun _ => ⟨r, rfl⟩⟩

/-- A real extended real is not +∞. -/
theorem IsReal.ne_top {x : EReal} (h : IsReal x) : x ≠ ⊤ := ((isReal_iff x).1 h).1

/-- A real extended real is not -∞. -/
theorem IsReal.ne_bot {x : EReal} (h : IsReal x) : x ≠ ⊥ := ((isReal_iff x).1 h).2

/-- The sum of two reals is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The negative of a real is real. -/
theorem IsReal.neg {x : EReal} (hx : IsReal x) : IsReal (-x) := by
  obtain ⟨a, rfl⟩ := hx; exact ⟨-a, (EReal.coe_neg a).symm⟩

/-- The difference of two reals is real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two reals is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The maximum of two reals is real. -/
theorem isReal_max {x y : EReal} (hx : IsReal x) (hy : IsReal y) : IsReal (max x y) := by
  rcases max_choice x y with h | h <;> rw [h] <;> assumption

/-- The maximum of a real with zero is real. -/
theorem isReal_max_zero {x : EReal} (hx : IsReal x) : IsReal (max x 0) := isReal_max hx isReal_zero

/-- The maximum with zero is nonnegative. -/
theorem zero_le_max_zero (x : EReal) : 0 ≤ max x 0 := le_max_right x 0

/-- The coercion of the reals into the extended reals commutes with finite sums. -/
theorem coe_finset_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A finite sum of reals is real. -/
theorem IsReal.sum {ι : Type*} (s : Finset ι) (f : ι → EReal) (hf : ∀ i ∈ s, IsReal (f i)) :
    IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- A sum of reals over a whole finite index type is real. -/
theorem IsReal.sum_univ {ι : Type*} [Fintype ι] (f : ι → EReal) (hf : ∀ i, IsReal (f i)) :
    IsReal (∑ i, f i) := IsReal.sum Finset.univ f fun i _ => hf i

/-- A family of real extended reals is the image of a family of real numbers. -/
theorem exists_real_family {ι : Type*} (f : ι → EReal) (hf : ∀ i, IsReal (f i)) :
    ∃ g : ι → ℝ, ∀ i, f i = ((g i : ℝ) : EReal) := ⟨fun i => (hf i).choose, fun i => (hf i).choose_spec⟩

/-- The quotient of a real number by a nonzero real number, as the programs' division computes it on
    extended reals, is the real quotient. -/
theorem div_coe_coe (a N : ℝ) (hN : N ≠ 0) : Ideal.div (a : EReal) (N : EReal) = ((a / N : ℝ) : EReal) := by
  rw [Ideal.div_coe hN, ← EReal.coe_mul, mul_one_div]

/-- A real divided by a nonzero real number is real. -/
theorem IsReal.div_coe {x : EReal} (hx : IsReal x) {N : ℝ} (hN : N ≠ 0) : IsReal (Ideal.div x (N : EReal)) := by
  obtain ⟨a, rfl⟩ := hx; exact ⟨a / N, div_coe_coe a N hN⟩

/-- A real divided by 25000 is real. -/
theorem IsReal.div_25000 {x : EReal} (hx : IsReal x) : IsReal (Ideal.div x ((25000 : ℝ) : EReal)) :=
  hx.div_coe (by norm_num)

/-- The reciprocal square root of a positive real number is the real number `(√r)⁻¹`, which is positive. -/
theorem rsqrt_coe_pos {r : ℝ} (hr : 0 < r) :
    Ideal.rsqrt (r : EReal) = (((Real.sqrt r)⁻¹ : ℝ) : EReal) ∧ 0 < (Real.sqrt r)⁻¹ := by
  refine ⟨?_, inv_pos.2 (Real.sqrt_pos.2 hr)⟩
  rw [Ideal.rsqrt_coe, if_neg (not_lt.2 hr.le), if_neg hr.ne']

/-- The reciprocal square root of a positive real extended real is real and positive. -/
theorem IsReal.rsqrt_pos {x : EReal} (hx : IsReal x) (h : 0 < x) :
    IsReal (Ideal.rsqrt x) ∧ 0 < Ideal.rsqrt x := by
  obtain ⟨r, rfl⟩ := hx
  have hr : 0 < r := by exact_mod_cast h
  obtain ⟨e, hp⟩ := rsqrt_coe_pos hr
  rw [e]
  exact ⟨⟨_, rfl⟩, by exact_mod_cast hp⟩

/-- A nonnegative real plus a positive real is a positive real: the argument of the reciprocal square root
    in a normalisation layer (a clamped variance plus a positive constant). -/
theorem IsReal.add_pos {x y : EReal} (hx : IsReal x) (hy : IsReal y) (h0 : 0 ≤ x) (h1 : 0 < y) :
    IsReal (x + y) ∧ 0 < x + y := by
  refine ⟨hx.add hy, ?_⟩
  obtain ⟨a, rfl⟩ := hx; obtain ⟨b, rfl⟩ := hy
  have ha : 0 ≤ a := by exact_mod_cast h0
  have hb : 0 < b := by exact_mod_cast h1
  rw [← EReal.coe_add]
  exact_mod_cast add_pos_of_nonneg_of_pos ha hb

/-! ## The variance identity -/

/-- Over the real numbers: with `N` the number of terms and `m` the mean, the mean of the squared deviations
    from `m` is the mean of the squares minus `m²`. -/
theorem real_variance {ι : Type*} [Fintype ι] (g : ι → ℝ) (N : ℝ) (hN : (Fintype.card ι : ℝ) = N) (h0 : N ≠ 0) :
    (∑ i, (g i - (∑ j, g j) / N) * (g i - (∑ j, g j) / N)) / N
      = (∑ i, g i * g i) / N - ((∑ j, g j) / N) * ((∑ j, g j) / N) := by
  have h1 : ∑ i, (g i - (∑ j, g j) / N) * (g i - (∑ j, g j) / N)
      = (∑ i, g i * g i) - 2 * ((∑ j, g j) / N) * (∑ j, g j) + N * ((∑ j, g j) / N * ((∑ j, g j) / N)) := by
    have e : ∀ i, (g i - (∑ j, g j) / N) * (g i - (∑ j, g j) / N)
        = g i * g i - 2 * ((∑ j, g j) / N) * g i + ((∑ j, g j) / N * ((∑ j, g j) / N)) := fun i => by ring
    simp only [e, Finset.sum_add_distrib, Finset.sum_sub_distrib, ← Finset.mul_sum, Finset.sum_const,
      Finset.card_univ, nsmul_eq_mul, hN]
    ring
  rw [h1]
  field_simp
  ring

/-- Over the real numbers the mean of the squared deviations is nonnegative. -/
theorem real_variance_nonneg {ι : Type*} [Fintype ι] (g : ι → ℝ) (m N : ℝ) (hN : (Fintype.card ι : ℝ) = N) :
    0 ≤ (∑ i, (g i - m) * (g i - m)) / N :=
  div_nonneg (Finset.sum_nonneg fun i _ => mul_self_nonneg _) (hN ▸ Nat.cast_nonneg _)

/-- **The variance identity on real data, in extended-real arithmetic.** For a family `f` of real extended
    reals over a finite index type with `N` elements (`N ≠ 0`), with the mean `μ = (∑ f) / N`: the mean of
    the squared deviations from `μ` equals the mean of the squares minus `μ²`, clamped below at zero. Every
    division is the programs' division of extended reals by the real number `N`. -/
theorem variance_identity {ι : Type*} [Fintype ι] (f : ι → EReal) (hf : ∀ i, IsReal (f i))
    (N : ℝ) (hN : (Fintype.card ι : ℝ) = N) (h0 : N ≠ 0) :
    Ideal.div (∑ i, (f i - Ideal.div (∑ j, f j) (N : EReal)) * (f i - Ideal.div (∑ j, f j) (N : EReal))) (N : EReal)
      = max (Ideal.div (∑ i, f i * f i) (N : EReal)
              - Ideal.div (∑ j, f j) (N : EReal) * Ideal.div (∑ j, f j) (N : EReal)) 0 := by
  obtain ⟨g, hg⟩ := exists_real_family f hf
  have hS : (∑ j, f j) = (((∑ j, g j : ℝ)) : EReal) := by
    rw [coe_finset_sum]; exact Finset.sum_congr rfl fun j _ => hg j
  have hμ : Ideal.div (∑ j, f j) (N : EReal) = (((∑ j, g j) / N : ℝ) : EReal) := by
    rw [hS, div_coe_coe _ _ h0]
  have hQ : (∑ i, f i * f i) = ((∑ i, g i * g i : ℝ) : EReal) := by
    rw [coe_finset_sum]; exact Finset.sum_congr rfl fun i _ => by rw [hg i, EReal.coe_mul]
  have hD : (∑ i, (f i - Ideal.div (∑ j, f j) (N : EReal)) * (f i - Ideal.div (∑ j, f j) (N : EReal)))
      = ((∑ i, (g i - (∑ j, g j) / N) * (g i - (∑ j, g j) / N) : ℝ) : EReal) := by
    rw [coe_finset_sum]
    exact Finset.sum_congr rfl fun i _ => by rw [hμ, hg i, ← EReal.coe_sub, ← EReal.coe_mul]
  rw [hD, hQ, hμ, div_coe_coe _ _ h0, div_coe_coe _ _ h0, ← EReal.coe_mul, ← EReal.coe_sub,
    real_variance g N hN h0]
  have hB : 0 ≤ (∑ i, g i * g i) / N - (∑ j, g j) / N * ((∑ j, g j) / N) :=
    (real_variance g N hN h0) ▸ real_variance_nonneg g _ N hN
  exact (max_eq_left (EReal.coe_nonneg.2 hB)).symm

/-- The variance identity over `Fin n`, `n > 0`, with `N = n` as a real number. -/
theorem variance_identity_fin {n : ℕ} (hn : 0 < n) (f : Fin n → EReal) (hf : ∀ i, IsReal (f i)) :
    Ideal.div (∑ i, (f i - Ideal.div (∑ j, f j) ((n : ℝ) : EReal)) * (f i - Ideal.div (∑ j, f j) ((n : ℝ) : EReal)))
        ((n : ℝ) : EReal)
      = max (Ideal.div (∑ i, f i * f i) ((n : ℝ) : EReal)
              - Ideal.div (∑ j, f j) ((n : ℝ) : EReal) * Ideal.div (∑ j, f j) ((n : ℝ) : EReal)) 0 :=
  variance_identity f hf (n : ℝ) (by simp) (by exact_mod_cast hn.ne')

end Idealize.ShloMosaic.FiniteSums
-- ==== Proof.LibBatchNorm.lean ====
import Mathlib
import Idealize.ShloMosaic.PureOps.Ideal
import proofs.«160706_j53919019434042_2_alg».proof.Proof.LibFiniteSums

/-!
# Batch normalisation over 25000 real rows, in extended-real arithmetic

The f32 word `0x46C35000` is the real number 25000 and the word `0x3727C5AC` (single precision's 10⁻⁵) is a
positive real number. Over 25000 real entries, with every division a division by the word of 25000:

* the mean of the squared deviations from the mean (each sum started from 0) equals the mean of the squares
  minus the square of the mean, clamped below at zero — the two textbook forms of the biased variance;
* mean and variance are real, the variance is nonnegative, so the reciprocal square root of the variance plus
  10⁻⁵ is a positive real;
* a per-channel normalisation `g·(x - μ)·v + b` followed by a linear map equals the linear map with the
  weights rescaled by `g·v` plus the constant row `∑ₖ (bₖ - μₖ(gₖvₖ))·wₖ` (distributivity, which on extended
  reals needs every term real);
* a two-layer dense map with clamps, and a normalised value, computed from real data are real.
-/

noncomputable section

open scoped BigOperators

namespace Idealize.ShloMosaic.FiniteSums

open Idealize.ShloMosaic

local notation "c25" => Ideal.ofBits FTy.f32 0x46C35000#32
local notation "eps" => Ideal.ofBits FTy.f32 0x3727C5AC#32

/-! ## The two words -/

/-- The f32 word `0x46C35000` denotes the real number 25000. -/
theorem ofBits_25000 : c25 = ((25000 : ℝ) : EReal) := by
  simp [Ideal.ofBits, Ideal.ieee, -EReal.coe_mul]; norm_num

/-- The f32 word `0x3727C5AC` (single precision's 10⁻⁵) denotes a positive real number. -/
theorem eps_pos : ∃ r : ℝ, eps = (r : EReal) ∧ 0 < r := by
  refine ⟨_, by simp [Ideal.ofBits, Ideal.ieee, -EReal.coe_mul]; rfl, ?_⟩
  positivity

/-- The word of 10⁻⁵ is real. -/
theorem isReal_eps : IsReal eps := by
  obtain ⟨e, h, _⟩ := eps_pos; exact ⟨e, h⟩

/-- The word of 10⁻⁵ is positive. -/
theorem eps_gt_zero : 0 < eps := by
  obtain ⟨e, h, he⟩ := eps_pos; rw [h]; exact_mod_cast he

/-- A real divided by the word of 25000 is real. -/
theorem IsReal.div_c25 {x : EReal} (hx : IsReal x) : IsReal (Ideal.div x c25) := by
  rw [ofBits_25000]; exact hx.div_25000

/-! ## Mean and variance over 25000 real entries -/

/-- A sum started from 0 is the sum: the mean with the reduction's initial value written out. -/
theorem mean_words (f : Fin 25000 → EReal) : Ideal.div (0 + ∑ j, f j) c25 = Ideal.div (∑ j, f j) c25 := by
  rw [zero_add]

/-- **The two forms of the biased variance agree on real data.** Left: the mean of the squared deviations
    from the mean, each sum started from 0. Right: the mean of the squares minus the square of the mean,
    clamped below at 0. Every division is by the word of 25000. -/
theorem variance_words (f : Fin 25000 → EReal) (hf : ∀ r, IsReal (f r)) :
    Ideal.div (0 + ∑ r, (f r - Ideal.div (0 + ∑ j, f j) c25) * (f r - Ideal.div (0 + ∑ j, f j) c25)) c25
      = max (Ideal.div (∑ r, f r * f r) c25 - Ideal.div (∑ j, f j) c25 * Ideal.div (∑ j, f j) c25) 0 := by
  simp only [zero_add]
  rw [ofBits_25000]
  exact variance_identity f hf 25000 (by simp) (by norm_num)

/-- The mean of 25000 real entries is real. -/
theorem isReal_mean (f : Fin 25000 → EReal) (hf : ∀ r, IsReal (f r)) : IsReal (Ideal.div (∑ j, f j) c25) :=
  (IsReal.sum_univ f hf).div_c25

/-- The mean of 25000 real entries, the sum started from 0, is real. -/
theorem isReal_mean_zero_add (f : Fin 25000 → EReal) (hf : ∀ r, IsReal (f r)) :
    IsReal (Ideal.div (0 + ∑ j, f j) c25) := by
  rw [mean_words]; exact isReal_mean f hf

/-- The clamped form of the variance of 25000 real entries is real. -/
theorem isReal_var_clamped (f : Fin 25000 → EReal) (hf : ∀ r, IsReal (f r)) :
    IsReal (max (Ideal.div (∑ r, f r * f r) c25 - Ideal.div (∑ j, f j) c25 * Ideal.div (∑ j, f j) c25) 0) :=
  isReal_max_zero
    (((IsReal.sum_univ _ fun r => (hf r).mul (hf r)).div_c25).sub ((isReal_mean f hf).mul (isReal_mean f hf)))

/-- The clamped form of the variance is nonnegative. -/
theorem var_clamped_nonneg (f : Fin 25000 → EReal) :
    0 ≤ max (Ideal.div (∑ r, f r * f r) c25 - Ideal.div (∑ j, f j) c25 * Ideal.div (∑ j, f j) c25) 0 :=
  zero_le_max_zero _

/-- The deviation form of the variance of 25000 real entries is real. -/
theorem isReal_var_dev (f : Fin 25000 → EReal) (hf : ∀ r, IsReal (f r)) :
    IsReal (Ideal.div (0 + ∑ r, (f r - Ideal.div (0 + ∑ j, f j) c25) * (f r - Ideal.div (0 + ∑ j, f j) c25)) c25) := by
  rw [variance_words f hf]; exact isReal_var_clamped f hf

/-- The deviation form of the variance of 25000 real entries is nonnegative. -/
theorem var_dev_nonneg (f : Fin 25000 → EReal) (hf : ∀ r, IsReal (f r)) :
    0 ≤ Ideal.div (0 + ∑ r, (f r - Ideal.div (0 + ∑ j, f j) c25) * (f r - Ideal.div (0 + ∑ j, f j) c25)) c25 := by
  rw [variance_words f hf]; exact var_clamped_nonneg f

/-- The reciprocal square root of a nonnegative real plus 10⁻⁵ is real and positive. -/
theorem isReal_rsqrt_add_eps {v : EReal} (hv : IsReal v) (h0 : 0 ≤ v) :
    IsReal (Ideal.rsqrt (v + eps)) ∧ 0 < Ideal.rsqrt (v + eps) := by
  obtain ⟨h1, h2⟩ := hv.add_pos isReal_eps h0 eps_gt_zero
  exact h1.rsqrt_pos h2

/-- The reciprocal square root of the clamped variance plus 10⁻⁵ is real. -/
theorem isReal_rsqrt_var_clamped (f : Fin 25000 → EReal) (hf : ∀ r, IsReal (f r)) :
    IsReal (Ideal.rsqrt
      (max (Ideal.div (∑ r, f r * f r) c25 - Ideal.div (∑ j, f j) c25 * Ideal.div (∑ j, f j) c25) 0 + eps)) :=
  (isReal_rsqrt_add_eps (isReal_var_clamped f hf) (var_clamped_nonneg f)).1

/-- The reciprocal square root of the deviation-form variance plus 10⁻⁵ is real. -/
theorem isReal_rsqrt_var_dev (f : Fin 25000 → EReal) (hf : ∀ r, IsReal (f r)) :
    IsReal (Ideal.rsqrt
      (Ideal.div (0 + ∑ r, (f r - Ideal.div (0 + ∑ j, f j) c25) * (f r - Ideal.div (0 + ∑ j, f j) c25)) c25 + eps)) :=
  (isReal_rsqrt_add_eps (isReal_var_dev f hf) (var_dev_nonneg f hf)).1

/-! ## A normalisation folded into the next linear map -/

/-- On real data, a normalisation followed by a linear map is the linear map with rescaled weights plus a
    constant: `∑ₖ (gₖ(xₖ - μₖ)vₖ + bₖ)·wₖ = ∑ₖ xₖ·((gₖvₖ)·wₖ) + ∑ₖ (bₖ - μₖ(gₖvₖ))·wₖ`. -/
theorem norm_fold {κ : Type*} [Fintype κ] (x g mu inv bt w : κ → EReal) (hx : ∀ k, IsReal (x k))
    (hg : ∀ k, IsReal (g k)) (hmu : ∀ k, IsReal (mu k)) (hinv : ∀ k, IsReal (inv k)) (hbt : ∀ k, IsReal (bt k))
    (hw : ∀ k, IsReal (w k)) :
    ∑ k, ((g k * (x k - mu k)) * inv k + bt k) * w k
      = (∑ k, x k * ((g k * inv k) * w k)) + ∑ k, (bt k - mu k * (g k * inv k)) * w k := by
  obtain ⟨x', ex⟩ := exists_real_family x hx; obtain ⟨g', eg⟩ := exists_real_family g hg
  obtain ⟨m', em⟩ := exists_real_family mu hmu; obtain ⟨v', ev⟩ := exists_real_family inv hinv
  obtain ⟨b', eb⟩ := exists_real_family bt hbt; obtain ⟨w', ew⟩ := exists_real_family w hw
  simp only [ex, eg, em, ev, eb, ew, ← EReal.coe_mul, ← EReal.coe_sub, ← EReal.coe_add, ← coe_finset_sum]
  congr 1
  rw [← Finset.sum_add_distrib]
  exact Finset.sum_congr rfl fun k _ => by ring

/-- The same law with the rescaling `a = g·inv` and the constant `cc = bt - μ·a` named. -/
theorem norm_fold_named {κ : Type*} [Fintype κ] (x g mu inv bt w a cc : κ → EReal) (hx : ∀ k, IsReal (x k))
    (hg : ∀ k, IsReal (g k)) (hmu : ∀ k, IsReal (mu k)) (hinv : ∀ k, IsReal (inv k)) (hbt : ∀ k, IsReal (bt k))
    (hw : ∀ k, IsReal (w k)) (ha : ∀ k, a k = g k * inv k) (hcc : ∀ k, cc k = bt k - mu k * a k) :
    ∑ k, ((g k * (x k - mu k)) * inv k + bt k) * w k = (∑ k, x k * (a k * w k)) + ∑ k, cc k * w k := by
  simp only [hcc, ha]
  exact norm_fold x g mu inv bt w hx hg hmu hinv hbt hw

/-! ## Real data in, real data out -/

/-- A two-layer dense map with clamps at zero, `max (∑ₖ max (∑ⱼ hⱼ·Waⱼₖ + baₖ) 0 · Wbₖq + bb_q) 0`, of real data is real. -/
theorem isReal_dense2 {α κ β : Type*} [Fintype α] [Fintype κ] (h : α → EReal) (Wa : α → κ → EReal) (ba : κ → EReal)
    (Wb : κ → β → EReal) (bb : β → EReal) (hh : ∀ j, IsReal (h j)) (hWa : ∀ j k, IsReal (Wa j k))
    (hba : ∀ k, IsReal (ba k)) (hWb : ∀ k q, IsReal (Wb k q)) (hbb : ∀ q, IsReal (bb q)) (q : β) :
    IsReal (max ((∑ k, max ((∑ j, h j * Wa j k) + ba k) 0 * Wb k q) + bb q) 0) :=
  isReal_max_zero
    ((IsReal.sum_univ _ fun k =>
      (isReal_max_zero ((IsReal.sum_univ _ fun j => (hh j).mul (hWa j k)).add (hba k))).mul (hWb k q)).add (hbb q))

/-- The same without the outer clamp: `∑ₖ max (∑ⱼ hⱼ·Waⱼₖ + baₖ) 0 · Wbₖq + bb_q` of real data is real. -/
theorem isReal_dense2_raw {α κ β : Type*} [Fintype α] [Fintype κ] (h : α → EReal) (Wa : α → κ → EReal) (ba : κ → EReal)
    (Wb : κ → β → EReal) (bb : β → EReal) (hh : ∀ j, IsReal (h j)) (hWa : ∀ j k, IsReal (Wa j k))
    (hba : ∀ k, IsReal (ba k)) (hWb : ∀ k q, IsReal (Wb k q)) (hbb : ∀ q, IsReal (bb q)) (q : β) :
    IsReal ((∑ k, max ((∑ j, h j * Wa j k) + ba k) 0 * Wb k q) + bb q) :=
  (IsReal.sum_univ _ fun k =>
    (isReal_max_zero ((IsReal.sum_univ _ fun j => (hh j).mul (hWa j k)).add (hba k))).mul (hWb k q)).add (hbb q)

/-- A normalised value `g·(x - μ)·rsqrt(v + 10⁻⁵) + b` of real data with `v ≥ 0` is real. -/
theorem isReal_normalised {g x mu bt v : EReal} (hg : IsReal g) (hx : IsReal x) (hmu : IsReal mu) (hbt : IsReal bt)
    (hv : IsReal v) (h0 : 0 ≤ v) : IsReal ((g * (x - mu)) * Ideal.rsqrt (v + eps) + bt) :=
  (((hg.mul (hx.sub hmu)).mul (isReal_rsqrt_add_eps hv h0).1).add hbt)

end Idealize.ShloMosaic.FiniteSums
-- ==== Proof.RefStage51.lean ====
/-
  The reference's first batch normalization read at an index. With `R` the first layer's output, `mean q` the mean of
  `R`'s column `q` over the 25000 rows and `var q` the mean square deviation of that column from its mean (both as
  the host computes them: zero plus the sum, divided by the constant 25000), entry `(p, q)` of the normalized layer is
  `g[q] · (R[p, q] − mean q) · rsqrt (var q + ε) + bt[q]`.
-/
import proofs.«160706_j53919019434042_2_alg».proof.Proof.RefStage26

noncomputable section

open scoped BigOperators

namespace Cert.ReferenceIdeal.RefValue

open Cert.ReferenceIdeal Cert.ReferenceIdeal.Gen Cert.ReferenceIdeal.Value Idealize.ShloMosaic Idealize.ShloMosaic.ValueIdx
  Idealize.SL.Sem Cert.HostLayer

/-- The word the sums are divided by is the real number 25000. -/
theorem ofBits_rows_f32 : Ideal.ofBits .f32 0x46C35000#32 = ((25000 : ℝ) : EReal) := by
  simp [Ideal.ofBits, Ideal.ieee, -EReal.coe_mul]; norm_num

theorem reduces_S25000x64_S64_d0 : S25000x64.Reduces [0] S64 := by decide

/-- The column means of the first layer's output. -/
theorem ref_v29 (V0 : Valuation τ sig (Elt Ideal)) (j : S64.Idx) :
    res_main_v29 (F := Ideal) V0 j
      = colMean (res_main_v26 (F := Ideal) V0) (Ideal.ofBits .f32 0x46C35000#32) (j 0) := by
  obtain ⟨q, rfl⟩ : ∃ q : Fin 64, j = ix1 q := ⟨j 0, eq_ix1 j⟩
  unfold res_main_v29
  exact col_mean_zero_entry reducesTo_S25000x64_S64_d0 reduces_S25000x64_S64_d0 h_S_ bcast_S_S64 _ _ q

/-- The first normalized layer. The arrays are named by variables of their literal types: `R` the first layer's
    output, `g` and `bt` the scale and the shift. -/
theorem ref_v51 (V0 : Valuation τ sig (Elt Ideal)) (R : S25000x64.Idx → EReal) (g bt : S64.Idx → EReal)
    (hR : R = res_main_v26 (F := Ideal) V0) (hg : g = V0 (Proc.devRef .tc main_arg14))
    (hbt : bt = V0 (Proc.devRef .tc main_arg15)) (i : S25000x64.Idx) :
    res_main_v51 (F := Ideal) V0 i
      = g (ix1 (i 1)) * (R i - colMean R (Ideal.ofBits .f32 0x46C35000#32) (i 1))
          * Ideal.rsqrt (colVar R (Ideal.ofBits .f32 0x46C35000#32) (i 1) + Ideal.ofBits .f32 0x3727C5AC#32)
        + bt (ix1 (i 1)) := by
  subst hR hg hbt
  obtain ⟨p, q, rfl⟩ : ∃ (p : Fin 25000) (q : Fin 64), i = ix2 p q := ⟨i 0, i 1, eq_ix2 i⟩
  unfold res_main_v51 res_main_v32
  exact batchnorm_entry bcast_S1x64_S25000x64_0_1 bcast_S64_S1x64_1 reducesTo_S25000x64_S64_d0 reduces_S25000x64_S64_d0
    h_S_ bcast_S_S64 (res_main_v26 (F := Ideal) V0) (res_main_v29 (F := Ideal) V0) _ _ _ _
    (fun q => ref_v29 V0 (ix1 q)) p q

end Cert.ReferenceIdeal.RefValue

end
-- ==== Proof.Stage2.lean ====
/-
  The first layer's normalisation. The kernel's statistics region leaves the column sums Σ_r R and Σ_r R·R of the
  25000 raw rows; the host turns them into the mean and the clamped "mean of squares minus squared mean"; the
  normalising region applies g·(R − mean)·rsqrt(var + ε) + bt. The reference takes the mean of squared deviations.
  Every raw entry being a real number, the two variances are one number, and the two normalised arrays one array.
-/
import proofs.«160706_j53919019434042_2_alg».proof.Defs
import proofs.«160706_j53919019434042_2_alg».proof.Proof.Gen.ReferenceIdeal.Run
import proofs.«160706_j53919019434042_2_alg».proof.Proof.KernelRun
import proofs.«160706_j53919019434042_2_alg».proof.Proof.ArgsKept
import proofs.«160706_j53919019434042_2_alg».proof.Proof.RegionNorm1
import proofs.«160706_j53919019434042_2_alg».proof.Proof.KHost1
import proofs.«160706_j53919019434042_2_alg».proof.Proof.LibBatchNorm
import proofs.«160706_j53919019434042_2_alg».proof.Proof.RefStage51
import Idealize.ShloMosaic.Lib.StableHlo.Run
import Idealize.ShloMosaic.Lib.ValueIdx

set_option maxRecDepth 16384

noncomputable section

namespace Cert.Proof.Stage2

open Idealize.ShloMosaic Idealize.ShloMosaic.TcCoe Idealize.SL.Sem Idealize.ShloMosaic.StableHlo Idealize.ShloMosaic.ValueIdx
open Idealize.ShloMosaic.FiniteSums Cert.HostLayer
open Cert.KernelIdeal Cert.KernelIdeal.Gen Cert.KernelIdeal.HostRead

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

local notation "c25" => Ideal.ofBits FTy.f32 0x46C35000#32
local notation "eps" => Ideal.ofBits FTy.f32 0x3727C5AC#32

set_option maxHeartbeats 2000000 in
/-- The kernel's first normalised layer is the reference's. `R` is the raw layer (both programs'), `S1`, `S2` the
    kernel's two column sums. -/
theorem stage2 (c : Dev nD) (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (R : Cert.ReferenceIdeal.S25000x64.Idx → EReal) (hR : R = Cert.ReferenceIdeal.Value.res_main_v26 (F := Ideal) (launchContents m' c))
    (S1 S2 : S1x64.Idx → EReal)
    (hS1 : W2 m ρ c (Proc.devRef .tc main_v16_1) = S1) (hS2 : W2 m ρ c (Proc.devRef .tc main_v16_2) = S2)
    (h1 : W2 m ρ c (Proc.devRef .tc main_v16_0) = R)
    (hs : ∀ j : Fin 64, S1 (ix2 0 j) = ∑ r : Fin 25000, R (ix2 r j))
    (hss : ∀ j : Fin 64, S2 (ix2 0 j) = ∑ r : Fin 25000, R (ix2 r j) * R (ix2 r j))
    (hreal : ∀ i, IsReal (R i)) :
    W4 m ρ c (Proc.devRef .tc main_v27) = Cert.ReferenceIdeal.Value.res_main_v51 (F := Ideal) (launchContents m' c) := by
  refine (W4_arr m ρ c 5).trans ?_
  have hone : ∀ i : S1x64.Idx, i = ix2 0 (i 1) := fun i => by
    funext a
    match a with
    | ⟨0, _⟩ => exact Fin.ext (by have := (i 0).isLt; show (i 0).val = 0; change (i 0).val < 1 at this; omega)
    | ⟨1, _⟩ => rfl
  obtain ⟨g14, hg14⟩ : ∃ g : S64.Idx → EReal, g = m ((c : Thread nD τ).loc main_arg14) := ⟨_, rfl⟩
  obtain ⟨bt15, hbt15⟩ : ∃ g : S64.Idx → EReal, g = m ((c : Thread nD τ).loc main_arg15) := ⟨_, rfl⟩
  have hraw : V3 m ρ c (Pipeline.arrRef spec1 0) = R := (k1_raw m ρ c).trans h1
  have hmean : V3 m ρ c (Pipeline.arrRef spec1 1) = fun i : S1x64.Idx => Ideal.div (S1 i) c25 := by
    funext i; rw [hone i, ← hS1]; exact k1_mean m ρ c (i 1)
  have hvar : V3 m ρ c (Pipeline.arrRef spec1 2)
      = fun i : S1x64.Idx => max (Ideal.div (S2 i) c25 - Ideal.div (S1 i) c25 * Ideal.div (S1 i) c25) 0 := by
    funext i; rw [hone i, ← hS1, ← hS2]; exact k1_var m ρ c (i 1)
  have hg : V3 m ρ c (Pipeline.arrRef spec1 3)
      = fun i : S1x64.Idx => g14 (ix1 (i 1)) := by
    funext i; rw [hone i, hg14]; exact k1_g m ρ c (i 1)
  have hbt : V3 m ρ c (Pipeline.arrRef spec1 4)
      = fun i : S1x64.Idx => bt15 (ix1 (i 1)) := by
    funext i; rw [hone i, hbt15]; exact k1_bt m ρ c (i 1)
  rw [RegionValue.region1_value (V3 m ρ) c _ _ _ _ _ hraw hmean hvar hg hbt]
  funext i
  obtain ⟨p, q, rfl⟩ : ∃ (p : Fin 25000) (q : Fin 64), i = ix2 p q := ⟨i 0, i 1, eq_ix2 i⟩
  rw [Cert.ReferenceIdeal.RefValue.ref_v51 (launchContents m' c) R g14 bt15 hR (hg14.trans h14.symm) (hbt15.trans h15.symm) (ix2 p q)]
  have hm : colMean R c25 q = Ideal.div (∑ r : Fin 25000, R (ix2 r q)) c25 := mean_words _
  have hv : colVar R c25 q
      = max (Ideal.div (∑ r : Fin 25000, R (ix2 r q) * R (ix2 r q)) c25
          - Ideal.div (∑ r : Fin 25000, R (ix2 r q)) c25 * Ideal.div (∑ r : Fin 25000, R (ix2 r q)) c25) 0 :=
    variance_words (fun r => R (ix2 r q)) (fun r => hreal _)
  show (g14 (ix1 q) * (R (ix2 p q) - Ideal.div (S1 (ix2 0 q)) c25))
      * Ideal.rsqrt (max (Ideal.div (S2 (ix2 0 q)) c25 - Ideal.div (S1 (ix2 0 q)) c25 * Ideal.div (S1 (ix2 0 q)) c25) 0 + eps)
      + bt15 (ix1 q)
    = g14 (ix1 q) * (R (ix2 p q) - colMean R c25 q)
      * Ideal.rsqrt (colVar R c25 q + eps)
      + bt15 (ix1 q)
  rw [hm, hv, hs q, hss q]

end Cert.Proof.Stage2

end
-- ==== Proof.RefStage103.lean ====
/-
  The reference's second batch normalization read at an index. With `R` the second layer's output, `mean q` the mean
  of `R`'s column `q` over the 25000 rows and `var q` the mean square deviation of that column from its mean (both as
  the host computes them: zero plus the sum, divided by the constant 25000), entry `(p, q)` of the normalized layer is
  `g[q] · (R[p, q] − mean q) · rsqrt (var q + ε) + bt[q]`. The normalized layer is the array scattered into the rows of
  the next level before the first graph convolution's linear map.
-/
import proofs.«160706_j53919019434042_2_alg».proof.Proof.RefStage78

noncomputable section

open scoped BigOperators

namespace Cert.ReferenceIdeal.RefValue

open Cert.ReferenceIdeal Cert.ReferenceIdeal.Gen Cert.ReferenceIdeal.Value Idealize.ShloMosaic Idealize.ShloMosaic.ValueIdx
  Idealize.SL.Sem Cert.HostLayer

theorem reduces_S25000x128_S128_d0 : S25000x128.Reduces [0] S128 := by decide

/-- The second normalized layer. -/
def ref_v103 (V0 : Valuation τ sig (Elt Ideal)) : FVec Ideal S25000x128 .f32 :=
  addf (mulf (mulf (broadcastInDim S25000x128 ![0, 1] bcast_S1x128_S25000x128_0_1 (broadcastInDim S1x128 ![1] bcast_S128_S1x128_1 (V0 (Proc.devRef .tc main_arg20)))) (subf (res_main_v78 V0) (broadcastInDim S25000x128 ![0, 1] bcast_S1x128_S25000x128_0_1 (broadcastInDim S1x128 ![1] bcast_S128_S1x128_1 (res_main_v81 V0))))) (broadcastInDim S25000x128 ![0, 1] bcast_S1x128_S25000x128_0_1 (broadcastInDim S1x128 ![1] bcast_S128_S1x128_1 (Host.rsqrt (addf (Host.divf (Host.reduceAdd (mulf (res_main_v84 V0) (res_main_v84 V0)) (constant S_ .f32 0x00000000#32) reducesTo_S25000x128_S128_d0 h_S_) (broadcastInDim S128 ![] bcast_S_S128 (constant S_ .f32 0x46C35000#32))) (broadcastInDim S128 ![] bcast_S_S128 (constant S_ .f32 0x3727C5AC#32))))))) (broadcastInDim S25000x128 ![0, 1] bcast_S1x128_S25000x128_0_1 (broadcastInDim S1x128 ![1] bcast_S128_S1x128_1 (V0 (Proc.devRef .tc main_arg21))))

set_option maxRecDepth 8192 in
/-- The linear map of the first graph convolution is applied to the second normalized layer scattered into the rows
    of the next level. -/
theorem res_main_v112_eq (V0 : Valuation τ sig (Elt Ideal)) :
    res_main_v112 (F := Ideal) V0
      = Host.dotGeneral (φ₁ := .f32) (φ₂ := .f32) dot_S50000x128_S128x128_S50000x128_1_0_0_1_n_n none (Host.scatter scatter_S50000x128_S25000x1_S25000x128_1_0_0_1 (fun _ b => b) (broadcastInDim S50000x128 ![] bcast_S_S50000x128 (constant S_ .f32 0x00000000#32)) (broadcastInDim S25000x1 ![0] bcast_S25000_S25000x1_0 (select (cmpi .slt (V0 (Proc.devRef .tc main_arg9)) (broadcastInDim S25000 ![] bcast_S_S25000 (constantI S_ 32 0#32))) (addi (V0 (Proc.devRef .tc main_arg9)) (broadcastInDim S25000 ![] bcast_S_S25000 (constantI S_ 32 50000#32))) (V0 (Proc.devRef .tc main_arg9)))) (ref_v103 V0)) (V0 (Proc.devRef .tc main_arg22)) := rfl

/-- The column means of the second layer's output. -/
theorem ref_v81 (V0 : Valuation τ sig (Elt Ideal)) (j : S128.Idx) :
    res_main_v81 (F := Ideal) V0 j
      = colMean (res_main_v78 (F := Ideal) V0) (Ideal.ofBits .f32 0x46C35000#32) (j 0) := by
  obtain ⟨q, rfl⟩ : ∃ q : Fin 128, j = ix1 q := ⟨j 0, eq_ix1 j⟩
  unfold res_main_v81
  exact col_mean_zero_entry reducesTo_S25000x128_S128_d0 reduces_S25000x128_S128_d0 h_S_ bcast_S_S128 _ _ q

/-- The second normalized layer at an index. The arrays are named by variables of their literal types: `R` the second
    layer's output, `g` and `bt` the scale and the shift. -/
theorem ref_v103_apply (V0 : Valuation τ sig (Elt Ideal)) (R : S25000x128.Idx → EReal) (g bt : S128.Idx → EReal)
    (hR : R = res_main_v78 (F := Ideal) V0) (hg : g = V0 (Proc.devRef .tc main_arg20))
    (hbt : bt = V0 (Proc.devRef .tc main_arg21)) (i : S25000x128.Idx) :
    ref_v103 V0 i
      = g (ix1 (i 1)) * (R i - colMean R (Ideal.ofBits .f32 0x46C35000#32) (i 1))
          * Ideal.rsqrt (colVar R (Ideal.ofBits .f32 0x46C35000#32) (i 1) + Ideal.ofBits .f32 0x3727C5AC#32)
        + bt (ix1 (i 1)) := by
  subst hR hg hbt
  obtain ⟨p, q, rfl⟩ : ∃ (p : Fin 25000) (q : Fin 128), i = ix2 p q := ⟨i 0, i 1, eq_ix2 i⟩
  unfold ref_v103 res_main_v84
  exact batchnorm_entry bcast_S1x128_S25000x128_0_1 bcast_S128_S1x128_1 reducesTo_S25000x128_S128_d0
    reduces_S25000x128_S128_d0 h_S_ bcast_S_S128 (res_main_v78 (F := Ideal) V0) (res_main_v81 (F := Ideal) V0) _ _ _ _
    (fun q => ref_v81 V0 (ix1 q)) p q

end Cert.ReferenceIdeal.RefValue

end
-- ==== Proof.LibFiniteScatter.lean ====
/-
  Real data through the host's indexed reads and accumulating writes, at the ideal values:

  * a gather reads entries of its operand, so a gather from an array of reals is an array of reals, whatever the
    indices;
  * an accumulating scatter adds, to every entry of its operand, the finite sum of the updates that land on that entry,
    so from an operand of reals and updates that are reals it is an array of reals, whatever the indices;
  * the zero word broadcast to any shape is the zero array;
  * hence an array of reals plus the accumulating scatter, into zeros, of rows gathered from an array of reals, is an
    array of reals — the neighbourhood sum of a graph layer.
-/
import Mathlib
import Idealize.ShloMosaic.PureOps.Ideal.Laws
import Idealize.ShloMosaic.Lib.ValueIdx
import Idealize.ShloMosaic.Lib.Pipeline.Value
import proofs.«160706_j53919019434042_2_alg».proof.Proof.LibFiniteSums

noncomputable section

open scoped BigOperators

namespace Idealize.ShloMosaic.FiniteSums

open Idealize.ShloMosaic Idealize.ShloMosaic.ValueIdx

/-- A gather from an array of reals reads reals. -/
theorem isReal_gather {s si t : Shape} {w : Nat} (d : GatherDims s si t) (x : s.Idx → EReal) (idx : IVec si w)
    (hx : ∀ i, IsReal (x i)) (j : t.Idx) : IsReal (Host.gather d x idx j) :=
  hx (d.operandIdx j idx)

/-- The accumulating scatter of real updates into an operand of reals: every entry is the operand's entry plus a finite
    sum of updates, a real. -/
theorem isReal_hostScatterAdd {s si su : Shape} {w : Nat} (d : ScatterDims s si su) (x : s.Idx → EReal) (idx : IVec si w)
    (upd : su.Idx → EReal) (hx : ∀ i, IsReal (x i)) (hu : ∀ j, IsReal (upd j)) (i : s.Idx) :
    IsReal (Ideal.hostScatterAdd d x idx upd i) :=
  (hx i).add (IsReal.sum _ _ fun j _ => hu j)

/-- The same for the host operation as a program spells it. -/
theorem isReal_scatterAdd {s si su : Shape} {φ : FTy} {w : Nat} (d : ScatterDims s si su) (x : FVec Ideal s φ) (idx : IVec si w)
    (upd : FVec Ideal su φ) (hx : ∀ i, IsReal (x i)) (hu : ∀ j, IsReal (upd j)) (i : s.Idx) :
    IsReal (Host.scatterAdd d x idx upd i) :=
  isReal_hostScatterAdd d x idx upd hx hu i

/-- The zero word broadcast to any shape is zero at every index. -/
theorem zeros_apply {t : Shape} (h : (⟨0, ![]⟩ : Shape).BroadcastsInDim t ![]) (j : t.Idx) :
    broadcastInDim t ![] h (constant (F := Ideal) ⟨0, ![]⟩ .f32 0x00000000#32) j = 0 := by
  rw [broadcastInDim_apply _ h _ j ix0 fun ax => ax.elim0, constant_apply, Ideal.ofBits_zero_f32]

/-- The zero array is an array of reals. -/
theorem isReal_zeros {t : Shape} (h : (⟨0, ![]⟩ : Shape).BroadcastsInDim t ![]) (j : t.Idx) :
    IsReal (broadcastInDim t ![] h (constant (F := Ideal) ⟨0, ![]⟩ .f32 0x00000000#32) j) := by
  rw [zeros_apply]; exact isReal_zero

/-- An array of reals plus the accumulating scatter, into zeros, of entries gathered from an array of reals: an array
    of reals, whatever the two index arrays. -/
theorem isReal_add_scatterAdd_zeros_gather {s si su sg : Shape} {w w' : Nat} (ds : ScatterDims s si su)
    (dg : GatherDims s sg su) (h : (⟨0, ![]⟩ : Shape).BroadcastsInDim s ![]) (a x : FVec Ideal s .f32) (idx : IVec si w)
    (idx' : IVec sg w') (ha : ∀ i, IsReal (a i)) (hx : ∀ i, IsReal (x i)) (i : s.Idx) :
    IsReal (addf a (Host.scatterAdd ds (broadcastInDim s ![] h (constant (F := Ideal) ⟨0, ![]⟩ .f32 0x00000000#32)) idx
      (Host.gather dg x idx')) i) := by
  rw [addf_apply]
  exact (ha i).add (isReal_scatterAdd ds _ idx _ (isReal_zeros h) (isReal_gather dg x idx' hx) i)

end Idealize.ShloMosaic.FiniteSums

end
-- ==== Proof.RefFinite.lean ====
/-
  The reference's dense stages are arrays of reals when the float arguments are: the neighbourhood sums (a real array
  plus finitely many of its own entries at every node), the two-layer maps with their clamps at zero (finite sums of
  products of reals), and the normalizations (a column's mean and its mean square deviation over 25000 reals are reals,
  the deviation is not negative, so the reciprocal root of it plus a positive constant is a real).
-/
import proofs.«160706_j53919019434042_2_alg».proof.Proof.RefStage51
import proofs.«160706_j53919019434042_2_alg».proof.Proof.RefStage103
import proofs.«160706_j53919019434042_2_alg».proof.Proof.LibBatchNorm
import proofs.«160706_j53919019434042_2_alg».proof.Proof.LibFiniteScatter

noncomputable section

open scoped BigOperators

namespace Cert.ReferenceIdeal.RefValue

open Cert.ReferenceIdeal Cert.ReferenceIdeal.Gen Cert.ReferenceIdeal.Value Idealize.ShloMosaic Idealize.ShloMosaic.ValueIdx
  Idealize.SL.Sem Cert.HostLayer Idealize.ShloMosaic.FiniteSums

/-- The first layer's input is real. -/
theorem real_h1 (V0 : Valuation τ sig (Elt Ideal))
    (h0 : ∀ i, IsReal ((V0 (Proc.devRef .tc main_arg0) : S25000x64.Idx → EReal) i)) (i : S25000x64.Idx) :
    IsReal (ref_h1 V0 i) := by
  unfold ref_h1
  exact isReal_add_scatterAdd_zeros_gather _ _ bcast_S_S25000x64 _ _ _ _ h0 h0 i

/-- The first layer's output is real. -/
theorem real_v26 (V0 : Valuation τ sig (Elt Ideal))
    (h0 : ∀ i, IsReal ((V0 (Proc.devRef .tc main_arg0) : S25000x64.Idx → EReal) i))
    (h10 : ∀ i, IsReal ((V0 (Proc.devRef .tc main_arg10) : S64x64.Idx → EReal) i))
    (h11 : ∀ i, IsReal ((V0 (Proc.devRef .tc main_arg11) : S64.Idx → EReal) i))
    (h12 : ∀ i, IsReal ((V0 (Proc.devRef .tc main_arg12) : S64x64.Idx → EReal) i))
    (h13 : ∀ i, IsReal ((V0 (Proc.devRef .tc main_arg13) : S64.Idx → EReal) i)) (i : S25000x64.Idx) :
    IsReal (res_main_v26 (F := Ideal) V0 i) := by
  rw [ref_v26]
  exact isReal_dense2 (fun j : Fin 64 => ref_h1 V0 (ix2 (i 0) j))
    (fun (j k : Fin 64) => (V0 (Proc.devRef .tc main_arg10) : S64x64.Idx → EReal) (ix2 j k)) (fun k : Fin 64 => (V0 (Proc.devRef .tc main_arg11) : S64.Idx → EReal) (ix1 k))
    (fun (k q : Fin 64) => (V0 (Proc.devRef .tc main_arg12) : S64x64.Idx → EReal) (ix2 k q)) (fun q : Fin 64 => (V0 (Proc.devRef .tc main_arg13) : S64.Idx → EReal) (ix1 q))
    (fun j => real_h1 V0 h0 _) (fun j k => h10 _) (fun k => h11 _) (fun k q => h12 _) (fun q => h13 _) (i 1)

/-- The first normalized layer is real. -/
theorem real_v51 (V0 : Valuation τ sig (Elt Ideal))
    (h0 : ∀ i, IsReal ((V0 (Proc.devRef .tc main_arg0) : S25000x64.Idx → EReal) i))
    (h10 : ∀ i, IsReal ((V0 (Proc.devRef .tc main_arg10) : S64x64.Idx → EReal) i))
    (h11 : ∀ i, IsReal ((V0 (Proc.devRef .tc main_arg11) : S64.Idx → EReal) i))
    (h12 : ∀ i, IsReal ((V0 (Proc.devRef .tc main_arg12) : S64x64.Idx → EReal) i))
    (h13 : ∀ i, IsReal ((V0 (Proc.devRef .tc main_arg13) : S64.Idx → EReal) i))
    (h14 : ∀ i, IsReal ((V0 (Proc.devRef .tc main_arg14) : S64.Idx → EReal) i))
    (h15 : ∀ i, IsReal ((V0 (Proc.devRef .tc main_arg15) : S64.Idx → EReal) i)) (i : S25000x64.Idx) :
    IsReal (res_main_v51 (F := Ideal) V0 i) := by
  have hR : ∀ r : Fin 25000, IsReal ((res_main_v26 (F := Ideal) V0 : S25000x64.Idx → EReal) (ix2 r (i 1))) :=
    fun r => real_v26 V0 h0 h10 h11 h12 h13 _
  rw [ref_v51 V0 _ _ _ rfl rfl rfl i]
  exact isReal_normalised (h14 _) (real_v26 V0 h0 h10 h11 h12 h13 i) (isReal_mean_zero_add _ hR) (h15 _)
    (isReal_var_dev _ hR) (var_dev_nonneg _ hR)

/-- The second layer's input is real. -/
theorem real_h2 (V0 : Valuation τ sig (Elt Ideal))
    (h0 : ∀ i, IsReal ((V0 (Proc.devRef .tc main_arg0) : S25000x64.Idx → EReal) i))
    (h10 : ∀ i, IsReal ((V0 (Proc.devRef .tc main_arg10) : S64x64.Idx → EReal) i))
    (h11 : ∀ i, IsReal ((V0 (Proc.devRef .tc main_arg11) : S64.Idx → EReal) i))
    (h12 : ∀ i, IsReal ((V0 (Proc.devRef .tc main_arg12) : S64x64.Idx → EReal) i))
    (h13 : ∀ i, IsReal ((V0 (Proc.devRef .tc main_arg13) : S64.Idx → EReal) i))
    (h14 : ∀ i, IsReal ((V0 (Proc.devRef .tc main_arg14) : S64.Idx → EReal) i))
    (h15 : ∀ i, IsReal ((V0 (Proc.devRef .tc main_arg15) : S64.Idx → EReal) i)) (i : S25000x64.Idx) :
    IsReal (ref_h2 V0 i) := by
  unfold ref_h2
  exact isReal_add_scatterAdd_zeros_gather _ _ bcast_S_S25000x64 _ _ _ _
    (real_v51 V0 h0 h10 h11 h12 h13 h14 h15) (real_v51 V0 h0 h10 h11 h12 h13 h14 h15) i

/-- The second layer's output is real. -/
theorem real_v78 (V0 : Valuation τ sig (Elt Ideal))
    (h0 : ∀ i, IsReal ((V0 (Proc.devRef .tc main_arg0) : S25000x64.Idx → EReal) i))
    (h10 : ∀ i, IsReal ((V0 (Proc.devRef .tc main_arg10) : S64x64.Idx → EReal) i))
    (h11 : ∀ i, IsReal ((V0 (Proc.devRef .tc main_arg11) : S64.Idx → EReal) i))
    (h12 : ∀ i, IsReal ((V0 (Proc.devRef .tc main_arg12) : S64x64.Idx → EReal) i))
    (h13 : ∀ i, IsReal ((V0 (Proc.devRef .tc main_arg13) : S64.Idx → EReal) i))
    (h14 : ∀ i, IsReal ((V0 (Proc.devRef .tc main_arg14) : S64.Idx → EReal) i))
    (h15 : ∀ i, IsReal ((V0 (Proc.devRef .tc main_arg15) : S64.Idx → EReal) i))
    (h16 : ∀ i, IsReal ((V0 (Proc.devRef .tc main_arg16) : S64x128.Idx → EReal) i))
    (h17 : ∀ i, IsReal ((V0 (Proc.devRef .tc main_arg17) : S128.Idx → EReal) i))
    (h18 : ∀ i, IsReal ((V0 (Proc.devRef .tc main_arg18) : S128x128.Idx → EReal) i))
    (h19 : ∀ i, IsReal ((V0 (Proc.devRef .tc main_arg19) : S128.Idx → EReal) i)) (i : S25000x128.Idx) :
    IsReal (res_main_v78 (F := Ideal) V0 i) := by
  rw [ref_v78]
  exact isReal_dense2 (fun j : Fin 64 => ref_h2 V0 (ix2 (i 0) j))
    (fun (j : Fin 64) (k : Fin 128) => (V0 (Proc.devRef .tc main_arg16) : S64x128.Idx → EReal) (ix2 j k)) (fun k : Fin 128 => (V0 (Proc.devRef .tc main_arg17) : S128.Idx → EReal) (ix1 k))
    (fun (k q : Fin 128) => (V0 (Proc.devRef .tc main_arg18) : S128x128.Idx → EReal) (ix2 k q)) (fun q : Fin 128 => (V0 (Proc.devRef .tc main_arg19) : S128.Idx → EReal) (ix1 q))
    (fun j => real_h2 V0 h0 h10 h11 h12 h13 h14 h15 _) (fun j k => h16 _) (fun k => h17 _) (fun k q => h18 _) (fun q => h19 _) (i 1)

/-- The second normalized layer is real. -/
theorem real_v103 (V0 : Valuation τ sig (Elt Ideal))
    (h0 : ∀ i, IsReal ((V0 (Proc.devRef .tc main_arg0) : S25000x64.Idx → EReal) i))
    (h10 : ∀ i, IsReal ((V0 (Proc.devRef .tc main_arg10) : S64x64.Idx → EReal) i))
    (h11 : ∀ i, IsReal ((V0 (Proc.devRef .tc main_arg11) : S64.Idx → EReal) i))
    (h12 : ∀ i, IsReal ((V0 (Proc.devRef .tc main_arg12) : S64x64.Idx → EReal) i))
    (h13 : ∀ i, IsReal ((V0 (Proc.devRef .tc main_arg13) : S64.Idx → EReal) i))
    (h14 : ∀ i, IsReal ((V0 (Proc.devRef .tc main_arg14) : S64.Idx → EReal) i))
    (h15 : ∀ i, IsReal ((V0 (Proc.devRef .tc main_arg15) : S64.Idx → EReal) i))
    (h16 : ∀ i, IsReal ((V0 (Proc.devRef .tc main_arg16) : S64x128.Idx → EReal) i))
    (h17 : ∀ i, IsReal ((V0 (Proc.devRef .tc main_arg17) : S128.Idx → EReal) i))
    (h18 : ∀ i, IsReal ((V0 (Proc.devRef .tc main_arg18) : S128x128.Idx → EReal) i))
    (h19 : ∀ i, IsReal ((V0 (Proc.devRef .tc main_arg19) : S128.Idx → EReal) i))
    (h20 : ∀ i, IsReal ((V0 (Proc.devRef .tc main_arg20) : S128.Idx → EReal) i))
    (h21 : ∀ i, IsReal ((V0 (Proc.devRef .tc main_arg21) : S128.Idx → EReal) i)) (i : S25000x128.Idx) :
    IsReal (ref_v103 V0 i) := by
  have hR : ∀ r : Fin 25000, IsReal ((res_main_v78 (F := Ideal) V0 : S25000x128.Idx → EReal) (ix2 r (i 1))) :=
    fun r => real_v78 V0 h0 h10 h11 h12 h13 h14 h15 h16 h17 h18 h19 _
  rw [ref_v103_apply V0 _ _ _ rfl rfl rfl i]
  exact isReal_normalised (h20 _) (real_v78 V0 h0 h10 h11 h12 h13 h14 h15 h16 h17 h18 h19 i) (isReal_mean_zero_add _ hR) (h21 _)
    (isReal_var_dev _ hR) (var_dev_nonneg _ hR)

end Cert.ReferenceIdeal.RefValue

end
-- ==== Proof.LibFiniteEntry.lean ====
import Idealize.ShloMosaic.Lib.ReduceAll
import Idealize.ShloMosaic.Lib.ValueIdx
import Idealize.ShloMosaic.PureOps.Ideal

/-!
# A finiteness test read back at one entry

A test "every entry of `x` has absolute value below +∞" is the conjunction, over all indices, of the
one-bit comparisons `|x i| < +∞`. When the conjunction is 1, every comparison is 1, and an extended real
whose absolute value is strictly below +∞ is neither +∞ nor -∞: it is a real number.
-/

noncomputable section

namespace Idealize.ShloMosaic.FiniteEntry

open Idealize.ShloMosaic Idealize.ShloMosaic.ValueIdx

/-- The f32 word `0x7F800000` denotes +∞. -/
theorem ofBits_inf : Ideal.ofBits .f32 0x7F800000#32 = (⊤ : EReal) := by
  simp [Ideal.ofBits, Ideal.ieee]

/-- An extended real `x` with `max x (-x) < +∞` (as a one-bit comparison equal to 1) is a real number. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => exact absurd h (by simp [Ideal.cmp])
  | top => exact absurd h (by simp [Ideal.cmp])
  | coe r => exact ⟨r, rfl⟩

instance : Subsingleton (⟨0, ![]⟩ : Shape).Idx := ⟨fun a b => funext fun d => d.elim0⟩

/-- The test `all (|x| < +∞)` over an array `x` of any shape `s`: if the reduction by `and` of the
    comparisons of `|x|` against the broadcast word of +∞ is 1, then every entry of `x` is a real number. -/
theorem real_of_all_abs_lt_inf {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi
        (cmpf .olt (Host.absf x) (broadcastInDim s ![] hb (constant (F := Ideal) (⟨0, ![]⟩ : Shape) .f32 0x7F800000#32)))
        (constantI (⟨0, ![]⟩ : Shape) 1 1#1) hr hu ix0 = 1#1)
    (i : s.Idx) : ∃ r : ℝ, x i = (r : EReal) :=
  real_of_abs_lt_inf (x i) (Host.reduce_andi_all _ _ hr hu ix0 e i)

end Idealize.ShloMosaic.FiniteEntry
-- ==== Proof.PreFinite.lean ====
import proofs.«160706_j53919019434042_2_alg».proof.Defs
import proofs.«160706_j53919019434042_2_alg».proof.Proof.Gen.Pre_finite_inputs
import proofs.«160706_j53919019434042_2_alg».proof.Proof.LibFiniteEntry

/-!
# Every float argument is an array of real numbers

The precondition is one bit: the conjunction, over the twenty float arguments, of the tests
"every entry has absolute value below +∞". The bit is 1, so each of the twenty tests is 1, and by the
entrywise reading of such a test every entry of every float argument is a real number.
-/

noncomputable section

namespace Cert.Proof.PreFinite

open Idealize.ShloMosaic Idealize.SL.Sem Idealize.ShloMosaic.ValueIdx Idealize.ShloMosaic.FiniteEntry

/-- The precondition, taken apart: on every device, every entry of every float argument is a real number.
    The one bit of the precondition is a left-nested conjunction of the twenty-one tests, one per float
    argument; each test is read back entrywise. -/
theorem finite_all (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : Cert.KernelIdeal.S25000x64.Idx, ∃ r : ℝ, (m ((c.tc : Thread Cert.KernelIdeal.nD Cert.KernelIdeal.τ).loc Cert.KernelIdeal.main_arg0) : Cert.KernelIdeal.S25000x64.Idx → EReal) i = (r : EReal)) ∧
    (∀ i : Cert.KernelIdeal.S100000x128.Idx, ∃ r : ℝ, (m ((c.tc : Thread Cert.KernelIdeal.nD Cert.KernelIdeal.τ).loc Cert.KernelIdeal.main_arg2) : Cert.KernelIdeal.S100000x128.Idx → EReal) i = (r : EReal)) ∧
    (∀ i : Cert.KernelIdeal.S50000x128.Idx, ∃ r : ℝ, (m ((c.tc : Thread Cert.KernelIdeal.nD Cert.KernelIdeal.τ).loc Cert.KernelIdeal.main_arg3) : Cert.KernelIdeal.S50000x128.Idx → EReal) i = (r : EReal)) ∧
    (∀ i : Cert.KernelIdeal.S1000000.Idx, ∃ r : ℝ, (m ((c.tc : Thread Cert.KernelIdeal.nD Cert.KernelIdeal.τ).loc Cert.KernelIdeal.main_arg6) : Cert.KernelIdeal.S1000000.Idx → EReal) i = (r : EReal)) ∧
    (∀ i : Cert.KernelIdeal.S500000.Idx, ∃ r : ℝ, (m ((c.tc : Thread Cert.KernelIdeal.nD Cert.KernelIdeal.τ).loc Cert.KernelIdeal.main_arg7) : Cert.KernelIdeal.S500000.Idx → EReal) i = (r : EReal)) ∧
    (∀ i : Cert.KernelIdeal.S64x64.Idx, ∃ r : ℝ, (m ((c.tc : Thread Cert.KernelIdeal.nD Cert.KernelIdeal.τ).loc Cert.KernelIdeal.main_arg10) : Cert.KernelIdeal.S64x64.Idx → EReal) i = (r : EReal)) ∧
    (∀ i : Cert.KernelIdeal.S64.Idx, ∃ r : ℝ, (m ((c.tc : Thread Cert.KernelIdeal.nD Cert.KernelIdeal.τ).loc Cert.KernelIdeal.main_arg11) : Cert.KernelIdeal.S64.Idx → EReal) i = (r : EReal)) ∧
    (∀ i : Cert.KernelIdeal.S64x64.Idx, ∃ r : ℝ, (m ((c.tc : Thread Cert.KernelIdeal.nD Cert.KernelIdeal.τ).loc Cert.KernelIdeal.main_arg12) : Cert.KernelIdeal.S64x64.Idx → EReal) i = (r : EReal)) ∧
    (∀ i : Cert.KernelIdeal.S64.Idx, ∃ r : ℝ, (m ((c.tc : Thread Cert.KernelIdeal.nD Cert.KernelIdeal.τ).loc Cert.KernelIdeal.main_arg13) : Cert.KernelIdeal.S64.Idx → EReal) i = (r : EReal)) ∧
    (∀ i : Cert.KernelIdeal.S64.Idx, ∃ r : ℝ, (m ((c.tc : Thread Cert.KernelIdeal.nD Cert.KernelIdeal.τ).loc Cert.KernelIdeal.main_arg14) : Cert.KernelIdeal.S64.Idx → EReal) i = (r : EReal)) ∧
    (∀ i : Cert.KernelIdeal.S64.Idx, ∃ r : ℝ, (m ((c.tc : Thread Cert.KernelIdeal.nD Cert.KernelIdeal.τ).loc Cert.KernelIdeal.main_arg15) : Cert.KernelIdeal.S64.Idx → EReal) i = (r : EReal)) ∧
    (∀ i : Cert.KernelIdeal.S64x128.Idx, ∃ r : ℝ, (m ((c.tc : Thread Cert.KernelIdeal.nD Cert.KernelIdeal.τ).loc Cert.KernelIdeal.main_arg16) : Cert.KernelIdeal.S64x128.Idx → EReal) i = (r : EReal)) ∧
    (∀ i : Cert.KernelIdeal.S128.Idx, ∃ r : ℝ, (m ((c.tc : Thread Cert.KernelIdeal.nD Cert.KernelIdeal.τ).loc Cert.KernelIdeal.main_arg17) : Cert.KernelIdeal.S128.Idx → EReal) i = (r : EReal)) ∧
    (∀ i : Cert.KernelIdeal.S128x128.Idx, ∃ r : ℝ, (m ((c.tc : Thread Cert.KernelIdeal.nD Cert.KernelIdeal.τ).loc Cert.KernelIdeal.main_arg18) : Cert.KernelIdeal.S128x128.Idx → EReal) i = (r : EReal)) ∧
    (∀ i : Cert.KernelIdeal.S128.Idx, ∃ r : ℝ, (m ((c.tc : Thread Cert.KernelIdeal.nD Cert.KernelIdeal.τ).loc Cert.KernelIdeal.main_arg19) : Cert.KernelIdeal.S128.Idx → EReal) i = (r : EReal)) ∧
    (∀ i : Cert.KernelIdeal.S128.Idx, ∃ r : ℝ, (m ((c.tc : Thread Cert.KernelIdeal.nD Cert.KernelIdeal.τ).loc Cert.KernelIdeal.main_arg20) : Cert.KernelIdeal.S128.Idx → EReal) i = (r : EReal)) ∧
    (∀ i : Cert.KernelIdeal.S128.Idx, ∃ r : ℝ, (m ((c.tc : Thread Cert.KernelIdeal.nD Cert.KernelIdeal.τ).loc Cert.KernelIdeal.main_arg21) : Cert.KernelIdeal.S128.Idx → EReal) i = (r : EReal)) ∧
    (∀ i : Cert.KernelIdeal.S128x128.Idx, ∃ r : ℝ, (m ((c.tc : Thread Cert.KernelIdeal.nD Cert.KernelIdeal.τ).loc Cert.KernelIdeal.main_arg22) : Cert.KernelIdeal.S128x128.Idx → EReal) i = (r : EReal)) ∧
    (∀ i : Cert.KernelIdeal.S128.Idx, ∃ r : ℝ, (m ((c.tc : Thread Cert.KernelIdeal.nD Cert.KernelIdeal.τ).loc Cert.KernelIdeal.main_arg23) : Cert.KernelIdeal.S128.Idx → EReal) i = (r : EReal)) ∧
    (∀ i : Cert.KernelIdeal.S128x64.Idx, ∃ r : ℝ, (m ((c.tc : Thread Cert.KernelIdeal.nD Cert.KernelIdeal.τ).loc Cert.KernelIdeal.main_arg24) : Cert.KernelIdeal.S128x64.Idx → EReal) i = (r : EReal)) ∧
    (∀ i : Cert.KernelIdeal.S64.Idx, ∃ r : ℝ, (m ((c.tc : Thread Cert.KernelIdeal.nD Cert.KernelIdeal.τ).loc Cert.KernelIdeal.main_arg25) : Cert.KernelIdeal.S64.Idx → EReal) i = (r : EReal)) := by
  have h0 := congrFun (h c) ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6] at h0
  simp only [andi, IntOp.andi_eq_one] at h0
  obtain ⟨⟨⟨⟨⟨⟨⟨⟨⟨⟨⟨⟨⟨⟨⟨⟨⟨⟨⟨⟨h0, h2⟩, h3⟩, h6⟩, h7⟩, h10⟩, h11⟩, h12⟩, h13⟩, h14⟩, h15⟩, h16⟩, h17⟩, h18⟩, h19⟩, h20⟩, h21⟩, h22⟩, h23⟩, h24⟩, h25⟩ := h0
  exact ⟨fun i => real_of_all_abs_lt_inf _ _ _ _ h0 i,
    fun i => real_of_all_abs_lt_inf _ _ _ _ h2 i,
    fun i => real_of_all_abs_lt_inf _ _ _ _ h3 i,
    fun i => real_of_all_abs_lt_inf _ _ _ _ h6 i,
    fun i => real_of_all_abs_lt_inf _ _ _ _ h7 i,
    fun i => real_of_all_abs_lt_inf _ _ _ _ h10 i,
    fun i => real_of_all_abs_lt_inf _ _ _ _ h11 i,
    fun i => real_of_all_abs_lt_inf _ _ _ _ h12 i,
    fun i => real_of_all_abs_lt_inf _ _ _ _ h13 i,
    fun i => real_of_all_abs_lt_inf _ _ _ _ h14 i,
    fun i => real_of_all_abs_lt_inf _ _ _ _ h15 i,
    fun i => real_of_all_abs_lt_inf _ _ _ _ h16 i,
    fun i => real_of_all_abs_lt_inf _ _ _ _ h17 i,
    fun i => real_of_all_abs_lt_inf _ _ _ _ h18 i,
    fun i => real_of_all_abs_lt_inf _ _ _ _ h19 i,
    fun i => real_of_all_abs_lt_inf _ _ _ _ h20 i,
    fun i => real_of_all_abs_lt_inf _ _ _ _ h21 i,
    fun i => real_of_all_abs_lt_inf _ _ _ _ h22 i,
    fun i => real_of_all_abs_lt_inf _ _ _ _ h23 i,
    fun i => real_of_all_abs_lt_inf _ _ _ _ h24 i,
    fun i => real_of_all_abs_lt_inf _ _ _ _ h25 i⟩

/-- Every entry of float argument 0 is a real number. -/
theorem finite_arg0 (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S25000x64.Idx) :
    ∃ r : ℝ, (m ((c.tc : Thread Cert.KernelIdeal.nD Cert.KernelIdeal.τ).loc Cert.KernelIdeal.main_arg0) : Cert.KernelIdeal.S25000x64.Idx → EReal) i = (r : EReal) :=
  (finite_all m h c).1 i

/-- Every entry of float argument 2 is a real number. -/
theorem finite_arg2 (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S100000x128.Idx) :
    ∃ r : ℝ, (m ((c.tc : Thread Cert.KernelIdeal.nD Cert.KernelIdeal.τ).loc Cert.KernelIdeal.main_arg2) : Cert.KernelIdeal.S100000x128.Idx → EReal) i = (r : EReal) :=
  (finite_all m h c).2.1 i

/-- Every entry of float argument 3 is a real number. -/
theorem finite_arg3 (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S50000x128.Idx) :
    ∃ r : ℝ, (m ((c.tc : Thread Cert.KernelIdeal.nD Cert.KernelIdeal.τ).loc Cert.KernelIdeal.main_arg3) : Cert.KernelIdeal.S50000x128.Idx → EReal) i = (r : EReal) :=
  (finite_all m h c).2.2.1 i

/-- Every entry of float argument 6 is a real number. -/
theorem finite_arg6 (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S1000000.Idx) :
    ∃ r : ℝ, (m ((c.tc : Thread Cert.KernelIdeal.nD Cert.KernelIdeal.τ).loc Cert.KernelIdeal.main_arg6) : Cert.KernelIdeal.S1000000.Idx → EReal) i = (r : EReal) :=
  (finite_all m h c).2.2.2.1 i

/-- Every entry of float argument 7 is a real number. -/
theorem finite_arg7 (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S500000.Idx) :
    ∃ r : ℝ, (m ((c.tc : Thread Cert.KernelIdeal.nD Cert.KernelIdeal.τ).loc Cert.KernelIdeal.main_arg7) : Cert.KernelIdeal.S500000.Idx → EReal) i = (r : EReal) :=
  (finite_all m h c).2.2.2.2.1 i

/-- Every entry of float argument 10 is a real number. -/
theorem finite_arg10 (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S64x64.Idx) :
    ∃ r : ℝ, (m ((c.tc : Thread Cert.KernelIdeal.nD Cert.KernelIdeal.τ).loc Cert.KernelIdeal.main_arg10) : Cert.KernelIdeal.S64x64.Idx → EReal) i = (r : EReal) :=
  (finite_all m h c).2.2.2.2.2.1 i

/-- Every entry of float argument 11 is a real number. -/
theorem finite_arg11 (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S64.Idx) :
    ∃ r : ℝ, (m ((c.tc : Thread Cert.KernelIdeal.nD Cert.KernelIdeal.τ).loc Cert.KernelIdeal.main_arg11) : Cert.KernelIdeal.S64.Idx → EReal) i = (r : EReal) :=
  (finite_all m h c).2.2.2.2.2.2.1 i

/-- Every entry of float argument 12 is a real number. -/
theorem finite_arg12 (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S64x64.Idx) :
    ∃ r : ℝ, (m ((c.tc : Thread Cert.KernelIdeal.nD Cert.KernelIdeal.τ).loc Cert.KernelIdeal.main_arg12) : Cert.KernelIdeal.S64x64.Idx → EReal) i = (r : EReal) :=
  (finite_all m h c).2.2.2.2.2.2.2.1 i

/-- Every entry of float argument 13 is a real number. -/
theorem finite_arg13 (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S64.Idx) :
    ∃ r : ℝ, (m ((c.tc : Thread Cert.KernelIdeal.nD Cert.KernelIdeal.τ).loc Cert.KernelIdeal.main_arg13) : Cert.KernelIdeal.S64.Idx → EReal) i = (r : EReal) :=
  (finite_all m h c).2.2.2.2.2.2.2.2.1 i

/-- Every entry of float argument 14 is a real number. -/
theorem finite_arg14 (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S64.Idx) :
    ∃ r : ℝ, (m ((c.tc : Thread Cert.KernelIdeal.nD Cert.KernelIdeal.τ).loc Cert.KernelIdeal.main_arg14) : Cert.KernelIdeal.S64.Idx → EReal) i = (r : EReal) :=
  (finite_all m h c).2.2.2.2.2.2.2.2.2.1 i

/-- Every entry of float argument 15 is a real number. -/
theorem finite_arg15 (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S64.Idx) :
    ∃ r : ℝ, (m ((c.tc : Thread Cert.KernelIdeal.nD Cert.KernelIdeal.τ).loc Cert.KernelIdeal.main_arg15) : Cert.KernelIdeal.S64.Idx → EReal) i = (r : EReal) :=
  (finite_all m h c).2.2.2.2.2.2.2.2.2.2.1 i

/-- Every entry of float argument 16 is a real number. -/
theorem finite_arg16 (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S64x128.Idx) :
    ∃ r : ℝ, (m ((c.tc : Thread Cert.KernelIdeal.nD Cert.KernelIdeal.τ).loc Cert.KernelIdeal.main_arg16) : Cert.KernelIdeal.S64x128.Idx → EReal) i = (r : EReal) :=
  (finite_all m h c).2.2.2.2.2.2.2.2.2.2.2.1 i

/-- Every entry of float argument 17 is a real number. -/
theorem finite_arg17 (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S128.Idx) :
    ∃ r : ℝ, (m ((c.tc : Thread Cert.KernelIdeal.nD Cert.KernelIdeal.τ).loc Cert.KernelIdeal.main_arg17) : Cert.KernelIdeal.S128.Idx → EReal) i = (r : EReal) :=
  (finite_all m h c).2.2.2.2.2.2.2.2.2.2.2.2.1 i

/-- Every entry of float argument 18 is a real number. -/
theorem finite_arg18 (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S128x128.Idx) :
    ∃ r : ℝ, (m ((c.tc : Thread Cert.KernelIdeal.nD Cert.KernelIdeal.τ).loc Cert.KernelIdeal.main_arg18) : Cert.KernelIdeal.S128x128.Idx → EReal) i = (r : EReal) :=
  (finite_all m h c).2.2.2.2.2.2.2.2.2.2.2.2.2.1 i

/-- Every entry of float argument 19 is a real number. -/
theorem finite_arg19 (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S128.Idx) :
    ∃ r : ℝ, (m ((c.tc : Thread Cert.KernelIdeal.nD Cert.KernelIdeal.τ).loc Cert.KernelIdeal.main_arg19) : Cert.KernelIdeal.S128.Idx → EReal) i = (r : EReal) :=
  (finite_all m h c).2.2.2.2.2.2.2.2.2.2.2.2.2.2.1 i

/-- Every entry of float argument 20 is a real number. -/
theorem finite_arg20 (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S128.Idx) :
    ∃ r : ℝ, (m ((c.tc : Thread Cert.KernelIdeal.nD Cert.KernelIdeal.τ).loc Cert.KernelIdeal.main_arg20) : Cert.KernelIdeal.S128.Idx → EReal) i = (r : EReal) :=
  (finite_all m h c).2.2.2.2.2.2.2.2.2.2.2.2.2.2.2.1 i

/-- Every entry of float argument 21 is a real number. -/
theorem finite_arg21 (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S128.Idx) :
    ∃ r : ℝ, (m ((c.tc : Thread Cert.KernelIdeal.nD Cert.KernelIdeal.τ).loc Cert.KernelIdeal.main_arg21) : Cert.KernelIdeal.S128.Idx → EReal) i = (r : EReal) :=
  (finite_all m h c).2.2.2.2.2.2.2.2.2.2.2.2.2.2.2.2.1 i

/-- Every entry of float argument 22 is a real number. -/
theorem finite_arg22 (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S128x128.Idx) :
    ∃ r : ℝ, (m ((c.tc : Thread Cert.KernelIdeal.nD Cert.KernelIdeal.τ).loc Cert.KernelIdeal.main_arg22) : Cert.KernelIdeal.S128x128.Idx → EReal) i = (r : EReal) :=
  (finite_all m h c).2.2.2.2.2.2.2.2.2.2.2.2.2.2.2.2.2.1 i

/-- Every entry of float argument 23 is a real number. -/
theorem finite_arg23 (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S128.Idx) :
    ∃ r : ℝ, (m ((c.tc : Thread Cert.KernelIdeal.nD Cert.KernelIdeal.τ).loc Cert.KernelIdeal.main_arg23) : Cert.KernelIdeal.S128.Idx → EReal) i = (r : EReal) :=
  (finite_all m h c).2.2.2.2.2.2.2.2.2.2.2.2.2.2.2.2.2.2.1 i

/-- Every entry of float argument 24 is a real number. -/
theorem finite_arg24 (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S128x64.Idx) :
    ∃ r : ℝ, (m ((c.tc : Thread Cert.KernelIdeal.nD Cert.KernelIdeal.τ).loc Cert.KernelIdeal.main_arg24) : Cert.KernelIdeal.S128x64.Idx → EReal) i = (r : EReal) :=
  (finite_all m h c).2.2.2.2.2.2.2.2.2.2.2.2.2.2.2.2.2.2.2.1 i

/-- Every entry of float argument 25 is a real number. -/
theorem finite_arg25 (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S64.Idx) :
    ∃ r : ℝ, (m ((c.tc : Thread Cert.KernelIdeal.nD Cert.KernelIdeal.τ).loc Cert.KernelIdeal.main_arg25) : Cert.KernelIdeal.S64.Idx → EReal) i = (r : EReal) :=
  (finite_all m h c).2.2.2.2.2.2.2.2.2.2.2.2.2.2.2.2.2.2.2.2 i

end Cert.Proof.PreFinite
-- ==== Proof.ArgsReal.lean ====
/-
  The argument arrays of the reference are arrays of real numbers.

  The precondition says that every entry of every float argument of the kernel's program is finite, that is, the image
  of a real number. The two programs are run from memories that agree on the arguments, so the same holds of the
  reference's arguments, read as its launch contents; for three of the arguments the kernel-side form is stated too.
-/
import proofs.«160706_j53919019434042_2_alg».proof.Defs
import proofs.«160706_j53919019434042_2_alg».proof.Proof.PreFinite
import proofs.«160706_j53919019434042_2_alg».proof.Proof.LibFiniteSums
import Idealize.ShloMosaic.Lib.StableHlo.Run

noncomputable section

namespace Cert.Proof.ArgsReal

open Idealize.ShloMosaic Idealize.ShloMosaic.TcCoe Idealize.SL.Sem Idealize.ShloMosaic.StableHlo Idealize.ShloMosaic.FiniteSums

/-- Argument 0 of the reference is an array of reals. -/
theorem real_arg0 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hpre : Cert.Pre_KernelIdeal m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (i : Cert.ReferenceIdeal.S25000x64.Idx) :
    IsReal ((launchContents m' c (Proc.devRef .tc Cert.ReferenceIdeal.main_arg0) : Cert.ReferenceIdeal.S25000x64.Idx → EReal) i) := by
  have e : launchContents m' c (Proc.devRef .tc Cert.ReferenceIdeal.main_arg0) = m ((c.tc : Thread Cert.KernelIdeal.nD Cert.KernelIdeal.τ).loc Cert.KernelIdeal.main_arg0) := h0
  rw [e]
  exact PreFinite.finite_arg0 m hpre c i

/-- Argument 10 of the reference is an array of reals. -/
theorem real_arg10 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hpre : Cert.Pre_KernelIdeal m)
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (i : Cert.ReferenceIdeal.S64x64.Idx) :
    IsReal ((launchContents m' c (Proc.devRef .tc Cert.ReferenceIdeal.main_arg10) : Cert.ReferenceIdeal.S64x64.Idx → EReal) i) := by
  have e : launchContents m' c (Proc.devRef .tc Cert.ReferenceIdeal.main_arg10) = m ((c.tc : Thread Cert.KernelIdeal.nD Cert.KernelIdeal.τ).loc Cert.KernelIdeal.main_arg10) := h10
  rw [e]
  exact PreFinite.finite_arg10 m hpre c i

/-- Argument 11 of the reference is an array of reals. -/
theorem real_arg11 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hpre : Cert.Pre_KernelIdeal m)
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (i : Cert.ReferenceIdeal.S64.Idx) :
    IsReal ((launchContents m' c (Proc.devRef .tc Cert.ReferenceIdeal.main_arg11) : Cert.ReferenceIdeal.S64.Idx → EReal) i) := by
  have e : launchContents m' c (Proc.devRef .tc Cert.ReferenceIdeal.main_arg11) = m ((c.tc : Thread Cert.KernelIdeal.nD Cert.KernelIdeal.τ).loc Cert.KernelIdeal.main_arg11) := h11
  rw [e]
  exact PreFinite.finite_arg11 m hpre c i

/-- Argument 12 of the reference is an array of reals. -/
theorem real_arg12 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hpre : Cert.Pre_KernelIdeal m)
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (i : Cert.ReferenceIdeal.S64x64.Idx) :
    IsReal ((launchContents m' c (Proc.devRef .tc Cert.ReferenceIdeal.main_arg12) : Cert.ReferenceIdeal.S64x64.Idx → EReal) i) := by
  have e : launchContents m' c (Proc.devRef .tc Cert.ReferenceIdeal.main_arg12) = m ((c.tc : Thread Cert.KernelIdeal.nD Cert.KernelIdeal.τ).loc Cert.KernelIdeal.main_arg12) := h12
  rw [e]
  exact PreFinite.finite_arg12 m hpre c i

/-- Argument 13 of the reference is an array of reals. -/
theorem real_arg13 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hpre : Cert.Pre_KernelIdeal m)
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (i : Cert.ReferenceIdeal.S64.Idx) :
    IsReal ((launchContents m' c (Proc.devRef .tc Cert.ReferenceIdeal.main_arg13) : Cert.ReferenceIdeal.S64.Idx → EReal) i) := by
  have e : launchContents m' c (Proc.devRef .tc Cert.ReferenceIdeal.main_arg13) = m ((c.tc : Thread Cert.KernelIdeal.nD Cert.KernelIdeal.τ).loc Cert.KernelIdeal.main_arg13) := h13
  rw [e]
  exact PreFinite.finite_arg13 m hpre c i

/-- Argument 14 of the reference is an array of reals. -/
theorem real_arg14 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hpre : Cert.Pre_KernelIdeal m)
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (i : Cert.ReferenceIdeal.S64.Idx) :
    IsReal ((launchContents m' c (Proc.devRef .tc Cert.ReferenceIdeal.main_arg14) : Cert.ReferenceIdeal.S64.Idx → EReal) i) := by
  have e : launchContents m' c (Proc.devRef .tc Cert.ReferenceIdeal.main_arg14) = m ((c.tc : Thread Cert.KernelIdeal.nD Cert.KernelIdeal.τ).loc Cert.KernelIdeal.main_arg14) := h14
  rw [e]
  exact PreFinite.finite_arg14 m hpre c i

/-- Argument 15 of the reference is an array of reals. -/
theorem real_arg15 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hpre : Cert.Pre_KernelIdeal m)
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (i : Cert.ReferenceIdeal.S64.Idx) :
    IsReal ((launchContents m' c (Proc.devRef .tc Cert.ReferenceIdeal.main_arg15) : Cert.ReferenceIdeal.S64.Idx → EReal) i) := by
  have e : launchContents m' c (Proc.devRef .tc Cert.ReferenceIdeal.main_arg15) = m ((c.tc : Thread Cert.KernelIdeal.nD Cert.KernelIdeal.τ).loc Cert.KernelIdeal.main_arg15) := h15
  rw [e]
  exact PreFinite.finite_arg15 m hpre c i

/-- Argument 16 of the reference is an array of reals. -/
theorem real_arg16 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hpre : Cert.Pre_KernelIdeal m)
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (i : Cert.ReferenceIdeal.S64x128.Idx) :
    IsReal ((launchContents m' c (Proc.devRef .tc Cert.ReferenceIdeal.main_arg16) : Cert.ReferenceIdeal.S64x128.Idx → EReal) i) := by
  have e : launchContents m' c (Proc.devRef .tc Cert.ReferenceIdeal.main_arg16) = m ((c.tc : Thread Cert.KernelIdeal.nD Cert.KernelIdeal.τ).loc Cert.KernelIdeal.main_arg16) := h16
  rw [e]
  exact PreFinite.finite_arg16 m hpre c i

/-- Argument 17 of the reference is an array of reals. -/
theorem real_arg17 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hpre : Cert.Pre_KernelIdeal m)
    (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (i : Cert.ReferenceIdeal.S128.Idx) :
    IsReal ((launchContents m' c (Proc.devRef .tc Cert.ReferenceIdeal.main_arg17) : Cert.ReferenceIdeal.S128.Idx → EReal) i) := by
  have e : launchContents m' c (Proc.devRef .tc Cert.ReferenceIdeal.main_arg17) = m ((c.tc : Thread Cert.KernelIdeal.nD Cert.KernelIdeal.τ).loc Cert.KernelIdeal.main_arg17) := h17
  rw [e]
  exact PreFinite.finite_arg17 m hpre c i

/-- Argument 18 of the reference is an array of reals. -/
theorem real_arg18 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hpre : Cert.Pre_KernelIdeal m)
    (h18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (i : Cert.ReferenceIdeal.S128x128.Idx) :
    IsReal ((launchContents m' c (Proc.devRef .tc Cert.ReferenceIdeal.main_arg18) : Cert.ReferenceIdeal.S128x128.Idx → EReal) i) := by
  have e : launchContents m' c (Proc.devRef .tc Cert.ReferenceIdeal.main_arg18) = m ((c.tc : Thread Cert.KernelIdeal.nD Cert.KernelIdeal.τ).loc Cert.KernelIdeal.main_arg18) := h18
  rw [e]
  exact PreFinite.finite_arg18 m hpre c i

/-- Argument 19 of the reference is an array of reals. -/
theorem real_arg19 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hpre : Cert.Pre_KernelIdeal m)
    (h19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (i : Cert.ReferenceIdeal.S128.Idx) :
    IsReal ((launchContents m' c (Proc.devRef .tc Cert.ReferenceIdeal.main_arg19) : Cert.ReferenceIdeal.S128.Idx → EReal) i) := by
  have e : launchContents m' c (Proc.devRef .tc Cert.ReferenceIdeal.main_arg19) = m ((c.tc : Thread Cert.KernelIdeal.nD Cert.KernelIdeal.τ).loc Cert.KernelIdeal.main_arg19) := h19
  rw [e]
  exact PreFinite.finite_arg19 m hpre c i

/-- Argument 20 of the reference is an array of reals. -/
theorem real_arg20 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hpre : Cert.Pre_KernelIdeal m)
    (h20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (i : Cert.ReferenceIdeal.S128.Idx) :
    IsReal ((launchContents m' c (Proc.devRef .tc Cert.ReferenceIdeal.main_arg20) : Cert.ReferenceIdeal.S128.Idx → EReal) i) := by
  have e : launchContents m' c (Proc.devRef .tc Cert.ReferenceIdeal.main_arg20) = m ((c.tc : Thread Cert.KernelIdeal.nD Cert.KernelIdeal.τ).loc Cert.KernelIdeal.main_arg20) := h20
  rw [e]
  exact PreFinite.finite_arg20 m hpre c i

/-- Argument 21 of the reference is an array of reals. -/
theorem real_arg21 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hpre : Cert.Pre_KernelIdeal m)
    (h21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21))
    (i : Cert.ReferenceIdeal.S128.Idx) :
    IsReal ((launchContents m' c (Proc.devRef .tc Cert.ReferenceIdeal.main_arg21) : Cert.ReferenceIdeal.S128.Idx → EReal) i) := by
  have e : launchContents m' c (Proc.devRef .tc Cert.ReferenceIdeal.main_arg21) = m ((c.tc : Thread Cert.KernelIdeal.nD Cert.KernelIdeal.τ).loc Cert.KernelIdeal.main_arg21) := h21
  rw [e]
  exact PreFinite.finite_arg21 m hpre c i

/-- Argument 22 of the reference is an array of reals. -/
theorem real_arg22 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hpre : Cert.Pre_KernelIdeal m)
    (h22 : m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22))
    (i : Cert.ReferenceIdeal.S128x128.Idx) :
    IsReal ((launchContents m' c (Proc.devRef .tc Cert.ReferenceIdeal.main_arg22) : Cert.ReferenceIdeal.S128x128.Idx → EReal) i) := by
  have e : launchContents m' c (Proc.devRef .tc Cert.ReferenceIdeal.main_arg22) = m ((c.tc : Thread Cert.KernelIdeal.nD Cert.KernelIdeal.τ).loc Cert.KernelIdeal.main_arg22) := h22
  rw [e]
  exact PreFinite.finite_arg22 m hpre c i

/-- Argument 20 of the kernel's program is an array of reals. -/
theorem real_karg20 (m : (ℓ : Loc Cert.KernelIdeal.nD Cert.KernelIdeal.τ Cert.KernelIdeal.sig) → Buf (Elt Ideal) ℓ) (c : Dev Cert.KernelIdeal.nD)
    (hpre : Cert.Pre_KernelIdeal m) (i : Cert.KernelIdeal.S128.Idx) :
    IsReal ((m ((c : Thread Cert.KernelIdeal.nD Cert.KernelIdeal.τ).loc Cert.KernelIdeal.main_arg20) : Cert.KernelIdeal.S128.Idx → EReal) i) :=
  PreFinite.finite_arg20 m hpre c i

/-- Argument 21 of the kernel's program is an array of reals. -/
theorem real_karg21 (m : (ℓ : Loc Cert.KernelIdeal.nD Cert.KernelIdeal.τ Cert.KernelIdeal.sig) → Buf (Elt Ideal) ℓ) (c : Dev Cert.KernelIdeal.nD)
    (hpre : Cert.Pre_KernelIdeal m) (i : Cert.KernelIdeal.S128.Idx) :
    IsReal ((m ((c : Thread Cert.KernelIdeal.nD Cert.KernelIdeal.τ).loc Cert.KernelIdeal.main_arg21) : Cert.KernelIdeal.S128.Idx → EReal) i) :=
  PreFinite.finite_arg21 m hpre c i

/-- Argument 22 of the kernel's program is an array of reals. -/
theorem real_karg22 (m : (ℓ : Loc Cert.KernelIdeal.nD Cert.KernelIdeal.τ Cert.KernelIdeal.sig) → Buf (Elt Ideal) ℓ) (c : Dev Cert.KernelIdeal.nD)
    (hpre : Cert.Pre_KernelIdeal m) (i : Cert.KernelIdeal.S128x128.Idx) :
    IsReal ((m ((c : Thread Cert.KernelIdeal.nD Cert.KernelIdeal.τ).loc Cert.KernelIdeal.main_arg22) : Cert.KernelIdeal.S128x128.Idx → EReal) i) :=
  PreFinite.finite_arg22 m hpre c i

end Cert.Proof.ArgsReal
-- ==== Proof.RegionStats2.lean ====
/-
  What region 2 of @main — the second statistics kernel — leaves in its three output arrays, as functions of the six
  input arrays as the region finds them.

  The kernel runs over five grid points. At point t it loads rows 5000 t … 5000 t + 4999 of the two tall inputs x and
  agg, and the whole weight matrices Wa, Wb and bias rows ba, bb; it stores relu (relu ((x + agg) · Wa + ba) · Wb + bb)
  of those rows into the same rows of the first output, and adds the column sums of that block, and of its square, to
  two rows that stay in place from point to point and are zeroed at the first point. So after the region the first
  output is the dense layers' result at every entry, and the two rows are its column sums, and the column sums of its
  squares, over all 25000 rows: the five per-block sums, each over 5000 rows and the first started from zero, are
  regrouped into one sum. Addition of extended reals is associative and commutative with no side condition, so the
  regrouping needs no finiteness.

  The order below: what each case of the body leaves in each output, as a payload of the loaded blocks; the blocks
  read off the arrays; the payloads at an index; the outputs after each point (the two rows by induction on the
  point); what each point writes back, the cover of each output array by the blocks, and the arrays after the region.
-/
import proofs.«160706_j53919019434042_2_alg».proof.Proof.Gen.KernelIdeal.Frame
import proofs.«160706_j53919019434042_2_alg».proof.Proof.StatsLaws
import Idealize.ShloMosaic.Lib.Pipeline.Value
import Idealize.ShloMosaic.Lib.Tactic

noncomputable section

open scoped BigOperators
open Idealize.ShloMosaic Idealize.ShloMosaic.TcCoe Idealize.SL.Sem
open Idealize.ShloMosaic.Pipeline (Dat)
open Idealize.ShloMosaic.ValueIdx

namespace Cert.KernelIdeal.RegionValue

open Cert.KernelIdeal Cert.KernelIdeal.Gen

/-! ## What each case of the body leaves in the three outputs, as payloads of the loaded blocks -/

section Pieces
variable {F : FTy → Type} [FloatOps F]

theorem hz2 : (![0, 0] : Fin 2 → Nat) = fun _ => 0 := funext fun a => by fin_cases a <;> rfl

/-- First point: the block of the dense layers' result. -/
theorem piece2_A_6 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond2_0 i) (x0 : Vec F S5000x64 .f32) (x1 : Vec F S5000x64 .f32) (x2 : Vec F S64x128 .f32) (x3 : Vec F S1x128 .f32) (x4 : Vec F S128x128 .f32) (x5 : Vec F S1x128 .f32) :
    out2_A_6 c i arg1 harg1 arg2 harg2 arg3 harg3 arg4 harg4 arg5 harg5 arg6 harg6 arg7 harg7 arg8 harg8 arg9 harg9 hc0 x0 x1 x2 x3 x4 x5 = k2_pay4 x0 x1 x2 x3 x4 x5 := by
  unfold out2_A_6
  rw [View.read_writes_eq_canon _ _ _ (cover2_A_6 c i arg1 harg1 arg2 harg2 arg3 harg3 arg4 harg4 arg5 harg5 arg6 harg6 arg7 harg7 arg8 harg8 arg9 harg9 hc0 x0 x1 x2 x3 x4 x5)]
  unfold kernelRun2_A
  dsimp only
  rw [View.canon_unit_zero hz2]
  simp only [View.readAt_eq_ld, harg1.read_unread, harg2.read_unread, harg3.read_unread, harg4.read_unread, harg5.read_unread, harg6.read_unread, View.ld_unit_zero (S := S5000x64) hz2, View.ld_unit_zero (S := S64x128) hz2, View.ld_unit_zero (S := S128x128) hz2, View.ld_unit_zero (S := S1x128) hz2]

/-- First point: the sum row is zeroed, then the block's column sums are added to it. -/
theorem piece2_A_7 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond2_0 i) (x0 : Vec F S5000x64 .f32) (x1 : Vec F S5000x64 .f32) (x2 : Vec F S64x128 .f32) (x3 : Vec F S1x128 .f32) (x4 : Vec F S128x128 .f32) (x5 : Vec F S1x128 .f32) :
    out2_A_7 c i arg1 harg1 arg2 harg2 arg3 harg3 arg4 harg4 arg5 harg5 arg6 harg6 arg7 harg7 arg8 harg8 arg9 harg9 hc0 x0 x1 x2 x3 x4 x5 = k2_pay5 x0 x1 x2 x3 x4 x5 k2_pay2 := by
  unfold out2_A_7
  rw [View.read_writes_eq_canon _ _ _ (cover2_A_7 c i arg1 harg1 arg2 harg2 arg3 harg3 arg4 harg4 arg5 harg5 arg6 harg6 arg7 harg7 arg8 harg8 arg9 harg9 hc0 x0 x1 x2 x3 x4 x5)]
  unfold kernelRun2_A
  dsimp only
  sl_unfold_words
  rw [View.canon_cons_unit_zero (S := S1x128) hz2, View.readCov_unit_zero (S := S1x128) _ hz2]
  simp only [View.readAt_eq_ld, harg1.read_unread, harg2.read_unread, harg3.read_unread, harg4.read_unread, harg5.read_unread, harg6.read_unread, View.ld_unit_zero (S := S5000x64) hz2, View.ld_unit_zero (S := S64x128) hz2, View.ld_unit_zero (S := S128x128) hz2, View.ld_unit_zero (S := S1x128) hz2]

/-- First point: the sum-of-squares row is zeroed, then the block's column sums of squares are added to it. -/
theorem piece2_A_8 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond2_0 i) (x0 : Vec F S5000x64 .f32) (x1 : Vec F S5000x64 .f32) (x2 : Vec F S64x128 .f32) (x3 : Vec F S1x128 .f32) (x4 : Vec F S128x128 .f32) (x5 : Vec F S1x128 .f32) :
    out2_A_8 c i arg1 harg1 arg2 harg2 arg3 harg3 arg4 harg4 arg5 harg5 arg6 harg6 arg7 harg7 arg8 harg8 arg9 harg9 hc0 x0 x1 x2 x3 x4 x5 = k2_pay1 (k2_pay4 x0 x1 x2 x3 x4 x5) k2_pay3 := by
  unfold out2_A_8
  rw [View.read_writes_eq_canon _ _ _ (cover2_A_8 c i arg1 harg1 arg2 harg2 arg3 harg3 arg4 harg4 arg5 harg5 arg6 harg6 arg7 harg7 arg8 harg8 arg9 harg9 hc0 x0 x1 x2 x3 x4 x5)]
  unfold kernelRun2_A
  dsimp only
  sl_unfold_words
  rw [View.canon_cons_unit_zero (S := S1x128) hz2, View.readCov_unit_zero (S := S1x128) _ hz2]
  simp only [View.readAt_eq_ld, harg1.read_unread, harg2.read_unread, harg3.read_unread, harg4.read_unread, harg5.read_unread, harg6.read_unread, View.ld_unit_zero (S := S5000x64) hz2, View.ld_unit_zero (S := S64x128) hz2, View.ld_unit_zero (S := S128x128) hz2, View.ld_unit_zero (S := S1x128) hz2]

/-- Later points: the block of the dense layers' result. -/
theorem piece2_B_6 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (x0 : Vec F S5000x64 .f32) (x1 : Vec F S5000x64 .f32) (x2 : Vec F S64x128 .f32) (x3 : Vec F S1x128 .f32) (x4 : Vec F S128x128 .f32) (x5 : Vec F S1x128 .f32) (xo7 : Vec F S1x128 .f32) (xo8 : Vec F S1x128 .f32) :
    out2_B_6 c i arg1 harg1 arg2 harg2 arg3 harg3 arg4 harg4 arg5 harg5 arg6 harg6 arg7 harg7 arg8 harg8 arg9 harg9 hc0 x0 x1 x2 x3 x4 x5 xo7 xo8 = k2_pay4 x0 x1 x2 x3 x4 x5 := by
  unfold out2_B_6
  rw [View.read_writes_eq_canon _ _ _ (cover2_B_6 c i arg1 harg1 arg2 harg2 arg3 harg3 arg4 harg4 arg5 harg5 arg6 harg6 arg7 harg7 arg8 harg8 arg9 harg9 hc0 x0 x1 x2 x3 x4 x5 xo7 xo8)]
  unfold kernelRun2_B
  dsimp only
  rw [View.canon_unit_zero hz2]
  simp only [View.readAt_eq_ld, harg1.read_unread, harg2.read_unread, harg3.read_unread, harg4.read_unread, harg5.read_unread, harg6.read_unread, harg8.read_unread, harg9.read_unread, View.ld_unit_zero (S := S5000x64) hz2, View.ld_unit_zero (S := S64x128) hz2, View.ld_unit_zero (S := S128x128) hz2, View.ld_unit_zero (S := S1x128) hz2]

/-- Later points: the block's column sums are added to the running sum row. -/
theorem piece2_B_7 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (x0 : Vec F S5000x64 .f32) (x1 : Vec F S5000x64 .f32) (x2 : Vec F S64x128 .f32) (x3 : Vec F S1x128 .f32) (x4 : Vec F S128x128 .f32) (x5 : Vec F S1x128 .f32) (xo7 : Vec F S1x128 .f32) (xo8 : Vec F S1x128 .f32) :
    out2_B_7 c i arg1 harg1 arg2 harg2 arg3 harg3 arg4 harg4 arg5 harg5 arg6 harg6 arg7 harg7 arg8 harg8 arg9 harg9 hc0 x0 x1 x2 x3 x4 x5 xo7 xo8 = k2_pay5 x0 x1 x2 x3 x4 x5 xo7 := by
  unfold out2_B_7
  rw [View.read_writes_eq_canon _ _ _ (cover2_B_7 c i arg1 harg1 arg2 harg2 arg3 harg3 arg4 harg4 arg5 harg5 arg6 harg6 arg7 harg7 arg8 harg8 arg9 harg9 hc0 x0 x1 x2 x3 x4 x5 xo7 xo8)]
  unfold kernelRun2_B
  dsimp only
  try sl_unfold_words
  rw [View.canon_unit_zero hz2]
  simp only [View.readAt_eq_ld, harg1.read_unread, harg2.read_unread, harg3.read_unread, harg4.read_unread, harg5.read_unread, harg6.read_unread, harg8.read_unread, harg9.read_unread, View.ld_unit_zero (S := S5000x64) hz2, View.ld_unit_zero (S := S64x128) hz2, View.ld_unit_zero (S := S128x128) hz2, View.ld_unit_zero (S := S1x128) hz2]

/-- Later points: the block's column sums of squares are added to the running sum-of-squares row. -/
theorem piece2_B_8 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (x0 : Vec F S5000x64 .f32) (x1 : Vec F S5000x64 .f32) (x2 : Vec F S64x128 .f32) (x3 : Vec F S1x128 .f32) (x4 : Vec F S128x128 .f32) (x5 : Vec F S1x128 .f32) (xo7 : Vec F S1x128 .f32) (xo8 : Vec F S1x128 .f32) :
    out2_B_8 c i arg1 harg1 arg2 harg2 arg3 harg3 arg4 harg4 arg5 harg5 arg6 harg6 arg7 harg7 arg8 harg8 arg9 harg9 hc0 x0 x1 x2 x3 x4 x5 xo7 xo8 = k2_pay1 (k2_pay4 x0 x1 x2 x3 x4 x5) xo8 := by
  unfold out2_B_8
  rw [View.read_writes_eq_canon _ _ _ (cover2_B_8 c i arg1 harg1 arg2 harg2 arg3 harg3 arg4 harg4 arg5 harg5 arg6 harg6 arg7 harg7 arg8 harg8 arg9 harg9 hc0 x0 x1 x2 x3 x4 x5 xo7 xo8)]
  unfold kernelRun2_B
  dsimp only
  try sl_unfold_words
  rw [View.canon_unit_zero hz2]
  simp only [View.readAt_eq_ld, harg1.read_unread, harg2.read_unread, harg3.read_unread, harg4.read_unread, harg5.read_unread, harg6.read_unread, harg8.read_unread, harg9.read_unread, View.ld_unit_zero (S := S5000x64) hz2, View.ld_unit_zero (S := S64x128) hz2, View.ld_unit_zero (S := S128x128) hz2, View.ld_unit_zero (S := S1x128) hz2]

end Pieces

/-! ## The windows' blocks, read off the arrays as the region finds them -/

section Blocks
variable (V : (c : Dev nD) → (b : Ref sig .tc) → Buf (Elt Ideal) ((c : Thread nD τ).loc b))

theorem t5_2 (t : Fin cfg2.N) : t.val < 5 := lt_of_lt_of_eq t.isLt (show cfg2.N = 5 from N_2)

/-- Row p of block n of an array of five blocks of 5000 rows. -/
def brow2 (n : ℕ) (hn : n < 5) (p : Fin 5000) : Fin 25000 := ⟨5000 * n + p.val, by have := p.isLt; omega⟩

/-- The printed index maps, decided once over the grid: the two inputs and the first output move down one block of
    rows per point; the weights, the biases and the two statistics rows stay at block (0, 0). -/
theorem idx2 : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = t.val ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0) :=
  (by decide +kernel : ∀ t : Fin grid2.N, _)

/-- The six input arrays as the region finds them, on their literal index types. -/
abbrev X2 (c : Dev nD) : S25000x64.Idx → EReal := V c (Pipeline.arrRef spec2 0)
abbrev AGG2 (c : Dev nD) : S25000x64.Idx → EReal := V c (Pipeline.arrRef spec2 1)
abbrev WA2 (c : Dev nD) : S64x128.Idx → EReal := V c (Pipeline.arrRef spec2 2)
abbrev BA2 (c : Dev nD) : S1x128.Idx → EReal := V c (Pipeline.arrRef spec2 3)
abbrev WB2 (c : Dev nD) : S128x128.Idx → EReal := V c (Pipeline.arrRef spec2 4)
abbrev BB2 (c : Dev nD) : S1x128.Idx → EReal := V c (Pipeline.arrRef spec2 5)

/-- Block t of the first input: rows 5000 t … 5000 t + 4999. -/
theorem iblk2_0 (c : Dev nD) (t : Fin cfg2.N) (p : Fin 5000) (j : Fin 64) :
    (iblk2 V c 0 t : Vec Ideal S5000x64 .f32) (ix2 p j) = X2 V c (ix2 (brow2 t.val (t5_2 t) p) j) := by
  obtain ⟨⟨e0, e1⟩, -⟩ := idx2 t
  unfold iblk2
  rw [View.read_apply]
  show V c (Pipeline.arrRef spec2 0) (((cfg2.win 0).blk t).view.emb (ix2 p j)) = V c (Pipeline.arrRef spec2 0) (ix2 (brow2 t.val (t5_2 t) p) j)
  refine congrArg _ (funext fun a => Fin.ext ?_)
  match a with
  | ⟨0, _⟩ => show win2_0.index t (0 : Fin 2) * 5000 + 1 * p.val = 5000 * t.val + p.val; rw [e0]; omega
  | ⟨1, _⟩ => show win2_0.index t (1 : Fin 2) * 64 + 1 * j.val = j.val; rw [e1]; omega

/-- Block t of the second input: the same rows. -/
theorem iblk2_1 (c : Dev nD) (t : Fin cfg2.N) (p : Fin 5000) (j : Fin 64) :
    (iblk2 V c 1 t : Vec Ideal S5000x64 .f32) (ix2 p j) = AGG2 V c (ix2 (brow2 t.val (t5_2 t) p) j) := by
  obtain ⟨-, ⟨e0, e1⟩, -⟩ := idx2 t
  unfold iblk2
  rw [View.read_apply]
  show V c (Pipeline.arrRef spec2 1) (((cfg2.win 1).blk t).view.emb (ix2 p j)) = V c (Pipeline.arrRef spec2 1) (ix2 (brow2 t.val (t5_2 t) p) j)
  refine congrArg _ (funext fun a => Fin.ext ?_)
  match a with
  | ⟨0, _⟩ => show win2_1.index t (0 : Fin 2) * 5000 + 1 * p.val = 5000 * t.val + p.val; rw [e0]; omega
  | ⟨1, _⟩ => show win2_1.index t (1 : Fin 2) * 64 + 1 * j.val = j.val; rw [e1]; omega

/-- The first layer's weights: the whole array at every point. -/
theorem iblk2_2 (c : Dev nD) (t : Fin cfg2.N) : (iblk2 V c 2 t : Vec Ideal S64x128 .f32) = WA2 V c := by
  obtain ⟨-, -, ⟨e0, e1⟩, -⟩ := idx2 t
  funext y
  unfold iblk2
  rw [View.read_apply]
  show V c (Pipeline.arrRef spec2 2) (((cfg2.win 2).blk t).view.emb y) = V c (Pipeline.arrRef spec2 2) y
  refine congrArg _ (funext fun a => Fin.ext ?_)
  match a with
  | ⟨0, _⟩ => show win2_2.index t (0 : Fin 2) * 64 + 1 * (y 0).val = (y 0).val; rw [e0]; omega
  | ⟨1, _⟩ => show win2_2.index t (1 : Fin 2) * 128 + 1 * (y 1).val = (y 1).val; rw [e1]; omega

/-- The first layer's bias row: the whole array at every point. -/
theorem iblk2_3 (c : Dev nD) (t : Fin cfg2.N) : (iblk2 V c 3 t : Vec Ideal S1x128 .f32) = BA2 V c := by
  obtain ⟨-, -, -, ⟨e0, e1⟩, -⟩ := idx2 t
  funext y
  unfold iblk2
  rw [View.read_apply]
  show V c (Pipeline.arrRef spec2 3) (((cfg2.win 3).blk t).view.emb y) = V c (Pipeline.arrRef spec2 3) y
  refine congrArg _ (funext fun a => Fin.ext ?_)
  match a with
  | ⟨0, _⟩ => show win2_3.index t (0 : Fin 2) * 1 + 1 * (y 0).val = (y 0).val; rw [e0]; omega
  | ⟨1, _⟩ => show win2_3.index t (1 : Fin 2) * 128 + 1 * (y 1).val = (y 1).val; rw [e1]; omega

/-- The second layer's weights: the whole array at every point. -/
theorem iblk2_4 (c : Dev nD) (t : Fin cfg2.N) : (iblk2 V c 4 t : Vec Ideal S128x128 .f32) = WB2 V c := by
  obtain ⟨-, -, -, -, ⟨e0, e1⟩, -⟩ := idx2 t
  funext y
  unfold iblk2
  rw [View.read_apply]
  show V c (Pipeline.arrRef spec2 4) (((cfg2.win 4).blk t).view.emb y) = V c (Pipeline.arrRef spec2 4) y
  refine congrArg _ (funext fun a => Fin.ext ?_)
  match a with
  | ⟨0, _⟩ => show win2_4.index t (0 : Fin 2) * 128 + 1 * (y 0).val = (y 0).val; rw [e0]; omega
  | ⟨1, _⟩ => show win2_4.index t (1 : Fin 2) * 128 + 1 * (y 1).val = (y 1).val; rw [e1]; omega

/-- The second layer's bias row: the whole array at every point. -/
theorem iblk2_5 (c : Dev nD) (t : Fin cfg2.N) : (iblk2 V c 5 t : Vec Ideal S1x128 .f32) = BB2 V c := by
  obtain ⟨-, -, -, -, -, ⟨e0, e1⟩, -⟩ := idx2 t
  funext y
  unfold iblk2
  rw [View.read_apply]
  show V c (Pipeline.arrRef spec2 5) (((cfg2.win 5).blk t).view.emb y) = V c (Pipeline.arrRef spec2 5) y
  refine congrArg _ (funext fun a => Fin.ext ?_)
  match a with
  | ⟨0, _⟩ => show win2_5.index t (0 : Fin 2) * 1 + 1 * (y 0).val = (y 0).val; rw [e0]; omega
  | ⟨1, _⟩ => show win2_5.index t (1 : Fin 2) * 128 + 1 * (y 1).val = (y 1).val; rw [e1]; omega

end Blocks

/-! ## The payloads on the blocks -/

section Values
variable (V : (c : Dev nD) → (b : Ref sig .tc) → Buf (Elt Ideal) ((c : Thread nD τ).loc b))

/-- The dense layers' result over the whole arrays as the region finds them. -/
def raw2 (c : Dev nD) : S25000x128.Idx → EReal := gin (X2 V c) (AGG2 V c) (WA2 V c) (BA2 V c) (WB2 V c) (BB2 V c)

/-- Column q of it, and of its square, as functions of the row. -/
def col2 (c : Dev nD) (q : Fin 128) : Fin 25000 → EReal := fun r => raw2 V c (ix2 r q)
def colsq2 (c : Dev nD) (q : Fin 128) : Fin 25000 → EReal := fun r => raw2 V c (ix2 r q) * raw2 V c (ix2 r q)

/-- The body's first payload on blocks that are rows 5000 n … of two tall arrays and four whole arrays: entry (p, q)
    is the dense layers' result at row 5000 n + p. -/
theorem pay4_block2 (X AGG : S25000x64.Idx → EReal) (WA : S64x128.Idx → EReal) (BA : S1x128.Idx → EReal)
    (WB : S128x128.Idx → EReal) (BB : S1x128.Idx → EReal)
    (x0 x1 : Vec Ideal S5000x64 .f32) (x2 : Vec Ideal S64x128 .f32) (x3 : Vec Ideal S1x128 .f32)
    (x4 : Vec Ideal S128x128 .f32) (x5 : Vec Ideal S1x128 .f32) (n : ℕ) (hn : n < 5)
    (h0 : ∀ (p : Fin 5000) (j : Fin 64), x0 (ix2 p j) = X (ix2 (brow2 n hn p) j))
    (h1 : ∀ (p : Fin 5000) (j : Fin 64), x1 (ix2 p j) = AGG (ix2 (brow2 n hn p) j))
    (h2 : x2 = WA) (h3 : x3 = BA) (h4 : x4 = WB) (h5 : x5 = BB) (p : Fin 5000) (q : Fin 128) :
    k2_pay4 x0 x1 x2 x3 x4 x5 (ix2 p q) = gin X AGG WA BA WB BB (ix2 (brow2 n hn p) q) := by
  subst h2 h3 h4 h5
  unfold k2_pay4
  refine (two_layers_apply dot_S5000x64_S64x128_S5000x128_1_0_0_1_n_n rfl rfl rfl rfl rfl rfl
    dot_S5000x128_S128x128_S5000x128_1_0_0_1_n_n rfl rfl rfl rfl rfl rfl bitsLt_bf16_f32 shapeCasts_S1x128_S1x128
    broadcasts_S1x128_S5000x128 _ x2 x3 x4 x5 p q).trans ?_
  unfold gin
  simp only [addf_apply, shapeCast_self, h0, h1]

/-- The sum row's payload: the running row plus the column sums of the block's dense-layer result. -/
theorem pay5_apply2 (x0 x1 : Vec Ideal S5000x64 .f32) (x2 : Vec Ideal S64x128 .f32) (x3 : Vec Ideal S1x128 .f32)
    (x4 : Vec Ideal S128x128 .f32) (x5 : Vec Ideal S1x128 .f32) (run : Vec Ideal S1x128 .f32) (u : Fin 1) (q : Fin 128) :
    k2_pay5 x0 x1 x2 x3 x4 x5 run (ix2 u q) = run (ix2 u q) + ∑ r : Fin 5000, k2_pay4 x0 x1 x2 x3 x4 x5 (ix2 r q) := by
  unfold k2_pay5
  exact row_plus_colsum_apply reduces_S5000x128_S128 (.inl rfl) rfl shapeCasts_S1x128_S1x128 shapeCasts_S128_S1x128
    (k2_pay4 x0 x1 x2 x3 x4 x5) run u q

/-- The sum-of-squares row's payload: the running row plus the column sums of the squares. -/
theorem pay1_apply2 (v : FVec Ideal S5000x128 .f32) (run : Vec Ideal S1x128 .f32) (u : Fin 1) (q : Fin 128) :
    k2_pay1 v run (ix2 u q) = run (ix2 u q) + ∑ r : Fin 5000, v (ix2 r q) * v (ix2 r q) := by
  unfold k2_pay1
  exact row_plus_colsum_apply reduces_S5000x128_S128 (.inl rfl) rfl shapeCasts_S1x128_S1x128 shapeCasts_S128_S1x128
    (mulf v v) run u q

/-- The two rows the first point stores before accumulating are zero. -/
theorem pay2_apply2 (y : S1x128.Idx) : (k2_pay2 (F := Ideal)) y = 0 := Ideal.ofBits_zero_f32
theorem pay3_apply2 (y : S1x128.Idx) : (k2_pay3 (F := Ideal)) y = 0 := Ideal.ofBits_zero_f32

/-- At point t the first payload on the windows' blocks is the dense layers' result on rows 5000 t …. -/
theorem pay4_at2 (c : Dev nD) (t : Fin cfg2.N) (p : Fin 5000) (q : Fin 128) :
    k2_pay4 (iblk2 V c 0 t) (iblk2 V c 1 t) (iblk2 V c 2 t) (iblk2 V c 3 t) (iblk2 V c 4 t) (iblk2 V c 5 t) (ix2 p q) = raw2 V c (ix2 (brow2 t.val (t5_2 t) p) q) :=
  pay4_block2 (X2 V c) (AGG2 V c) (WA2 V c) (BA2 V c) (WB2 V c) (BB2 V c) (iblk2 V c 0 t) (iblk2 V c 1 t) (iblk2 V c 2 t) (iblk2 V c 3 t) (iblk2 V c 4 t) (iblk2 V c 5 t)
    t.val (t5_2 t) (iblk2_0 V c t) (iblk2_1 V c t) (iblk2_2 V c t) (iblk2_3 V c t) (iblk2_4 V c t) (iblk2_5 V c t) p q

/-- One point's step of the sum row: from the sum over the rows before block t to the sum through block t. -/
theorem sum_step2 (c : Dev nD) (t : Fin cfg2.N) (run : Vec Ideal S1x128 .f32)
    (hrun : ∀ y : S1x128.Idx, run y = ∑ r ∈ Finset.range (5000 * t.val), ext0 (col2 V c (y 1)) r) :
    k2_pay5 (iblk2 V c 0 t) (iblk2 V c 1 t) (iblk2 V c 2 t) (iblk2 V c 3 t) (iblk2 V c 4 t) (iblk2 V c 5 t) run
      = fun y : S1x128.Idx => ∑ r ∈ Finset.range (5000 * (t.val + 1)), ext0 (col2 V c (y 1)) r := by
  funext y
  obtain ⟨u, q, rfl⟩ : ∃ (u : Fin 1) (q : Fin 128), y = ix2 u q := ⟨y 0, y 1, eq_ix2 y⟩
  refine (pay5_apply2 (iblk2 V c 0 t) (iblk2 V c 1 t) (iblk2 V c 2 t) (iblk2 V c 3 t) (iblk2 V c 4 t) (iblk2 V c 5 t) run u q).trans ?_
  exact stat_step (col2 V c q) 5000 t.val (by have := t5_2 t; omega) (run (ix2 u q))
    (fun r => k2_pay4 (iblk2 V c 0 t) (iblk2 V c 1 t) (iblk2 V c 2 t) (iblk2 V c 3 t) (iblk2 V c 4 t) (iblk2 V c 5 t) (ix2 r q)) (hrun (ix2 u q)) (fun r => pay4_at2 V c t r q)

/-- One point's step of the sum-of-squares row. -/
theorem sumsq_step2 (c : Dev nD) (t : Fin cfg2.N) (run : Vec Ideal S1x128 .f32)
    (hrun : ∀ y : S1x128.Idx, run y = ∑ r ∈ Finset.range (5000 * t.val), ext0 (colsq2 V c (y 1)) r) :
    k2_pay1 (k2_pay4 (iblk2 V c 0 t) (iblk2 V c 1 t) (iblk2 V c 2 t) (iblk2 V c 3 t) (iblk2 V c 4 t) (iblk2 V c 5 t)) run
      = fun y : S1x128.Idx => ∑ r ∈ Finset.range (5000 * (t.val + 1)), ext0 (colsq2 V c (y 1)) r := by
  funext y
  obtain ⟨u, q, rfl⟩ : ∃ (u : Fin 1) (q : Fin 128), y = ix2 u q := ⟨y 0, y 1, eq_ix2 y⟩
  refine (pay1_apply2 (k2_pay4 (iblk2 V c 0 t) (iblk2 V c 1 t) (iblk2 V c 2 t) (iblk2 V c 3 t) (iblk2 V c 4 t) (iblk2 V c 5 t)) run u q).trans ?_
  exact stat_step (colsq2 V c q) 5000 t.val (by have := t5_2 t; omega) (run (ix2 u q))
    (fun r => k2_pay4 (iblk2 V c 0 t) (iblk2 V c 1 t) (iblk2 V c 2 t) (iblk2 V c 3 t) (iblk2 V c 4 t) (iblk2 V c 5 t) (ix2 r q) * k2_pay4 (iblk2 V c 0 t) (iblk2 V c 1 t) (iblk2 V c 2 t) (iblk2 V c 3 t) (iblk2 V c 4 t) (iblk2 V c 5 t) (ix2 r q)) (hrun (ix2 u q))
    (fun r => congrArg₂ (· * ·) (pay4_at2 V c t r q) (pay4_at2 V c t r q))

end Values

/-! ## The outputs after each point -/

section Final
variable (V : (c : Dev nD) → (b : Ref sig .tc) → Buf (Elt Ideal) ((c : Thread nD τ).loc b))

/-- After point t the first output's staging buffer holds the dense layers' result on block t, whichever case the
    point is in. -/
theorem outs6_pay2 (c : Dev nD) : ∀ (n : ℕ) (hn : n < cfg2.N),
    (outsAt2 V c n hn).1 = k2_pay4 (iblk2 V c 0 ⟨n, hn⟩) (iblk2 V c 1 ⟨n, hn⟩) (iblk2 V c 2 ⟨n, hn⟩) (iblk2 V c 3 ⟨n, hn⟩) (iblk2 V c 4 ⟨n, hn⟩) (iblk2 V c 5 ⟨n, hn⟩)
  | 0, hn => by
    show (outsAt2 V c (⟨0, hn⟩ : Fin cfg2.N).val (⟨0, hn⟩ : Fin cfg2.N).isLt).1 = _
    rw [outsAt2_A V c ⟨0, hn⟩ rfl]
    dsimp only
    exact piece2_A_6 (F := Ideal) c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) ((hcond2_0 ⟨0, hn⟩).mpr rfl) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩)
  | n + 1, hn => by
    have h5 : n + 1 < 5 := lt_of_lt_of_eq hn (show cfg2.N = 5 from N_2)
    have hB : ¬(⟨n + 1, hn⟩ : Fin cfg2.N).val % 5 = 0 := by dsimp only; omega
    show (outsAt2 V c (⟨n + 1, hn⟩ : Fin cfg2.N).val (⟨n + 1, hn⟩ : Fin cfg2.N).isLt).1 = _
    rw [outsAt2_B V c ⟨n + 1, hn⟩ hB]
    dsimp only
    exact piece2_B_6 (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (fun h => hB ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩)
      (outsAt2 V c n (Nat.lt_of_succ_lt hn)).2.1 (outsAt2 V c n (Nat.lt_of_succ_lt hn)).2.2

/-- The same, entry by entry over the whole arrays. -/
theorem outs6_2 (c : Dev nD) (t : Fin cfg2.N) :
    (outsAt2 V c t.val t.isLt).1 = fun y : S5000x128.Idx => raw2 V c (ix2 (brow2 t.val (t5_2 t) (y 0)) (y 1)) := by
  refine (outs6_pay2 V c t.val t.isLt).trans ?_
  funext y
  obtain ⟨p, q, rfl⟩ : ∃ (p : Fin 5000) (q : Fin 128), y = ix2 p q := ⟨y 0, y 1, eq_ix2 y⟩
  exact pay4_at2 V c t p q

/-- After point n the sum row holds the column sums over the first 5000 (n + 1) rows: by induction on the point. -/
theorem outs7_2 (c : Dev nD) : ∀ (n : ℕ) (hn : n < cfg2.N),
    (outsAt2 V c n hn).2.1 = fun y : S1x128.Idx => ∑ r ∈ Finset.range (5000 * (n + 1)), ext0 (col2 V c (y 1)) r
  | 0, hn => by
    refine (congrArg (fun z => z.2.1) (outsAt2_A V c ⟨0, hn⟩ rfl)).trans ?_
    refine (piece2_A_7 (F := Ideal) c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) ((hcond2_0 ⟨0, hn⟩).mpr rfl) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩)).trans ?_
    exact sum_step2 V c ⟨0, hn⟩ (k2_pay2 (F := Ideal)) (fun y => (pay2_apply2 y).trans (Finset.sum_range_zero _).symm)
  | n + 1, hn => by
    have h5 : n + 1 < 5 := lt_of_lt_of_eq hn (show cfg2.N = 5 from N_2)
    have hB : ¬(⟨n + 1, hn⟩ : Fin cfg2.N).val % 5 = 0 := by dsimp only; omega
    refine (congrArg (fun z => z.2.1) (outsAt2_B V c ⟨n + 1, hn⟩ hB)).trans ?_
    refine (piece2_B_7 (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (fun h => hB ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩)
      (outsAt2 V c n (Nat.lt_of_succ_lt hn)).2.1 (outsAt2 V c n (Nat.lt_of_succ_lt hn)).2.2).trans ?_
    exact sum_step2 V c ⟨n + 1, hn⟩ (outsAt2 V c n (Nat.lt_of_succ_lt hn)).2.1 (fun y => congrFun (outs7_2 c n (Nat.lt_of_succ_lt hn)) y)

/-- After point n the sum-of-squares row holds the column sums of squares over the first 5000 (n + 1) rows. -/
theorem outs8_2 (c : Dev nD) : ∀ (n : ℕ) (hn : n < cfg2.N),
    (outsAt2 V c n hn).2.2 = fun y : S1x128.Idx => ∑ r ∈ Finset.range (5000 * (n + 1)), ext0 (colsq2 V c (y 1)) r
  | 0, hn => by
    refine (congrArg (fun z => z.2.2) (outsAt2_A V c ⟨0, hn⟩ rfl)).trans ?_
    refine (piece2_A_8 (F := Ideal) c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) ((hcond2_0 ⟨0, hn⟩).mpr rfl) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩)).trans ?_
    exact sumsq_step2 V c ⟨0, hn⟩ (k2_pay3 (F := Ideal)) (fun y => (pay3_apply2 y).trans (Finset.sum_range_zero _).symm)
  | n + 1, hn => by
    have h5 : n + 1 < 5 := lt_of_lt_of_eq hn (show cfg2.N = 5 from N_2)
    have hB : ¬(⟨n + 1, hn⟩ : Fin cfg2.N).val % 5 = 0 := by dsimp only; omega
    refine (congrArg (fun z => z.2.2) (outsAt2_B V c ⟨n + 1, hn⟩ hB)).trans ?_
    refine (piece2_B_8 (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (fun h => hB ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩)
      (outsAt2 V c n (Nat.lt_of_succ_lt hn)).2.1 (outsAt2 V c n (Nat.lt_of_succ_lt hn)).2.2).trans ?_
    exact sumsq_step2 V c ⟨n + 1, hn⟩ (outsAt2 V c n (Nat.lt_of_succ_lt hn)).2.2 (fun y => congrFun (outs8_2 c n (Nat.lt_of_succ_lt hn)) y)

end Final

/-! ## What each point writes back, the cover, and the arrays after the region -/

section Arrays
variable (V : (c : Dev nD) → (b : Ref sig .tc) → Buf (Elt Ideal) ((c : Thread nD τ).loc b))

/-- The column sums of the dense layers' result over all 25000 rows, and of its square. -/
def sum2 (c : Dev nD) : S1x128.Idx → EReal := fun i => ∑ r : Fin 25000, raw2 V c (ix2 r (i 1))
def sumsq2 (c : Dev nD) : S1x128.Idx → EReal :=
  fun i => ∑ r : Fin 25000, raw2 V c (ix2 r (i 1)) * raw2 V c (ix2 r (i 1))

/-- Point t writes back block t of the dense layers' result. -/
theorem flushed6_2 (c : Dev nD) (t : Fin cfg2.N) :
    (dat2 V c).flushed 6 t = ((cfg2.win 6).blk t).view.read (Elt Ideal) (raw2 V c) := by
  obtain ⟨-, -, -, -, -, -, ⟨e0, e1⟩, -⟩ := idx2 t
  show (cfg2.win 6).cut (grid2.coords t) ((dat2 V c).after 6 t) = _
  rw [after2_6, outs6_2]
  funext y
  show raw2 V c (ix2 (brow2 t.val (t5_2 t) (y 0)) (y 1)) = raw2 V c (((cfg2.win 6).blk t).view.emb y)
  refine congrArg (raw2 V c) (funext fun a => Fin.ext ?_)
  match a with
  | ⟨0, _⟩ => show 5000 * t.val + (y 0).val = win2_6.index t (0 : Fin 2) * 5000 + 1 * (y 0).val; rw [e0]; omega
  | ⟨1, _⟩ => show (y 1).val = win2_6.index t (1 : Fin 2) * 128 + 1 * (y 1).val; rw [e1]; omega

/-- An index of the first output array is in point t's block iff each coordinate is in the block's range. -/
theorem mem_blk6_2 (t : Fin cfg2.N) (i : S25000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v44_0).slice (win2_6.rect t)).set ↔ _
  rw [View.set_slice_whole, Rect.mem_set_unit]
  exact Iff.rfl

/-- The first output array after the region: the dense layers' result, row r covered by the point r / 5000. -/
theorem raw_final2 (c : Dev nD) : (dat2 V c).arrAt 6 cfg2.N = raw2 V c :=
  (dat2 V c).arrAt_eq_of_cover 6 (raw2 V c) (fun t _ => flushed6_2 V c t) fun i => by
    have hi0 : (i 0).val < 25000 := (i 0).isLt
    have hi1 : (i 1).val < 128 := (i 1).isLt
    have hN : cfg2.N = 5 := N_2
    obtain ⟨t, ht⟩ : ∃ t : Fin cfg2.N, t.val = (i 0).val / 5000 := ⟨⟨(i 0).val / 5000, by rw [hN]; omega⟩, rfl⟩
    obtain ⟨-, -, -, -, -, -, ⟨e0, e1⟩, -⟩ := idx2 t
    refine ⟨t, flush2_6 t, ?_⟩
    rw [mem_blk6_2]
    intro a
    match a with
    | ⟨0, _⟩ => show win2_6.index t (0 : Fin 2) * 5000 ≤ (i 0).val ∧ (i 0).val < win2_6.index t (0 : Fin 2) * 5000 + 5000; rw [e0]; omega
    | ⟨1, _⟩ => show win2_6.index t (1 : Fin 2) * 128 ≤ (i 1).val ∧ (i 1).val < win2_6.index t (1 : Fin 2) * 128 + 128; rw [e1]; omega

/-- After the last point the sum row holds the column sums over all rows. -/
theorem after_last7_2 (c : Dev nD) : (outsAt2 V c t2_4.val t2_4.isLt).2.1 = sum2 V c := by
  refine (outs7_2 V c t2_4.val t2_4.isLt).trans ?_
  funext y
  exact sum_rows_all (col2 V c (y 1))

/-- After the last point the sum-of-squares row holds the column sums of squares over all rows. -/
theorem after_last8_2 (c : Dev nD) : (outsAt2 V c t2_4.val t2_4.isLt).2.2 = sumsq2 V c := by
  refine (outs8_2 V c t2_4.val t2_4.isLt).trans ?_
  funext y
  exact sum_rows_all (colsq2 V c (y 1))

/-- The one write-back of the sum row, at the last point: its block is the whole row. -/
theorem flushed7_2 (c : Dev nD) (t : Fin cfg2.N) (hf : (cfg2.win 7).flush t = true) :
    (dat2 V c).flushed 7 t = ((cfg2.win 7).blk t).view.read (Elt Ideal) (sum2 V c) := by
  have h4 : t.val = 4 := by have := (flush2_7 t).mp hf; have := t5_2 t; omega
  obtain rfl : t = t2_4 := Fin.ext h4
  show (cfg2.win 7).cut (grid2.coords t2_4) ((dat2 V c).after 7 t2_4) = _
  rw [after2_7, after_last7_2]
  have hz' : (fun a => win2_7.index t2_4 a * main_v44_1.ty.shape.size a) = fun _ => 0 := funext fun a => by fin_cases a <;> decide
  exact (Memref.read_access_unit_zero (Elt Ideal) main_v44_1 hz' (fun a => by rw [congrFun hz' a]; simp) (sum2 V c)).symm

/-- The sum row after the region. -/
theorem sum_final2 (c : Dev nD) : (dat2 V c).arrAt 7 cfg2.N = sum2 V c :=
  (dat2 V c).arrAt_eq_of_cover 7 (sum2 V c) (flushed7_2 V c) fun i =>
    ⟨t2_4, (flush2_7 t2_4).mpr rfl, by
      show i ∈ ((View.whole main_v44_1).slice (win2_7.rect t2_4)).set
      rw [View.set_slice_whole, Rect.mem_set_unit]
      intro a
      have h0 : (i 0 : Nat) < 1 := (i 0).isLt
      have h1 : (i 1 : Nat) < 128 := (i 1).isLt
      match a with
      | ⟨0, _⟩ => show win2_7.index t2_4 0 * win2_7.size 0 ≤ (i 0 : Nat) ∧ (i 0 : Nat) < win2_7.index t2_4 0 * win2_7.size 0 + win2_7.xsize (grid2.coords t2_4) 0
                  rw [show win2_7.index t2_4 0 * win2_7.size 0 = 0 from by decide +kernel, show win2_7.xsize (grid2.coords t2_4) 0 = 1 from by decide +kernel]; omega
      | ⟨1, _⟩ => show win2_7.index t2_4 1 * win2_7.size 1 ≤ (i 1 : Nat) ∧ (i 1 : Nat) < win2_7.index t2_4 1 * win2_7.size 1 + win2_7.xsize (grid2.coords t2_4) 1
                  rw [show win2_7.index t2_4 1 * win2_7.size 1 = 0 from by decide +kernel, show win2_7.xsize (grid2.coords t2_4) 1 = 128 from by decide +kernel]; omega⟩

/-- The one write-back of the sum-of-squares row, at the last point. -/
theorem flushed8_2 (c : Dev nD) (t : Fin cfg2.N) (hf : (cfg2.win 8).flush t = true) :
    (dat2 V c).flushed 8 t = ((cfg2.win 8).blk t).view.read (Elt Ideal) (sumsq2 V c) := by
  have h4 : t.val = 4 := by have := (flush2_8 t).mp hf; have := t5_2 t; omega
  obtain rfl : t = t2_4 := Fin.ext h4
  show (cfg2.win 8).cut (grid2.coords t2_4) ((dat2 V c).after 8 t2_4) = _
  rw [after2_8, after_last8_2]
  have hz' : (fun a => win2_8.index t2_4 a * main_v44_2.ty.shape.size a) = fun _ => 0 := funext fun a => by fin_cases a <;> decide
  exact (Memref.read_access_unit_zero (Elt Ideal) main_v44_2 hz' (fun a => by rw [congrFun hz' a]; simp) (sumsq2 V c)).symm

/-- The sum-of-squares row after the region. -/
theorem sumsq_final2 (c : Dev nD) : (dat2 V c).arrAt 8 cfg2.N = sumsq2 V c :=
  (dat2 V c).arrAt_eq_of_cover 8 (sumsq2 V c) (flushed8_2 V c) fun i =>
    ⟨t2_4, (flush2_8 t2_4).mpr rfl, by
      show i ∈ ((View.whole main_v44_2).slice (win2_8.rect t2_4)).set
      rw [View.set_slice_whole, Rect.mem_set_unit]
      intro a
      have h0 : (i 0 : Nat) < 1 := (i 0).isLt
      have h1 : (i 1 : Nat) < 128 := (i 1).isLt
      match a with
      | ⟨0, _⟩ => show win2_8.index t2_4 0 * win2_8.size 0 ≤ (i 0 : Nat) ∧ (i 0 : Nat) < win2_8.index t2_4 0 * win2_8.size 0 + win2_8.xsize (grid2.coords t2_4) 0
                  rw [show win2_8.index t2_4 0 * win2_8.size 0 = 0 from by decide +kernel, show win2_8.xsize (grid2.coords t2_4) 0 = 1 from by decide +kernel]; omega
      | ⟨1, _⟩ => show win2_8.index t2_4 1 * win2_8.size 1 ≤ (i 1 : Nat) ∧ (i 1 : Nat) < win2_8.index t2_4 1 * win2_8.size 1 + win2_8.xsize (grid2.coords t2_4) 1
                  rw [show win2_8.index t2_4 1 * win2_8.size 1 = 0 from by decide +kernel, show win2_8.xsize (grid2.coords t2_4) 1 = 128 from by decide +kernel]; omega⟩

end Arrays

/-! ## The region's three results, over the six arrays as the region finds them

  With x, agg, Wa, ba, Wb, bb the contents of the region's six input arrays when it is entered, gin x agg Wa ba Wb bb i
  is max ((Σ_k max ((Σ_j (x[i₀,j] + agg[i₀,j]) · Wa[j,k]) + ba[0,k]) 0 · Wb[k,i₁]) + bb[0,i₁]) 0 (its definition,
  which unfolds by rfl). After the region the first output array holds it at every entry, the second its column sums
  over all 25000 rows, the third the column sums of its squares. -/

section Statement
variable (V : (c : Dev nD) → (b : Ref sig .tc) → Buf (Elt Ideal) ((c : Thread nD τ).loc b))

theorem region2_raw (c : Dev nD) :
    (dat2 (F := Ideal) V c).arrAt 6 cfg2.N
      = gin (V c (Pipeline.arrRef spec2 0) : S25000x64.Idx → EReal) (V c (Pipeline.arrRef spec2 1) : S25000x64.Idx → EReal)
          (V c (Pipeline.arrRef spec2 2) : S64x128.Idx → EReal) (V c (Pipeline.arrRef spec2 3) : S1x128.Idx → EReal)
          (V c (Pipeline.arrRef spec2 4) : S128x128.Idx → EReal) (V c (Pipeline.arrRef spec2 5) : S1x128.Idx → EReal) :=
  raw_final2 V c

theorem region2_sum (c : Dev nD) :
    (dat2 (F := Ideal) V c).arrAt 7 cfg2.N
      = ((fun i => ∑ r : Fin 25000,
          gin (V c (Pipeline.arrRef spec2 0) : S25000x64.Idx → EReal) (V c (Pipeline.arrRef spec2 1) : S25000x64.Idx → EReal)
          (V c (Pipeline.arrRef spec2 2) : S64x128.Idx → EReal) (V c (Pipeline.arrRef spec2 3) : S1x128.Idx → EReal)
          (V c (Pipeline.arrRef spec2 4) : S128x128.Idx → EReal) (V c (Pipeline.arrRef spec2 5) : S1x128.Idx → EReal) (ix2 r (i 1))) : S1x128.Idx → EReal) :=
  sum_final2 V c

theorem region2_sumsq (c : Dev nD) :
    (dat2 (F := Ideal) V c).arrAt 8 cfg2.N
      = ((fun i => ∑ r : Fin 25000,
          gin (V c (Pipeline.arrRef spec2 0) : S25000x64.Idx → EReal) (V c (Pipeline.arrRef spec2 1) : S25000x64.Idx → EReal)
          (V c (Pipeline.arrRef spec2 2) : S64x128.Idx → EReal) (V c (Pipeline.arrRef spec2 3) : S1x128.Idx → EReal)
          (V c (Pipeline.arrRef spec2 4) : S128x128.Idx → EReal) (V c (Pipeline.arrRef spec2 5) : S1x128.Idx → EReal) (ix2 r (i 1))
          * gin (V c (Pipeline.arrRef spec2 0) : S25000x64.Idx → EReal) (V c (Pipeline.arrRef spec2 1) : S25000x64.Idx → EReal)
          (V c (Pipeline.arrRef spec2 2) : S64x128.Idx → EReal) (V c (Pipeline.arrRef spec2 3) : S1x128.Idx → EReal)
          (V c (Pipeline.arrRef spec2 4) : S128x128.Idx → EReal) (V c (Pipeline.arrRef spec2 5) : S1x128.Idx → EReal) (ix2 r (i 1))) : S1x128.Idx → EReal) :=
  sumsq_final2 V c

end Statement

end Cert.KernelIdeal.RegionValue

end
-- ==== Proof.Stage3.lean ====
/-
  The second layer before its normalisation. The kernel's third region applies the two linear maps (64 → 128 and
  128 → 128 columns) with their clamps at zero to the first layer's rows plus their neighbour sums, and leaves beside
  the raw layer the column sums of its rows and of their squares. The reference computes the same raw layer from the
  same arrays: the rows plus neighbour sums are one array in both programs, the weights are arguments neither program
  writes, and the biases reach the region laid out as rows.
-/
import proofs.«160706_j53919019434042_2_alg».proof.Defs
import proofs.«160706_j53919019434042_2_alg».proof.Proof.Gen.ReferenceIdeal.Run
import proofs.«160706_j53919019434042_2_alg».proof.Proof.KernelRun
import proofs.«160706_j53919019434042_2_alg».proof.Proof.ArgsKept
import proofs.«160706_j53919019434042_2_alg».proof.Proof.KHost2
import proofs.«160706_j53919019434042_2_alg».proof.Proof.NeighbourSums
import proofs.«160706_j53919019434042_2_alg».proof.Proof.RefStage78
import Idealize.ShloMosaic.Lib.StableHlo.Run
import Idealize.ShloMosaic.Lib.ValueIdx

set_option maxRecDepth 16384

noncomputable section

open scoped BigOperators

namespace Cert.Proof.Stage3

open Idealize.ShloMosaic Idealize.ShloMosaic.TcCoe Idealize.SL.Sem Idealize.ShloMosaic.StableHlo Idealize.ShloMosaic.ValueIdx
open Cert.KernelIdeal Cert.KernelIdeal.Gen Cert.KernelIdeal.HostRead

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

set_option maxHeartbeats 2000000 in
/-- The kernel's raw second layer is the reference's. `x`, `agg` are the layer's input rows (the first layer's output)
    and their neighbour sums, `Wa`, `ba`, `Wb`, `bb` the two linear maps with their biases laid out as rows, as the
    region reads them. -/
theorem stage3 (c : Dev nD) (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) (h18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) (h19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (x agg : S25000x64.Idx → EReal) (Wa : S64x128.Idx → EReal) (Wb : S128x128.Idx → EReal) (ba bb : S1x128.Idx → EReal)
    (hx : W5 m ρ c (Proc.devRef .tc main_v27) = x) (hagg : W5 m ρ c (Proc.devRef .tc main_v41) = agg)
    (hWa : W5 m ρ c (Proc.devRef .tc main_arg16) = Wa) (hba : W5 m ρ c (Proc.devRef .tc main_v42) = ba)
    (hWb : W5 m ρ c (Proc.devRef .tc main_arg18) = Wb) (hbb : W5 m ρ c (Proc.devRef .tc main_v43) = bb)
    (hraw : W6 m ρ c (Proc.devRef .tc main_v44_0) = fun i : S25000x128.Idx =>
      max ((∑ k : Fin 128, max ((∑ j : Fin 64, (x (ix2 (i 0) j) + agg (ix2 (i 0) j)) * Wa (ix2 j k)) + ba (ix2 0 k)) 0 * Wb (ix2 k (i 1))) + bb (ix2 0 (i 1))) 0)
    (h2 : W4 m ρ c (Proc.devRef .tc main_v27) = Cert.ReferenceIdeal.Value.res_main_v51 (F := Ideal) (launchContents m' c)) :
    W6 m ρ c (Proc.devRef .tc main_v44_0) = Cert.ReferenceIdeal.Value.res_main_v78 (F := Ideal) (launchContents m' c) := by
  rw [hraw]
  funext i
  rw [Cert.ReferenceIdeal.RefValue.ref_v78 (launchContents m' c) i]
  have eh : ∀ j : Fin 64, x (ix2 (i 0) j) + agg (ix2 (i 0) j)
      = Cert.ReferenceIdeal.RefValue.ref_h2 (launchContents m' c) (ix2 (i 0) j) := fun j => by
    rw [← hx, ← hagg]; exact congrFun (NeighbourSums.sum2 m ρ m' c h1 h2) (ix2 (i 0) j)
  have eWa : Wa = (launchContents m' c (Proc.devRef .tc Cert.ReferenceIdeal.main_arg16) : S64x128.Idx → EReal) := by
    rw [← hWa, ArgsKept.W5_arg16 m ρ c]; exact h16.symm
  have eWb : Wb = (launchContents m' c (Proc.devRef .tc Cert.ReferenceIdeal.main_arg18) : S128x128.Idx → EReal) := by
    rw [← hWb, ArgsKept.W5_arg18 m ρ c]; exact h18.symm
  have eba : ∀ k : Fin 128, ba (ix2 0 k)
      = (launchContents m' c (Proc.devRef .tc Cert.ReferenceIdeal.main_arg17) : S128.Idx → EReal) (ix1 k) := fun k => by
    rw [← hba, k2_ba m ρ c k]; exact congrFun h17.symm (ix1 k)
  have ebb : ∀ k : Fin 128, bb (ix2 0 k)
      = (launchContents m' c (Proc.devRef .tc Cert.ReferenceIdeal.main_arg19) : S128.Idx → EReal) (ix1 k) := fun k => by
    rw [← hbb, k2_bb m ρ c k]; exact congrFun h19.symm (ix1 k)
  simp only [eh, eba]
  rw [ebb (i 1), eWa, eWb]

/-- The kernel's column sums of the raw second layer are the column sums of the reference's raw layer `R`: the region
    sums the rows of the array it writes. -/
theorem stage3_sum (c : Dev nD) (rawF R : S25000x128.Idx → EReal) (T1 : S1x128.Idx → EReal)
    (hraw : W6 m ρ c (Proc.devRef .tc main_v44_0) = rawF) (hR : W6 m ρ c (Proc.devRef .tc main_v44_0) = R)
    (hT1 : W6 m ρ c (Proc.devRef .tc main_v44_1) = T1)
    (hsum : W6 m ρ c (Proc.devRef .tc main_v44_1) = fun i : S1x128.Idx => ∑ r : Fin 25000, rawF (ix2 r (i 1))) :
    ∀ k : Fin 128, T1 (ix2 0 k) = ∑ r : Fin 25000, R (ix2 r k) := fun k => by
  have e : rawF = R := hraw.symm.trans hR
  rw [← hT1, hsum, e]

/-- The kernel's column sums of squares of the raw second layer are those of the reference's raw layer `R`. -/
theorem stage3_sumsq (c : Dev nD) (rawF R : S25000x128.Idx → EReal) (T2 : S1x128.Idx → EReal)
    (hraw : W6 m ρ c (Proc.devRef .tc main_v44_0) = rawF) (hR : W6 m ρ c (Proc.devRef .tc main_v44_0) = R)
    (hT2 : W6 m ρ c (Proc.devRef .tc main_v44_2) = T2)
    (hsq : W6 m ρ c (Proc.devRef .tc main_v44_2) = fun i : S1x128.Idx =>
      ∑ r : Fin 25000, rawF (ix2 r (i 1)) * rawF (ix2 r (i 1))) :
    ∀ k : Fin 128, T2 (ix2 0 k) = ∑ r : Fin 25000, R (ix2 r k) * R (ix2 r k) := fun k => by
  have e : rawF = R := hraw.symm.trans hR
  rw [← hT2, hsq, e]

end Cert.Proof.Stage3

end
-- ==== Proof.RegionLinear3.lean ====
/-
  Region 3 of the forward pass is a dense layer with bias: the [25000, 128] activation array times the [128, 128]
  weight array, plus the [1, 128] bias row added to every row. The grid has five points; point t reads rows
  5000·t … 5000·t + 4999 of the activations (all 128 columns), the whole weight array and the whole bias row, and
  writes rows 5000·t … 5000·t + 4999 of the [25000, 128] result. Inside a point both matrix operands are narrowed to
  bf16 — the identity on extended reals — and multiplied into a zero accumulator, and the bias row is repeated down
  the 5000 rows and added: entry (p, q) of the block is (Σ_k x[p, k] · w[k, q]) + b[0, q].

  Row r of the result depends only on row r of the activations, so the five blocks are the restrictions of ONE
  function of the three entry arrays, `linearBias3`: entry (r, q) is (Σ_k X[r, k] · W[k, q]) + b[0, q]. The five row
  blocks tile the result array (row r lies in the block of point r / 5000), so after the region the result array
  holds `linearBias3 X W b`.
-/
import proofs.«160706_j53919019434042_2_alg».proof.Proof.Gen.KernelIdeal.Frame
import proofs.«160706_j53919019434042_2_alg».proof.Proof.LibMatmulEntry
import Idealize.ShloMosaic.Lib.Pipeline.Value
import Idealize.ShloMosaic.Lib.ValueIdx
import Idealize.ShloMosaic.Lib.ValueLayout
import Idealize.ShloMosaic.Lib.Tactic

noncomputable section

open scoped BigOperators
open Idealize.ShloMosaic Idealize.ShloMosaic.TcCoe Idealize.ShloMosaic.ValueIdx Idealize.SL.Sem
open Idealize.ShloMosaic.Pipeline (Dat)

namespace Cert.KernelIdeal.RegionValue

open Cert.KernelIdeal Cert.KernelIdeal.Gen

/-- The dense layer with bias on whole arrays: entry (r, q) is the sum over k of X[r, k] · W[k, q], plus b[0, q]. -/
def linearBias3 (X : S25000x128.Idx → EReal) (W : S128x128.Idx → EReal) (b : S1x128.Idx → EReal) :
    S25000x128.Idx → EReal :=
  fun i => (∑ k : Fin 128, X (ix2 (i 0) k) * W (ix2 k (i 1))) + b (ix2 (0 : Fin 1) (i 1))

/-- Entry (p, q) of one point's result: both matrix operands pass through the narrowing unchanged, the product into
    the zero accumulator is the plain sum over the contracted axis, and the bias row repeated down the rows
    contributes its entry in column q. -/
theorem pay3_apply (x0 : Vec Ideal S5000x128 .f32) (x1 : Vec Ideal S128x128 .f32) (x2 : Vec Ideal S1x128 .f32)
    (p : Fin 5000) (q : Fin 128) :
    Gen.k3_pay1 (F := Ideal) x0 x1 x2 (ix2 p q)
      = (∑ k : Fin 128, x0 (ix2 p k) * x1 (ix2 k q)) + x2 (ix2 (0 : Fin 1) q) := by
  unfold Gen.k3_pay1
  rw [addf_apply]
  refine congrArg₂ (· + ·) ?_ ?_
  · refine (Ideal.matmul_rows_cols dot_S5000x128_S128x128_S5000x128_1_0_0_1_n_n rfl rfl rfl rfl rfl rfl none _ _ p q).trans ?_
    refine Finset.sum_congr rfl fun k _ => ?_
    rw [truncf_apply, truncf_apply, shapeCast_self, shapeCast_self]
  · rw [broadcastTo_1b_ab_apply, shapeCast_self]

theorem zero_offsets3 : (![0, 0] : Fin 2 → Nat) = fun _ => 0 := funext fun a => by fin_cases a <;> rfl

/-- The block indices at every point: the activations' and the result's row block is the point's number, their
    column block is 0; the weights' and the bias row's block is (0, 0). -/
theorem block_indices3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

variable (V : (c : Dev nD) → (b : Ref sig .tc) → Buf (Elt Ideal) ((c : Thread nD τ).loc b))

/-- Row p of the activations' block at point t is row 5000·t + p of the array. -/
theorem iblk3_0_apply (c : Dev nD) (t : Fin cfg3.N) (p : Fin 5000) (k : Fin 128) (r : Fin 25000)
    (hr : r.val = 5000 * t.val + p.val) :
    (iblk3 V c 0 t : Vec Ideal S5000x128 .f32) (ix2 p k)
      = (V c (Pipeline.arrRef spec3 0) : S25000x128.Idx → EReal) (ix2 r k) := by
  obtain ⟨e00, e01, -, -, -, -, -, -⟩ := block_indices3 t
  unfold iblk3
  rw [View.read_apply]
  refine congrArg (V c (Pipeline.arrRef spec3 0) : S25000x128.Idx → EReal) ?_
  funext a
  apply Fin.ext
  match a with
  | ⟨0, _⟩ => show win3_0.index t (0 : Fin 2) * 5000 + 1 * p.val = r.val; rw [e00, hr]; omega
  | ⟨1, _⟩ => show win3_0.index t (1 : Fin 2) * 128 + 1 * k.val = k.val; rw [e01]; omega

/-- The weights' block at every point is the whole weight array. -/
theorem iblk3_1_apply (c : Dev nD) (t : Fin cfg3.N) (k : Fin 128) (q : Fin 128) :
    (iblk3 V c 1 t : Vec Ideal S128x128 .f32) (ix2 k q)
      = (V c (Pipeline.arrRef spec3 1) : S128x128.Idx → EReal) (ix2 k q) := by
  obtain ⟨-, -, e10, e11, -, -, -, -⟩ := block_indices3 t
  unfold iblk3
  rw [View.read_apply]
  refine congrArg (V c (Pipeline.arrRef spec3 1) : S128x128.Idx → EReal) ?_
  funext a
  apply Fin.ext
  match a with
  | ⟨0, _⟩ => show win3_1.index t (0 : Fin 2) * 128 + 1 * k.val = k.val; rw [e10]; omega
  | ⟨1, _⟩ => show win3_1.index t (1 : Fin 2) * 128 + 1 * q.val = q.val; rw [e11]; omega

/-- The bias row's block at every point is the whole bias row. -/
theorem iblk3_2_apply (c : Dev nD) (t : Fin cfg3.N) (z : Fin 1) (q : Fin 128) :
    (iblk3 V c 2 t : Vec Ideal S1x128 .f32) (ix2 z q)
      = (V c (Pipeline.arrRef spec3 2) : S1x128.Idx → EReal) (ix2 z q) := by
  obtain ⟨-, -, -, -, e20, e21, -, -⟩ := block_indices3 t
  unfold iblk3
  rw [View.read_apply]
  refine congrArg (V c (Pipeline.arrRef spec3 2) : S1x128.Idx → EReal) ?_
  funext a
  apply Fin.ext
  match a with
  | ⟨0, _⟩ => show win3_2.index t (0 : Fin 2) * 1 + 1 * z.val = z.val; rw [e20]; omega
  | ⟨1, _⟩ => show win3_2.index t (1 : Fin 2) * 128 + 1 * q.val = q.val; rw [e21]; omega

/-- Entry (p, q) of what point t computes is entry (5000·t + p, q) of `linearBias3` of the three entry arrays:
    the point's row p of the activations is the array's row 5000·t + p, and the weights and the bias row are read
    whole. -/
theorem block3_apply (c : Dev nD) (t : Fin cfg3.N) (p : Fin 5000) (q : Fin 128) (r : Fin 25000)
    (hr : r.val = 5000 * t.val + p.val) :
    Gen.k3_pay1 (F := Ideal) (iblk3 V c 0 t) (iblk3 V c 1 t) (iblk3 V c 2 t) (ix2 p q)
      = linearBias3 (V c (Pipeline.arrRef spec3 0)) (V c (Pipeline.arrRef spec3 1)) (V c (Pipeline.arrRef spec3 2))
          (ix2 r q) := by
  refine (pay3_apply (iblk3 V c 0 t) (iblk3 V c 1 t) (iblk3 V c 2 t) p q).trans ?_
  unfold linearBias3
  refine congrArg₂ (· + ·) (Finset.sum_congr rfl fun k _ => congrArg₂ (· * ·) ?_ ?_) ?_
  · exact iblk3_0_apply V c t p k r hr
  · exact iblk3_1_apply V c t k q
  · exact iblk3_2_apply V c t 0 q

/-- What point t writes back is block t of `linearBias3` of the three entry arrays. -/
theorem flushed3_eq (c : Dev nD) (t : Fin cfg3.N) :
    (dat3 (F := Ideal) V c).flushed 3 t
      = ((cfg3.win 3).blk t).view.read (Elt Ideal)
          (linearBias3 (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero zero_offsets3]
  simp only [View.ld_unit_zero (S := S5000x128) zero_offsets3, View.ld_unit_zero (S := S128x128) zero_offsets3,
    View.ld_unit_zero (S := S1x128) zero_offsets3]
  obtain ⟨-, -, -, -, -, -, e30, e31⟩ := block_indices3 t
  funext j
  obtain ⟨p, q, rfl⟩ : ∃ (p : Fin 5000) (q : Fin 128), j = ix2 p q := ⟨j 0, j 1, eq_ix2 j⟩
  have ht : t.val < 5 := by have h := t.isLt; have hN : cfg3.N = 5 := N_3; omega
  refine (block3_apply V c t p q ⟨5000 * t.val + p.val, by omega⟩ rfl).trans ?_
  show _ = linearBias3 (V c (Pipeline.arrRef spec3 0)) (V c (Pipeline.arrRef spec3 1)) (V c (Pipeline.arrRef spec3 2))
    (((cfg3.win 3).blk t).view.emb (ix2 p q))
  refine congrArg (linearBias3 (V c (Pipeline.arrRef spec3 0)) (V c (Pipeline.arrRef spec3 1)) (V c (Pipeline.arrRef spec3 2))) ?_
  funext a
  apply Fin.ext
  match a with
  | ⟨0, _⟩ => show 5000 * t.val + p.val = win3_3.index t (0 : Fin 2) * 5000 + 1 * p.val; rw [e30]; omega
  | ⟨1, _⟩ => show q.val = win3_3.index t (1 : Fin 2) * 128 + 1 * q.val; rw [e31]; omega

/-- An index of the result array lies in point t's block iff each coordinate lies in the block's range on its axis. -/
theorem mem_blk3 (t : Fin cfg3.N) (i : S25000x128.Idx) :
    i ∈ ((cfg3.win 3).blk t).view.set
      ↔ ∀ a : Fin 2, win3_3.index t a * S5000x128.size a ≤ (i a).val
          ∧ (i a).val < win3_3.index t a * S5000x128.size a + S5000x128.size a := by
  show i ∈ ((View.whole main_v67).slice (win3_3.rect t)).set ↔ _
  rw [View.set_slice_whole, Rect.mem_set_unit]
  exact Iff.rfl

/-- Every index of the result array lies in the block of the point numbered by its row divided by 5000. -/
theorem cover3 (i : S25000x128.Idx) :
    ∃ t : Fin cfg3.N, (cfg3.win 3).flush t = true ∧ i ∈ ((cfg3.win 3).blk t).view.set := by
  have hi0 : (i 0).val < 25000 := (i 0).isLt
  have hi1 : (i 1).val < 128 := (i 1).isLt
  have hN : cfg3.N = 5 := N_3
  refine ⟨⟨(i 0).val / 5000, by rw [hN]; omega⟩, flush3_3 _, ?_⟩
  rw [mem_blk3]
  obtain ⟨-, -, -, -, -, -, e30, e31⟩ := block_indices3 ⟨(i 0).val / 5000, by rw [hN]; omega⟩
  intro a
  match a with
  | ⟨0, _⟩ =>
    show win3_3.index _ (0 : Fin 2) * 5000 ≤ (i 0).val ∧ (i 0).val < win3_3.index _ (0 : Fin 2) * 5000 + 5000
    rw [e30]
    show (i 0).val / 5000 * 5000 ≤ (i 0).val ∧ (i 0).val < (i 0).val / 5000 * 5000 + 5000
    omega
  | ⟨1, _⟩ =>
    show win3_3.index _ (1 : Fin 2) * 128 ≤ (i 1).val ∧ (i 1).val < win3_3.index _ (1 : Fin 2) * 128 + 128
    rw [e31]
    omega

/-- After region 3 its result array holds the dense layer with bias of the three arrays the region found, X (the
    activations), W (the weights) and b (the bias row): entry (r, q) is the sum over k of X[r, k] · W[k, q], plus
    b[0, q]. -/
theorem region3_value (c : Dev nD) (X : S25000x128.Idx → EReal) (W : S128x128.Idx → EReal) (b : S1x128.Idx → EReal)
    (hX : V c (Pipeline.arrRef spec3 0) = X) (hW : V c (Pipeline.arrRef spec3 1) = W)
    (hb : V c (Pipeline.arrRef spec3 2) = b) :
    (dat3 (F := Ideal) V c).arrAt 3 cfg3.N
      = fun i => (∑ k : Fin 128, X (ix2 (i 0) k) * W (ix2 k (i 1))) + b (ix2 (0 : Fin 1) (i 1)) := by
  subst hX hW hb
  exact (dat3 V c).arrAt_eq_of_cover 3
    (linearBias3 (V c (Pipeline.arrRef spec3 0)) (V c (Pipeline.arrRef spec3 1)) (V c (Pipeline.arrRef spec3 2)))
    (fun t _ => flushed3_eq V c t) cover3

end Cert.KernelIdeal.RegionValue

end
-- ==== Proof.LibGatherScatterRows.lean ====
import Idealize.ShloMosaic.Lib.ValueIdx

/-!
# Gather and scatter of whole rows, and gather of flat entries

Three literal records of StableHLO gather / scatter dimension numbers over generic extents, with what the
operation reads or writes at an index: taking whole rows of a matrix, taking entries of a flat array, and
scattering whole rows into a matrix.
-/

noncomputable section

namespace Idealize.ShloMosaic.ValueIdx

open Idealize.ShloMosaic

/-! ## Scattering whole rows: operand `[N, C]`, scatter indices `[E, 1]`, updates `[E, C]` -/

section ScatterRows

/-- The dimension numbers for scattering rows: update window axis `1`, inserted window axis `0`, the single
    component of a scatter index names operand axis `0`, the index vector on axis `1`. -/
abbrev rowsScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- An update element `j` that lands on operand element `i` has its scatter index `idx[j₀, 0]`, read signed and
    not clamped, equal to the row `i₀`. -/
theorem scatter_rows_row {N E C w : Nat}
    (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) (i : (⟨2, ![N, C]⟩ : Shape).Idx)
    (h : (rowsScatterDims N E C wf).resultIdx? j idx = some i) :
    (idx (ix2 (j 0) ⟨0, Nat.one_pos⟩)).toInt = ((i 0).val : Int) := by
  unfold ScatterDims.resultIdx? at h
  split at h
  · rename_i hall
    have h0 : ((rowsScatterDims N E C wf).start j idx 0 + (rowsScatterDims N E C wf).window j 0).toNat = (i 0).val :=
      congrArg (fun f : (⟨2, ![N, C]⟩ : Shape).Idx => (f 0).val) (Option.some.inj h)
    have hw : (rowsScatterDims N E C wf).window j 0 = 0 := by
      unfold ScatterDims.window
      rw [dif_neg]
      simp [ScatterDims.sKept, Shape.kept, List.mem_filter]
    have hs : (rowsScatterDims N E C wf).start j idx 0 = (idx (ix2 (j 0) ⟨0, Nat.one_pos⟩)).toInt := by
      unfold ScatterDims.start
      rw [dif_pos (show (0 : Fin 2) ∈ (rowsScatterDims N E C wf).scatterDimsToOperandDims from
        List.mem_singleton.mpr rfl)]
      have hsi : (rowsScatterDims N E C wf).siIdx j
          ⟨List.idxOf (0 : Fin 2) (rowsScatterDims N E C wf).scatterDimsToOperandDims,
            List.idxOf_lt_length_iff.2 (List.mem_singleton.mpr rfl)⟩ = ix2 (j 0) ⟨0, Nat.one_pos⟩ := by
        funext b; refine Fin.ext ?_
        match b with
        | ⟨0, _⟩ => rfl
        | ⟨1, _⟩ => rfl
      rw [hsi]
      rfl
    have hnn := (hall 0).1
    rw [hs, hw] at hnn h0
    simp only [Nat.cast_zero, Int.add_zero] at hnn h0
    rw [← h0, Int.toNat_of_nonneg hnn]
  · exact absurd h (by simp)

end ScatterRows

/-! ## Taking whole rows: operand `[N, C]`, start indices `[E, 1]`, result `[E, C]` -/

section GatherRows
variable {α : Type}

/-- The dimension numbers for taking rows: offset axis `1`, collapsed operand axis `0`, the single component of a
    start index names operand axis `0`, the index vector on axis `1`, slices of one row by all `C` columns. -/
abbrev rowsGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Result element `(e, c)` of the row gather is the operand at row `idx[e, 0]`, read signed and clamped into
    `[0, N − 1]`, and column `c`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowsGatherDims N E C wf) x idx (ix2 e c) =
      x (ix2 ⟨min (idx (ix2 e ⟨0, Nat.one_pos⟩)).toInt.toNat (N - 1), by omega⟩ c) := by
  have h0 : ((rowsGatherDims N E C wf).operandIdx (ix2 e c) idx (0 : Fin 2)).val =
      min (idx (ix2 e ⟨0, Nat.one_pos⟩)).toInt.toNat (N - 1) := by
    show (rowsGatherDims N E C wf).start (ix2 e c) idx 0 + (rowsGatherDims N E C wf).batchCoord (ix2 e c) 0
      + (rowsGatherDims N E C wf).offCoord (ix2 e c) 0 = _
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (show (0 : Fin 2) ∈ (rowsGatherDims N E C wf).startIndexMap from List.mem_singleton.mpr rfl)]
    have hsi : (rowsGatherDims N E C wf).siIdx (ix2 e c)
        ⟨List.idxOf (0 : Fin 2) (rowsGatherDims N E C wf).startIndexMap,
          List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  have h1 : ((rowsGatherDims N E C wf).operandIdx (ix2 e c) idx (1 : Fin 2)).val = c.val := by
    show (rowsGatherDims N E C wf).start (ix2 e c) idx 1 + (rowsGatherDims N E C wf).batchCoord (ix2 e c) 1
      + (rowsGatherDims N E C wf).offCoord (ix2 e c) 1 = _
    have hst : (rowsGatherDims N E C wf).start (ix2 e c) idx (1 : Fin 2) = 0 := by
      unfold GatherDims.start
      rw [dif_neg (fun h => absurd (show (1 : Nat) = 0 from congrArg Fin.val (List.mem_singleton.mp h)) Nat.one_ne_zero)]
    have hk : (1 : Fin 2) ∈ (rowsGatherDims N E C wf).sKept :=
      (GatherDims.mem_sKept _ _).mpr ⟨(fun h => absurd (show (1 : Nat) = 0 from congrArg Fin.val (List.mem_singleton.mp h)) Nat.one_ne_zero), List.not_mem_nil⟩
    have hoff : (rowsGatherDims N E C wf).offCoord (ix2 e c) (1 : Fin 2) = c.val := by
      unfold GatherDims.offCoord
      rw [dif_pos hk]
      rfl
    rw [GatherDims.batchCoord_eq_zero _ _ _ List.not_mem_nil, hst, hoff, Nat.add_zero, Nat.zero_add]
  unfold Host.gather
  congr 1
  funext a
  refine Fin.ext ?_
  match a with
  | ⟨0, _⟩ => exact h0
  | ⟨1, _⟩ => exact h1

end GatherRows

/-! ## Taking entries of a flat array: operand `[N]`, start indices `[E, 1]`, result `[E]` -/

section GatherFlat
variable {α : Type}

/-- The dimension numbers for taking entries: no offset axis, collapsed operand axis `0`, the single component of
    a start index names operand axis `0`, the index vector on axis `1`, slices of one entry. -/
abbrev flatGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Result element `e` of the flat gather is the operand at position `idx[e, 0]`, read signed and clamped into
    `[0, N − 1]`. -/
theorem gather_flat_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (flatGatherDims N E wf) x idx (ix1 e) =
      x (ix1 ⟨min (idx (ix2 e ⟨0, Nat.one_pos⟩)).toInt.toNat (N - 1), by omega⟩) := by
  unfold Host.gather
  congr 1
  funext a
  obtain rfl : a = 0 := Subsingleton.elim _ _
  refine Fin.ext ?_
  show (flatGatherDims N E wf).start (ix1 e) idx 0 + (flatGatherDims N E wf).batchCoord (ix1 e) 0
    + (flatGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGatherDims N E wf).startIndexMap from List.mem_singleton.mpr rfl)]
  have hsi : (flatGatherDims N E wf).siIdx (ix1 e)
      ⟨List.idxOf (0 : Fin 1) (flatGatherDims N E wf).startIndexMap,
        List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]
  rfl

end GatherFlat

end Idealize.ShloMosaic.ValueIdx

end
-- ==== Proof.LibScatterSetRows.lean ====
import Idealize.ShloMosaic.Lib.ValueIdx
import Idealize.ShloMosaic.PureOps.Ideal.Laws
import Mathlib.Data.List.Sort
import proofs.«160706_j53919019434042_2_alg».proof.Proof.LibGatherScatterRows

/-!
# A scatter whose body keeps the update ("set"), read at an index; rows set into a matrix of zeros commute with a
# right multiplication

The host's scatter folds over the update elements in row-major order; with the body `fun _ b => b` an operand
element ends at the LAST update element landing on it, or at its own value when none does. For whole rows
scattered into a matrix (`x.at[idx].set(u)` over row indices) the update element `(e, c)` lands on `(idx e, c)`, so row
`n` of the result is row `e` of the updates for the largest `e` with `idx e = n`, whatever the number of columns —
and multiplying on the right by a matrix acts on rows, fixing the zero row: it may be done before the scatter
(on the few update rows) or after it (on the many result rows).
-/

noncomputable section

open scoped BigOperators

namespace Idealize.ShloMosaic.ValueIdx

open Idealize.ShloMosaic

/-! ## Any scatter with the body `fun _ b => b` -/

section SetFold
variable {α : Type} {s si u : Shape} {w : Nat} (d : ScatterDims s si u) (idx : IVec si w) (upd : u.Idx → α)

/-- One step of the fold: update element number `n` replaces the operand element it lands on. -/
private abbrev setStep (r : s.Idx → α) (n : Fin u.numel) : s.Idx → α :=
  match d.resultIdx? (u.rowMajor.symm n) idx with
  | some i => fun i' => if i' = i then (fun _ b => b) (r i) (upd (u.rowMajor.symm n)) else r i'
  | none => r

private theorem setStep_of_ne (r : s.Idx → α) (n : Fin u.numel) (i : s.Idx)
    (h : d.resultIdx? (u.rowMajor.symm n) idx ≠ some i) : setStep d idx upd r n i = r i := by
  unfold setStep
  cases hres : d.resultIdx? (u.rowMajor.symm n) idx with
  | none => rfl
  | some i0 =>
    have : i ≠ i0 := fun e => h (by rw [hres, e])
    simp [this]

private theorem setStep_of_eq (r : s.Idx → α) (n : Fin u.numel) (i : s.Idx)
    (h : d.resultIdx? (u.rowMajor.symm n) idx = some i) : setStep d idx upd r n i = upd (u.rowMajor.symm n) := by
  unfold setStep
  rw [h]
  simp

private theorem fold_of_no_hit (i : s.Idx) : ∀ (l : List (Fin u.numel)) (r : s.Idx → α),
    (∀ n ∈ l, d.resultIdx? (u.rowMajor.symm n) idx ≠ some i) → (l.foldl (setStep d idx upd) r) i = r i
  | [], _, _ => rfl
  | n :: l, r, h => by
    rw [List.foldl_cons, fold_of_no_hit i l _ fun n' hn' => h n' (List.mem_cons_of_mem _ hn'),
      setStep_of_ne d idx upd r n i (h n List.mem_cons_self)]

/-- An operand element no update element lands on keeps its value. -/
theorem scatter_set_apply_of_none (x : s.Idx → α) (i : s.Idx) (h : ∀ j, d.resultIdx? j idx ≠ some i) :
    Host.scatter d (fun _ b => b) x idx upd i = x i :=
  fold_of_no_hit d idx upd i _ x fun n _ => h _

/-- An operand element ends at the update element landing on it that is last in row-major order. -/
theorem scatter_set_apply_of_last (x : s.Idx → α) (i : s.Idx) (j : u.Idx) (hj : d.resultIdx? j idx = some i)
    (hlast : ∀ j', d.resultIdx? j' idx = some i → (u.rowMajor j').val ≤ (u.rowMajor j).val) :
    Host.scatter d (fun _ b => b) x idx upd i = upd j := by
  obtain ⟨l₁, l₂, hl⟩ := List.append_of_mem (List.mem_finRange (u.rowMajor j))
  have hpw : (l₁ ++ u.rowMajor j :: l₂).Pairwise (· < ·) := hl ▸ (List.sortedLT_finRange u.numel).pairwise
  have hafter : ∀ n ∈ l₂, u.rowMajor j < n := by
    have := (List.pairwise_append.mp hpw).2.1
    exact fun n hn => (List.pairwise_cons.mp this).1 n hn
  show ((List.finRange u.numel).foldl (setStep d idx upd) x) i = upd j
  rw [hl, List.foldl_append, List.foldl_cons, fold_of_no_hit d idx upd i l₂ _ (fun n hn hhit => by
      have h1 := hlast _ hhit
      rw [Equiv.apply_symm_apply] at h1
      exact absurd (hafter n hn) (not_lt.mpr h1)),
    setStep_of_eq d idx upd _ _ i (by rw [Equiv.symm_apply_apply]; exact hj), Equiv.symm_apply_apply]

end SetFold

/-! ## Whole rows: operand `[N, C]`, scatter indices `[E, 1]`, updates `[E, C]` -/

section Rows
variable {N E C w : Nat} (wf : ScatterDims.WF ⟨2, ![N, C]⟩ ⟨2, ![E, 1]⟩ ⟨2, ![E, C]⟩ [1] [0] [0] 1)

/-- The row an update row is sent to: its scatter index, read signed. -/
abbrev rowOf (idx : IVec ⟨2, ![E, 1]⟩ w) (e : Fin E) : Int := (idx (ix2 e ⟨0, Nat.one_pos⟩)).toInt

private theorem rows_start0 (idx : IVec ⟨2, ![E, 1]⟩ w) (j : (⟨2, ![E, C]⟩ : Shape).Idx) :
    (rowsScatterDims N E C wf).start j idx 0 = rowOf idx (j 0) := by
  unfold ScatterDims.start
  rw [dif_pos (show (0 : Fin 2) ∈ (rowsScatterDims N E C wf).scatterDimsToOperandDims from List.mem_singleton.mpr rfl)]
  have hsi : (rowsScatterDims N E C wf).siIdx j
      ⟨List.idxOf (0 : Fin 2) (rowsScatterDims N E C wf).scatterDimsToOperandDims,
        List.idxOf_lt_length_iff.2 (List.mem_singleton.mpr rfl)⟩ = ix2 (j 0) ⟨0, Nat.one_pos⟩ := by
    funext b; refine Fin.ext ?_
    match b with
    | ⟨0, _⟩ => rfl
    | ⟨1, _⟩ => rfl
  rw [hsi]
  rfl

private theorem rows_start1 (idx : IVec ⟨2, ![E, 1]⟩ w) (j : (⟨2, ![E, C]⟩ : Shape).Idx) :
    (rowsScatterDims N E C wf).start j idx 1 = 0 := by
  unfold ScatterDims.start
  rw [dif_neg (fun h => absurd (show (1 : Nat) = 0 from congrArg Fin.val (List.mem_singleton.mp h)) Nat.one_ne_zero)]

private theorem rows_window0 (j : (⟨2, ![E, C]⟩ : Shape).Idx) : (rowsScatterDims N E C wf).window j 0 = 0 := by
  unfold ScatterDims.window
  rw [dif_neg]
  simp [ScatterDims.sKept, Shape.kept, List.mem_filter]

private theorem rows_window1 (j : (⟨2, ![E, C]⟩ : Shape).Idx) : (rowsScatterDims N E C wf).window j 1 = (j 1).val := by
  unfold ScatterDims.window
  have hk : (1 : Fin 2) ∈ (rowsScatterDims N E C wf).sKept := by
    simp [ScatterDims.sKept, Shape.kept, List.mem_filter]
  rw [dif_pos hk]
  rfl

/-- Update element `(e, c)` lands on operand element `(n, c')` exactly when its row index is `n` and `c = c'`. -/
theorem rows_resultIdx_eq_some_iff (idx : IVec ⟨2, ![E, 1]⟩ w) (j : (⟨2, ![E, C]⟩ : Shape).Idx)
    (i : (⟨2, ![N, C]⟩ : Shape).Idx) :
    (rowsScatterDims N E C wf).resultIdx? j idx = some i ↔ rowOf idx (j 0) = ((i 0).val : Int) ∧ (j 1).val = (i 1).val := by
  unfold ScatterDims.resultIdx?
  constructor
  · intro h
    split at h
    · have h0 := congrArg (fun f : (⟨2, ![N, C]⟩ : Shape).Idx => (f 0).val) (Option.some.inj h)
      have h1 := congrArg (fun f : (⟨2, ![N, C]⟩ : Shape).Idx => (f 1).val) (Option.some.inj h)
      rename_i hall
      have hnn := (hall 0).1
      simp only [rows_start0, rows_start1, rows_window0, rows_window1, Nat.cast_zero, Int.add_zero, Int.zero_add] at h0 h1 hnn
      refine ⟨?_, ?_⟩
      · rw [← h0, Int.toNat_of_nonneg hnn]
      · simpa using h1
    · exact absurd h (by simp)
  · rintro ⟨h0, h1⟩
    have hall : ∀ a, 0 ≤ (rowsScatterDims N E C wf).start j idx a + (rowsScatterDims N E C wf).window j a ∧
        (rowsScatterDims N E C wf).start j idx a + (rowsScatterDims N E C wf).window j a < ((⟨2, ![N, C]⟩ : Shape).size a) := by
      intro a
      match a with
      | ⟨0, _⟩ =>
        show 0 ≤ (rowsScatterDims N E C wf).start j idx 0 + (rowsScatterDims N E C wf).window j 0 ∧
          (rowsScatterDims N E C wf).start j idx 0 + (rowsScatterDims N E C wf).window j 0 < ((N : Nat) : Int)
        rw [rows_start0, rows_window0, h0]
        have := (i 0).isLt
        constructor
        · simp
        · simpa using this
      | ⟨1, _⟩ =>
        show 0 ≤ (rowsScatterDims N E C wf).start j idx 1 + (rowsScatterDims N E C wf).window j 1 ∧
          (rowsScatterDims N E C wf).start j idx 1 + (rowsScatterDims N E C wf).window j 1 < ((C : Nat) : Int)
        rw [rows_start1, rows_window1]
        have := (j 1).isLt
        constructor
        · simp
        · simpa using this
    rw [dif_pos hall]
    congr 1
    funext a
    refine Fin.ext ?_
    match a with
    | ⟨0, _⟩ =>
      show ((rowsScatterDims N E C wf).start j idx 0 + (rowsScatterDims N E C wf).window j 0).toNat = (i 0).val
      rw [rows_start0, rows_window0, h0]; simp
    | ⟨1, _⟩ =>
      show ((rowsScatterDims N E C wf).start j idx 1 + (rowsScatterDims N E C wf).window j 1).toNat = (i 1).val
      rw [rows_start1, rows_window1, ← h1]; simp

variable {α : Type}

/-- Row `n` of the result is the update row `e` for the LARGEST `e` whose row index is `n`. -/
theorem scatter_set_rows_apply_of_max (x : (⟨2, ![N, C]⟩ : Shape).Idx → α) (idx : IVec ⟨2, ![E, 1]⟩ w)
    (upd : (⟨2, ![E, C]⟩ : Shape).Idx → α) (n : Fin N) (c : Fin C) (e : Fin E) (he : rowOf idx e = (n.val : Int))
    (hmax : ∀ e', rowOf idx e' = (n.val : Int) → e' ≤ e) :
    Host.scatter (rowsScatterDims N E C wf) (fun _ b => b) x idx upd (ix2 n c) = upd (ix2 e c) := by
  refine scatter_set_apply_of_last _ idx upd x (ix2 n c) (ix2 e c)
    ((rows_resultIdx_eq_some_iff wf idx _ _).mpr ⟨he, rfl⟩) fun j' hj' => ?_
  obtain ⟨h0, h1⟩ := (rows_resultIdx_eq_some_iff wf idx _ _).mp hj'
  have hle : (j' 0).val ≤ e.val := hmax (j' 0) h0
  rw [Shape.rowMajor_val_two, Shape.rowMajor_val_two]
  show (j' 0).val * C + (j' 1).val ≤ e.val * C + c.val
  have h1' : (j' 1).val = c.val := h1
  rw [h1']
  exact Nat.add_le_add_right (Nat.mul_le_mul_right _ hle) _

/-- A row no update row is sent to keeps the operand's values. -/
theorem scatter_set_rows_apply_of_none (x : (⟨2, ![N, C]⟩ : Shape).Idx → α) (idx : IVec ⟨2, ![E, 1]⟩ w)
    (upd : (⟨2, ![E, C]⟩ : Shape).Idx → α) (n : Fin N) (c : Fin C) (h : ∀ e, rowOf idx e ≠ (n.val : Int)) :
    Host.scatter (rowsScatterDims N E C wf) (fun _ b => b) x idx upd (ix2 n c) = x (ix2 n c) :=
  scatter_set_apply_of_none _ idx upd x (ix2 n c) fun j hj =>
    h (j 0) ((rows_resultIdx_eq_some_iff wf idx _ _).mp hj).1

end Rows

/-! ## Rows set into zeros, then multiplied on the right; or multiplied first -/

/-- `(zeros.at[idx].set(U)) · W = zeros.at[idx].set(U · W)`, entry by entry, on the extended reals: row `n` of the
    scattered matrix is a row of `U` (the same one on both sides, chosen by the indices alone) or zero, and the zero
    row times any matrix is zero (`0 · x = 0` for every extended real). -/
theorem scatter_set_rows_mul_right {N E C C' w : Nat}
    (wf : ScatterDims.WF ⟨2, ![N, C]⟩ ⟨2, ![E, 1]⟩ ⟨2, ![E, C]⟩ [1] [0] [0] 1)
    (wf' : ScatterDims.WF ⟨2, ![N, C']⟩ ⟨2, ![E, 1]⟩ ⟨2, ![E, C']⟩ [1] [0] [0] 1)
    (idx : IVec ⟨2, ![E, 1]⟩ w) (U : (⟨2, ![E, C]⟩ : Shape).Idx → EReal) (W : (⟨2, ![C, C']⟩ : Shape).Idx → EReal)
    (Z : (⟨2, ![N, C]⟩ : Shape).Idx → EReal) (hZ : ∀ i, Z i = 0)
    (Z' : (⟨2, ![N, C']⟩ : Shape).Idx → EReal) (hZ' : ∀ i, Z' i = 0)
    (UW : (⟨2, ![E, C']⟩ : Shape).Idx → EReal) (hUW : ∀ (e : Fin E) (q : Fin C'), UW (ix2 e q) = ∑ k : Fin C, U (ix2 e k) * W (ix2 k q))
    (n : Fin N) (q : Fin C') :
    ∑ k : Fin C, Host.scatter (rowsScatterDims N E C wf) (fun _ b => b) Z idx U (ix2 n k) * W (ix2 k q)
      = Host.scatter (rowsScatterDims N E C' wf') (fun _ b => b) Z' idx UW (ix2 n q) := by
  classical
  by_cases h : ∃ e : Fin E, rowOf idx e = (n.val : Int)
  · obtain ⟨e, he, hmax⟩ : ∃ e : Fin E, rowOf idx e = (n.val : Int) ∧ ∀ e', rowOf idx e' = (n.val : Int) → e' ≤ e := by
      obtain ⟨e0, he0⟩ := h
      have hne : (Finset.univ.filter fun e : Fin E => rowOf idx e = (n.val : Int)).Nonempty := ⟨e0, by simp [he0]⟩
      refine ⟨Finset.max' _ hne, ?_, fun e' he' => Finset.le_max' _ e' (by simp [he'])⟩
      have := Finset.max'_mem _ hne
      simpa using this
    rw [scatter_set_rows_apply_of_max wf' Z' idx UW n q e he hmax, hUW]
    exact Finset.sum_congr rfl fun k _ => by rw [scatter_set_rows_apply_of_max wf Z idx U n k e he hmax]
  · have h' : ∀ e, rowOf idx e ≠ (n.val : Int) := fun e he => h ⟨e, he⟩
    rw [scatter_set_rows_apply_of_none wf' Z' idx UW n q h', hZ']
    exact Finset.sum_eq_zero fun k _ => by rw [scatter_set_rows_apply_of_none wf Z idx U n k h', hZ, zero_mul]

end Idealize.ShloMosaic.ValueIdx

end
-- ==== Proof.RegionLinear5.lean ====
/-
  Region 5 of the forward pass is a dense layer without bias: the [50000, 128] activation array times the [128, 64]
  weight array. The grid has ten points; point t reads rows 5000·t … 5000·t + 4999 of the activations (all 128
  columns), the whole weight array, and writes rows 5000·t … 5000·t + 4999 of the [50000, 64] result. Inside a point
  both operands are narrowed to bf16 — the identity on extended reals — and multiplied into a zero accumulator, so
  entry (p, q) of the block is Σ_k x[p, k] · w[k, q].

  Since row r of the result depends only on row r of the activations, the ten blocks are the restrictions of ONE
  function of the two entry arrays, `linear`: entry (r, q) is Σ_k X[r, k] · W[k, q]. The ten row blocks tile the result
  array (row r lies in the block of point r / 5000), so after the region the result array holds `linear X W`.
-/
import proofs.«160706_j53919019434042_2_alg».proof.Proof.Gen.KernelIdeal.Frame
import proofs.«160706_j53919019434042_2_alg».proof.Proof.LibMatmulEntry
import Idealize.ShloMosaic.Lib.Pipeline.Value
import Idealize.ShloMosaic.Lib.ValueIdx
import Idealize.ShloMosaic.Lib.ValueLayout
import Idealize.ShloMosaic.Lib.Tactic

noncomputable section

open scoped BigOperators
open Idealize.ShloMosaic Idealize.ShloMosaic.TcCoe Idealize.ShloMosaic.ValueIdx Idealize.SL.Sem
open Idealize.ShloMosaic.Pipeline (Dat)

namespace Cert.KernelIdeal.RegionValue

open Cert.KernelIdeal Cert.KernelIdeal.Gen

/-- The dense layer on whole arrays: entry (r, q) is the sum over k of X[r, k] · W[k, q]. -/
def linear5 (X : S50000x128.Idx → EReal) (W : S128x64.Idx → EReal) : S50000x64.Idx → EReal :=
  fun i => ∑ k : Fin 128, X (ix2 (i 0) k) * W (ix2 k (i 1))

/-- Entry (p, q) of one point's product: both operands pass through the narrowing unchanged, and the product into the
    zero accumulator is the plain sum over the contracted axis. -/
theorem pay5_apply (x0 : Vec Ideal S5000x128 .f32) (x1 : Vec Ideal S128x64 .f32) (p : Fin 5000) (q : Fin 64) :
    Gen.k5_pay1 (F := Ideal) x0 x1 (ix2 p q) = ∑ k : Fin 128, x0 (ix2 p k) * x1 (ix2 k q) := by
  unfold Gen.k5_pay1
  refine (Ideal.matmul_rows_cols dot_S5000x128_S128x64_S5000x64_1_0_0_1_n_n rfl rfl rfl rfl rfl rfl none _ _ p q).trans ?_
  refine Finset.sum_congr rfl fun k _ => ?_
  rw [truncf_apply, truncf_apply, shapeCast_self]

theorem zero_offsets : (![0, 0] : Fin 2 → Nat) = fun _ => 0 := funext fun a => by fin_cases a <;> rfl

/-- The block indices at every point: the activations' and the result's row block is the point's number, their
    column block is 0; the weights' block is (0, 0). -/
theorem block_indices5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

variable (V : (c : Dev nD) → (b : Ref sig .tc) → Buf (Elt Ideal) ((c : Thread nD τ).loc b))

/-- Row p of the activations' block at point t is row 5000·t + p of the array. -/
theorem iblk5_0_apply (c : Dev nD) (t : Fin cfg5.N) (p : Fin 5000) (k : Fin 128) (r : Fin 50000)
    (hr : r.val = 5000 * t.val + p.val) :
    (iblk5 V c 0 t : Vec Ideal S5000x128 .f32) (ix2 p k)
      = (V c (Pipeline.arrRef spec5 0) : S50000x128.Idx → EReal) (ix2 r k) := by
  obtain ⟨e00, e01, -, -, -, -⟩ := block_indices5 t
  unfold iblk5
  rw [View.read_apply]
  refine congrArg (V c (Pipeline.arrRef spec5 0) : S50000x128.Idx → EReal) ?_
  funext a
  apply Fin.ext
  match a with
  | ⟨0, _⟩ => show win5_0.index t (0 : Fin 2) * 5000 + 1 * p.val = r.val; rw [e00, hr]; omega
  | ⟨1, _⟩ => show win5_0.index t (1 : Fin 2) * 128 + 1 * k.val = k.val; rw [e01]; omega

/-- The weights' block at every point is the whole weight array. -/
theorem iblk5_1_apply (c : Dev nD) (t : Fin cfg5.N) (k : Fin 128) (q : Fin 64) :
    (iblk5 V c 1 t : Vec Ideal S128x64 .f32) (ix2 k q)
      = (V c (Pipeline.arrRef spec5 1) : S128x64.Idx → EReal) (ix2 k q) := by
  obtain ⟨-, -, e10, e11, -, -⟩ := block_indices5 t
  unfold iblk5
  rw [View.read_apply]
  refine congrArg (V c (Pipeline.arrRef spec5 1) : S128x64.Idx → EReal) ?_
  funext a
  apply Fin.ext
  match a with
  | ⟨0, _⟩ => show win5_1.index t (0 : Fin 2) * 128 + 1 * k.val = k.val; rw [e10]; omega
  | ⟨1, _⟩ => show win5_1.index t (1 : Fin 2) * 64 + 1 * q.val = q.val; rw [e11]; omega

/-- What point t writes back is block t of `linear5` of the two entry arrays. -/
theorem flushed5_eq (c : Dev nD) (t : Fin cfg5.N) :
    (dat5 (F := Ideal) V c).flushed 2 t
      = ((cfg5.win 2).blk t).view.read (Elt Ideal)
          (linear5 (V c (Pipeline.arrRef spec5 0)) (V c (Pipeline.arrRef spec5 1))) := by
  show (cfg5.win 2).cut (grid5.coords t) ((dat5 V c).after 2 t) = _
  rw [after5_2]
  unfold out5_2
  rw [View.canon_unit_zero zero_offsets]
  simp only [View.ld_unit_zero (S := S5000x128) zero_offsets, View.ld_unit_zero (S := S128x64) zero_offsets]
  obtain ⟨-, -, -, -, e20, e21⟩ := block_indices5 t
  funext j
  obtain ⟨p, q, rfl⟩ : ∃ (p : Fin 5000) (q : Fin 64), j = ix2 p q := ⟨j 0, j 1, eq_ix2 j⟩
  have ht : t.val < 10 := by have h := t.isLt; have hN : cfg5.N = 10 := N_5; omega
  refine (pay5_apply (iblk5 V c 0 t) (iblk5 V c 1 t) p q).trans ?_
  show _ = linear5 (V c (Pipeline.arrRef spec5 0)) (V c (Pipeline.arrRef spec5 1)) (((cfg5.win 2).blk t).view.emb (ix2 p q))
  unfold linear5
  refine Finset.sum_congr rfl fun k _ => ?_
  refine congrArg₂ (· * ·) ?_ ?_
  · refine (iblk5_0_apply V c t p k ⟨5000 * t.val + p.val, by omega⟩ rfl).trans ?_
    refine congrArg (V c (Pipeline.arrRef spec5 0) : S50000x128.Idx → EReal) ?_
    funext a
    apply Fin.ext
    match a with
    | ⟨0, _⟩ => show 5000 * t.val + p.val = win5_2.index t (0 : Fin 2) * 5000 + 1 * p.val; rw [e20]; omega
    | ⟨1, _⟩ => rfl
  · refine (iblk5_1_apply V c t k q).trans ?_
    refine congrArg (V c (Pipeline.arrRef spec5 1) : S128x64.Idx → EReal) ?_
    funext a
    apply Fin.ext
    match a with
    | ⟨0, _⟩ => rfl
    | ⟨1, _⟩ => show q.val = win5_2.index t (1 : Fin 2) * 64 + 1 * q.val; rw [e21]; omega

/-- An index of the result array lies in point t's block iff each coordinate lies in the block's range on its axis. -/
theorem mem_blk5 (t : Fin cfg5.N) (i : S50000x64.Idx) :
    i ∈ ((cfg5.win 2).blk t).view.set
      ↔ ∀ a : Fin 2, win5_2.index t a * S5000x64.size a ≤ (i a).val
          ∧ (i a).val < win5_2.index t a * S5000x64.size a + S5000x64.size a := by
  show i ∈ ((View.whole main_v127).slice (win5_2.rect t)).set ↔ _
  rw [View.set_slice_whole, Rect.mem_set_unit]
  exact Iff.rfl

/-- Every index of the result array lies in the block of the point numbered by its row divided by 5000. -/
theorem cover5 (i : S50000x64.Idx) :
    ∃ t : Fin cfg5.N, (cfg5.win 2).flush t = true ∧ i ∈ ((cfg5.win 2).blk t).view.set := by
  have hi0 : (i 0).val < 50000 := (i 0).isLt
  have hi1 : (i 1).val < 64 := (i 1).isLt
  have hN : cfg5.N = 10 := N_5
  refine ⟨⟨(i 0).val / 5000, by rw [hN]; omega⟩, flush5_2 _, ?_⟩
  rw [mem_blk5]
  obtain ⟨-, -, -, -, e20, e21⟩ := block_indices5 ⟨(i 0).val / 5000, by rw [hN]; omega⟩
  intro a
  match a with
  | ⟨0, _⟩ =>
    show win5_2.index _ (0 : Fin 2) * 5000 ≤ (i 0).val ∧ (i 0).val < win5_2.index _ (0 : Fin 2) * 5000 + 5000
    rw [e20]
    show (i 0).val / 5000 * 5000 ≤ (i 0).val ∧ (i 0).val < (i 0).val / 5000 * 5000 + 5000
    omega
  | ⟨1, _⟩ =>
    show win5_2.index _ (1 : Fin 2) * 64 ≤ (i 1).val ∧ (i 1).val < win5_2.index _ (1 : Fin 2) * 64 + 64
    rw [e21]
    omega

/-- After region 5 its result array holds the dense layer of the two arrays the region found, X (the activations)
    and W (the weights): entry (r, q) is the sum over k of X[r, k] · W[k, q]. -/
theorem region5_value (c : Dev nD) (X : S50000x128.Idx → EReal) (W : S128x64.Idx → EReal)
    (hX : V c (Pipeline.arrRef spec5 0) = X) (hW : V c (Pipeline.arrRef spec5 1) = W) :
    (dat5 (F := Ideal) V c).arrAt 2 cfg5.N
      = fun i => ∑ k : Fin 128, X (ix2 (i 0) k) * W (ix2 k (i 1)) := by
  subst hX hW
  exact (dat5 V c).arrAt_eq_of_cover 2 (linear5 (V c (Pipeline.arrRef spec5 0)) (V c (Pipeline.arrRef spec5 1)))
    (fun t _ => flushed5_eq V c t) cover5

end Cert.KernelIdeal.RegionValue

end
-- ==== Proof.RefTerms.lean ====
import proofs.«160706_j53919019434042_2_alg».proof.Proof.Gen.ReferenceIdeal.Run
import Idealize.ShloMosaic.PureOps.Ideal

set_option maxRecDepth 16384

noncomputable section

namespace Cert.ReferenceIdeal.RefTerms

open Cert.ReferenceIdeal Cert.ReferenceIdeal.Gen Cert.ReferenceIdeal.Value Idealize.ShloMosaic Idealize.ShloMosaic.TcCoe Idealize.SL.Sem Idealize.ShloMosaic.StableHlo

/-- The first graph-convolution layer's output (rows of the middle graph), as the reference computes it: the term the
    second upsampling places into the zero matrix. -/
def t169 (V0 : Valuation τ sig (Elt Ideal)) : FVec Ideal S50000x128 .f32 :=
  maximumf (addf (addf (Host.scatterAdd scatter_S50000x128_S500000x1_S500000x128_1_0_0_1 (broadcastInDim S50000x128 ![] bcast_S_S50000x128 (constant S_ .f32 0x00000000#32)) (broadcastInDim S500000x1 ![0] bcast_S500000_S500000x1_0 (shapeCast _ (extractStridedSlice S1x500000 ![1, 0] (V0 (Proc.devRef .tc main_arg5)) slices_S2x500000_S1x500000_1_0) shapeCasts_S1x500000_S500000)) (mulf (broadcastInDim S500000x128 ![0, 1] bcast_S500000x1_S500000x128_0_1 (broadcastInDim S500000x1 ![0] bcast_S500000_S500000x1_0 (mulf (mulf (Host.gather gather_S50000_S500000x1_S500000_n_0_n_n_0_1_1 (res_main_v120 V0) (broadcastInDim S500000x1 ![0] bcast_S500000_S500000x1_0 (select (cmpi .slt (res_main_v122 V0) (broadcastInDim S500000 ![] bcast_S_S500000 (constantI S_ 32 0#32))) (addi (res_main_v122 V0) (broadcastInDim S500000 ![] bcast_S_S500000 (constantI S_ 32 50000#32))) (res_main_v122 V0)))) (V0 (Proc.devRef .tc main_arg7))) (Host.gather gather_S50000_S500000x1_S500000_n_0_n_n_0_1_1 (res_main_v120 V0) (broadcastInDim S500000x1 ![0] bcast_S500000_S500000x1_0 (select (cmpi .slt (res_main_v132 V0) (broadcastInDim S500000 ![] bcast_S_S500000 (constantI S_ 32 0#32))) (addi (res_main_v132 V0) (broadcastInDim S500000 ![] bcast_S_S500000 (constantI S_ 32 50000#32))) (res_main_v132 V0))))))) (Host.gather gather_S50000x128_S500000x1_S500000x128_1_0_n_n_0_1_1128 (res_main_v112 V0) (broadcastInDim S500000x1 ![0] bcast_S500000_S500000x1_0 (select (cmpi .slt (res_main_v143 V0) (broadcastInDim S500000 ![] bcast_S_S500000 (constantI S_ 32 0#32))) (addi (res_main_v143 V0) (broadcastInDim S500000 ![] bcast_S_S500000 (constantI S_ 32 50000#32))) (res_main_v143 V0)))))) (mulf (broadcastInDim S50000x128 ![0, 1] bcast_S50000x1_S50000x128_0_1 (broadcastInDim S50000x1 ![0] bcast_S50000_S50000x1_0 (mulf (mulf (broadcastInDim S50000 ![] bcast_S_S50000 (constant S_ .f32 0x40000000#32)) (res_main_v120 V0)) (res_main_v120 V0)))) (res_main_v112 V0))) (broadcastInDim S50000x128 ![0, 1] bcast_S1x128_S50000x128_0_1 (broadcastInDim S1x128 ![1] bcast_S128_S1x128_1 (V0 (Proc.devRef .tc main_arg23))))) (broadcastInDim S50000x128 ![] bcast_S_S50000x128 (constant S_ .f32 0x00000000#32))

set_option maxRecDepth 8192 in
theorem res178_eq (V0 : Valuation τ sig (Elt Ideal)) :
    res_main_v178 (F := Ideal) V0 = Host.dotGeneral (φ₁ := .f32) (φ₂ := .f32) dot_S100000x128_S128x64_S100000x64_1_0_0_1_n_n none
      (Host.scatter scatter_S100000x128_S50000x1_S50000x128_1_0_0_1 (fun _ b => b) (broadcastInDim S100000x128 ![] bcast_S_S100000x128 (constant S_ .f32 0x00000000#32)) (broadcastInDim S50000x1 ![0] bcast_S50000_S50000x1_0 (select (cmpi .slt (V0 (Proc.devRef .tc main_arg8)) (broadcastInDim S50000 ![] bcast_S_S50000 (constantI S_ 32 0#32))) (addi (V0 (Proc.devRef .tc main_arg8)) (broadcastInDim S50000 ![] bcast_S_S50000 (constantI S_ 32 100000#32))) (V0 (Proc.devRef .tc main_arg8)))) (t169 V0))
      (V0 (Proc.devRef .tc main_arg24)) := rfl

end Cert.ReferenceIdeal.RefTerms

end
-- ==== Proof.Stage6.lean ====
/-
  The second upsampling: the kernel multiplies the 50000 rows by the 128 × 64 weight matrix and then places the
  products at the given rows of a 100000-row zero matrix; the reference places the rows first and multiplies the
  100000-row matrix. Placing rows and multiplying on the right commute.
-/
import proofs.«160706_j53919019434042_2_alg».proof.Defs
import proofs.«160706_j53919019434042_2_alg».proof.Proof.Gen.ReferenceIdeal.Run
import proofs.«160706_j53919019434042_2_alg».proof.Proof.KernelRun
import proofs.«160706_j53919019434042_2_alg».proof.Proof.ArgsKept
import proofs.«160706_j53919019434042_2_alg».proof.Proof.RegionLinear5
import proofs.«160706_j53919019434042_2_alg».proof.Proof.LibScatterSetRows
import proofs.«160706_j53919019434042_2_alg».proof.Proof.LibDotGeneralEntry
import proofs.«160706_j53919019434042_2_alg».proof.Proof.RefTerms
import Idealize.ShloMosaic.Lib.StableHlo.Run
import Idealize.ShloMosaic.Lib.ValueIdx

set_option maxRecDepth 16384

noncomputable section

namespace Cert.Proof.Stage6

open Idealize.ShloMosaic Idealize.ShloMosaic.TcCoe Idealize.SL.Sem Idealize.ShloMosaic.StableHlo Idealize.ShloMosaic.ValueIdx
open Cert.KernelIdeal Cert.KernelIdeal.Gen

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

/-- A matrix of zeros, entry by entry. -/
theorem zeros_apply {s : Shape} (hb : (⟨0, ![]⟩ : Shape).BroadcastsInDim s (![] : Fin 0 → Fin s.rank)) (i : s.Idx) :
    (broadcastInDim s ![] hb (constant (F := Ideal) (⟨0, ![]⟩ : Shape) .f32 0x00000000#32) : s.Idx → EReal) i = 0 := by
  simp only [broadcastInDim, constant]
  exact Ideal.ofBits_zero_f32

set_option maxHeartbeats 4000000 in
/-- What the host operations between the sixth region and the last leave in the buffer of the placed rows. -/
theorem placed_rows (c : Dev nD) :
    W12 m ρ c (Proc.devRef .tc main_v135) =
      Host.scatter scatter_S100000x64_S50000x1_S50000x64_1_0_0_1 (fun _ b => b)
        (broadcastInDim S100000x64 ![] bcast_S_S100000x64 (constant (F := Ideal) S_ .f32 0x00000000#32))
        (broadcastInDim S50000x1 ![0] bcast_S50000_S50000x1_0
          (select (cmpi .slt (W11 m ρ c (Proc.devRef .tc main_arg8)) (broadcastInDim S50000 ![] bcast_S_S50000 (constantI S_ 32 0#32)))
            (addi (W11 m ρ c (Proc.devRef .tc main_arg8)) (broadcastInDim S50000 ![] bcast_S_S50000 (constantI S_ 32 100000#32)))
            (W11 m ρ c (Proc.devRef .tc main_arg8))))
        (W11 m ρ c (Proc.devRef .tc main_v127)) := by
  dsimp only [W12]
  simp only [hostOps6]
  after_results_simp

set_option maxHeartbeats 4000000 in
/-- The rows the kernel places (products of the 50000 rows with the weight matrix) are the reference's product of
    the placed rows with the weight matrix: the two results of the second upsampling are one array. -/
theorem stage6 (c : Dev nD) (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) (h24 : m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24))
    (h5 : W10 m ρ c (Proc.devRef .tc main_v126) = Cert.ReferenceIdeal.RefTerms.t169 (launchContents m' c)) :
    W12 m ρ c (Proc.devRef .tc main_v135) = Cert.ReferenceIdeal.Value.res_main_v178 (F := Ideal) (launchContents m' c) := by
  rw [placed_rows, Cert.ReferenceIdeal.RefTerms.res178_eq]
  rw [ArgsKept.W11_arg8 m ρ c]
  have e8 : launchContents m' c (Proc.devRef .tc Cert.ReferenceIdeal.main_arg8) = m ((c : Thread nD τ).loc main_arg8) := h8
  have e24 : launchContents m' c (Proc.devRef .tc Cert.ReferenceIdeal.main_arg24) = m ((c : Thread nD τ).loc main_arg24) := h24
  rw [e8, e24]
  have hUW : W11 m ρ c (Proc.devRef .tc main_v127) = fun i => ∑ k : Fin 128,
      (Cert.ReferenceIdeal.RefTerms.t169 (launchContents m' c)) (ix2 (i 0) k) * (m ((c : Thread nD τ).loc main_arg24) : S128x64.Idx → EReal) (ix2 k (i 1)) :=
    (W11_arr m ρ c 2).trans (RegionValue.region5_value (V10 m ρ) c _ _ h5 (ArgsKept.W10_arg24 m ρ c))
  rw [hUW]
  funext i
  obtain ⟨n, q, rfl⟩ : ∃ (n : Fin 100000) (q : Fin 64), i = ix2 n q := ⟨i 0, i 1, eq_ix2 i⟩
  refine Eq.trans ?_ (Ideal.dotGeneral_rows_cols Cert.ReferenceIdeal.dot_S100000x128_S128x64_S100000x64_1_0_0_1_n_n rfl rfl rfl rfl rfl rfl none .single _ _ n q).symm
  exact (scatter_set_rows_mul_right (N := 100000) (E := 50000) (C := 128) (C' := 64)
    Cert.ReferenceIdeal.scatter_S100000x128_S50000x1_S50000x128_1_0_0_1.wf scatter_S100000x64_S50000x1_S50000x64_1_0_0_1.wf _ _ _ _
    (fun i => zeros_apply _ i) _ (fun i => zeros_apply _ i) _ (fun e q => rfl) n q).symm

end Cert.Proof.Stage6

end
-- ==== Proof.KHost3.lean ====
import proofs.«160706_j53919019434042_2_alg».proof.Proof.Gen.KernelIdeal.Frame
import proofs.«160706_j53919019434042_2_alg».proof.Proof.ArgsKept
import proofs.«160706_j53919019434042_2_alg».proof.Proof.LibBroadcastEntry
import proofs.«160706_j53919019434042_2_alg».proof.Proof.LibDotGeneralEntry
import Idealize.ShloMosaic.Lib.StableHlo.Run
import Idealize.ShloMosaic.Lib.ValueLayout

set_option maxRecDepth 16384

noncomputable section

open scoped BigOperators

namespace Cert.KernelIdeal.HostRead
open Cert.KernelIdeal Cert.KernelIdeal.Gen
open Idealize.ShloMosaic Idealize.ShloMosaic.TcCoe Idealize.ShloMosaic.Tactic
open Idealize.SL Idealize.SL.Sem
open Idealize.ShloMosaic.StableHlo Idealize.ShloMosaic.ValueIdx

variable (m : (ℓ : Loc nD τ sig) → Buf (Elt Ideal) ℓ) (ρ : Dev nD → PrngReg) (c : Dev nD)

local notation "c25" => Ideal.ofBits FTy.f32 0x46C35000#32
local notation "eps" => Ideal.ofBits FTy.f32 0x3727C5AC#32

/-!
# The host lines between the second statistics pass and the next linear map, read at an entry

From the per-channel sums `T1` (of the rows) and `T2` (of their squares) the host computes, per channel `k`, the mean
`T1 k / 25000`, the clamped variance `max (T2 k / 25000 - mean²) 0`, and the factor `a k = g k · rsqrt (var k + 10⁻⁵)`;
then it rescales the rows of the next weight matrix by `a` and forms the constant row
`∑ₖ (bt k - mean k · a k) · W (k, q)`: the normalisation folded into the next linear map.
-/

/-- The mean of channel `k`: the channel's sum divided by 25000. -/
abbrev bnMean (T1 : S1x128.Idx → EReal) (k : Fin 128) : EReal := Ideal.div (T1 (ix2 0 k)) c25

/-- The clamped variance of channel `k`: the mean of the squares minus the square of the mean, at least zero. -/
abbrev bnVar (T1 T2 : S1x128.Idx → EReal) (k : Fin 128) : EReal :=
  max (Ideal.div (T2 (ix2 0 k)) c25 - bnMean T1 k * bnMean T1 k) 0

/-- The factor of channel `k`: its scale times the reciprocal square root of its variance plus 10⁻⁵. -/
abbrev bnFac (T1 T2 : S1x128.Idx → EReal) (g2 : S128.Idx → EReal) (k : Fin 128) : EReal :=
  g2 (ix1 k) * Ideal.rsqrt (bnVar T1 T2 k + eps)

/-- A `[1, a]` row cast to the `[a, 1]` column reads, at `(p, 0)`, the row at `(0, p)`. -/
theorem shapeCast_1a_a1_apply {α : Type} {a : ℕ} (x : (⟨2, ![1, a]⟩ : Shape).Idx → α)
    (h : (⟨2, ![1, a]⟩ : Shape).ShapeCasts ⟨2, ![a, 1]⟩) (p : Fin a) (u : Fin 1) :
    shapeCast ⟨2, ![a, 1]⟩ x h (ix2 p u) = x (ix2 (0 : Fin 1) p) :=
  shapeCast_apply x h _ _ (by
    have hu : u.val = 0 := by omega
    rw [Shape.rowMajor_val_two, Shape.rowMajor_val_two]
    show 0 * a + p.val = p.val * 1 + u.val
    rw [hu, Nat.zero_mul, Nat.zero_add, Nat.mul_one, Nat.add_zero])

/-- The row of means, as the host computes it. -/
abbrev meanRow : S1x128.Idx → EReal :=
  Host.divf (F := Ideal) (φ := .f32) (W6 m ρ c (Proc.devRef .tc main_v44_1))
    (broadcastInDim S1x128 ![] bcast_S_S1x128 (constant (F := Ideal) S_ .f32 0x46C35000#32))

/-- The row of clamped variances, as the host computes it. -/
abbrev varRow : S1x128.Idx → EReal :=
  maximumf (F := Ideal) (φ := .f32)
    (subf (F := Ideal) (φ := .f32)
      (Host.divf (F := Ideal) (φ := .f32) (W6 m ρ c (Proc.devRef .tc main_v44_2))
        (broadcastInDim S1x128 ![] bcast_S_S1x128 (constant (F := Ideal) S_ .f32 0x46C35000#32)))
      (mulf (F := Ideal) (φ := .f32) (meanRow m ρ c) (meanRow m ρ c)))
    (broadcastInDim S1x128 ![] bcast_S_S1x128 (constant (F := Ideal) S_ .f32 0x00000000#32))

/-- The row of factors, as the host computes it. -/
abbrev aRow : S1x128.Idx → EReal :=
  mulf (F := Ideal) (φ := .f32)
    (shapeCast (α := EReal) S1x128 (W6 m ρ c (Proc.devRef .tc main_arg20)) shapeCasts_S128_S1x128)
    (Host.rsqrt (F := Ideal) (φ := .f32)
      (addf (F := Ideal) (φ := .f32) (varRow m ρ c)
        (broadcastInDim S1x128 ![] bcast_S_S1x128 (constant (F := Ideal) S_ .f32 0x3727C5AC#32))))

/-- The row of constants `bt - mean · a`, as the host computes it. -/
abbrev ccRow : S1x128.Idx → EReal :=
  subf (F := Ideal) (φ := .f32)
    (shapeCast (α := EReal) S1x128 (W6 m ρ c (Proc.devRef .tc main_arg21)) shapeCasts_S128_S1x128)
    (mulf (F := Ideal) (φ := .f32) (meanRow m ρ c) (aRow m ρ c))

theorem meanRow_apply (k : Fin 128) :
    meanRow m ρ c (ix2 0 k) = bnMean (W6 m ρ c (Proc.devRef .tc main_v44_1)) k := rfl

theorem varRow_apply (k : Fin 128) :
    varRow m ρ c (ix2 0 k)
      = bnVar (W6 m ρ c (Proc.devRef .tc main_v44_1)) (W6 m ρ c (Proc.devRef .tc main_v44_2)) k := by
  show max (Ideal.div _ c25 - meanRow m ρ c (ix2 0 k) * meanRow m ρ c (ix2 0 k)) (Ideal.ofBits .f32 0x00000000#32) = _
  rw [Ideal.ofBits_zero_f32]
  rfl

theorem aRow_apply (k : Fin 128) :
    aRow m ρ c (ix2 0 k)
      = bnFac (W6 m ρ c (Proc.devRef .tc main_v44_1)) (W6 m ρ c (Proc.devRef .tc main_v44_2))
          (m ((c : Thread nD τ).loc main_arg20)) k := by
  show shapeCast (α := EReal) S1x128 (W6 m ρ c (Proc.devRef .tc main_arg20)) shapeCasts_S128_S1x128 (ix2 0 k)
      * Ideal.rsqrt (varRow m ρ c (ix2 0 k) + eps) = _
  rw [shapeCast_a_1a_apply, varRow_apply, ArgsKept.W6_arg20]

theorem ccRow_apply (k : Fin 128) :
    ccRow m ρ c (ix2 0 k)
      = (fun (bt2 : S128.Idx → EReal) => bt2 (ix1 k)) (m ((c : Thread nD τ).loc main_arg21))
        - bnMean (W6 m ρ c (Proc.devRef .tc main_v44_1)) k
          * bnFac (W6 m ρ c (Proc.devRef .tc main_v44_1)) (W6 m ρ c (Proc.devRef .tc main_v44_2))
              (m ((c : Thread nD τ).loc main_arg20)) k := by
  show shapeCast (α := EReal) S1x128 (W6 m ρ c (Proc.devRef .tc main_arg21)) shapeCasts_S128_S1x128 (ix2 0 k)
      - meanRow m ρ c (ix2 0 k) * aRow m ρ c (ix2 0 k) = _
  rw [shapeCast_a_1a_apply, meanRow_apply, aRow_apply, ArgsKept.W6_arg21]

/-- The rows of the second statistics pass are not touched by these host lines. -/
theorem k3_raw : W7 m ρ c (Proc.devRef .tc main_v44_0) = W6 m ρ c (Proc.devRef .tc main_v44_0) := by
  not_written hostOps3

set_option maxHeartbeats 4000000 in
/-- The rescaled weights: row `k` of the next weight matrix times the factor of channel `k`. -/
theorem k3_weight (T1 T2 : S1x128.Idx → EReal) (g2 : S128.Idx → EReal) (Wg : S128x128.Idx → EReal)
    (hT1 : W6 m ρ c (Proc.devRef .tc main_v44_1) = T1) (hT2 : W6 m ρ c (Proc.devRef .tc main_v44_2) = T2)
    (hg : m ((c : Thread nD τ).loc main_arg20) = g2) (hW : m ((c : Thread nD τ).loc main_arg22) = Wg)
    (k q : Fin 128) :
    (W7 m ρ c (Proc.devRef .tc main_v63) : S128x128.Idx → EReal) (ix2 k q) = bnFac T1 T2 g2 k * Wg (ix2 k q) := by
  subst hT1 hT2 hg hW
  have e : (W7 m ρ c (Proc.devRef .tc main_v63) : S128x128.Idx → EReal)
      = mulf (F := Ideal) (φ := .f32)
          (broadcastInDim S128x128 ![0, 1] bcast_S128x1_S128x128_0_1
            (shapeCast S128x1 (aRow m ρ c) shapeCasts_S1x128_S128x1))
          (W6 m ρ c (Proc.devRef .tc main_arg22)) := by
    dsimp only [W7, aRow, varRow, meanRow]; simp only [hostOps3]; after_results_simp; rfl
  rw [e]
  show broadcastInDim S128x128 ![0, 1] bcast_S128x1_S128x128_0_1
        (shapeCast S128x1 (aRow m ρ c) shapeCasts_S1x128_S128x1) (ix2 k q)
      * (fun (A : S128x128.Idx → EReal) => A (ix2 k q)) (W6 m ρ c (Proc.devRef .tc main_arg22)) = _
  rw [broadcastInDim_a1_ab_apply, shapeCast_1a_a1_apply, aRow_apply, ArgsKept.W6_arg22]

set_option maxHeartbeats 4000000 in
/-- The constant row: `∑ₖ (bt k - mean k · a k) · W (k, q)`. -/
theorem k3_bias (T1 T2 : S1x128.Idx → EReal) (g2 bt2 : S128.Idx → EReal) (Wg : S128x128.Idx → EReal)
    (hT1 : W6 m ρ c (Proc.devRef .tc main_v44_1) = T1) (hT2 : W6 m ρ c (Proc.devRef .tc main_v44_2) = T2)
    (hg : m ((c : Thread nD τ).loc main_arg20) = g2) (hbt : m ((c : Thread nD τ).loc main_arg21) = bt2)
    (hW : m ((c : Thread nD τ).loc main_arg22) = Wg) (q : Fin 128) :
    (W7 m ρ c (Proc.devRef .tc main_v66) : S1x128.Idx → EReal) (ix2 0 q)
      = ∑ k : Fin 128, (bt2 (ix1 k) - bnMean T1 k * bnFac T1 T2 g2 k) * Wg (ix2 k q) := by
  subst hT1 hT2 hg hbt hW
  have e : (W7 m ρ c (Proc.devRef .tc main_v66) : S1x128.Idx → EReal)
      = shapeCast S1x128
          (shapeCast S128
            (Host.dotGeneral (F := Ideal) (φ₁ := .f32) (φ₂ := .f32) dot_S1x128_S128x128_S1x128_1_0_0_1_n_n none
              (ccRow m ρ c) (W6 m ρ c (Proc.devRef .tc main_arg22)))
            shapeCasts_S1x128_S128)
          shapeCasts_S128_S1x128 := by
    dsimp only [W7, ccRow, aRow, varRow, meanRow]; simp only [hostOps3]; after_results_simp; rfl
  rw [e, shapeCast_a_1a_apply, shapeCast_1a_a_apply]
  refine (Ideal.dotGeneral_rows_cols (φ₁ := .f32) (φ₂ := .f32) dot_S1x128_S128x128_S1x128_1_0_0_1_n_n
    rfl rfl rfl rfl rfl rfl none .single
    (ccRow m ρ c) (W6 m ρ c (Proc.devRef .tc main_arg22)) 0 q).trans ?_
  refine Finset.sum_congr rfl fun k _ => ?_
  rw [ccRow_apply, ArgsKept.W6_arg22]

end Cert.KernelIdeal.HostRead
-- ==== Proof.Stage4.lean ====
/-
  The first upsampling, with the second normalisation folded into it. The reference normalises each channel of the
  25000 rows (scale g·rsqrt(var + ε), shift), places the rows into a 50000-row zero matrix and multiplies by the
  128 × 128 weight matrix. The kernel never forms the normalised rows: it multiplies the raw rows by the weight
  matrix with row k scaled by a_k = g_k·rsqrt(var_k + ε), adds the bias row Σ_k (bt_k − mean_k·a_k)·W_k, and places the
  products. Row by row the two agree because Σ_k ((g_k (x_k − mean_k)) inv_k + bt_k) w_k = Σ_k x_k (a_k w_k) + Σ_k (bt_k − mean_k a_k) w_k
  over the reals, the kernel's clamped "mean of squares minus squared mean" being the reference's mean of squared
  deviations; and placing rows commutes with the multiplication.
-/
import proofs.«160706_j53919019434042_2_alg».proof.Defs
import proofs.«160706_j53919019434042_2_alg».proof.Proof.Gen.ReferenceIdeal.Run
import proofs.«160706_j53919019434042_2_alg».proof.Proof.KernelRun
import proofs.«160706_j53919019434042_2_alg».proof.Proof.ArgsKept
import proofs.«160706_j53919019434042_2_alg».proof.Proof.RegionLinear3
import proofs.«160706_j53919019434042_2_alg».proof.Proof.LibScatterSetRows
import proofs.«160706_j53919019434042_2_alg».proof.Proof.LibDotGeneralEntry
import proofs.«160706_j53919019434042_2_alg».proof.Proof.LibBatchNorm
import proofs.«160706_j53919019434042_2_alg».proof.Proof.RefStage103
import proofs.«160706_j53919019434042_2_alg».proof.Proof.Stage6
import proofs.«160706_j53919019434042_2_alg».proof.Proof.KHost3
import Idealize.ShloMosaic.Lib.StableHlo.Run
import Idealize.ShloMosaic.Lib.ValueIdx

set_option maxRecDepth 16384

noncomputable section

open scoped BigOperators

namespace Cert.Proof.Stage4

open Idealize.ShloMosaic Idealize.ShloMosaic.TcCoe Idealize.SL.Sem Idealize.ShloMosaic.StableHlo Idealize.ShloMosaic.ValueIdx
open Idealize.ShloMosaic.FiniteSums
open Cert.KernelIdeal Cert.KernelIdeal.Gen

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

set_option maxHeartbeats 4000000 in
/-- What the host operations after the fourth region leave in the buffer of the placed rows. -/
theorem placed_rows (c : Dev nD) :
    W9 m ρ c (Proc.devRef .tc main_v75) =
      Host.scatter scatter_S50000x128_S25000x1_S25000x128_1_0_0_1 (fun _ b => b)
        (broadcastInDim S50000x128 ![] bcast_S_S50000x128 (constant (F := Ideal) S_ .f32 0x00000000#32))
        (broadcastInDim S25000x1 ![0] bcast_S25000_S25000x1_0
          (select (cmpi .slt (W8 m ρ c (Proc.devRef .tc main_arg9)) (broadcastInDim S25000 ![] bcast_S_S25000 (constantI S_ 32 0#32)))
            (addi (W8 m ρ c (Proc.devRef .tc main_arg9)) (broadcastInDim S25000 ![] bcast_S_S25000 (constantI S_ 32 50000#32)))
            (W8 m ρ c (Proc.devRef .tc main_arg9))))
        (W8 m ρ c (Proc.devRef .tc main_v67)) := by
  dsimp only [W9]
  simp only [hostOps4]
  after_results_simp

local notation "c25" => Ideal.ofBits FTy.f32 0x46C35000#32
local notation "eps" => Ideal.ofBits FTy.f32 0x3727C5AC#32

/-- With `T1` the column sums of `R`, the mean the kernel's host lines compute is the reference's column mean. -/
theorem mean_eq (R : S25000x128.Idx → EReal) (T1 : S1x128.Idx → EReal)
    (hs : ∀ k : Fin 128, T1 (ix2 0 k) = ∑ r : Fin 25000, R (ix2 r k)) (k : Fin 128) :
    HostRead.bnMean T1 k = Cert.HostLayer.colMean R c25 k := by
  show Ideal.div (T1 (ix2 0 k)) c25 = Ideal.div (0 + ∑ r : Fin 25000, R (ix2 r k)) c25
  rw [hs k, zero_add]

/-- With `T1`, `T2` the column sums of `R` and of its squares, and `R` real, the clamped variance the kernel's host
    lines compute is the reference's mean square deviation. -/
theorem var_eq (R : S25000x128.Idx → EReal) (T1 T2 : S1x128.Idx → EReal)
    (hs : ∀ k : Fin 128, T1 (ix2 0 k) = ∑ r : Fin 25000, R (ix2 r k))
    (hss : ∀ k : Fin 128, T2 (ix2 0 k) = ∑ r : Fin 25000, R (ix2 r k) * R (ix2 r k))
    (hreal : ∀ i, IsReal (R i)) (k : Fin 128) :
    HostRead.bnVar T1 T2 k = Cert.HostLayer.colVar R c25 k := by
  show max (Ideal.div (T2 (ix2 0 k)) c25 - Ideal.div (T1 (ix2 0 k)) c25 * Ideal.div (T1 (ix2 0 k)) c25) 0 = _
  rw [hs k, hss k]
  exact (variance_words (fun r => R (ix2 r k)) (fun r => hreal _)).symm

set_option maxHeartbeats 4000000 in
/-- The rows the kernel places (raw rows times the rescaled weights, plus the constant row) are the reference's
    product of the placed normalised rows with the weight matrix: the two results of the first upsampling are one array. -/
theorem stage4 (c : Dev nD)
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (h21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21))
    (h22 : m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22))
    (R : S25000x128.Idx → EReal) (hR : R = Cert.ReferenceIdeal.Value.res_main_v78 (F := Ideal) (launchContents m' c))
    (T1 T2 : S1x128.Idx → EReal) (hT1 : W6 m ρ c (Proc.devRef .tc main_v44_1) = T1)
    (hT2 : W6 m ρ c (Proc.devRef .tc main_v44_2) = T2)
    (h3 : W6 m ρ c (Proc.devRef .tc main_v44_0) = R)
    (hs : ∀ k : Fin 128, T1 (ix2 0 k) = ∑ r : Fin 25000, R (ix2 r k))
    (hss : ∀ k : Fin 128, T2 (ix2 0 k) = ∑ r : Fin 25000, R (ix2 r k) * R (ix2 r k))
    (g2 bt2 : S128.Idx → EReal) (Wg : S128x128.Idx → EReal)
    (hg2 : m ((c : Thread nD τ).loc main_arg20) = g2) (hbt2 : m ((c : Thread nD τ).loc main_arg21) = bt2)
    (hWg : m ((c : Thread nD τ).loc main_arg22) = Wg)
    (hreal : ∀ i, IsReal (R i)) (hg : ∀ i, IsReal (g2 i)) (hbt : ∀ i, IsReal (bt2 i)) (hW : ∀ i, IsReal (Wg i)) :
    W9 m ρ c (Proc.devRef .tc main_v75)
      = Cert.ReferenceIdeal.Value.res_main_v112 (F := Ideal) (launchContents m' c) := by
  rw [placed_rows, Cert.ReferenceIdeal.RefValue.res_main_v112_eq]
  rw [ArgsKept.W8_arg9 m ρ c]
  have e9 : launchContents m' c (Proc.devRef .tc Cert.ReferenceIdeal.main_arg9) = m ((c : Thread nD τ).loc main_arg9) := h9
  have e20 : launchContents m' c (Proc.devRef .tc Cert.ReferenceIdeal.main_arg20) = g2 := h20.trans hg2
  have e21 : launchContents m' c (Proc.devRef .tc Cert.ReferenceIdeal.main_arg21) = bt2 := h21.trans hbt2
  have e22 : launchContents m' c (Proc.devRef .tc Cert.ReferenceIdeal.main_arg22) = Wg := h22.trans hWg
  rw [e9, e22]
  -- what the linear-map region leaves: raw rows times its weights, plus its bias row
  have hX : V7 m ρ c (Pipeline.arrRef spec3 0) = R := (HostRead.k3_raw m ρ c).trans h3
  have hOut : W8 m ρ c (Proc.devRef .tc main_v67) = fun i => (∑ k : Fin 128,
      R (ix2 (i 0) k) * (W7 m ρ c (Proc.devRef .tc main_v63) : S128x128.Idx → EReal) (ix2 k (i 1)))
        + (W7 m ρ c (Proc.devRef .tc main_v66) : S1x128.Idx → EReal) (ix2 (0 : Fin 1) (i 1)) :=
    (W8_arr m ρ c 3).trans (RegionValue.region3_value (V7 m ρ) c R _ _ hX rfl rfl)
  rw [hOut]
  funext i
  obtain ⟨n, q, rfl⟩ : ∃ (n : Fin 50000) (q : Fin 128), i = ix2 n q := ⟨i 0, i 1, eq_ix2 i⟩
  refine Eq.trans ?_ (Ideal.dotGeneral_rows_cols Cert.ReferenceIdeal.dot_S50000x128_S128x128_S50000x128_1_0_0_1_n_n
    rfl rfl rfl rfl rfl rfl none .single _ _ n q).symm
  refine (scatter_set_rows_mul_right (N := 50000) (E := 25000) (C := 128) (C' := 128)
    Cert.ReferenceIdeal.scatter_S50000x128_S25000x1_S25000x128_1_0_0_1.wf scatter_S50000x128_S25000x1_S25000x128_1_0_0_1.wf _ _ _ _
    (fun i => Stage6.zeros_apply _ i) _ (fun i => Stage6.zeros_apply _ i) _ (fun e q => ?_) n q).symm
  -- one placed row: the folded form is the normalised row times the weights
  show (∑ k : Fin 128, R (ix2 e k) * (W7 m ρ c (Proc.devRef .tc main_v63) : S128x128.Idx → EReal) (ix2 k q))
        + (W7 m ρ c (Proc.devRef .tc main_v66) : S1x128.Idx → EReal) (ix2 (0 : Fin 1) q)
      = ∑ k : Fin 128, Cert.ReferenceIdeal.RefValue.ref_v103 (launchContents m' c) (ix2 e k) * Wg (ix2 k q)
  rw [HostRead.k3_bias m ρ c T1 T2 g2 bt2 Wg hT1 hT2 hg2 hbt2 hWg q]
  have hw : ∀ k : Fin 128, R (ix2 e k) * (W7 m ρ c (Proc.devRef .tc main_v63) : S128x128.Idx → EReal) (ix2 k q)
      = R (ix2 e k) * (HostRead.bnFac T1 T2 g2 k * Wg (ix2 k q)) := fun k => by
    rw [HostRead.k3_weight m ρ c T1 T2 g2 Wg hT1 hT2 hg2 hWg k q]
  rw [Finset.sum_congr rfl fun k _ => hw k]
  have hr : ∀ k : Fin 128, Cert.ReferenceIdeal.RefValue.ref_v103 (launchContents m' c) (ix2 e k) * Wg (ix2 k q)
      = ((g2 (ix1 k) * (R (ix2 e k) - Cert.HostLayer.colMean R c25 k))
          * Ideal.rsqrt (Cert.HostLayer.colVar R c25 k + eps) + bt2 (ix1 k)) * Wg (ix2 k q) := fun k => by
    rw [Cert.ReferenceIdeal.RefValue.ref_v103_apply (launchContents m' c) R g2 bt2 hR e20.symm e21.symm (ix2 e k)]
  rw [Finset.sum_congr rfl fun k _ => hr k]
  exact (norm_fold_named (fun k => R (ix2 e k)) (fun k => g2 (ix1 k)) (fun k => Cert.HostLayer.colMean R c25 k)
    (fun k => Ideal.rsqrt (Cert.HostLayer.colVar R c25 k + eps)) (fun k => bt2 (ix1 k)) (fun k => Wg (ix2 k q))
    (fun k => HostRead.bnFac T1 T2 g2 k) (fun k => bt2 (ix1 k) - HostRead.bnMean T1 k * HostRead.bnFac T1 T2 g2 k)
    (fun k => hreal _) (fun k => hg _)
    (fun k => isReal_mean_zero_add (fun r => R (ix2 r k)) (fun r => hreal _))
    (fun k => isReal_rsqrt_var_dev (fun r => R (ix2 r k)) (fun r => hreal _))
    (fun k => hbt _) (fun k => hW _)
    (fun k => by
      show g2 (ix1 k) * Ideal.rsqrt (HostRead.bnVar T1 T2 k + eps) = _
      rw [var_eq R T1 T2 hs hss hreal k])
    (fun k => by rw [mean_eq R T1 hs k])).symm

end Cert.Proof.Stage4

end
-- ==== Proof.RegionCombine4.lean ====
/-
  The middle pointwise layer: out = max ((A + S · H) + b) 0 on a [50000, 128] array, where S is a [50000, 1] column
  (one factor per row) and b a [1, 128] row (one bias per column); the maximum with zero is the rectifier.

  The grid has 10 points; point t handles rows 5000·t … 5000·t + 4999 of A, H, S and of the output, and sees the
  whole bias row. Entry (r, k) of the output therefore depends on A (r, k), H (r, k), S (r, 0) and b (0, k) only,
  and the point that writes it is r / 5000.
-/
import proofs.«160706_j53919019434042_2_alg».proof.Proof.Gen.KernelIdeal.Frame
import proofs.«160706_j53919019434042_2_alg».proof.Proof.LibBroadcastEntry
import Idealize.ShloMosaic.Lib.ValueIdx
import Idealize.ShloMosaic.Lib.ValueLayout
import Idealize.ShloMosaic.Lib.Pipeline.Value
import Idealize.ShloMosaic.Lib.Tactic
import Idealize.ShloMosaic.PureOps.Ideal.Laws

noncomputable section

open Idealize.ShloMosaic Idealize.ShloMosaic.TcCoe Idealize.ShloMosaic.ValueIdx Idealize.SL.Sem
open Idealize.ShloMosaic.Pipeline (Dat)

namespace Cert.KernelIdeal.RegionValue

open Cert.KernelIdeal Cert.KernelIdeal.Gen

/-- The zero offsets of a whole-block access. -/
theorem offsets_zero4 : (![0, 0] : Fin 2 → Nat) = fun _ => 0 := funext fun a => by fin_cases a <;> rfl

/-- The layer on whole arrays, entry by entry: row factor times H added to A, then the column's bias, then the
    maximum with zero. -/
def combine4 (A H : S50000x128.Idx → EReal) (S : S50000x1.Idx → EReal) (b : S1x128.Idx → EReal) :
    S50000x128.Idx → EReal :=
  fun i => max ((A i + S (ix2 (i 0) 0) * H i) + b (ix2 0 (i 1))) 0

/-- The body's stored value at entry (p, q) of a block: the same formula on the loaded blocks. -/
theorem combine4_payload (v0 : Vec Ideal S5000x128 .f32) (v2 : Vec Ideal S5000x1 .f32) (v4 : Vec Ideal S5000x128 .f32)
    (v9 : Vec Ideal S1x128 .f32) (p : Fin 5000) (q : Fin 128) :
    k4_pay1 (F := Ideal) v0 v2 v4 v9 (ix2 p q)
      = max ((v0 (ix2 p q) + v2 (ix2 p (0 : Fin 1)) * v4 (ix2 p q)) + v9 (ix2 (0 : Fin 1) q)) 0 := by
  unfold k4_pay1
  simp only [shapeCast_self]
  rw [maximumf_apply, addf_apply, addf_apply, mulf_apply, broadcastTo_a1_ab_apply, broadcastTo_1b_ab_apply,
    broadcast_apply]
  show max _ (Ideal.ofBits .f32 0x00000000#32) = _
  rw [Ideal.ofBits_zero_f32]

/-- What the body leaves in the output block at entry j, when the four input blocks hold, at the entries the
    formula reads, the whole arrays' values at the entries it reads for i. -/
theorem out4_entry (x0 x1 : Vec Ideal S5000x128 .f32) (x2 : Vec Ideal S5000x1 .f32) (x3 : Vec Ideal S1x128 .f32)
    (A H : S50000x128.Idx → EReal) (S : S50000x1.Idx → EReal) (b : S1x128.Idx → EReal)
    (p : Fin 5000) (q : Fin 128) (i : S50000x128.Idx)
    (h0 : x0 (ix2 p q) = A i) (h1 : x1 (ix2 p q) = H i)
    (h2 : x2 (ix2 p (0 : Fin 1)) = S (ix2 (i 0) 0)) (h3 : x3 (ix2 (0 : Fin 1) q) = b (ix2 0 (i 1))) :
    out4_4 (F := Ideal) x0 x1 x2 x3 (ix2 p q) = combine4 A H S b i := by
  unfold out4_4
  rw [View.canon_unit_zero offsets_zero4]
  simp only [View.ld_unit_zero (S := S5000x128) offsets_zero4, View.ld_unit_zero (S := S5000x1) offsets_zero4,
    View.ld_unit_zero (S := S1x128) offsets_zero4]
  rw [combine4_payload, h0, h1, h2, h3]
  rfl

variable (V : (c : Dev nD) → (b : Ref sig .tc) → Buf (Elt Ideal) ((c : Thread nD τ).loc b))

/-- The block indices, decided over the 10 points: windows 0, 1, 2 and 4 take block (t, 0), the bias row block (0, 0). -/
theorem block_index4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- Block t of A is rows 5000·t … of A. -/
theorem iblk4_0_entry (c : Dev nD) (t : Fin cfg4.N) (p : Fin 5000) (q : Fin 128) (k : S50000x128.Idx)
    (hk0 : (k 0).val = 5000 * t.val + p.val) (hk1 : (k 1).val = q.val) :
    (iblk4 V c 0 t : Vec Ideal S5000x128 .f32) (ix2 p q) = (V c (Pipeline.arrRef spec4 0) : S50000x128.Idx → EReal) k := by
  obtain ⟨e0, e1, -⟩ := block_index4 t
  unfold iblk4
  rw [View.read_apply]
  show V c (Pipeline.arrRef spec4 0) _ = V c (Pipeline.arrRef spec4 0) _
  congr 1
  funext a
  apply Fin.ext
  match a with
  | ⟨0, _⟩ => show win4_0.index t (0 : Fin 2) * 5000 + 1 * p.val = (k 0).val; rw [e0, hk0]; omega
  | ⟨1, _⟩ => show win4_0.index t (1 : Fin 2) * 128 + 1 * q.val = (k 1).val; rw [e1, hk1]; omega

/-- Block t of H is rows 5000·t … of H. -/
theorem iblk4_1_entry (c : Dev nD) (t : Fin cfg4.N) (p : Fin 5000) (q : Fin 128) (k : S50000x128.Idx)
    (hk0 : (k 0).val = 5000 * t.val + p.val) (hk1 : (k 1).val = q.val) :
    (iblk4 V c 1 t : Vec Ideal S5000x128 .f32) (ix2 p q) = (V c (Pipeline.arrRef spec4 1) : S50000x128.Idx → EReal) k := by
  obtain ⟨-, -, e0, e1, -⟩ := block_index4 t
  unfold iblk4
  rw [View.read_apply]
  show V c (Pipeline.arrRef spec4 1) _ = V c (Pipeline.arrRef spec4 1) _
  congr 1
  funext a
  apply Fin.ext
  match a with
  | ⟨0, _⟩ => show win4_1.index t (0 : Fin 2) * 5000 + 1 * p.val = (k 0).val; rw [e0, hk0]; omega
  | ⟨1, _⟩ => show win4_1.index t (1 : Fin 2) * 128 + 1 * q.val = (k 1).val; rw [e1, hk1]; omega

/-- Block t of the row factors is rows 5000·t … of the column S. -/
theorem iblk4_2_entry (c : Dev nD) (t : Fin cfg4.N) (p : Fin 5000) (q : Fin 1) (k : S50000x1.Idx)
    (hk0 : (k 0).val = 5000 * t.val + p.val) (hk1 : (k 1).val = q.val) :
    (iblk4 V c 2 t : Vec Ideal S5000x1 .f32) (ix2 p q) = (V c (Pipeline.arrRef spec4 2) : S50000x1.Idx → EReal) k := by
  obtain ⟨-, -, -, -, e0, e1, -⟩ := block_index4 t
  unfold iblk4
  rw [View.read_apply]
  show V c (Pipeline.arrRef spec4 2) _ = V c (Pipeline.arrRef spec4 2) _
  congr 1
  funext a
  apply Fin.ext
  match a with
  | ⟨0, _⟩ => show win4_2.index t (0 : Fin 2) * 5000 + 1 * p.val = (k 0).val; rw [e0, hk0]; omega
  | ⟨1, _⟩ => show win4_2.index t (1 : Fin 2) * 1 + 1 * q.val = (k 1).val; rw [e1, hk1]; omega

/-- Every point sees the whole bias row. -/
theorem iblk4_3_entry (c : Dev nD) (t : Fin cfg4.N) (p : Fin 1) (q : Fin 128) (k : S1x128.Idx)
    (hk0 : (k 0).val = p.val) (hk1 : (k 1).val = q.val) :
    (iblk4 V c 3 t : Vec Ideal S1x128 .f32) (ix2 p q) = (V c (Pipeline.arrRef spec4 3) : S1x128.Idx → EReal) k := by
  obtain ⟨-, -, -, -, -, -, e0, e1, -⟩ := block_index4 t
  unfold iblk4
  rw [View.read_apply]
  show V c (Pipeline.arrRef spec4 3) _ = V c (Pipeline.arrRef spec4 3) _
  congr 1
  funext a
  apply Fin.ext
  match a with
  | ⟨0, _⟩ => show win4_3.index t (0 : Fin 2) * 1 + 1 * p.val = (k 0).val; rw [e0, hk0]; omega
  | ⟨1, _⟩ => show win4_3.index t (1 : Fin 2) * 128 + 1 * q.val = (k 1).val; rw [e1, hk1]; omega

/-- What point t writes back is block t of the layer's whole-array value. -/
theorem flushed4_eq (c : Dev nD) (t : Fin cfg4.N) :
    (dat4 (F := Ideal) V c).flushed 4 t
      = ((cfg4.win 4).blk t).view.read (Elt Ideal)
          (combine4 (V c (Pipeline.arrRef spec4 0)) (V c (Pipeline.arrRef spec4 1)) (V c (Pipeline.arrRef spec4 2))
            (V c (Pipeline.arrRef spec4 3))) := by
  show (cfg4.win 4).cut (grid4.coords t) ((dat4 V c).after 4 t) = _
  rw [after4_4]
  obtain ⟨-, -, -, -, -, -, -, -, e0, e1⟩ := block_index4 t
  funext j
  have hj0 : (j 0).val < 5000 := (j 0).isLt
  have hj1 : (j 1).val < 128 := (j 1).isLt
  rw [View.read_apply]
  have hi0 : ((((cfg4.win 4).blk t).view.emb j) 0).val = 5000 * t.val + (j 0).val := by
    show win4_4.index t (0 : Fin 2) * 5000 + 1 * (j 0).val = _; rw [e0]; omega
  have hi1 : ((((cfg4.win 4).blk t).view.emb j) 1).val = (j 1).val := by
    show win4_4.index t (1 : Fin 2) * 128 + 1 * (j 1).val = _; rw [e1]; omega
  have hx : (cfg4.win 4).xinj (grid4.coords t) j = ix2 (⟨(j 0).val, hj0⟩ : Fin 5000) (⟨(j 1).val, hj1⟩ : Fin 128) :=
    funext fun a => by match a with | ⟨0, _⟩ => rfl | ⟨1, _⟩ => rfl
  refine (congrArg (out4_4 (iblk4 V c 0 t) (iblk4 V c 1 t) (iblk4 V c 2 t) (iblk4 V c 3 t)) hx).trans ?_
  exact out4_entry (iblk4 V c 0 t) (iblk4 V c 1 t) (iblk4 V c 2 t) (iblk4 V c 3 t)
    (V c (Pipeline.arrRef spec4 0)) (V c (Pipeline.arrRef spec4 1)) (V c (Pipeline.arrRef spec4 2))
    (V c (Pipeline.arrRef spec4 3)) ⟨(j 0).val, hj0⟩ ⟨(j 1).val, hj1⟩ (((cfg4.win 4).blk t).view.emb j)
    (iblk4_0_entry V c t _ _ _ hi0 hi1) (iblk4_1_entry V c t _ _ _ hi0 hi1)
    (iblk4_2_entry V c t _ _ _ hi0 rfl) (iblk4_3_entry V c t _ _ _ rfl hi1)

/-- An entry of the output is in point t's block iff its row lies in rows 5000·t … 5000·t + 4999. -/
theorem mem_blk4 (t : Fin cfg4.N) (i : S50000x128.Idx) :
    i ∈ ((cfg4.win 4).blk t).view.set
      ↔ ∀ a : Fin 2, win4_4.index t a * S5000x128.size a ≤ (i a).val
          ∧ (i a).val < win4_4.index t a * S5000x128.size a + S5000x128.size a := by
  show i ∈ ((View.whole main_v126).slice (win4_4.rect t)).set ↔ _
  rw [View.set_slice_whole, Rect.mem_set_unit]
  exact Iff.rfl

/-- Row r is written by point r / 5000: the 10 blocks cover the output. -/
theorem cover4 (i : S50000x128.Idx) :
    ∃ t : Fin cfg4.N, (cfg4.win 4).flush t = true ∧ i ∈ ((cfg4.win 4).blk t).view.set := by
  have hi0 : (i 0).val < 50000 := (i 0).isLt
  have hi1 : (i 1).val < 128 := (i 1).isLt
  have hN : grid4.N = 10 := N_4
  have ht : (i 0).val / 5000 < cfg4.N := by show _ < grid4.N; rw [hN]; omega
  obtain ⟨-, -, -, -, -, -, -, -, e0, e1⟩ := block_index4 ⟨(i 0).val / 5000, ht⟩
  refine ⟨⟨(i 0).val / 5000, ht⟩, flush4_4 _, ?_⟩
  rw [mem_blk4]
  intro a
  match a with
  | ⟨0, _⟩ =>
    show win4_4.index ⟨(i 0).val / 5000, ht⟩ (0 : Fin 2) * 5000 ≤ (i 0).val
      ∧ (i 0).val < win4_4.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win4_4.index ⟨(i 0).val / 5000, ht⟩ (1 : Fin 2) * 128 ≤ (i 1).val
      ∧ (i 1).val < win4_4.index ⟨(i 0).val / 5000, ht⟩ (1 : Fin 2) * 128 + 128
    rw [e1]; omega

/-- The layer's named whole-array function, read at an entry. -/
theorem combine4_apply (A H : S50000x128.Idx → EReal) (S : S50000x1.Idx → EReal) (b : S1x128.Idx → EReal)
    (i : S50000x128.Idx) : combine4 A H S b i = max ((A i + S (ix2 (i 0) 0) * H i) + b (ix2 0 (i 1))) 0 := rfl

/-- The output array of the layer, whatever the buffers hold when it starts, as the named function of the contents
    of its four operand arrays. -/
theorem region4_value_combine (c : Dev nD) :
    (dat4 (F := Ideal) V c).arrAt 4 cfg4.N
      = combine4 (V c (Pipeline.arrRef spec4 0)) (V c (Pipeline.arrRef spec4 1)) (V c (Pipeline.arrRef spec4 2))
          (V c (Pipeline.arrRef spec4 3)) :=
  (dat4 V c).arrAt_eq_of_cover 4
    (combine4 (V c (Pipeline.arrRef spec4 0)) (V c (Pipeline.arrRef spec4 1)) (V c (Pipeline.arrRef spec4 2))
      (V c (Pipeline.arrRef spec4 3)))
    (fun t _ => flushed4_eq V c t) cover4

/-- THE OUTPUT ARRAY of the layer, whatever the buffers hold when it starts: max ((A + S · H) + b) 0 entry by entry, with
    A, H, S, b the contents of its four operand arrays. -/
theorem region4_value (c : Dev nD) (A H : S50000x128.Idx → EReal) (S : S50000x1.Idx → EReal) (b : S1x128.Idx → EReal)
    (hA : V c (Pipeline.arrRef spec4 0) = A) (hH : V c (Pipeline.arrRef spec4 1) = H)
    (hS : V c (Pipeline.arrRef spec4 2) = S) (hb : V c (Pipeline.arrRef spec4 3) = b) :
    (dat4 (F := Ideal) V c).arrAt 4 cfg4.N = fun i => max ((A i + S (ix2 (i 0) 0) * H i) + b (ix2 0 (i 1))) 0 := by
  subst hA hH hS hb
  exact region4_value_combine V c

end Cert.KernelIdeal.RegionValue
-- ==== Proof.Stage5.lean ====
/-
  The first graph-convolution layer on the middle graph (50000 rows, 128 columns). Both programs compute

      out = max ((E + 2·d² ⊙ H) + bias, 0),

  where H is the matrix of placed rows, d = rsqrt (degree + 2) the degree normaliser, E the sum over the edges
  (s, t) of d(s)·w·d(t) times row s of H, added into row t, and the bias is one number per column.

  The kernel's host operations build E, the column 2·d² (as a [50000, 1] array) and the bias row (as a [1, 128] array)
  and its pointwise region combines them; the reference builds the same E, broadcasts 2·d² over the columns and the
  bias over the rows, and combines them with whole-array operations. Entry by entry the two are one formula; E and d
  are the same terms of the same edge list and edge weights, so no law of arithmetic is needed: only reading the
  reshapes and broadcasts at an entry.
-/
import proofs.«160706_j53919019434042_2_alg».proof.Proof.Gen.ReferenceIdeal.Run
import proofs.«160706_j53919019434042_2_alg».proof.Proof.Gen.KernelIdeal.Frame
import proofs.«160706_j53919019434042_2_alg».proof.Proof.ArgsKept
import proofs.«160706_j53919019434042_2_alg».proof.Proof.RegionCombine4
import proofs.«160706_j53919019434042_2_alg».proof.Proof.LibBroadcastEntry
import proofs.«160706_j53919019434042_2_alg».proof.Proof.RefTerms
import Idealize.ShloMosaic.Lib.StableHlo.Run
import Idealize.ShloMosaic.Lib.ValueIdx
import Idealize.ShloMosaic.Lib.ValueLayout
import Idealize.ShloMosaic.PureOps.Ideal.Laws

set_option maxRecDepth 16384

noncomputable section

namespace Cert.Proof.Stage5

open Idealize.ShloMosaic Idealize.ShloMosaic.TcCoe Idealize.SL.Sem Idealize.ShloMosaic.StableHlo Idealize.ShloMosaic.ValueIdx

/-! ## Layout operations read at an entry -/

/-- A vector `[a]` placed as the column of `[a, 1]` (along axis 0) reads, at `(p, u)`, the vector at `p`. -/
theorem column_of_vector_apply {α : Type} {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- A vector `[a]` reshaped to `[a, 1]` reads, at `(p, u)`, the vector at `p`. -/
theorem reshape_column_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu]; omega)

/-- A matrix of zeros, entry by entry. -/
theorem zeros_entry {s : Shape} (hb : (⟨0, ![]⟩ : Shape).BroadcastsInDim s (![] : Fin 0 → Fin s.rank)) (i : s.Idx) :
    (broadcastInDim s ![] hb (constant (F := Ideal) (⟨0, ![]⟩ : Shape) .f32 0x00000000#32) : s.Idx → EReal) i = 0 := by
  simp only [broadcastInDim, constant]
  exact Ideal.ofBits_zero_f32

/-! ## The reference's layer, in named pieces -/

section Reference

open Cert.ReferenceIdeal Cert.ReferenceIdeal.Gen Cert.ReferenceIdeal.Value

/-- 2·d² over the 50000 rows, d the degree normaliser. -/
def selfVec (V0 : Valuation τ sig (Elt Ideal)) : FVec Ideal S50000 .f32 :=
  mulf (mulf (broadcastInDim S50000 ![] bcast_S_S50000 (constant S_ .f32 0x40000000#32)) (res_main_v120 (F := Ideal) V0)) (res_main_v120 (F := Ideal) V0)

/-- The sum over the edges: d(s)·w·d(t) times row s of the placed rows, added into row t. -/
def edgeSum (V0 : Valuation τ sig (Elt Ideal)) : FVec Ideal S50000x128 .f32 :=
  Host.scatterAdd scatter_S50000x128_S500000x1_S500000x128_1_0_0_1 (broadcastInDim S50000x128 ![] bcast_S_S50000x128 (constant S_ .f32 0x00000000#32)) (broadcastInDim S500000x1 ![0] bcast_S500000_S500000x1_0 (shapeCast _ (extractStridedSlice S1x500000 ![1, 0] (V0 (Proc.devRef .tc main_arg5)) slices_S2x500000_S1x500000_1_0) shapeCasts_S1x500000_S500000)) (mulf (broadcastInDim S500000x128 ![0, 1] bcast_S500000x1_S500000x128_0_1 (broadcastInDim S500000x1 ![0] bcast_S500000_S500000x1_0 (mulf (mulf (Host.gather gather_S50000_S500000x1_S500000_n_0_n_n_0_1_1 (res_main_v120 V0) (broadcastInDim S500000x1 ![0] bcast_S500000_S500000x1_0 (select (cmpi .slt (res_main_v122 V0) (broadcastInDim S500000 ![] bcast_S_S500000 (constantI S_ 32 0#32))) (addi (res_main_v122 V0) (broadcastInDim S500000 ![] bcast_S_S500000 (constantI S_ 32 50000#32))) (res_main_v122 V0)))) (V0 (Proc.devRef .tc main_arg7))) (Host.gather gather_S50000_S500000x1_S500000_n_0_n_n_0_1_1 (res_main_v120 V0) (broadcastInDim S500000x1 ![0] bcast_S500000_S500000x1_0 (select (cmpi .slt (res_main_v132 V0) (broadcastInDim S500000 ![] bcast_S_S500000 (constantI S_ 32 0#32))) (addi (res_main_v132 V0) (broadcastInDim S500000 ![] bcast_S_S500000 (constantI S_ 32 50000#32))) (res_main_v132 V0))))))) (Host.gather gather_S50000x128_S500000x1_S500000x128_1_0_n_n_0_1_1128 (res_main_v112 V0) (broadcastInDim S500000x1 ![0] bcast_S500000_S500000x1_0 (select (cmpi .slt (res_main_v143 V0) (broadcastInDim S500000 ![] bcast_S_S500000 (constantI S_ 32 0#32))) (addi (res_main_v143 V0) (broadcastInDim S500000 ![] bcast_S_S500000 (constantI S_ 32 50000#32))) (res_main_v143 V0)))))

/-- The reference's layer is the maximum with zero of (edge sum + 2·d² ⊙ placed rows) + bias. -/
theorem t169_eq (V0 : Valuation τ sig (Elt Ideal)) :
    RefTerms.t169 V0 = maximumf (addf (addf (edgeSum V0)
        (mulf (broadcastInDim S50000x128 ![0, 1] bcast_S50000x1_S50000x128_0_1 (broadcastInDim S50000x1 ![0] bcast_S50000_S50000x1_0 (selfVec V0))) (res_main_v112 (F := Ideal) V0)))
        (broadcastInDim S50000x128 ![0, 1] bcast_S1x128_S50000x128_0_1 (broadcastInDim S1x128 ![1] bcast_S128_S1x128_1 (V0 (Proc.devRef .tc main_arg23)))))
      (broadcastInDim S50000x128 ![] bcast_S_S50000x128 (constant S_ .f32 0x00000000#32)) := rfl

end Reference

/-! ## The kernel's operands of the pointwise region, as its host operations leave them -/

section Kernel

open Cert.KernelIdeal Cert.KernelIdeal.Gen

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

set_option maxHeartbeats 4000000 in
/-- The placed rows: the rows the region before left, set at the given rows of a zero matrix. -/
theorem placed_rows (c : Dev nD) :
    W9 m ρ c (Proc.devRef .tc main_v75) =
      Host.scatter scatter_S50000x128_S25000x1_S25000x128_1_0_0_1 (fun _ b => b)
        (broadcastInDim S50000x128 ![] bcast_S_S50000x128 (constant (F := Ideal) S_ .f32 0x00000000#32))
        (broadcastInDim S25000x1 ![0] bcast_S25000_S25000x1_0
          (select (cmpi .slt (W8 m ρ c (Proc.devRef .tc main_arg9)) (broadcastInDim S25000 ![] bcast_S_S25000 (constantI S_ 32 0#32)))
            (addi (W8 m ρ c (Proc.devRef .tc main_arg9)) (broadcastInDim S25000 ![] bcast_S_S25000 (constantI S_ 32 50000#32)))
            (W8 m ρ c (Proc.devRef .tc main_arg9))))
        (W8 m ρ c (Proc.devRef .tc main_v67)) := by
  dsimp only [W9]
  simp only [hostOps4]
  after_results_simp

set_option maxHeartbeats 4000000 in
/-- The kernel's edge sum is the reference's: the same term of the edge list, the edge weights and the placed rows. -/
theorem edge_sum_eq (c : Dev nD) (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (hH : W9 m ρ c (Proc.devRef .tc main_v75) = Cert.ReferenceIdeal.Value.res_main_v112 (F := Ideal) (launchContents m' c)) :
    W9 m ρ c (Proc.devRef .tc main_v120) = edgeSum (launchContents m' c) := by
  have e5 : launchContents m' c (Proc.devRef .tc Cert.ReferenceIdeal.main_arg5) = m ((c : Thread nD τ).loc main_arg5) := h5
  have e7 : launchContents m' c (Proc.devRef .tc Cert.ReferenceIdeal.main_arg7) = m ((c : Thread nD τ).loc main_arg7) := h7
  have eH := (placed_rows m ρ c).symm.trans hH
  dsimp only [W9]
  simp only [hostOps4]
  after_results_simp
  rw [eH, ArgsKept.W8_arg5 m ρ c, ArgsKept.W8_arg7 m ρ c, ← e5, ← e7]
  rfl

set_option maxHeartbeats 4000000 in
/-- The kernel's column of row factors is 2·d² reshaped to a column. -/
theorem self_column_eq (c : Dev nD) (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    W9 m ρ c (Proc.devRef .tc main_v124) = shapeCast S50000x1 (selfVec (launchContents m' c)) shapeCasts_S50000_S50000x1 := by
  have e5 : launchContents m' c (Proc.devRef .tc Cert.ReferenceIdeal.main_arg5) = m ((c : Thread nD τ).loc main_arg5) := h5
  have e7 : launchContents m' c (Proc.devRef .tc Cert.ReferenceIdeal.main_arg7) = m ((c : Thread nD τ).loc main_arg7) := h7
  dsimp only [W9]
  simp only [hostOps4]
  after_results_simp
  rw [ArgsKept.W8_arg5 m ρ c, ArgsKept.W8_arg7 m ρ c, ← e5, ← e7]
  rfl

set_option maxHeartbeats 4000000 in
/-- The kernel's bias row is the bias vector reshaped to a row. -/
theorem bias_row_eq (c : Dev nD) (h23 : m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) :
    W9 m ρ c (Proc.devRef .tc main_v125)
      = shapeCast S1x128 (launchContents m' c (Proc.devRef .tc Cert.ReferenceIdeal.main_arg23)) shapeCasts_S128_S1x128 := by
  have e23 : launchContents m' c (Proc.devRef .tc Cert.ReferenceIdeal.main_arg23) = m ((c : Thread nD τ).loc main_arg23) := h23
  dsimp only [W9]
  simp only [hostOps4]
  after_results_simp
  rw [ArgsKept.W8_arg23 m ρ c, ← e23]
  rfl

/-- The region's formula at entry (p, q): the row factor is read at (p, 0), the bias at (0, q). -/
theorem layer_entry (A H : S50000x128.Idx → EReal) (S : S50000x1.Idx → EReal) (b : S1x128.Idx → EReal)
    (p : Fin 50000) (q : Fin 128) :
    max ((A (ix2 p q) + S (ix2 ((ix2 p q : S50000x128.Idx) 0) 0) * H (ix2 p q))
        + b (ix2 0 ((ix2 p q : S50000x128.Idx) 1))) 0
      = max ((A (ix2 p q) + S (ix2 p (0 : Fin 1)) * H (ix2 p q)) + b (ix2 (0 : Fin 1) q)) 0 := rfl

/-- THE LAYER: the output array of the kernel's pointwise region is the reference's layer, given the same edge list,
    edge weights and bias, and the same placed rows. -/
theorem stage5 (c : Dev nD) (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) (h23 : m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23))
    (hH : W9 m ρ c (Proc.devRef .tc main_v75) = Cert.ReferenceIdeal.Value.res_main_v112 (F := Ideal) (launchContents m' c)) :
    W10 m ρ c (Proc.devRef .tc main_v126) = Cert.ReferenceIdeal.RefTerms.t169 (launchContents m' c) := by
  refine ((W10_arr m ρ c 4).trans (RegionValue.region4_value (V9 m ρ) c
    (edgeSum (launchContents m' c)) (Cert.ReferenceIdeal.Value.res_main_v112 (F := Ideal) (launchContents m' c))
    (shapeCast S50000x1 (selfVec (launchContents m' c)) shapeCasts_S50000_S50000x1)
    (shapeCast S1x128 (launchContents m' c (Proc.devRef .tc Cert.ReferenceIdeal.main_arg23)) shapeCasts_S128_S1x128)
    (edge_sum_eq m ρ m' c h5 h7 hH) hH (self_column_eq m ρ m' c h5 h7) (bias_row_eq m ρ m' c h23))).trans ?_
  rw [t169_eq]
  funext i
  obtain ⟨p, q, rfl⟩ : ∃ (p : Fin 50000) (q : Fin 128), i = ix2 p q := ⟨i 0, i 1, eq_ix2 i⟩
  refine (layer_entry _ _ _ _ p q).trans ?_
  rw [maximumf_apply, addf_apply, addf_apply, mulf_apply, broadcastInDim_a1_ab_apply, column_of_vector_apply,
    broadcastInDim_1b_ab_apply, broadcastInDim_b_1b_apply, zeros_entry, reshape_column_apply, shapeCast_a_1a_apply]

end Kernel

end Cert.Proof.Stage5
-- ==== Proof.RegionCombine6.lean ====
/-
  The last pointwise layer: out = (A + S · H) + b on a [100000, 64] array, where S is a [100000, 1] column
  (one factor per row) and b a [1, 64] row (one bias per column).

  The grid has 20 points; point t handles rows 5000·t … 5000·t + 4999 of A, H, S and of the output, and sees the
  whole bias row. Entry (r, k) of the output therefore depends on A (r, k), H (r, k), S (r, 0) and b (0, k) only,
  and the point that writes it is r / 5000.
-/
import proofs.«160706_j53919019434042_2_alg».proof.Proof.Gen.KernelIdeal.Frame
import proofs.«160706_j53919019434042_2_alg».proof.Proof.LibBroadcastEntry
import Idealize.ShloMosaic.Lib.ValueIdx
import Idealize.ShloMosaic.Lib.ValueLayout
import Idealize.ShloMosaic.Lib.Pipeline.Value
import Idealize.ShloMosaic.Lib.Tactic

noncomputable section

open Idealize.ShloMosaic Idealize.ShloMosaic.TcCoe Idealize.ShloMosaic.ValueIdx Idealize.SL.Sem
open Idealize.ShloMosaic.Pipeline (Dat)

namespace Cert.KernelIdeal.RegionValue

open Cert.KernelIdeal Cert.KernelIdeal.Gen

/-- The zero offsets of a whole-block access. -/
theorem offsets_zero6 : (![0, 0] : Fin 2 → Nat) = fun _ => 0 := funext fun a => by fin_cases a <;> rfl

/-- The layer on whole arrays, entry by entry: row factor times H added to A, then the column's bias. -/
def combine6 (A H : S100000x64.Idx → EReal) (S : S100000x1.Idx → EReal) (b : S1x64.Idx → EReal) :
    S100000x64.Idx → EReal :=
  fun i => (A i + S (ix2 (i 0) 0) * H i) + b (ix2 0 (i 1))

/-- The body's stored value at entry (p, q) of a block: the same formula on the loaded blocks. -/
theorem combine6_payload (v0 : Vec Ideal S5000x64 .f32) (v2 : Vec Ideal S5000x1 .f32) (v4 : Vec Ideal S5000x64 .f32)
    (v9 : Vec Ideal S1x64 .f32) (p : Fin 5000) (q : Fin 64) :
    k6_pay1 (F := Ideal) v0 v2 v4 v9 (ix2 p q)
      = (v0 (ix2 p q) + v2 (ix2 p (0 : Fin 1)) * v4 (ix2 p q)) + v9 (ix2 (0 : Fin 1) q) := by
  unfold k6_pay1
  simp only [shapeCast_self]
  rw [addf_apply, addf_apply, mulf_apply, broadcastTo_a1_ab_apply, broadcastTo_1b_ab_apply]

/-- What the body leaves in the output block at entry j, when the four input blocks hold, at the entries the
    formula reads, the whole arrays' values at the entries it reads for i. -/
theorem out6_entry (x0 x1 : Vec Ideal S5000x64 .f32) (x2 : Vec Ideal S5000x1 .f32) (x3 : Vec Ideal S1x64 .f32)
    (A H : S100000x64.Idx → EReal) (S : S100000x1.Idx → EReal) (b : S1x64.Idx → EReal)
    (p : Fin 5000) (q : Fin 64) (i : S100000x64.Idx)
    (h0 : x0 (ix2 p q) = A i) (h1 : x1 (ix2 p q) = H i)
    (h2 : x2 (ix2 p (0 : Fin 1)) = S (ix2 (i 0) 0)) (h3 : x3 (ix2 (0 : Fin 1) q) = b (ix2 0 (i 1))) :
    out6_4 (F := Ideal) x0 x1 x2 x3 (ix2 p q) = combine6 A H S b i := by
  unfold out6_4
  rw [View.canon_unit_zero offsets_zero6]
  simp only [View.ld_unit_zero (S := S5000x64) offsets_zero6, View.ld_unit_zero (S := S5000x1) offsets_zero6,
    View.ld_unit_zero (S := S1x64) offsets_zero6]
  rw [combine6_payload, h0, h1, h2, h3]
  rfl

variable (V : (c : Dev nD) → (b : Ref sig .tc) → Buf (Elt Ideal) ((c : Thread nD τ).loc b))

/-- The block indices, decided over the 20 points: windows 0, 1, 2 and 4 take block (t, 0), the bias row block (0, 0). -/
theorem block_index6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0 :=
  (by decide +kernel : ∀ t : Fin grid6.N, _)

/-- Block t of A is rows 5000·t … of A. -/
theorem iblk6_0_entry (c : Dev nD) (t : Fin cfg6.N) (p : Fin 5000) (q : Fin 64) (k : S100000x64.Idx)
    (hk0 : (k 0).val = 5000 * t.val + p.val) (hk1 : (k 1).val = q.val) :
    (iblk6 V c 0 t : Vec Ideal S5000x64 .f32) (ix2 p q) = (V c (Pipeline.arrRef spec6 0) : S100000x64.Idx → EReal) k := by
  obtain ⟨e0, e1, -⟩ := block_index6 t
  unfold iblk6
  rw [View.read_apply]
  show V c (Pipeline.arrRef spec6 0) _ = V c (Pipeline.arrRef spec6 0) _
  congr 1
  funext a
  apply Fin.ext
  match a with
  | ⟨0, _⟩ => show win6_0.index t (0 : Fin 2) * 5000 + 1 * p.val = (k 0).val; rw [e0, hk0]; omega
  | ⟨1, _⟩ => show win6_0.index t (1 : Fin 2) * 64 + 1 * q.val = (k 1).val; rw [e1, hk1]; omega

/-- Block t of H is rows 5000·t … of H. -/
theorem iblk6_1_entry (c : Dev nD) (t : Fin cfg6.N) (p : Fin 5000) (q : Fin 64) (k : S100000x64.Idx)
    (hk0 : (k 0).val = 5000 * t.val + p.val) (hk1 : (k 1).val = q.val) :
    (iblk6 V c 1 t : Vec Ideal S5000x64 .f32) (ix2 p q) = (V c (Pipeline.arrRef spec6 1) : S100000x64.Idx → EReal) k := by
  obtain ⟨-, -, e0, e1, -⟩ := block_index6 t
  unfold iblk6
  rw [View.read_apply]
  show V c (Pipeline.arrRef spec6 1) _ = V c (Pipeline.arrRef spec6 1) _
  congr 1
  funext a
  apply Fin.ext
  match a with
  | ⟨0, _⟩ => show win6_1.index t (0 : Fin 2) * 5000 + 1 * p.val = (k 0).val; rw [e0, hk0]; omega
  | ⟨1, _⟩ => show win6_1.index t (1 : Fin 2) * 64 + 1 * q.val = (k 1).val; rw [e1, hk1]; omega

/-- Block t of the row factors is rows 5000·t … of the column S. -/
theorem iblk6_2_entry (c : Dev nD) (t : Fin cfg6.N) (p : Fin 5000) (q : Fin 1) (k : S100000x1.Idx)
    (hk0 : (k 0).val = 5000 * t.val + p.val) (hk1 : (k 1).val = q.val) :
    (iblk6 V c 2 t : Vec Ideal S5000x1 .f32) (ix2 p q) = (V c (Pipeline.arrRef spec6 2) : S100000x1.Idx → EReal) k := by
  obtain ⟨-, -, -, -, e0, e1, -⟩ := block_index6 t
  unfold iblk6
  rw [View.read_apply]
  show V c (Pipeline.arrRef spec6 2) _ = V c (Pipeline.arrRef spec6 2) _
  congr 1
  funext a
  apply Fin.ext
  match a with
  | ⟨0, _⟩ => show win6_2.index t (0 : Fin 2) * 5000 + 1 * p.val = (k 0).val; rw [e0, hk0]; omega
  | ⟨1, _⟩ => show win6_2.index t (1 : Fin 2) * 1 + 1 * q.val = (k 1).val; rw [e1, hk1]; omega

/-- Every point sees the whole bias row. -/
theorem iblk6_3_entry (c : Dev nD) (t : Fin cfg6.N) (p : Fin 1) (q : Fin 64) (k : S1x64.Idx)
    (hk0 : (k 0).val = p.val) (hk1 : (k 1).val = q.val) :
    (iblk6 V c 3 t : Vec Ideal S1x64 .f32) (ix2 p q) = (V c (Pipeline.arrRef spec6 3) : S1x64.Idx → EReal) k := by
  obtain ⟨-, -, -, -, -, -, e0, e1, -⟩ := block_index6 t
  unfold iblk6
  rw [View.read_apply]
  show V c (Pipeline.arrRef spec6 3) _ = V c (Pipeline.arrRef spec6 3) _
  congr 1
  funext a
  apply Fin.ext
  match a with
  | ⟨0, _⟩ => show win6_3.index t (0 : Fin 2) * 1 + 1 * p.val = (k 0).val; rw [e0, hk0]; omega
  | ⟨1, _⟩ => show win6_3.index t (1 : Fin 2) * 64 + 1 * q.val = (k 1).val; rw [e1, hk1]; omega

/-- What point t writes back is block t of the layer's whole-array value. -/
theorem flushed6_eq (c : Dev nD) (t : Fin cfg6.N) :
    (dat6 (F := Ideal) V c).flushed 4 t
      = ((cfg6.win 4).blk t).view.read (Elt Ideal)
          (combine6 (V c (Pipeline.arrRef spec6 0)) (V c (Pipeline.arrRef spec6 1)) (V c (Pipeline.arrRef spec6 2))
            (V c (Pipeline.arrRef spec6 3))) := by
  show (cfg6.win 4).cut (grid6.coords t) ((dat6 V c).after 4 t) = _
  rw [after6_4]
  obtain ⟨-, -, -, -, -, -, -, -, e0, e1⟩ := block_index6 t
  funext j
  have hj0 : (j 0).val < 5000 := (j 0).isLt
  have hj1 : (j 1).val < 64 := (j 1).isLt
  rw [View.read_apply]
  have hi0 : ((((cfg6.win 4).blk t).view.emb j) 0).val = 5000 * t.val + (j 0).val := by
    show win6_4.index t (0 : Fin 2) * 5000 + 1 * (j 0).val = _; rw [e0]; omega
  have hi1 : ((((cfg6.win 4).blk t).view.emb j) 1).val = (j 1).val := by
    show win6_4.index t (1 : Fin 2) * 64 + 1 * (j 1).val = _; rw [e1]; omega
  have hx : (cfg6.win 4).xinj (grid6.coords t) j = ix2 (⟨(j 0).val, hj0⟩ : Fin 5000) (⟨(j 1).val, hj1⟩ : Fin 64) :=
    funext fun a => by match a with | ⟨0, _⟩ => rfl | ⟨1, _⟩ => rfl
  refine (congrArg (out6_4 (iblk6 V c 0 t) (iblk6 V c 1 t) (iblk6 V c 2 t) (iblk6 V c 3 t)) hx).trans ?_
  exact out6_entry (iblk6 V c 0 t) (iblk6 V c 1 t) (iblk6 V c 2 t) (iblk6 V c 3 t)
    (V c (Pipeline.arrRef spec6 0)) (V c (Pipeline.arrRef spec6 1)) (V c (Pipeline.arrRef spec6 2))
    (V c (Pipeline.arrRef spec6 3)) ⟨(j 0).val, hj0⟩ ⟨(j 1).val, hj1⟩ (((cfg6.win 4).blk t).view.emb j)
    (iblk6_0_entry V c t _ _ _ hi0 hi1) (iblk6_1_entry V c t _ _ _ hi0 hi1)
    (iblk6_2_entry V c t _ _ _ hi0 rfl) (iblk6_3_entry V c t _ _ _ rfl hi1)

/-- An entry of the output is in point t's block iff its row lies in rows 5000·t … 5000·t + 4999. -/
theorem mem_blk6 (t : Fin cfg6.N) (i : S100000x64.Idx) :
    i ∈ ((cfg6.win 4).blk t).view.set
      ↔ ∀ a : Fin 2, win6_4.index t a * S5000x64.size a ≤ (i a).val
          ∧ (i a).val < win6_4.index t a * S5000x64.size a + S5000x64.size a := by
  show i ∈ ((View.whole main_v186).slice (win6_4.rect t)).set ↔ _
  rw [View.set_slice_whole, Rect.mem_set_unit]
  exact Iff.rfl

/-- Row r is written by point r / 5000: the 20 blocks cover the output. -/
theorem cover6 (i : S100000x64.Idx) :
    ∃ t : Fin cfg6.N, (cfg6.win 4).flush t = true ∧ i ∈ ((cfg6.win 4).blk t).view.set := by
  have hi0 : (i 0).val < 100000 := (i 0).isLt
  have hi1 : (i 1).val < 64 := (i 1).isLt
  have hN : grid6.N = 20 := N_6
  have ht : (i 0).val / 5000 < cfg6.N := by show _ < grid6.N; rw [hN]; omega
  obtain ⟨-, -, -, -, -, -, -, -, e0, e1⟩ := block_index6 ⟨(i 0).val / 5000, ht⟩
  refine ⟨⟨(i 0).val / 5000, ht⟩, flush6_4 _, ?_⟩
  rw [mem_blk6]
  intro a
  match a with
  | ⟨0, _⟩ =>
    show win6_4.index ⟨(i 0).val / 5000, ht⟩ (0 : Fin 2) * 5000 ≤ (i 0).val
      ∧ (i 0).val < win6_4.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win6_4.index ⟨(i 0).val / 5000, ht⟩ (1 : Fin 2) * 64 ≤ (i 1).val
      ∧ (i 1).val < win6_4.index ⟨(i 0).val / 5000, ht⟩ (1 : Fin 2) * 64 + 64
    rw [e1]; omega

/-- The layer's named whole-array function, read at an entry. -/
theorem combine6_apply (A H : S100000x64.Idx → EReal) (S : S100000x1.Idx → EReal) (b : S1x64.Idx → EReal)
    (i : S100000x64.Idx) : combine6 A H S b i = (A i + S (ix2 (i 0) 0) * H i) + b (ix2 0 (i 1)) := rfl

/-- The output array of the layer, whatever the buffers hold when it starts, as the named function of the contents
    of its four operand arrays. -/
theorem region6_value_combine (c : Dev nD) :
    (dat6 (F := Ideal) V c).arrAt 4 cfg6.N
      = combine6 (V c (Pipeline.arrRef spec6 0)) (V c (Pipeline.arrRef spec6 1)) (V c (Pipeline.arrRef spec6 2))
          (V c (Pipeline.arrRef spec6 3)) :=
  (dat6 V c).arrAt_eq_of_cover 4
    (combine6 (V c (Pipeline.arrRef spec6 0)) (V c (Pipeline.arrRef spec6 1)) (V c (Pipeline.arrRef spec6 2))
      (V c (Pipeline.arrRef spec6 3)))
    (fun t _ => flushed6_eq V c t) cover6

/-- THE OUTPUT ARRAY of the layer, whatever the buffers hold when it starts: (A + S · H) + b entry by entry, with
    A, H, S, b the contents of its four operand arrays. -/
theorem region6_value (c : Dev nD) (A H : S100000x64.Idx → EReal) (S : S100000x1.Idx → EReal) (b : S1x64.Idx → EReal)
    (hA : V c (Pipeline.arrRef spec6 0) = A) (hH : V c (Pipeline.arrRef spec6 1) = H)
    (hS : V c (Pipeline.arrRef spec6 2) = S) (hb : V c (Pipeline.arrRef spec6 3) = b) :
    (dat6 (F := Ideal) V c).arrAt 4 cfg6.N = fun i => (A i + S (ix2 (i 0) 0) * H i) + b (ix2 0 (i 1)) := by
  subst hA hH hS hb
  exact region6_value_combine V c

end Cert.KernelIdeal.RegionValue
-- ==== Proof.Stage7.lean ====
/-
  The last layer. On the 100000 rows of the fine graph both programs compute
      out[n, q] = (A[n, q] + s[n] · H[n, q]) + b[q],
  where H is the array of placed rows, A is the edge aggregation of H — the sum, over the edges e into row n, of
  d[src e] · w[e] · d[dst e] · H[src e, q], with d the degree normaliser 1 / sqrt(2 + Σ_{e into n} w[e]) —, s[n] is
  2 · d[n] · d[n] and b the bias. The kernel computes A, s and b by host operations and combines them in its last
  region; the reference computes the same three by the same host operations and combines them by elementwise host
  operations with s and b broadcast to the full shape. The two aggregations are one term of the edge index array,
  the edge weights and H; the broadcasts read back the entries the kernel's region reads.
-/
import proofs.«160706_j53919019434042_2_alg».proof.Proof.Gen.ReferenceIdeal.Run
import proofs.«160706_j53919019434042_2_alg».proof.Proof.KernelRun
import proofs.«160706_j53919019434042_2_alg».proof.Proof.ArgsKept
import proofs.«160706_j53919019434042_2_alg».proof.Proof.RegionCombine6
import proofs.«160706_j53919019434042_2_alg».proof.Proof.LibBroadcastEntry
import Idealize.ShloMosaic.Lib.StableHlo.Run
import Idealize.ShloMosaic.Lib.ValueIdx
import Idealize.ShloMosaic.Lib.ValueLayout

set_option maxRecDepth 16384

noncomputable section

namespace Cert.Proof.Stage7

open Idealize.ShloMosaic Idealize.ShloMosaic.TcCoe Idealize.SL.Sem Idealize.ShloMosaic.StableHlo Idealize.ShloMosaic.ValueIdx
open Cert.KernelIdeal Cert.KernelIdeal.Gen

/-- The source row of the edge index array, as a vector of 1000000 node numbers. -/
def srcRow (a4 : IVec S2x1000000 32) : IVec S1000000 32 :=
  shapeCast _ (extractStridedSlice S1x1000000 ![0, 0] a4 slices_S2x1000000_S1x1000000_0_0) shapeCasts_S1x1000000_S1000000

/-- The destination row of the edge index array. -/
def dstRow (a4 : IVec S2x1000000 32) : IVec S1000000 32 :=
  shapeCast _ (extractStridedSlice S1x1000000 ![1, 0] a4 slices_S2x1000000_S1x1000000_1_0) shapeCasts_S1x1000000_S1000000

/-- The degree normaliser d: one over the square root of 2 plus the sum of the weights of the edges into the node. -/
def normOf (a4 : IVec S2x1000000 32) (a6 : FVec Ideal S1000000 .f32) : FVec Ideal S100000 .f32 :=
  Host.rsqrt (addf (Host.scatterAdd scatter_S100000_S1000000x1_S1000000_n_0_0_1 (broadcastInDim S100000 ![] bcast_S_S100000 (constant (F := Ideal) S_ .f32 0x00000000#32)) (broadcastInDim S1000000x1 ![0] bcast_S1000000_S1000000x1_0 (shapeCast _ (extractStridedSlice S1x1000000 ![1, 0] a4 slices_S2x1000000_S1x1000000_1_0) shapeCasts_S1x1000000_S1000000)) a6) (broadcastInDim S100000 ![] bcast_S_S100000 (constant (F := Ideal) S_ .f32 0x40000000#32)))

/-- The edge aggregation of H: each edge adds d[src] · w · d[dst] · H[src, ·] into the row of its destination. -/
def aggOf (a4 : IVec S2x1000000 32) (a6 : FVec Ideal S1000000 .f32) (H : FVec Ideal S100000x64 .f32) : FVec Ideal S100000x64 .f32 :=
  Host.scatterAdd scatter_S100000x64_S1000000x1_S1000000x64_1_0_0_1 (broadcastInDim S100000x64 ![] bcast_S_S100000x64 (constant (F := Ideal) S_ .f32 0x00000000#32)) (broadcastInDim S1000000x1 ![0] bcast_S1000000_S1000000x1_0 (shapeCast _ (extractStridedSlice S1x1000000 ![1, 0] a4 slices_S2x1000000_S1x1000000_1_0) shapeCasts_S1x1000000_S1000000)) (mulf (broadcastInDim S1000000x64 ![0, 1] bcast_S1000000x1_S1000000x64_0_1 (broadcastInDim S1000000x1 ![0] bcast_S1000000_S1000000x1_0 (mulf (mulf (Host.gather gather_S100000_S1000000x1_S1000000_n_0_n_n_0_1_1 (normOf a4 a6) (broadcastInDim S1000000x1 ![0] bcast_S1000000_S1000000x1_0 (select (cmpi .slt (srcRow a4) (broadcastInDim S1000000 ![] bcast_S_S1000000 (constantI S_ 32 0#32))) (addi (srcRow a4) (broadcastInDim S1000000 ![] bcast_S_S1000000 (constantI S_ 32 100000#32))) (srcRow a4)))) a6) (Host.gather gather_S100000_S1000000x1_S1000000_n_0_n_n_0_1_1 (normOf a4 a6) (broadcastInDim S1000000x1 ![0] bcast_S1000000_S1000000x1_0 (select (cmpi .slt (dstRow a4) (broadcastInDim S1000000 ![] bcast_S_S1000000 (constantI S_ 32 0#32))) (addi (dstRow a4) (broadcastInDim S1000000 ![] bcast_S_S1000000 (constantI S_ 32 100000#32))) (dstRow a4))))))) (Host.gather gather_S100000x64_S1000000x1_S1000000x64_1_0_n_n_0_1_164 H (broadcastInDim S1000000x1 ![0] bcast_S1000000_S1000000x1_0 (select (cmpi .slt (srcRow a4) (broadcastInDim S1000000 ![] bcast_S_S1000000 (constantI S_ 32 0#32))) (addi (srcRow a4) (broadcastInDim S1000000 ![] bcast_S_S1000000 (constantI S_ 32 100000#32))) (srcRow a4)))))

/-- The self-loop factor s = 2 · d · d. -/
def selfOf (a4 : IVec S2x1000000 32) (a6 : FVec Ideal S1000000 .f32) : FVec Ideal S100000 .f32 :=
  mulf (mulf (broadcastInDim S100000 ![] bcast_S_S100000 (constant (F := Ideal) S_ .f32 0x40000000#32)) (normOf a4 a6)) (normOf a4 a6)

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

/-! ## Small shapes read at an entry -/

/-- A vector `[a]` placed as the column of `[a, 1]` by the host's broadcast along `[0]` reads, at `(p, u)`, the
    vector at `p`. -/
theorem broadcastInDim_a_a1_apply {α : Type} {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- A vector `[a]` recast as the column `[a, 1]` reads, at `(p, u)`, the vector at `p`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-! ## The kernel's three host-computed operands of the last region -/

set_option maxHeartbeats 4000000 in
/-- What the host operations before the last region leave in the buffer of the edge aggregation: the aggregation of
    the placed rows. -/
theorem host_agg (c : Dev nD) :
    W12 m ρ c (Proc.devRef .tc main_v180)
      = aggOf (W11 m ρ c (Proc.devRef .tc main_arg4)) (W11 m ρ c (Proc.devRef .tc main_arg6)) (W12 m ρ c (Proc.devRef .tc main_v135)) := by
  dsimp only [W12]
  simp only [hostOps6]
  after_results_simp
  rfl

set_option maxHeartbeats 4000000 in
/-- … in the buffer of the self-loop factor: 2 · d · d as a column. -/
theorem host_self (c : Dev nD) :
    W12 m ρ c (Proc.devRef .tc main_v184)
      = shapeCast S100000x1 (selfOf (W11 m ρ c (Proc.devRef .tc main_arg4)) (W11 m ρ c (Proc.devRef .tc main_arg6))) shapeCasts_S100000_S100000x1 := by
  dsimp only [W12]
  simp only [hostOps6]
  after_results_simp
  rfl

set_option maxHeartbeats 4000000 in
/-- … and in the buffer of the bias: the bias vector as a row. -/
theorem host_bias (c : Dev nD) :
    W12 m ρ c (Proc.devRef .tc main_v185)
      = shapeCast S1x64 (W11 m ρ c (Proc.devRef .tc main_arg25)) shapeCasts_S64_S1x64 := by
  dsimp only [W12]
  simp only [hostOps6]
  after_results_simp
  rfl

/-! ## The reference's result, over the same three functions -/

set_option maxHeartbeats 4000000 in
/-- The reference's result array is (A + s · H) + b with A the same aggregation and s the same factor, of the
    reference's own edge index array, edge weights and H, and s and b broadcast to the full shape. -/
theorem ref_value (V0 : Valuation Cert.ReferenceIdeal.τ Cert.ReferenceIdeal.sig (Elt Ideal)) :
    Cert.ReferenceIdeal.Value.val5 V0 (Proc.devRef .tc Cert.ReferenceIdeal.main_v233)
      = addf (addf
          (aggOf (V0 (Proc.devRef .tc Cert.ReferenceIdeal.main_arg4)) (V0 (Proc.devRef .tc Cert.ReferenceIdeal.main_arg6))
            (Cert.ReferenceIdeal.Value.res_main_v178 V0))
          (mulf
            (broadcastInDim S100000x64 ![0, 1] Cert.ReferenceIdeal.Gen.bcast_S100000x1_S100000x64_0_1
              (broadcastInDim S100000x1 ![0] Cert.ReferenceIdeal.Gen.bcast_S100000_S100000x1_0
                (selfOf (V0 (Proc.devRef .tc Cert.ReferenceIdeal.main_arg4)) (V0 (Proc.devRef .tc Cert.ReferenceIdeal.main_arg6)))))
            (Cert.ReferenceIdeal.Value.res_main_v178 V0)))
        (broadcastInDim S100000x64 ![0, 1] Cert.ReferenceIdeal.Gen.bcast_S1x64_S100000x64_0_1
          (broadcastInDim S1x64 ![1] Cert.ReferenceIdeal.Gen.bcast_S64_S1x64_1 (V0 (Proc.devRef .tc Cert.ReferenceIdeal.main_arg25)))) :=
  (Cert.ReferenceIdeal.Value.val5_main_v233 V0).trans rfl

/-! ## The two results are one array -/

set_option maxHeartbeats 4000000 in
/-- The kernel's result array after its last region is the reference's result array, when the two programs were
    launched on the same edge index array, edge weights and bias and the kernel's placed rows are the reference's H. -/
theorem stage7 (c : Dev nD)
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h25 : m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25))
    (hH : W12 m ρ c (Proc.devRef .tc main_v135) = Cert.ReferenceIdeal.Value.res_main_v178 (F := Ideal) (launchContents m' c)) :
    W13 m ρ c (Proc.devRef .tc main_v186)
      = Cert.ReferenceIdeal.Value.val5 (launchContents m' c) (Proc.devRef .tc Cert.ReferenceIdeal.main_v233) := by
  have e4 : launchContents m' c (Proc.devRef .tc Cert.ReferenceIdeal.main_arg4) = m ((c : Thread nD τ).loc main_arg4) := h4
  have e6 : launchContents m' c (Proc.devRef .tc Cert.ReferenceIdeal.main_arg6) = m ((c : Thread nD τ).loc main_arg6) := h6
  have e25 : launchContents m' c (Proc.devRef .tc Cert.ReferenceIdeal.main_arg25) = m ((c : Thread nD τ).loc main_arg25) := h25
  rw [ref_value, e4, e6, e25, ← hH]
  refine ((W13_arr m ρ c 4).trans (RegionValue.region6_value (V12 m ρ) c _ _ _ _
    (host_agg m ρ c) rfl (host_self m ρ c) (host_bias m ρ c))).trans ?_
  rw [ArgsKept.W11_arg4 m ρ c, ArgsKept.W11_arg6 m ρ c, ArgsKept.W11_arg25 m ρ c]
  funext i
  obtain ⟨n, q, rfl⟩ : ∃ (n : Fin 100000) (q : Fin 64), i = ix2 n q := ⟨i 0, i 1, eq_ix2 i⟩
  rw [addf_apply, addf_apply, mulf_apply]
  refine congrArg₂ (· + ·) (congrArg₂ (· + ·) rfl (congrArg₂ (· * ·) ?_ rfl)) ?_
  · rw [broadcastInDim_a1_ab_apply, broadcastInDim_a_a1_apply]
    exact shapeCast_a_a1_apply _ _ n 0
  · rw [broadcastInDim_1b_ab_apply, broadcastInDim_b_1b_apply]
    exact shapeCast_a_1a_apply _ _ 0 q

end Cert.Proof.Stage7

end
-- ==== Proof.Bridge.lean ====
/-
  The one equation the algebraic claim comes down to, once both runs are read back: on every core, the array the
  idealized kernel's last region leaves in its result buffer is the array the idealized reference's last operation
  computes, as functions of argument arrays that agree.
-/
import proofs.«160706_j53919019434042_2_alg».proof.Defs
import proofs.«160706_j53919019434042_2_alg».proof.Proof.Gen.Pre_finite_inputs
import proofs.«160706_j53919019434042_2_alg».proof.Proof.Gen.ReferenceIdeal.Run
import proofs.«160706_j53919019434042_2_alg».proof.Proof.KernelRun
import proofs.«160706_j53919019434042_2_alg».proof.Proof.RegionStats0
import proofs.«160706_j53919019434042_2_alg».proof.Proof.Stage1
import proofs.«160706_j53919019434042_2_alg».proof.Proof.Stage2
import proofs.«160706_j53919019434042_2_alg».proof.Proof.RefFinite
import proofs.«160706_j53919019434042_2_alg».proof.Proof.ArgsReal
import proofs.«160706_j53919019434042_2_alg».proof.Proof.RegionStats2
import proofs.«160706_j53919019434042_2_alg».proof.Proof.Stage3
import proofs.«160706_j53919019434042_2_alg».proof.Proof.Stage4
import proofs.«160706_j53919019434042_2_alg».proof.Proof.Stage5
import proofs.«160706_j53919019434042_2_alg».proof.Proof.Stage6
import proofs.«160706_j53919019434042_2_alg».proof.Proof.Stage7

set_option maxRecDepth 16384

noncomputable section

namespace Cert.Proof.Bridge

open Idealize.ShloMosaic Idealize.ShloMosaic.TcCoe Idealize.SL.Sem Idealize.ShloMosaic.StableHlo Idealize.ShloMosaic.ValueIdx
open Idealize.ShloMosaic.FiniteSums
open Cert.KernelIdeal Cert.KernelIdeal.Gen

set_option maxHeartbeats 4000000 in
/-- The kernel's result array is the reference's, on every core: the seven stages in order, each stage's array
    being the same in both programs once the stage before it is. -/
theorem result_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal (hPre_finite_inputs := Cert.Pre_finite_inputs.Gen.facts) m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25))
    (c : Dev Cert.KernelIdeal.nD) :
    W13 m ρ c (Proc.devRef .tc main_v186)
      = Cert.ReferenceIdeal.Value.val5 (launchContents m' c) (Proc.devRef .tc Cert.ReferenceIdeal.main_v233) := by
  have a0 := (hagree c).1
  have a1 := (hagree c).2.1
  have a4 := (hagree c).2.2.2.2.1
  have a5 := (hagree c).2.2.2.2.2.1
  have a6 := (hagree c).2.2.2.2.2.2.1
  have a7 := (hagree c).2.2.2.2.2.2.2.1
  have a8 := (hagree c).2.2.2.2.2.2.2.2.1
  have a9 := (hagree c).2.2.2.2.2.2.2.2.2.1
  have a10 := (hagree c).2.2.2.2.2.2.2.2.2.2.1
  have a11 := (hagree c).2.2.2.2.2.2.2.2.2.2.2.1
  have a12 := (hagree c).2.2.2.2.2.2.2.2.2.2.2.2.1
  have a13 := (hagree c).2.2.2.2.2.2.2.2.2.2.2.2.2.1
  have a14 := (hagree c).2.2.2.2.2.2.2.2.2.2.2.2.2.2.1
  have a15 := (hagree c).2.2.2.2.2.2.2.2.2.2.2.2.2.2.2.1
  have a16 := (hagree c).2.2.2.2.2.2.2.2.2.2.2.2.2.2.2.2.1
  have a17 := (hagree c).2.2.2.2.2.2.2.2.2.2.2.2.2.2.2.2.2.1
  have a18 := (hagree c).2.2.2.2.2.2.2.2.2.2.2.2.2.2.2.2.2.2.1
  have a19 := (hagree c).2.2.2.2.2.2.2.2.2.2.2.2.2.2.2.2.2.2.2.1
  have a20 := (hagree c).2.2.2.2.2.2.2.2.2.2.2.2.2.2.2.2.2.2.2.2.1
  have a21 := (hagree c).2.2.2.2.2.2.2.2.2.2.2.2.2.2.2.2.2.2.2.2.2.1
  have a22 := (hagree c).2.2.2.2.2.2.2.2.2.2.2.2.2.2.2.2.2.2.2.2.2.2.1
  have a23 := (hagree c).2.2.2.2.2.2.2.2.2.2.2.2.2.2.2.2.2.2.2.2.2.2.2.1
  have a24 := (hagree c).2.2.2.2.2.2.2.2.2.2.2.2.2.2.2.2.2.2.2.2.2.2.2.2.1
  have a25 := (hagree c).2.2.2.2.2.2.2.2.2.2.2.2.2.2.2.2.2.2.2.2.2.2.2.2.2
  -- the first layer's dense part: region 0 against the reference's raw layer
  have r0raw := (W2_arr m ρ c 6).trans (RegionValue.region0_raw (V1 m ρ) c)
  have r0sum := (W2_arr m ρ c 7).trans (RegionValue.region0_sum (V1 m ρ) c)
  have r0sq := (W2_arr m ρ c 8).trans (RegionValue.region0_sumsq (V1 m ρ) c)
  have E1 := Stage1.stage1 m ρ m' c a0 a1 a10 a11 a12 a13 _ _ _ _ _ _ rfl rfl rfl rfl rfl rfl r0raw
  have hs1 := Stage1.stage1_sum m ρ c _ _ _ r0raw E1 rfl r0sum
  have hss1 := Stage1.stage1_sumsq m ρ c _ _ _ r0raw E1 rfl r0sq
  -- the first normalisation: region 1
  have E2 := Stage2.stage2 m ρ m' c a14 a15 _ rfl _ _ rfl rfl E1 hs1 hss1
    (Cert.ReferenceIdeal.RefValue.real_v26 (launchContents m' c) (fun i => ArgsReal.real_arg0 m m' c hpre a0 i) (fun i => ArgsReal.real_arg10 m m' c hpre a10 i) (fun i => ArgsReal.real_arg11 m m' c hpre a11 i) (fun i => ArgsReal.real_arg12 m m' c hpre a12 i) (fun i => ArgsReal.real_arg13 m m' c hpre a13 i))
  -- the second layer's dense part: region 2
  have r2raw := (W6_arr m ρ c 6).trans (RegionValue.region2_raw (V5 m ρ) c)
  have r2sum := (W6_arr m ρ c 7).trans (RegionValue.region2_sum (V5 m ρ) c)
  have r2sq := (W6_arr m ρ c 8).trans (RegionValue.region2_sumsq (V5 m ρ) c)
  have E3 := Stage3.stage3 m ρ m' c a1 a16 a17 a18 a19 _ _ _ _ _ _ rfl rfl rfl rfl rfl rfl r2raw E2
  have hs3 := Stage3.stage3_sum m ρ c _ _ _ r2raw E3 rfl r2sum
  have hss3 := Stage3.stage3_sumsq m ρ c _ _ _ r2raw E3 rfl r2sq
  -- the second normalisation folded into the first upsampling: region 3
  have E4 := Stage4.stage4 m ρ m' c a9 a20 a21 a22 _ rfl _ _ rfl rfl E3 hs3 hss3 _ _ _ rfl rfl rfl
    (Cert.ReferenceIdeal.RefValue.real_v78 (launchContents m' c) (fun i => ArgsReal.real_arg0 m m' c hpre a0 i) (fun i => ArgsReal.real_arg10 m m' c hpre a10 i) (fun i => ArgsReal.real_arg11 m m' c hpre a11 i) (fun i => ArgsReal.real_arg12 m m' c hpre a12 i) (fun i => ArgsReal.real_arg13 m m' c hpre a13 i) (fun i => ArgsReal.real_arg14 m m' c hpre a14 i) (fun i => ArgsReal.real_arg15 m m' c hpre a15 i) (fun i => ArgsReal.real_arg16 m m' c hpre a16 i) (fun i => ArgsReal.real_arg17 m m' c hpre a17 i) (fun i => ArgsReal.real_arg18 m m' c hpre a18 i) (fun i => ArgsReal.real_arg19 m m' c hpre a19 i))
    (fun i => ArgsReal.real_karg20 m c hpre i) (fun i => ArgsReal.real_karg21 m c hpre i) (fun i => ArgsReal.real_karg22 m c hpre i)
  -- the first graph convolution (region 4), the second upsampling (region 5), the last graph convolution (region 6)
  have E5 := Stage5.stage5 m ρ m' c a5 a7 a23 E4
  have E6 := Stage6.stage6 m ρ m' c a8 a24 E5
  exact Stage7.stage7 m ρ m' c a4 a6 a8 a25 E6

end Cert.Proof.Bridge

end
-- ==== Proof.lean ====
/-
  The certificate of a seven-stage graph network forward pass against its plain reference.

  Both programs compute, over three nested graphs: two "sum the neighbours, apply a two-layer perceptron, normalise
  each channel by its batch statistics" layers on the coarsest graph, then twice "place the rows at given positions
  of a larger zero matrix, multiply by a weight matrix, and combine each node with its weighted neighbours".
  The kernel differs from the reference in three exact rewrites: the variance of a channel is taken as the mean of
  squares minus the squared mean (clamped at zero) instead of the mean of squared deviations; the second
  normalisation's scale and shift are folded into the following weight matrix and a bias row; and each weight
  matrix is applied to the few rows BEFORE they are placed into the larger zero matrix instead of after. On the
  extended reals the first two need every value involved to be a real number (they use distributivity and
  cancellation), which the finiteness of the inputs gives; the third holds outright, a zero row times any matrix being zero.

  The three frames are the generated ones (the reference's is its generated run with the result dropped); the
  idealization rewrote nothing, so its faithfulness claim is trivial; the algebraic claim reads both runs back —
  the kernel's through the contents of every buffer at each boundary between host operations and kernel regions —
  and comes down to one equation between the two result arrays (Proof/Bridge.lean).
-/
import proofs.«160706_j53919019434042_2_alg».proof.Defs
import proofs.«160706_j53919019434042_2_alg».proof.Proof.Gen.Kernel
import proofs.«160706_j53919019434042_2_alg».proof.Proof.Gen.Kernel.Skeleton
import proofs.«160706_j53919019434042_2_alg».proof.Proof.Gen.Kernel.Launch
import proofs.«160706_j53919019434042_2_alg».proof.Proof.Gen.Kernel.Points
import proofs.«160706_j53919019434042_2_alg».proof.Proof.Gen.Kernel.Frame
import proofs.«160706_j53919019434042_2_alg».proof.Proof.Gen.KernelIdeal
import proofs.«160706_j53919019434042_2_alg».proof.Proof.Gen.KernelIdeal.Skeleton
import proofs.«160706_j53919019434042_2_alg».proof.Proof.Gen.KernelIdeal.Launch
import proofs.«160706_j53919019434042_2_alg».proof.Proof.Gen.KernelIdeal.Points
import proofs.«160706_j53919019434042_2_alg».proof.Proof.Gen.KernelIdeal.Frame
import proofs.«160706_j53919019434042_2_alg».proof.Proof.Gen.ReferenceIdeal
import proofs.«160706_j53919019434042_2_alg».proof.Proof.Gen.Pre_finite_inputs
import proofs.«160706_j53919019434042_2_alg».proof.Proof.Gen.ReferenceIdeal.Run
import proofs.«160706_j53919019434042_2_alg».proof.Proof.KernelRun
import proofs.«160706_j53919019434042_2_alg».proof.Proof.Bridge
import Idealize.ShloMosaic.Adequacy
import Idealize.ShloMosaic.Init

set_option maxRecDepth 16384

noncomputable section

namespace Cert.Proof

open Idealize.ShloMosaic Idealize.SL.Sem Idealize.ShloMosaic.StableHlo

/-- Both idealized programs run, and from argument arrays that agree they end with the same result array: the
    kernel's run names every buffer of its final memory, the reference's run its result; the two are one array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.W13 m ρ c (Proc.devRef .tc Cert.KernelIdeal.main_v186), ?_, ?_⟩
  · exact (θ_run Cert.KernelIdeal.defs _ _).mono (fun r h c =>
      ⟨h c _ (Cert.KernelIdeal.Gen.mem_uc Cert.KernelIdeal.main_v186 (by decide)),
      (h c _ (Cert.KernelIdeal.Gen.mem_uc Cert.KernelIdeal.main_arg0 (by decide))).trans (Cert.KernelIdeal.Gen.W13_main_arg0 m ρ c),
      (h c _ (Cert.KernelIdeal.Gen.mem_uc Cert.KernelIdeal.main_arg1 (by decide))).trans (Cert.KernelIdeal.Gen.W13_main_arg1 m ρ c),
      (h c _ (Cert.KernelIdeal.Gen.mem_uc Cert.KernelIdeal.main_arg2 (by decide))).trans (Cert.KernelIdeal.Gen.W13_main_arg2 m ρ c),
      (h c _ (Cert.KernelIdeal.Gen.mem_uc Cert.KernelIdeal.main_arg3 (by decide))).trans (Cert.KernelIdeal.Gen.W13_main_arg3 m ρ c),
      (h c _ (Cert.KernelIdeal.Gen.mem_uc Cert.KernelIdeal.main_arg4 (by decide))).trans (Cert.KernelIdeal.Gen.W13_main_arg4 m ρ c),
      (h c _ (Cert.KernelIdeal.Gen.mem_uc Cert.KernelIdeal.main_arg5 (by decide))).trans (Cert.KernelIdeal.Gen.W13_main_arg5 m ρ c),
      (h c _ (Cert.KernelIdeal.Gen.mem_uc Cert.KernelIdeal.main_arg6 (by decide))).trans (Cert.KernelIdeal.Gen.W13_main_arg6 m ρ c),
      (h c _ (Cert.KernelIdeal.Gen.mem_uc Cert.KernelIdeal.main_arg7 (by decide))).trans (Cert.KernelIdeal.Gen.W13_main_arg7 m ρ c),
      (h c _ (Cert.KernelIdeal.Gen.mem_uc Cert.KernelIdeal.main_arg8 (by decide))).trans (Cert.KernelIdeal.Gen.W13_main_arg8 m ρ c),
      (h c _ (Cert.KernelIdeal.Gen.mem_uc Cert.KernelIdeal.main_arg9 (by decide))).trans (Cert.KernelIdeal.Gen.W13_main_arg9 m ρ c),
      (h c _ (Cert.KernelIdeal.Gen.mem_uc Cert.KernelIdeal.main_arg10 (by decide))).trans (Cert.KernelIdeal.Gen.W13_main_arg10 m ρ c),
      (h c _ (Cert.KernelIdeal.Gen.mem_uc Cert.KernelIdeal.main_arg11 (by decide))).trans (Cert.KernelIdeal.Gen.W13_main_arg11 m ρ c),
      (h c _ (Cert.KernelIdeal.Gen.mem_uc Cert.KernelIdeal.main_arg12 (by decide))).trans (Cert.KernelIdeal.Gen.W13_main_arg12 m ρ c),
      (h c _ (Cert.KernelIdeal.Gen.mem_uc Cert.KernelIdeal.main_arg13 (by decide))).trans (Cert.KernelIdeal.Gen.W13_main_arg13 m ρ c),
      (h c _ (Cert.KernelIdeal.Gen.mem_uc Cert.KernelIdeal.main_arg14 (by decide))).trans (Cert.KernelIdeal.Gen.W13_main_arg14 m ρ c),
      (h c _ (Cert.KernelIdeal.Gen.mem_uc Cert.KernelIdeal.main_arg15 (by decide))).trans (Cert.KernelIdeal.Gen.W13_main_arg15 m ρ c),
      (h c _ (Cert.KernelIdeal.Gen.mem_uc Cert.KernelIdeal.main_arg16 (by decide))).trans (Cert.KernelIdeal.Gen.W13_main_arg16 m ρ c),
      (h c _ (Cert.KernelIdeal.Gen.mem_uc Cert.KernelIdeal.main_arg17 (by decide))).trans (Cert.KernelIdeal.Gen.W13_main_arg17 m ρ c),
      (h c _ (Cert.KernelIdeal.Gen.mem_uc Cert.KernelIdeal.main_arg18 (by decide))).trans (Cert.KernelIdeal.Gen.W13_main_arg18 m ρ c),
      (h c _ (Cert.KernelIdeal.Gen.mem_uc Cert.KernelIdeal.main_arg19 (by decide))).trans (Cert.KernelIdeal.Gen.W13_main_arg19 m ρ c),
      (h c _ (Cert.KernelIdeal.Gen.mem_uc Cert.KernelIdeal.main_arg20 (by decide))).trans (Cert.KernelIdeal.Gen.W13_main_arg20 m ρ c),
      (h c _ (Cert.KernelIdeal.Gen.mem_uc Cert.KernelIdeal.main_arg21 (by decide))).trans (Cert.KernelIdeal.Gen.W13_main_arg21 m ρ c),
      (h c _ (Cert.KernelIdeal.Gen.mem_uc Cert.KernelIdeal.main_arg22 (by decide))).trans (Cert.KernelIdeal.Gen.W13_main_arg22 m ρ c),
      (h c _ (Cert.KernelIdeal.Gen.mem_uc Cert.KernelIdeal.main_arg23 (by decide))).trans (Cert.KernelIdeal.Gen.W13_main_arg23 m ρ c),
      (h c _ (Cert.KernelIdeal.Gen.mem_uc Cert.KernelIdeal.main_arg24 (by decide))).trans (Cert.KernelIdeal.Gen.W13_main_arg24 m ρ c),
      (h c _ (Cert.KernelIdeal.Gen.mem_uc Cert.KernelIdeal.main_arg25 (by decide))).trans (Cert.KernelIdeal.Gen.W13_main_arg25 m ρ c)⟩) (Cert.KernelIdeal.RunValue.run_all (F := Ideal) m ρ)
  · exact (θ_run Cert.ReferenceIdeal.defs _ _).mono (fun _ h c =>
      ⟨((h c).1.trans (Cert.ReferenceIdeal.Value.val5_main_v233 (launchContents m' c)).symm).trans (Bridge.result_eq m ρ m' hpre hagree c).symm, (h c).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
